-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v271) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S1x12x160x160x160 : Shape := ⟨5, ![1, 12, 160, 160, 160]⟩
abbrev S3 : Shape := ⟨1, ![3]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S1x12x160x160x160 : S_.BroadcastsInDim S1x12x160x160x160 (![] : Fin 0 → Fin S1x12x160x160x160.rank)
  reducesTo_S1x12x160x160x160_S_d0_1_2_3_4 : S1x12x160x160x160.ReducesTo [0, 1, 2, 3, 4] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S2097152x3 .f32) (main_arg1 : FVec F S1x12x160x160x160 .f32) (main_arg2 : FVec F S3 .f32) (main_arg3 : FVec F S3 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S1x12x160x160x160 .f32 := Host.absf main_arg1
  let main_cst_0 : FVec F S_ .f32 := constant S_ .f32 0x7F800000#32
  let main_v5 : FVec F S1x12x160x160x160 .f32 := broadcastInDim S1x12x160x160x160 ![] bcast_S_S1x12x160x160x160 main_cst_0
  let main_v6 : IVec S1x12x160x160x160 1 := cmpf .olt main_v4 main_v5
  let main_c_1 : IVec S_ 1 := constantI S_ 1 1#1
  let main_v7 : IVec S_ 1 := (fun x v => Host.reduce IntOp.andi x v reducesTo_S1x12x160x160x160_S_d0_1_2_3_4 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S2097152x3 : Shape := ⟨2, ![2097152, 3]⟩
abbrev S1x12x160x160x160 : Shape := ⟨5, ![1, 12, 160, 160, 160]⟩
abbrev S3 : Shape := ⟨1, ![3]⟩
abbrev S12x160x160x160 : Shape := ⟨4, ![12, 160, 160, 160]⟩
abbrev S12x4096000 : Shape := ⟨2, ![12, 4096000]⟩
abbrev S1x3 : Shape := ⟨2, ![1, 3]⟩
abbrev S_ : Shape := ⟨0, ![]⟩
abbrev S2097152x1 : Shape := ⟨2, ![2097152, 1]⟩
abbrev S2097152 : Shape := ⟨1, ![2097152]⟩
abbrev S1x2097152 : Shape := ⟨2, ![1, 2097152]⟩
abbrev S8x2097152 : Shape := ⟨2, ![8, 2097152]⟩
abbrev S1x8x2097152 : Shape := ⟨3, ![1, 8, 2097152]⟩
abbrev S8x2097152x1 : Shape := ⟨3, ![8, 2097152, 1]⟩
abbrev S1 : Shape := ⟨1, ![1]⟩
abbrev S1x1x1 : Shape := ⟨3, ![1, 1, 1]⟩
abbrev S12x8x2097152 : Shape := ⟨3, ![12, 8, 2097152]⟩
abbrev S12x2097152 : Shape := ⟨2, ![12, 2097152]⟩
abbrev S12x8x16384 : Shape := ⟨3, ![12, 8, 16384]⟩
abbrev S1x8x16384 : Shape := ⟨3, ![1, 8, 16384]⟩
abbrev S12x16384 : Shape := ⟨2, ![12, 16384]⟩
abbrev S2097152x12 : Shape := ⟨2, ![2097152, 12]⟩

abbrev nBuf : Space → Nat
  | .hbm => 252
  | .vmem => 6
  | .smem => 0
  | _ => 0

abbrev hbmTy0_0 (i : Nat) : BufTy := match i % 128 with
  | 0 => ⟨S2097152x3, .f32⟩
  | 1 => ⟨S1x12x160x160x160, .f32⟩
  | 2 => ⟨S3, .f32⟩
  | 3 => ⟨S3, .f32⟩
  | 4 => ⟨S12x160x160x160, .f32⟩
  | 5 => ⟨S12x4096000, .f32⟩
  | 6 => ⟨S1x3, .f32⟩
  | 7 => ⟨S2097152x3, .f32⟩
  | 8 => ⟨S2097152x3, .f32⟩
  | 9 => ⟨S3, .f32⟩
  | 10 => ⟨S1x3, .f32⟩
  | 11 => ⟨S2097152x3, .f32⟩
  | 12 => ⟨S2097152x3, .f32⟩
  | 13 => ⟨S2097152x3, .f32⟩
  | 14 => ⟨S_, .f32⟩
  | 15 => ⟨S2097152x3, .f32⟩
  | 16 => ⟨S2097152x3, .f32⟩
  | 17 => ⟨S_, .f32⟩
  | 18 => ⟨S2097152x3, .f32⟩
  | 19 => ⟨S2097152x3, .f32⟩
  | 20 => ⟨S2097152x1, .f32⟩
  | 21 => ⟨S2097152, .f32⟩
  | 22 => ⟨S2097152x1, .f32⟩
  | 23 => ⟨S2097152, .f32⟩
  | 24 => ⟨S2097152x1, .f32⟩
  | 25 => ⟨S2097152, .f32⟩
  | 26 => ⟨S_, .f32⟩
  | 27 => ⟨S2097152, .f32⟩
  | 28 => ⟨S2097152, .f32⟩
  | 29 => ⟨S_, .f32⟩
  | 30 => ⟨S2097152, .f32⟩
  | 31 => ⟨S2097152, .f32⟩
  | 32 => ⟨S_, .f32⟩
  | 33 => ⟨S2097152, .f32⟩
  | 34 => ⟨S2097152, .f32⟩
  | 35 => ⟨S_, .f32⟩
  | 36 => ⟨S2097152, .f32⟩
  | 37 => ⟨S2097152, .f32⟩
  | 38 => ⟨S_, .f32⟩
  | 39 => ⟨S2097152, .f32⟩
  | 40 => ⟨S2097152, .f32⟩
  | 41 => ⟨S_, .f32⟩
  | 42 => ⟨S2097152, .f32⟩
  | 43 => ⟨S2097152, .f32⟩
  | 44 => ⟨S_, .f32⟩
  | 45 => ⟨S2097152, .f32⟩
  | 46 => ⟨S2097152, .f32⟩
  | 47 => ⟨S_, .f32⟩
  | 48 => ⟨S2097152, .f32⟩
  | 49 => ⟨S2097152, .f32⟩
  | 50 => ⟨S_, .f32⟩
  | 51 => ⟨S2097152, .f32⟩
  | 52 => ⟨S2097152, .f32⟩
  | 53 => ⟨S2097152, .f32⟩
  | 54 => ⟨S2097152, .f32⟩
  | 55 => ⟨S2097152, .f32⟩
  | 56 => ⟨S2097152, .f32⟩
  | 57 => ⟨S2097152, .f32⟩
  | 58 => ⟨S2097152, .f32⟩
  | 59 => ⟨S2097152, .i32⟩
  | 60 => ⟨S_, .i32⟩
  | 61 => ⟨S_, .i32⟩
  | 62 => ⟨S_, .i32⟩
  | 63 => ⟨S2097152, .i32⟩
  | 64 => ⟨S2097152, .i32⟩
  | 65 => ⟨S_, .i32⟩
  | 66 => ⟨S2097152, .i32⟩
  | 67 => ⟨S2097152, .i32⟩
  | 68 => ⟨S2097152, .i32⟩
  | 69 => ⟨S_, .i32⟩
  | 70 => ⟨S_, .i32⟩
  | 71 => ⟨S_, .i32⟩
  | 72 => ⟨S2097152, .i32⟩
  | 73 => ⟨S2097152, .i32⟩
  | 74 => ⟨S_, .i32⟩
  | 75 => ⟨S2097152, .i32⟩
  | 76 => ⟨S2097152, .i32⟩
  | 77 => ⟨S2097152, .i32⟩
  | 78 => ⟨S_, .i32⟩
  | 79 => ⟨S_, .i32⟩
  | 80 => ⟨S_, .i32⟩
  | 81 => ⟨S2097152, .i32⟩
  | 82 => ⟨S2097152, .i32⟩
  | 83 => ⟨S_, .i32⟩
  | 84 => ⟨S2097152, .i32⟩
  | 85 => ⟨S2097152, .i32⟩
  | 86 => ⟨S_, .i32⟩
  | 87 => ⟨S2097152, .i32⟩
  | 88 => ⟨S2097152, .i32⟩
  | 89 => ⟨S_, .i32⟩
  | 90 => ⟨S_, .i32⟩
  | 91 => ⟨S_, .i32⟩
  | 92 => ⟨S2097152, .i32⟩
  | 93 => ⟨S2097152, .i32⟩
  | 94 => ⟨S_, .i32⟩
  | 95 => ⟨S2097152, .i32⟩
  | 96 => ⟨S2097152, .i32⟩
  | 97 => ⟨S_, .i32⟩
  | 98 => ⟨S2097152, .i32⟩
  | 99 => ⟨S2097152, .i32⟩
  | 100 => ⟨S_, .i32⟩
  | 101 => ⟨S_, .i32⟩
  | 102 => ⟨S_, .i32⟩
  | 103 => ⟨S2097152, .i32⟩
  | 104 => ⟨S2097152, .i32⟩
  | 105 => ⟨S_, .i32⟩
  | 106 => ⟨S2097152, .i32⟩
  | 107 => ⟨S2097152, .i32⟩
  | 108 => ⟨S_, .i32⟩
  | 109 => ⟨S2097152, .i32⟩
  | 110 => ⟨S2097152, .i32⟩
  | 111 => ⟨S_, .i32⟩
  | 112 => ⟨S_, .i32⟩
  | 113 => ⟨S_, .i32⟩
  | 114 => ⟨S2097152, .i32⟩
  | 115 => ⟨S2097152, .i32⟩
  | 116 => ⟨S_, .i32⟩
  | 117 => ⟨S2097152, .i32⟩
  | 118 => ⟨S2097152, .i32⟩
  | 119 => ⟨S_, .f32⟩
  | 120 => ⟨S2097152, .f32⟩
  | 121 => ⟨S2097152, .f32⟩
  | 122 => ⟨S_, .f32⟩
  | 123 => ⟨S2097152, .f32⟩
  | 124 => ⟨S2097152, .f32⟩
  | 125 => ⟨S_, .f32⟩
  | 126 => ⟨S2097152, .f32⟩
  | 127 => ⟨S2097152, .f32⟩
  | _ => ⟨S2097152x3, .f32⟩

abbrev hbmTy0_1 (i : Nat) : BufTy := match i % 128 with
  | 0 => ⟨S2097152, .f32⟩
  | 1 => ⟨S2097152, .f32⟩
  | 2 => ⟨S2097152, .f32⟩
  | 3 => ⟨S2097152, .f32⟩
  | 4 => ⟨S2097152, .f32⟩
  | 5 => ⟨S2097152, .f32⟩
  | 6 => ⟨S2097152, .f32⟩
  | 7 => ⟨S2097152, .f32⟩
  | 8 => ⟨S2097152, .f32⟩
  | 9 => ⟨S2097152, .f32⟩
  | 10 => ⟨S2097152, .f32⟩
  | 11 => ⟨S2097152, .f32⟩
  | 12 => ⟨S2097152, .f32⟩
  | 13 => ⟨S2097152, .f32⟩
  | 14 => ⟨S2097152, .f32⟩
  | 15 => ⟨S2097152, .f32⟩
  | 16 => ⟨S_, .i32⟩
  | 17 => ⟨S2097152, .i32⟩
  | 18 => ⟨S2097152, .i32⟩
  | 19 => ⟨S_, .i32⟩
  | 20 => ⟨S2097152, .i32⟩
  | 21 => ⟨S2097152, .i32⟩
  | 22 => ⟨S2097152, .i32⟩
  | 23 => ⟨S2097152, .i32⟩
  | 24 => ⟨S_, .i32⟩
  | 25 => ⟨S2097152, .i32⟩
  | 26 => ⟨S2097152, .i32⟩
  | 27 => ⟨S_, .i32⟩
  | 28 => ⟨S2097152, .i32⟩
  | 29 => ⟨S2097152, .i32⟩
  | 30 => ⟨S2097152, .i32⟩
  | 31 => ⟨S2097152, .i32⟩
  | 32 => ⟨S_, .i32⟩
  | 33 => ⟨S2097152, .i32⟩
  | 34 => ⟨S2097152, .i32⟩
  | 35 => ⟨S_, .i32⟩
  | 36 => ⟨S2097152, .i32⟩
  | 37 => ⟨S2097152, .i32⟩
  | 38 => ⟨S2097152, .i32⟩
  | 39 => ⟨S2097152, .i32⟩
  | 40 => ⟨S_, .i32⟩
  | 41 => ⟨S2097152, .i32⟩
  | 42 => ⟨S2097152, .i32⟩
  | 43 => ⟨S_, .i32⟩
  | 44 => ⟨S2097152, .i32⟩
  | 45 => ⟨S2097152, .i32⟩
  | 46 => ⟨S2097152, .i32⟩
  | 47 => ⟨S2097152, .i32⟩
  | 48 => ⟨S_, .i32⟩
  | 49 => ⟨S2097152, .i32⟩
  | 50 => ⟨S2097152, .i32⟩
  | 51 => ⟨S_, .i32⟩
  | 52 => ⟨S2097152, .i32⟩
  | 53 => ⟨S2097152, .i32⟩
  | 54 => ⟨S2097152, .i32⟩
  | 55 => ⟨S2097152, .i32⟩
  | 56 => ⟨S_, .i32⟩
  | 57 => ⟨S2097152, .i32⟩
  | 58 => ⟨S2097152, .i32⟩
  | 59 => ⟨S_, .i32⟩
  | 60 => ⟨S2097152, .i32⟩
  | 61 => ⟨S2097152, .i32⟩
  | 62 => ⟨S2097152, .i32⟩
  | 63 => ⟨S2097152, .i32⟩
  | 64 => ⟨S_, .i32⟩
  | 65 => ⟨S2097152, .i32⟩
  | 66 => ⟨S2097152, .i32⟩
  | 67 => ⟨S_, .i32⟩
  | 68 => ⟨S2097152, .i32⟩
  | 69 => ⟨S2097152, .i32⟩
  | 70 => ⟨S2097152, .i32⟩
  | 71 => ⟨S2097152, .i32⟩
  | 72 => ⟨S_, .i32⟩
  | 73 => ⟨S2097152, .i32⟩
  | 74 => ⟨S2097152, .i32⟩
  | 75 => ⟨S_, .i32⟩
  | 76 => ⟨S2097152, .i32⟩
  | 77 => ⟨S2097152, .i32⟩
  | 78 => ⟨S2097152, .i32⟩
  | 79 => ⟨S2097152, .i32⟩
  | 80 => ⟨S1x2097152, .i32⟩
  | 81 => ⟨S1x2097152, .i32⟩
  | 82 => ⟨S1x2097152, .i32⟩
  | 83 => ⟨S1x2097152, .i32⟩
  | 84 => ⟨S1x2097152, .i32⟩
  | 85 => ⟨S1x2097152, .i32⟩
  | 86 => ⟨S1x2097152, .i32⟩
  | 87 => ⟨S1x2097152, .i32⟩
  | 88 => ⟨S8x2097152, .i32⟩
  | 89 => ⟨S1x2097152, .f32⟩
  | 90 => ⟨S1x2097152, .f32⟩
  | 91 => ⟨S1x2097152, .f32⟩
  | 92 => ⟨S1x2097152, .f32⟩
  | 93 => ⟨S1x2097152, .f32⟩
  | 94 => ⟨S1x2097152, .f32⟩
  | 95 => ⟨S1x2097152, .f32⟩
  | 96 => ⟨S1x2097152, .f32⟩
  | 97 => ⟨S8x2097152, .f32⟩
  | 98 => ⟨S1x8x2097152, .f32⟩
  | 99 => ⟨S_, .i32⟩
  | 100 => ⟨S8x2097152, .i32⟩
  | 101 => ⟨S8x2097152, .i1⟩
  | 102 => ⟨S_, .i32⟩
  | 103 => ⟨S8x2097152, .i32⟩
  | 104 => ⟨S8x2097152, .i32⟩
  | 105 => ⟨S8x2097152, .i32⟩
  | 106 => ⟨S8x2097152x1, .i32⟩
  | 107 => ⟨S1, .i32⟩
  | 108 => ⟨S_, .i32⟩
  | 109 => ⟨S8x2097152x1, .i32⟩
  | 110 => ⟨S8x2097152x1, .i1⟩
  | 111 => ⟨S1x1x1, .i32⟩
  | 112 => ⟨S8x2097152x1, .i32⟩
  | 113 => ⟨S8x2097152x1, .i1⟩
  | 114 => ⟨S8x2097152x1, .i1⟩
  | 115 => ⟨S_, .i1⟩
  | 116 => ⟨S8x2097152, .i1⟩
  | 117 => ⟨S12x8x2097152, .f32⟩
  | 118 => ⟨S12x8x2097152, .i1⟩
  | 119 => ⟨S_, .f32⟩
  | 120 => ⟨S12x8x2097152, .f32⟩
  | 121 => ⟨S12x8x2097152, .f32⟩
  | 122 => ⟨S12x2097152, .f32⟩
  | 123 => ⟨S2097152x12, .f32⟩
  | _ => ⟨S2097152x3, .f32⟩

abbrev hbmTy (i : Nat) : BufTy := match i / 128 with
  | 0 => hbmTy0_0 i
  | 1 => hbmTy0_1 i
  | _ => ⟨S2097152x3, .f32⟩

abbrev bufTy : (tb : Table) → Fin (tcTables nBuf tb) → BufTy
  | .hbm, ⟨i, _⟩ => hbmTy i
  | .local _ .vmem, ⟨0, _⟩ => ⟨S12x8x16384, .f32⟩
  | .local _ .vmem, ⟨1, _⟩ => ⟨S12x8x16384, .f32⟩
  | .local _ .vmem, ⟨2, _⟩ => ⟨S1x8x16384, .f32⟩
  | .local _ .vmem, ⟨3, _⟩ => ⟨S1x8x16384, .f32⟩
  | .local _ .vmem, ⟨4, _⟩ => ⟨S12x16384, .f32⟩
  | .local _ .vmem, ⟨5, _⟩ => ⟨S12x16384, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_c_10 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v45 : Ref sig .tc := ⟨.hbm, 67, rfl⟩
abbrev main_v46 : Ref sig .tc := ⟨.hbm, 68, rfl⟩
abbrev main_c_11 : Ref sig .tc := ⟨.hbm, 69, rfl⟩
abbrev main_c_12 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_v47 : Ref sig .tc := ⟨.hbm, 76, rfl⟩
abbrev main_v48 : Ref sig .tc := ⟨.hbm, 77, rfl⟩
abbrev main_c_13 : Ref sig .tc := ⟨.hbm, 78, rfl⟩
abbrev main_c_14 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_v49 : Ref sig .tc := ⟨.hbm, 85, rfl⟩
abbrev main_c_15 : Ref sig .tc := ⟨.hbm, 86, rfl⟩
abbrev main_v50 : Ref sig .tc := ⟨.hbm, 87, rfl⟩
abbrev main_v51 : Ref sig .tc := ⟨.hbm, 88, rfl⟩
abbrev main_c_16 : Ref sig .tc := ⟨.hbm, 89, rfl⟩
abbrev main_c_17 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_v52 : Ref sig .tc := ⟨.hbm, 96, rfl⟩
abbrev main_c_18 : Ref sig .tc := ⟨.hbm, 97, rfl⟩
abbrev main_v53 : Ref sig .tc := ⟨.hbm, 98, rfl⟩
abbrev main_v54 : Ref sig .tc := ⟨.hbm, 99, rfl⟩
abbrev main_c_19 : Ref sig .tc := ⟨.hbm, 100, rfl⟩
abbrev main_c_20 : Ref sig .tc := ⟨.hbm, 101, rfl⟩
abbrev main_call4_v0 : Ref sig .tc := ⟨.hbm, 102, rfl⟩
abbrev main_call4_v1 : Ref sig .tc := ⟨.hbm, 103, rfl⟩
abbrev main_call4_v2 : Ref sig .tc := ⟨.hbm, 104, rfl⟩
abbrev main_call4_v3 : Ref sig .tc := ⟨.hbm, 105, rfl⟩
abbrev main_call4_v4 : Ref sig .tc := ⟨.hbm, 106, rfl⟩
abbrev main_v55 : Ref sig .tc := ⟨.hbm, 107, rfl⟩
abbrev main_c_21 : Ref sig .tc := ⟨.hbm, 108, rfl⟩
abbrev main_v56 : Ref sig .tc := ⟨.hbm, 109, rfl⟩
abbrev main_v57 : Ref sig .tc := ⟨.hbm, 110, rfl⟩
abbrev main_c_22 : Ref sig .tc := ⟨.hbm, 111, rfl⟩
abbrev main_c_23 : Ref sig .tc := ⟨.hbm, 112, rfl⟩
abbrev main_call5_v0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_v58 : Ref sig .tc := ⟨.hbm, 118, rfl⟩
abbrev main_cst_24 : Ref sig .tc := ⟨.hbm, 119, rfl⟩
abbrev main_v59 : Ref sig .tc := ⟨.hbm, 120, rfl⟩
abbrev main_v60 : Ref sig .tc := ⟨.hbm, 121, rfl⟩
abbrev main_cst_25 : Ref sig .tc := ⟨.hbm, 122, rfl⟩
abbrev main_v61 : Ref sig .tc := ⟨.hbm, 123, rfl⟩
abbrev main_v62 : Ref sig .tc := ⟨.hbm, 124, rfl⟩
abbrev main_cst_26 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_c_27 : Ref sig .tc := ⟨.hbm, 144, rfl⟩
abbrev main_v81 : Ref sig .tc := ⟨.hbm, 145, rfl⟩
abbrev main_v82 : Ref sig .tc := ⟨.hbm, 146, rfl⟩
abbrev main_c_28 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_c_29 : Ref sig .tc := ⟨.hbm, 152, rfl⟩
abbrev main_v87 : Ref sig .tc := ⟨.hbm, 153, rfl⟩
abbrev main_v88 : Ref sig .tc := ⟨.hbm, 154, rfl⟩
abbrev main_c_30 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_c_31 : Ref sig .tc := ⟨.hbm, 160, rfl⟩
abbrev main_v93 : Ref sig .tc := ⟨.hbm, 161, rfl⟩
abbrev main_v94 : Ref sig .tc := ⟨.hbm, 162, rfl⟩
abbrev main_c_32 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_c_33 : Ref sig .tc := ⟨.hbm, 168, rfl⟩
abbrev main_v99 : Ref sig .tc := ⟨.hbm, 169, rfl⟩
abbrev main_v100 : Ref sig .tc := ⟨.hbm, 170, rfl⟩
abbrev main_c_34 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_c_35 : Ref sig .tc := ⟨.hbm, 176, rfl⟩
abbrev main_v105 : Ref sig .tc := ⟨.hbm, 177, rfl⟩
abbrev main_v106 : Ref sig .tc := ⟨.hbm, 178, rfl⟩
abbrev main_c_36 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_c_37 : Ref sig .tc := ⟨.hbm, 184, rfl⟩
abbrev main_v111 : Ref sig .tc := ⟨.hbm, 185, rfl⟩
abbrev main_v112 : Ref sig .tc := ⟨.hbm, 186, rfl⟩
abbrev main_c_38 : Ref sig .tc := ⟨.hbm, 187, rfl⟩
abbrev main_v113 : Ref sig .tc := ⟨.hbm, 188, rfl⟩
abbrev main_v114 : Ref sig .tc := ⟨.hbm, 189, rfl⟩
abbrev main_v115 : Ref sig .tc := ⟨.hbm, 190, rfl⟩
abbrev main_v116 : Ref sig .tc := ⟨.hbm, 191, rfl⟩
abbrev main_c_39 : Ref sig .tc := ⟨.hbm, 192, rfl⟩
abbrev main_v117 : Ref sig .tc := ⟨.hbm, 193, rfl⟩
abbrev main_v118 : Ref sig .tc := ⟨.hbm, 194, rfl⟩
abbrev main_c_40 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_c_41 : Ref sig .tc := ⟨.hbm, 200, rfl⟩
abbrev main_v123 : Ref sig .tc := ⟨.hbm, 201, rfl⟩
abbrev main_v124 : Ref sig .tc := ⟨.hbm, 202, rfl⟩
abbrev main_c_42 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_call6_c : Ref sig .tc := ⟨.hbm, 227, rfl⟩
abbrev main_call6_v0 : Ref sig .tc := ⟨.hbm, 228, rfl⟩
abbrev main_call6_v1 : Ref sig .tc := ⟨.hbm, 229, rfl⟩
abbrev main_call6_c_0 : Ref sig .tc := ⟨.hbm, 230, rfl⟩
abbrev main_call6_v2 : Ref sig .tc := ⟨.hbm, 231, rfl⟩
abbrev main_call6_v3 : Ref sig .tc := ⟨.hbm, 232, rfl⟩
abbrev main_call6_v4 : Ref sig .tc := ⟨.hbm, 233, rfl⟩
abbrev main_call6_v5 : Ref sig .tc := ⟨.hbm, 234, rfl⟩
abbrev main_call6_c_1 : Ref sig .tc := ⟨.hbm, 235, rfl⟩
abbrev main_call6_c_2 : Ref sig .tc := ⟨.hbm, 236, rfl⟩
abbrev main_call6_v6 : Ref sig .tc := ⟨.hbm, 237, rfl⟩
abbrev main_call6_v7 : Ref sig .tc := ⟨.hbm, 238, rfl⟩
abbrev main_call6_v8 : Ref sig .tc := ⟨.hbm, 239, rfl⟩
abbrev main_call6_v9 : Ref sig .tc := ⟨.hbm, 240, rfl⟩
abbrev main_call6_v10 : Ref sig .tc := ⟨.hbm, 241, rfl⟩
abbrev main_call6_v11 : Ref sig .tc := ⟨.hbm, 242, rfl⟩
abbrev main_call6_c_3 : Ref sig .tc := ⟨.hbm, 243, rfl⟩
abbrev main_call6_v12 : Ref sig .tc := ⟨.hbm, 244, rfl⟩
abbrev main_call6_v13 : Ref sig .tc := ⟨.hbm, 245, rfl⟩
abbrev main_call6_v14 : Ref sig .tc := ⟨.hbm, 246, rfl⟩
abbrev main_call6_cst : Ref sig .tc := ⟨.hbm, 247, rfl⟩
abbrev main_call6_v15 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x12x160x160x160_S12x160x160x160 : S1x12x160x160x160.ShapeCasts S12x160x160x160
  shapeCasts_S12x160x160x160_S12x4096000 : S12x160x160x160.ShapeCasts S12x4096000
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  bcast_S2097152_S1x2097152_1 : S2097152.BroadcastsInDim S1x2097152 (![1] : Fin 1 → Fin S1x2097152.rank)
  concatenates_S1x2097152_S1x2097152_S1x2097152_S1x2097152_S1x2097152_S1x2097152_S1x2097152_S1x2097152_S8x2097152_d0 : Shape.Concatenates [S1x2097152, S1x2097152, S1x2097152, S1x2097152, S1x2097152, S1x2097152, S1x2097152, S1x2097152] S8x2097152 0
  bcast_S8x2097152_S1x8x2097152_1_2 : S8x2097152.BroadcastsInDim S1x8x2097152 (![1, 2] : Fin 2 → Fin S1x8x2097152.rank)
  bcast_S_S8x2097152 : S_.BroadcastsInDim S8x2097152 (![] : Fin 0 → Fin S8x2097152.rank)
  bcast_S8x2097152_S8x2097152x1_0_1 : S8x2097152.BroadcastsInDim S8x2097152x1 (![0, 1] : Fin 2 → Fin S8x2097152x1.rank)
  bcast_S_S8x2097152x1 : S_.BroadcastsInDim S8x2097152x1 (![] : Fin 0 → Fin S8x2097152x1.rank)
  bcast_S1_S1x1x1_2 : S1.BroadcastsInDim S1x1x1 (![2] : Fin 1 → Fin S1x1x1.rank)
  bcast_S1x1x1_S8x2097152x1_0_1_2 : S1x1x1.BroadcastsInDim S8x2097152x1 (![0, 1, 2] : Fin 3 → Fin S8x2097152x1.rank)
  reducesTo_S8x2097152x1_S8x2097152_d2 : S8x2097152x1.ReducesTo [2] S8x2097152
  h_S_ : 0 < S_.numel
  bcast_S8x2097152_S12x8x2097152_1_2 : S8x2097152.BroadcastsInDim S12x8x2097152 (![1, 2] : Fin 2 → Fin S12x8x2097152.rank)
  bcast_S_S12x8x2097152 : S_.BroadcastsInDim S12x8x2097152 (![] : Fin 0 → Fin S12x8x2097152.rank)
  inb_S12x8x16384_S12x8x16384_0_0_0 : ∀ a, (![0, 0, 0] : Fin 3 → Nat) a + S12x8x16384.size a ≤ S12x8x16384.size a
  h_S12x8x16384 : 0 < S12x8x16384.numel
  shapeCasts_S12x8x16384_S12x8x16384 : S12x8x16384.ShapeCasts S12x8x16384
  inb_S1x8x16384_S1x8x16384_0_0_0 : ∀ a, (![0, 0, 0] : Fin 3 → Nat) a + S1x8x16384.size a ≤ S1x8x16384.size a
  h_S1x8x16384 : 0 < S1x8x16384.numel
  shapeCasts_S1x8x16384_S1x8x16384 : S1x8x16384.ShapeCasts S1x8x16384
  broadcasts_S1x8x16384_S12x8x16384 : S1x8x16384.Broadcasts S12x8x16384
  reduces_S12x8x16384_S12x16384 : S12x8x16384.Reduces [1] S12x16384
  inb_S12x16384_S12x16384_0_0 : ∀ a, (![0, 0] : Fin 2 → Nat) a + S12x16384.size a ≤ S12x16384.size a
  h_S12x16384 : 0 < S12x16384.numel
  transposes_S12x2097152_S2097152x12_1_0 : S12x2097152.Transposes [1, 0] S2097152x12
  gather_S12x4096000_S8x2097152x1_S12x8x2097152_0_1_n_n_1_2_121_wf : GatherDims.WF S12x4096000 S8x2097152x1 S12x8x2097152 [0] [1] [] [1] [] 2 ![12, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12x8x16384.size a ≤ S12x8x2097152.size a
  hwx0_0 : ∀ i : grid0.Coords, EltTy.bits .f32 = 32 ∨ (Rect.block (s := S12x8x2097152) S12x8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x16384.size a ≤ S1x8x2097152.size a
  hwx0_1 : ∀ i : grid0.Coords, EltTy.bits .f32 = 32 ∨ (Rect.block (s := S1x8x2097152) S1x8x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12x16384.size a ≤ S12x2097152.size a
  hwx0_2 : ∀ i : grid0.Coords, EltTy.bits .f32 = 32 ∨ (Rect.block (s := S12x2097152) S12x16384.size (cc0_transform_2 i) (hinb0_2 i)).WholeWords (EltTy.packing .f32)

variable [Facts₀]

def gather_S12x4096000_S8x2097152x1_S12x8x2097152_0_1_n_n_1_2_121 : GatherDims S12x4096000 S8x2097152x1 S12x8x2097152 where
  offsetDims := [0]
  collapsedSliceDims := [1]
  operandBatchingDims := []
  startIndicesBatchingDims := []
  startIndexMap := [1]
  indexVectorDim := 2
  sliceSizes := ![12, 1]
  wf := gather_S12x4096000_S8x2097152x1_S12x8x2097152_0_1_n_n_1_2_121_wf

abbrev win0_0 : Pipeline.Window sig grid0 :=
  Pipeline.Window.ofSpec (Memref.whole main_v148) S12x8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v147) S1x8x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v149) S12x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S1x12x160x160x160 : Shape := ⟨5, ![1, 12, 160, 160, 160]⟩
abbrev S3 : Shape := ⟨1, ![3]⟩
abbrev S12x160x160x160 : Shape := ⟨4, ![12, 160, 160, 160]⟩
abbrev S1x3 : Shape := ⟨2, ![1, 3]⟩
abbrev S_ : Shape := ⟨0, ![]⟩
abbrev S2097152x1 : Shape := ⟨2, ![2097152, 1]⟩
abbrev S2097152 : Shape := ⟨1, ![2097152]⟩
abbrev S12x2097152 : Shape := ⟨2, ![12, 2097152]⟩
abbrev S1x2097152 : Shape := ⟨2, ![1, 2097152]⟩
abbrev S2097152x12 : Shape := ⟨2, ![2097152, 12]⟩

abbrev nBuf : Space → Nat
  | .hbm => 383
  | .vmem => 0
  | .smem => 0
  | _ => 0

abbrev hbmTy0_0 (i : Nat) : BufTy := match i % 128 with
  | 0 => ⟨S2097152x3, .f32⟩
  | 1 => ⟨S1x12x160x160x160, .f32⟩
  | 2 => ⟨S3, .f32⟩
  | 3 => ⟨S3, .f32⟩
  | 4 => ⟨S12x160x160x160, .f32⟩
  | 5 => ⟨S1x3, .f32⟩
  | 6 => ⟨S2097152x3, .f32⟩
  | 7 => ⟨S2097152x3, .f32⟩
  | 8 => ⟨S3, .f32⟩
  | 9 => ⟨S1x3, .f32⟩
  | 10 => ⟨S2097152x3, .f32⟩
  | 11 => ⟨S2097152x3, .f32⟩
  | 12 => ⟨S2097152x3, .f32⟩
  | 13 => ⟨S_, .f32⟩
  | 14 => ⟨S2097152x3, .f32⟩
  | 15 => ⟨S2097152x3, .f32⟩
  | 16 => ⟨S_, .f32⟩
  | 17 => ⟨S2097152x3, .f32⟩
  | 18 => ⟨S2097152x3, .f32⟩
  | 19 => ⟨S2097152x1, .f32⟩
  | 20 => ⟨S2097152, .f32⟩
  | 21 => ⟨S2097152x1, .f32⟩
  | 22 => ⟨S2097152, .f32⟩
  | 23 => ⟨S2097152x1, .f32⟩
  | 24 => ⟨S2097152, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S2097152, .f32⟩
  | 36 => ⟨S2097152, .f32⟩
  | 37 => ⟨S_, .f32⟩
  | 38 => ⟨S2097152, .f32⟩
  | 39 => ⟨S2097152, .f32⟩
  | 40 => ⟨S_, .f32⟩
  | 41 => ⟨S2097152, .f32⟩
  | 42 => ⟨S2097152, .f32⟩
  | 43 => ⟨S_, .f32⟩
  | 44 => ⟨S2097152, .f32⟩
  | 45 => ⟨S2097152, .f32⟩
  | 46 => ⟨S_, .f32⟩
  | 47 => ⟨S2097152, .f32⟩
  | 48 => ⟨S2097152, .f32⟩
  | 49 => ⟨S_, .f32⟩
  | 50 => ⟨S2097152, .f32⟩
  | 51 => ⟨S2097152, .f32⟩
  | 52 => ⟨S2097152, .f32⟩
  | 53 => ⟨S2097152, .f32⟩
  | 54 => ⟨S2097152, .f32⟩
  | 55 => ⟨S2097152, .f32⟩
  | 56 => ⟨S2097152, .f32⟩
  | 57 => ⟨S2097152, .f32⟩
  | 58 => ⟨S2097152, .i32⟩
  | 59 => ⟨S_, .i32⟩
  | 60 => ⟨S_, .i32⟩
  | 61 => ⟨S_, .i32⟩
  | 62 => ⟨S2097152, .i32⟩
  | 63 => ⟨S2097152, .i32⟩
  | 64 => ⟨S_, .i32⟩
  | 65 => ⟨S2097152, .i32⟩
  | 66 => ⟨S2097152, .i32⟩
  | 67 => ⟨S2097152, .i32⟩
  | 68 => ⟨S_, .i32⟩
  | 69 => ⟨S_, .i32⟩
  | 70 => ⟨S_, .i32⟩
  | 71 => ⟨S2097152, .i32⟩
  | 72 => ⟨S2097152, .i32⟩
  | 73 => ⟨S_, .i32⟩
  | 74 => ⟨S2097152, .i32⟩
  | 75 => ⟨S2097152, .i32⟩
  | 76 => ⟨S2097152, .i32⟩
  | 77 => ⟨S_, .i32⟩
  | 78 => ⟨S_, .i32⟩
  | 79 => ⟨S_, .i32⟩
  | 80 => ⟨S2097152, .i32⟩
  | 81 => ⟨S2097152, .i32⟩
  | 82 => ⟨S_, .i32⟩
  | 83 => ⟨S2097152, .i32⟩
  | 84 => ⟨S2097152, .i32⟩
  | 85 => ⟨S_, .i32⟩
  | 86 => ⟨S2097152, .i32⟩
  | 87 => ⟨S2097152, .i32⟩
  | 88 => ⟨S_, .i32⟩
  | 89 => ⟨S_, .i32⟩
  | 90 => ⟨S_, .i32⟩
  | 91 => ⟨S2097152, .i32⟩
  | 92 => ⟨S2097152, .i32⟩
  | 93 => ⟨S_, .i32⟩
  | 94 => ⟨S2097152, .i32⟩
  | 95 => ⟨S2097152, .i32⟩
  | 96 => ⟨S_, .i32⟩
  | 97 => ⟨S2097152, .i32⟩
  | 98 => ⟨S2097152, .i32⟩
  | 99 => ⟨S_, .i32⟩
  | 100 => ⟨S_, .i32⟩
  | 101 => ⟨S_, .i32⟩
  | 102 => ⟨S2097152, .i32⟩
  | 103 => ⟨S2097152, .i32⟩
  | 104 => ⟨S_, .i32⟩
  | 105 => ⟨S2097152, .i32⟩
  | 106 => ⟨S2097152, .i32⟩
  | 107 => ⟨S_, .i32⟩
  | 108 => ⟨S2097152, .i32⟩
  | 109 => ⟨S2097152, .i32⟩
  | 110 => ⟨S_, .i32⟩
  | 111 => ⟨S_, .i32⟩
  | 112 => ⟨S_, .i32⟩
  | 113 => ⟨S2097152, .i32⟩
  | 114 => ⟨S2097152, .i32⟩
  | 115 => ⟨S_, .i32⟩
  | 116 => ⟨S2097152, .i32⟩
  | 117 => ⟨S2097152, .i32⟩
  | 118 => ⟨S_, .f32⟩
  | 119 => ⟨S2097152, .f32⟩
  | 120 => ⟨S2097152, .f32⟩
  | 121 => ⟨S_, .f32⟩
  | 122 => ⟨S2097152, .f32⟩
  | 123 => ⟨S2097152, .f32⟩
  | 124 => ⟨S_, .f32⟩
  | 125 => ⟨S2097152, .f32⟩
  | 126 => ⟨S2097152, .f32⟩
  | 127 => ⟨S_, .i32⟩
  | _ => ⟨S2097152x3, .f32⟩

abbrev hbmTy0_1 (i : Nat) : BufTy := match i % 128 with
  | 0 => ⟨S2097152, .i32⟩
  | 1 => ⟨S2097152, .i1⟩
  | 2 => ⟨S_, .i32⟩
  | 3 => ⟨S2097152, .i32⟩
  | 4 => ⟨S2097152, .i32⟩
  | 5 => ⟨S2097152, .i32⟩
  | 6 => ⟨S_, .i32⟩
  | 7 => ⟨S2097152, .i32⟩
  | 8 => ⟨S2097152, .i1⟩
  | 9 => ⟨S_, .i32⟩
  | 10 => ⟨S2097152, .i32⟩
  | 11 => ⟨S2097152, .i32⟩
  | 12 => ⟨S2097152, .i32⟩
  | 13 => ⟨S_, .i32⟩
  | 14 => ⟨S2097152, .i32⟩
  | 15 => ⟨S2097152, .i1⟩
  | 16 => ⟨S_, .i32⟩
  | 17 => ⟨S2097152, .i32⟩
  | 18 => ⟨S2097152, .i32⟩
  | 19 => ⟨S2097152, .i32⟩
  | 20 => ⟨S2097152x1, .i32⟩
  | 21 => ⟨S2097152x1, .i32⟩
  | 22 => ⟨S2097152x1, .i32⟩
  | 23 => ⟨S2097152x3, .i32⟩
  | 24 => ⟨S12x2097152, .f32⟩
  | 25 => ⟨S2097152, .f32⟩
  | 26 => ⟨S2097152, .f32⟩
  | 27 => ⟨S1x2097152, .f32⟩
  | 28 => ⟨S12x2097152, .f32⟩
  | 29 => ⟨S12x2097152, .f32⟩
  | 30 => ⟨S_, .i32⟩
  | 31 => ⟨S2097152, .i32⟩
  | 32 => ⟨S2097152, .i1⟩
  | 33 => ⟨S_, .i32⟩
  | 34 => ⟨S2097152, .i32⟩
  | 35 => ⟨S2097152, .i32⟩
  | 36 => ⟨S2097152, .i32⟩
  | 37 => ⟨S_, .i32⟩
  | 38 => ⟨S2097152, .i32⟩
  | 39 => ⟨S2097152, .i1⟩
  | 40 => ⟨S_, .i32⟩
  | 41 => ⟨S2097152, .i32⟩
  | 42 => ⟨S2097152, .i32⟩
  | 43 => ⟨S2097152, .i32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S2097152x1, .i32⟩
  | 52 => ⟨S2097152x1, .i32⟩
  | 53 => ⟨S2097152x1, .i32⟩
  | 54 => ⟨S2097152x3, .i32⟩
  | 55 => ⟨S12x2097152, .f32⟩
  | 56 => ⟨S2097152, .f32⟩
  | 57 => ⟨S2097152, .f32⟩
  | 58 => ⟨S1x2097152, .f32⟩
  | 59 => ⟨S12x2097152, .f32⟩
  | 60 => ⟨S12x2097152, .f32⟩
  | 61 => ⟨S12x2097152, .f32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S2097152x1, .i32⟩
  | 84 => ⟨S2097152x1, .i32⟩
  | 85 => ⟨S2097152x1, .i32⟩
  | 86 => ⟨S2097152x3, .i32⟩
  | 87 => ⟨S12x2097152, .f32⟩
  | 88 => ⟨S2097152, .f32⟩
  | 89 => ⟨S2097152, .f32⟩
  | 90 => ⟨S1x2097152, .f32⟩
  | 91 => ⟨S12x2097152, .f32⟩
  | 92 => ⟨S12x2097152, .f32⟩
  | 93 => ⟨S12x2097152, .f32⟩
  | 94 => ⟨S_, .i32⟩
  | 95 => ⟨S2097152, .i32⟩
  | 96 => ⟨S2097152, .i1⟩
  | 97 => ⟨S_, .i32⟩
  | 98 => ⟨S2097152, .i32⟩
  | 99 => ⟨S2097152, .i32⟩
  | 100 => ⟨S2097152, .i32⟩
  | 101 => ⟨S_, .i32⟩
  | 102 => ⟨S2097152, .i32⟩
  | 103 => ⟨S2097152, .i1⟩
  | 104 => ⟨S_, .i32⟩
  | 105 => ⟨S2097152, .i32⟩
  | 106 => ⟨S2097152, .i32⟩
  | 107 => ⟨S2097152, .i32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S2097152x1, .i32⟩
  | 116 => ⟨S2097152x1, .i32⟩
  | 117 => ⟨S2097152x1, .i32⟩
  | 118 => ⟨S2097152x3, .i32⟩
  | 119 => ⟨S12x2097152, .f32⟩
  | 120 => ⟨S2097152, .f32⟩
  | 121 => ⟨S2097152, .f32⟩
  | 122 => ⟨S1x2097152, .f32⟩
  | 123 => ⟨S12x2097152, .f32⟩
  | 124 => ⟨S12x2097152, .f32⟩
  | 125 => ⟨S12x2097152, .f32⟩
  | 126 => ⟨S_, .i32⟩
  | 127 => ⟨S2097152, .i32⟩
  | _ => ⟨S2097152x3, .f32⟩

abbrev hbmTy0_2 (i : Nat) : BufTy := match i % 128 with
  | 0 => ⟨S2097152, .i1⟩
  | 1 => ⟨S_, .i32⟩
  | 2 => ⟨S2097152, .i32⟩
  | 3 => ⟨S2097152, .i32⟩
  | 4 => ⟨S2097152, .i32⟩
  | 5 => ⟨S_, .i32⟩
  | 6 => ⟨S2097152, .i32⟩
  | 7 => ⟨S2097152, .i1⟩
  | 8 => ⟨S_, .i32⟩
  | 9 => ⟨S2097152, .i32⟩
  | 10 => ⟨S2097152, .i32⟩
  | 11 => ⟨S2097152, .i32⟩
  | 12 => ⟨S_, .i32⟩
  | 13 => ⟨S2097152, .i32⟩
  | 14 => ⟨S2097152, .i1⟩
  | 15 => ⟨S_, .i32⟩
  | 16 => ⟨S2097152, .i32⟩
  | 17 => ⟨S2097152, .i32⟩
  | 18 => ⟨S2097152, .i32⟩
  | 19 => ⟨S2097152x1, .i32⟩
  | 20 => ⟨S2097152x1, .i32⟩
  | 21 => ⟨S2097152x1, .i32⟩
  | 22 => ⟨S2097152x3, .i32⟩
  | 23 => ⟨S12x2097152, .f32⟩
  | 24 => ⟨S2097152, .f32⟩
  | 25 => ⟨S2097152, .f32⟩
  | 26 => ⟨S1x2097152, .f32⟩
  | 27 => ⟨S12x2097152, .f32⟩
  | 28 => ⟨S12x2097152, .f32⟩
  | 29 => ⟨S12x2097152, .f32⟩
  | 30 => ⟨S_, .i32⟩
  | 31 => ⟨S2097152, .i32⟩
  | 32 => ⟨S2097152, .i1⟩
  | 33 => ⟨S_, .i32⟩
  | 34 => ⟨S2097152, .i32⟩
  | 35 => ⟨S2097152, .i32⟩
  | 36 => ⟨S2097152, .i32⟩
  | 37 => ⟨S_, .i32⟩
  | 38 => ⟨S2097152, .i32⟩
  | 39 => ⟨S2097152, .i1⟩
  | 40 => ⟨S_, .i32⟩
  | 41 => ⟨S2097152, .i32⟩
  | 42 => ⟨S2097152, .i32⟩
  | 43 => ⟨S2097152, .i32⟩
  | 44 => ⟨S_, .i32⟩
  | 45 => ⟨S2097152, .i32⟩
  | 46 => ⟨S2097152, .i1⟩
  | 47 => ⟨S_, .i32⟩
  | 48 => ⟨S2097152, .i32⟩
  | 49 => ⟨S2097152, .i32⟩
  | 50 => ⟨S2097152, .i32⟩
  | 51 => ⟨S2097152x1, .i32⟩
  | 52 => ⟨S2097152x1, .i32⟩
  | 53 => ⟨S2097152x1, .i32⟩
  | 54 => ⟨S2097152x3, .i32⟩
  | 55 => ⟨S12x2097152, .f32⟩
  | 56 => ⟨S2097152, .f32⟩
  | 57 => ⟨S2097152, .f32⟩
  | 58 => ⟨S1x2097152, .f32⟩
  | 59 => ⟨S12x2097152, .f32⟩
  | 60 => ⟨S12x2097152, .f32⟩
  | 61 => ⟨S12x2097152, .f32⟩
  | 62 => ⟨S_, .i32⟩
  | 63 => ⟨S2097152, .i32⟩
  | 64 => ⟨S2097152, .i1⟩
  | 65 => ⟨S_, .i32⟩
  | 66 => ⟨S2097152, .i32⟩
  | 67 => ⟨S2097152, .i32⟩
  | 68 => ⟨S2097152, .i32⟩
  | 69 => ⟨S_, .i32⟩
  | 70 => ⟨S2097152, .i32⟩
  | 71 => ⟨S2097152, .i1⟩
  | 72 => ⟨S_, .i32⟩
  | 73 => ⟨S2097152, .i32⟩
  | 74 => ⟨S2097152, .i32⟩
  | 75 => ⟨S2097152, .i32⟩
  | 76 => ⟨S_, .i32⟩
  | 77 => ⟨S2097152, .i32⟩
  | 78 => ⟨S2097152, .i1⟩
  | 79 => ⟨S_, .i32⟩
  | 80 => ⟨S2097152, .i32⟩
  | 81 => ⟨S2097152, .i32⟩
  | 82 => ⟨S2097152, .i32⟩
  | 83 => ⟨S2097152x1, .i32⟩
  | 84 => ⟨S2097152x1, .i32⟩
  | 85 => ⟨S2097152x1, .i32⟩
  | 86 => ⟨S2097152x3, .i32⟩
  | 87 => ⟨S12x2097152, .f32⟩
  | 88 => ⟨S2097152, .f32⟩
  | 89 => ⟨S2097152, .f32⟩
  | 90 => ⟨S1x2097152, .f32⟩
  | 91 => ⟨S12x2097152, .f32⟩
  | 92 => ⟨S12x2097152, .f32⟩
  | 93 => ⟨S12x2097152, .f32⟩
  | 94 => ⟨S_, .i32⟩
  | 95 => ⟨S2097152, .i32⟩
  | 96 => ⟨S2097152, .i1⟩
  | 97 => ⟨S_, .i32⟩
  | 98 => ⟨S2097152, .i32⟩
  | 99 => ⟨S2097152, .i32⟩
  | 100 => ⟨S2097152, .i32⟩
  | 101 => ⟨S_, .i32⟩
  | 102 => ⟨S2097152, .i32⟩
  | 103 => ⟨S2097152, .i1⟩
  | 104 => ⟨S_, .i32⟩
  | 105 => ⟨S2097152, .i32⟩
  | 106 => ⟨S2097152, .i32⟩
  | 107 => ⟨S2097152, .i32⟩
  | 108 => ⟨S_, .i32⟩
  | 109 => ⟨S2097152, .i32⟩
  | 110 => ⟨S2097152, .i1⟩
  | 111 => ⟨S_, .i32⟩
  | 112 => ⟨S2097152, .i32⟩
  | 113 => ⟨S2097152, .i32⟩
  | 114 => ⟨S2097152, .i32⟩
  | 115 => ⟨S2097152x1, .i32⟩
  | 116 => ⟨S2097152x1, .i32⟩
  | 117 => ⟨S2097152x1, .i32⟩
  | 118 => ⟨S2097152x3, .i32⟩
  | 119 => ⟨S12x2097152, .f32⟩
  | 120 => ⟨S2097152, .f32⟩
  | 121 => ⟨S2097152, .f32⟩
  | 122 => ⟨S1x2097152, .f32⟩
  | 123 => ⟨S12x2097152, .f32⟩
  | 124 => ⟨S12x2097152, .f32⟩
  | 125 => ⟨S12x2097152, .f32⟩
  | 126 => ⟨S2097152x12, .f32⟩
  | _ => ⟨S2097152x3, .f32⟩

abbrev hbmTy (i : Nat) : BufTy := match i / 128 with
  | 0 => hbmTy0_0 i
  | 1 => hbmTy0_1 i
  | 2 => hbmTy0_2 i
  | _ => ⟨S2097152x3, .f32⟩

abbrev bufTy : (tb : Table) → Fin (tcTables nBuf tb) → BufTy
  | .hbm, ⟨i, _⟩ => hbmTy i
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_c_10 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_v44 : Ref sig .tc := ⟨.hbm, 66, rfl⟩
abbrev main_v45 : Ref sig .tc := ⟨.hbm, 67, rfl⟩
abbrev main_c_11 : Ref sig .tc := ⟨.hbm, 68, rfl⟩
abbrev main_c_12 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v46 : Ref sig .tc := ⟨.hbm, 75, rfl⟩
abbrev main_v47 : Ref sig .tc := ⟨.hbm, 76, rfl⟩
abbrev main_c_13 : Ref sig .tc := ⟨.hbm, 77, rfl⟩
abbrev main_c_14 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v48 : Ref sig .tc := ⟨.hbm, 84, rfl⟩
abbrev main_c_15 : Ref sig .tc := ⟨.hbm, 85, rfl⟩
abbrev main_v49 : Ref sig .tc := ⟨.hbm, 86, rfl⟩
abbrev main_v50 : Ref sig .tc := ⟨.hbm, 87, rfl⟩
abbrev main_c_16 : Ref sig .tc := ⟨.hbm, 88, rfl⟩
abbrev main_c_17 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v51 : Ref sig .tc := ⟨.hbm, 95, rfl⟩
abbrev main_c_18 : Ref sig .tc := ⟨.hbm, 96, rfl⟩
abbrev main_v52 : Ref sig .tc := ⟨.hbm, 97, rfl⟩
abbrev main_v53 : Ref sig .tc := ⟨.hbm, 98, rfl⟩
abbrev main_c_19 : Ref sig .tc := ⟨.hbm, 99, rfl⟩
abbrev main_c_20 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_v54 : Ref sig .tc := ⟨.hbm, 106, rfl⟩
abbrev main_c_21 : Ref sig .tc := ⟨.hbm, 107, rfl⟩
abbrev main_v55 : Ref sig .tc := ⟨.hbm, 108, rfl⟩
abbrev main_v56 : Ref sig .tc := ⟨.hbm, 109, rfl⟩
abbrev main_c_22 : Ref sig .tc := ⟨.hbm, 110, rfl⟩
abbrev main_c_23 : Ref sig .tc := ⟨.hbm, 111, rfl⟩
abbrev main_call5_v0 : Ref sig .tc := ⟨.hbm, 112, rfl⟩
abbrev main_call5_v1 : Ref sig .tc := ⟨.hbm, 113, rfl⟩
abbrev main_call5_v2 : Ref sig .tc := ⟨.hbm, 114, rfl⟩
abbrev main_call5_v3 : Ref sig .tc := ⟨.hbm, 115, rfl⟩
abbrev main_call5_v4 : Ref sig .tc := ⟨.hbm, 116, rfl⟩
abbrev main_v57 : Ref sig .tc := ⟨.hbm, 117, rfl⟩
abbrev main_cst_24 : Ref sig .tc := ⟨.hbm, 118, rfl⟩
abbrev main_v58 : Ref sig .tc := ⟨.hbm, 119, rfl⟩
abbrev main_v59 : Ref sig .tc := ⟨.hbm, 120, rfl⟩
abbrev main_cst_25 : Ref sig .tc := ⟨.hbm, 121, rfl⟩
abbrev main_v60 : Ref sig .tc := ⟨.hbm, 122, rfl⟩
abbrev main_v61 : Ref sig .tc := ⟨.hbm, 123, rfl⟩
abbrev main_cst_26 : Ref sig .tc := ⟨.hbm, 124, rfl⟩
abbrev main_v62 : Ref sig .tc := ⟨.hbm, 125, rfl⟩
abbrev main_v63 : Ref sig .tc := ⟨.hbm, 126, rfl⟩
abbrev main_c_27 : Ref sig .tc := ⟨.hbm, 127, rfl⟩
abbrev main_v64 : Ref sig .tc := ⟨.hbm, 128, rfl⟩
abbrev main_v65 : Ref sig .tc := ⟨.hbm, 129, rfl⟩
abbrev main_c_28 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_c_29 : Ref sig .tc := ⟨.hbm, 134, rfl⟩
abbrev main_v69 : Ref sig .tc := ⟨.hbm, 135, rfl⟩
abbrev main_v70 : Ref sig .tc := ⟨.hbm, 136, rfl⟩
abbrev main_c_30 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_c_31 : Ref sig .tc := ⟨.hbm, 141, rfl⟩
abbrev main_v74 : Ref sig .tc := ⟨.hbm, 142, rfl⟩
abbrev main_v75 : Ref sig .tc := ⟨.hbm, 143, rfl⟩
abbrev main_c_32 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_c_33 : Ref sig .tc := ⟨.hbm, 158, rfl⟩
abbrev main_v89 : Ref sig .tc := ⟨.hbm, 159, rfl⟩
abbrev main_v90 : Ref sig .tc := ⟨.hbm, 160, rfl⟩
abbrev main_c_34 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_c_35 : Ref sig .tc := ⟨.hbm, 165, rfl⟩
abbrev main_v94 : Ref sig .tc := ⟨.hbm, 166, rfl⟩
abbrev main_v95 : Ref sig .tc := ⟨.hbm, 167, rfl⟩
abbrev main_c_36 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_c_37 : Ref sig .tc := ⟨.hbm, 172, rfl⟩
abbrev main_v99 : Ref sig .tc := ⟨.hbm, 173, rfl⟩
abbrev main_v100 : Ref sig .tc := ⟨.hbm, 174, rfl⟩
abbrev main_c_38 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_c_39 : Ref sig .tc := ⟨.hbm, 190, rfl⟩
abbrev main_v115 : Ref sig .tc := ⟨.hbm, 191, rfl⟩
abbrev main_v116 : Ref sig .tc := ⟨.hbm, 192, rfl⟩
abbrev main_c_40 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_c_41 : Ref sig .tc := ⟨.hbm, 197, rfl⟩
abbrev main_v120 : Ref sig .tc := ⟨.hbm, 198, rfl⟩
abbrev main_v121 : Ref sig .tc := ⟨.hbm, 199, rfl⟩
abbrev main_c_42 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_c_43 : Ref sig .tc := ⟨.hbm, 204, rfl⟩
abbrev main_v125 : Ref sig .tc := ⟨.hbm, 205, rfl⟩
abbrev main_v126 : Ref sig .tc := ⟨.hbm, 206, rfl⟩
abbrev main_c_44 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_c_45 : Ref sig .tc := ⟨.hbm, 222, rfl⟩
abbrev main_v141 : Ref sig .tc := ⟨.hbm, 223, rfl⟩
abbrev main_v142 : Ref sig .tc := ⟨.hbm, 224, rfl⟩
abbrev main_c_46 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_c_47 : Ref sig .tc := ⟨.hbm, 229, rfl⟩
abbrev main_v146 : Ref sig .tc := ⟨.hbm, 230, rfl⟩
abbrev main_v147 : Ref sig .tc := ⟨.hbm, 231, rfl⟩
abbrev main_c_48 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_c_49 : Ref sig .tc := ⟨.hbm, 236, rfl⟩
abbrev main_v151 : Ref sig .tc := ⟨.hbm, 237, rfl⟩
abbrev main_v152 : Ref sig .tc := ⟨.hbm, 238, rfl⟩
abbrev main_c_50 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_c_51 : Ref sig .tc := ⟨.hbm, 254, rfl⟩
abbrev main_v167 : Ref sig .tc := ⟨.hbm, 255, rfl⟩
abbrev main_v168 : Ref sig .tc := ⟨.hbm, 256, rfl⟩
abbrev main_c_52 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_c_53 : Ref sig .tc := ⟨.hbm, 261, rfl⟩
abbrev main_v172 : Ref sig .tc := ⟨.hbm, 262, rfl⟩
abbrev main_v173 : Ref sig .tc := ⟨.hbm, 263, rfl⟩
abbrev main_c_54 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_c_55 : Ref sig .tc := ⟨.hbm, 268, rfl⟩
abbrev main_v177 : Ref sig .tc := ⟨.hbm, 269, rfl⟩
abbrev main_v178 : Ref sig .tc := ⟨.hbm, 270, rfl⟩
abbrev main_c_56 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_v183 : Ref sig .tc := ⟨.hbm, 276, rfl⟩
abbrev main_v184 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_c_57 : Ref sig .tc := ⟨.hbm, 286, rfl⟩
abbrev main_v193 : Ref sig .tc := ⟨.hbm, 287, rfl⟩
abbrev main_v194 : Ref sig .tc := ⟨.hbm, 288, rfl⟩
abbrev main_c_58 : Ref sig .tc := ⟨.hbm, 289, rfl⟩
abbrev main_v195 : Ref sig .tc := ⟨.hbm, 290, rfl⟩
abbrev main_v196 : Ref sig .tc := ⟨.hbm, 291, rfl⟩
abbrev main_v197 : Ref sig .tc := ⟨.hbm, 292, rfl⟩
abbrev main_c_59 : Ref sig .tc := ⟨.hbm, 293, rfl⟩
abbrev main_v198 : Ref sig .tc := ⟨.hbm, 294, rfl⟩
abbrev main_v199 : Ref sig .tc := ⟨.hbm, 295, rfl⟩
abbrev main_c_60 : Ref sig .tc := ⟨.hbm, 296, rfl⟩
abbrev main_v200 : Ref sig .tc := ⟨.hbm, 297, rfl⟩
abbrev main_v201 : Ref sig .tc := ⟨.hbm, 298, rfl⟩
abbrev main_v202 : Ref sig .tc := ⟨.hbm, 299, rfl⟩
abbrev main_c_61 : Ref sig .tc := ⟨.hbm, 300, rfl⟩
abbrev main_v203 : Ref sig .tc := ⟨.hbm, 301, rfl⟩
abbrev main_v204 : Ref sig .tc := ⟨.hbm, 302, rfl⟩
abbrev main_c_62 : Ref sig .tc := ⟨.hbm, 303, rfl⟩
abbrev main_v205 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_c_63 : Ref sig .tc := ⟨.hbm, 318, rfl⟩
abbrev main_v219 : Ref sig .tc := ⟨.hbm, 319, rfl⟩
abbrev main_v220 : Ref sig .tc := ⟨.hbm, 320, rfl⟩
abbrev main_c_64 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_c_65 : Ref sig .tc := ⟨.hbm, 325, rfl⟩
abbrev main_v224 : Ref sig .tc := ⟨.hbm, 326, rfl⟩
abbrev main_v225 : Ref sig .tc := ⟨.hbm, 327, rfl⟩
abbrev main_c_66 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_c_67 : Ref sig .tc := ⟨.hbm, 332, rfl⟩
abbrev main_v229 : Ref sig .tc := ⟨.hbm, 333, rfl⟩
abbrev main_v230 : Ref sig .tc := ⟨.hbm, 334, rfl⟩
abbrev main_c_68 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_v238 : Ref sig .tc := ⟨.hbm, 343, rfl⟩
abbrev main_v239 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_c_69 : Ref sig .tc := ⟨.hbm, 350, rfl⟩
abbrev main_v245 : Ref sig .tc := ⟨.hbm, 351, rfl⟩
abbrev main_v246 : Ref sig .tc := ⟨.hbm, 352, rfl⟩
abbrev main_c_70 : Ref sig .tc := ⟨.hbm, 353, rfl⟩
abbrev main_v247 : Ref sig .tc := ⟨.hbm, 354, rfl⟩
abbrev main_v248 : Ref sig .tc := ⟨.hbm, 355, rfl⟩
abbrev main_v249 : Ref sig .tc := ⟨.hbm, 356, rfl⟩
abbrev main_c_71 : Ref sig .tc := ⟨.hbm, 357, rfl⟩
abbrev main_v250 : Ref sig .tc := ⟨.hbm, 358, rfl⟩
abbrev main_v251 : Ref sig .tc := ⟨.hbm, 359, rfl⟩
abbrev main_c_72 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_c_73 : Ref sig .tc := ⟨.hbm, 364, rfl⟩
abbrev main_v255 : Ref sig .tc := ⟨.hbm, 365, rfl⟩
abbrev main_v256 : Ref sig .tc := ⟨.hbm, 366, rfl⟩
abbrev main_c_74 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩

abbrev nD : Nat := 1
abbrev τ : Topo := Topo.v7x

variable {F : FTy → Type} [FloatOps F]

class Facts₀ : Prop where
  shapeCasts_S1x12x160x160x160_S12x160x160x160 : S1x12x160x160x160.ShapeCasts S12x160x160x160
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x1_S2097152x3_d1 : Shape.Concatenates [S2097152x1, S2097152x1, S2097152x1] S2097152x3 1
  bcast_S2097152_S1x2097152_1 : S2097152.BroadcastsInDim S1x2097152 (![1] : Fin 1 → Fin S1x2097152.rank)
  bcast_S1x2097152_S12x2097152_0_1 : S1x2097152.BroadcastsInDim S12x2097152 (![0, 1] : Fin 2 → Fin S12x2097152.rank)
  transposes_S12x2097152_S2097152x12_1_0 : S12x2097152.Transposes [1, 0] S2097152x12
  gather_S12x160x160x160_S2097152x3_S12x2097152_0_123_n_n_123_1_12111_wf : GatherDims.WF S12x160x160x160 S2097152x3 S12x2097152 [0] [1, 2, 3] [] [1, 2, 3] [] 1 ![12, 1, 1, 1]

variable [Facts₀]

def gather_S12x160x160x160_S2097152x3_S12x2097152_0_123_n_n_123_1_12111 : GatherDims S12x160x160x160 S2097152x3 S12x2097152 where
  offsetDims := [0]
  collapsedSliceDims := [1, 2, 3]
  operandBatchingDims := []
  startIndicesBatchingDims := []
  startIndexMap := [1, 2, 3]
  indexVectorDim := 1
  sliceSizes := ![12, 1, 1, 1]
  wf := gather_S12x160x160x160_S2097152x3_S12x2097152_0_123_n_n_123_1_12111_wf

class Facts : Prop extends Facts₀ where

variable [Facts]
-- ==== Proof.EntryBits.lean ====
/-
  What the TensorCore buffers of core `c` hold when the kernel's one region is entered: the launch memory after the host
  operations that precede the region, as one valuation (`V0`), and the same read at a TensorCore reference (`V`).
  The host operations before the region compute, per sample point, the eight corner indices and the eight trilinear
  weights, gather the eight corner values of every channel, and stack them; the region then forms the weighted sums.
-/
import proofs.«163780_j49606872269475_2_alg».proof.Proof.Gen.Kernel.Launch

noncomputable section

namespace Cert.Kernel.Fr

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- The fourteen stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13]

/-- Core `c`'s TensorCore buffer contents when the region is entered, as a valuation. -/
abbrev V0 (c : Dev nD) : Valuation τ sig (Elt F) :=
  StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13]) (fun b => m (c, b))

/-- The same read at a TensorCore reference. -/
abbrev V (c : Dev nD) (b : Ref sig .tc) : Buf (Elt F) ((c : Thread nD τ).loc b) := V0 m c (Proc.devRef .tc b)

end Cert.Kernel.Fr

end
-- ==== Proof.FrameBits.lean ====
/-
  The one region of the kernel program, as the pipeline runs it: the three windows' literal rectangles, each window's
  block at a grid point read off its array as the region finds it, the value the body leaves in the output window's
  buffer (the weighted sum over the eight corners, as one covering store), and the proof data of the pipeline.
-/
import proofs.«163780_j49606872269475_2_alg».proof.Proof.EntryBits
import proofs.«163780_j49606872269475_2_alg».proof.Proof.Gen.Kernel.Skeleton
import proofs.«163780_j49606872269475_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each window's buffer, whole -/

abbrev r0_0 : Rect S12x8x16384 := Rect.unit (s := S12x8x16384) ![0, 0, 0] S12x8x16384.size inb_S12x8x16384_S12x8x16384_0_0_0
abbrev r0_1 : Rect S1x8x16384 := Rect.unit (s := S1x8x16384) ![0, 0, 0] S1x8x16384.size inb_S1x8x16384_S1x8x16384_0_0_0
abbrev r0_2 : Rect S12x16384 := Rect.unit (s := S12x16384) ![0, 0] S12x16384.size inb_S12x16384_S12x16384_0_0

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The output window's buffer after the body, from the two input blocks: the one store, covering the buffer, of the
    sum over the eight corners of corner value times corner weight. -/
def out0_2 (x0 : Vec F S12x8x16384 .f32) (x1 : Vec F S1x8x16384 .f32) : Vec F S12x16384 .f32 :=
  View.canon [⟨r0_2, k0_pay1 (View.ld x0 r0_0) (View.ld x1 r0_1)⟩]

/-! ## The pipeline's proof data -/

/-- The proof data of the pipeline on core `c`: the arrays as the region finds them; after the body at point `t` each
    input buffer still at its block and the output buffer at `out0_2` of the two input blocks; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; the entry valuation stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Fr

end
-- ==== Proof.FrameBodyBits.lean ====
/-
  The body of the region at a grid point, as the pipeline calls it: on whole staging buffers holding the two input
  blocks, it loads both, loads the output buffer once (the value is not used), and stores over the whole output buffer
  the sum over the eight corners of corner value times corner weight. Hence the library's body obligation at every point.
-/
import proofs.«163780_j49606872269475_2_alg».proof.Proof.FrameBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows hold their blocks -/

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The one store covers the output buffer -/

theorem cover0_2 (p0 : Vec F S12x16384 .f32) (y : S12x16384.Idx) :
    ∃ pc ∈ ([⟨r0_2, p0⟩] : List (View.Piece (Elt F) S12x16384 .f32)), y ∈ pc.1.set :=
  View.cover_of_tiled [⟨r0_2, p0⟩] S12x16384.size (by rfl) y

/-! ## The body's triple -/

set_option maxHeartbeats 1000000 in
/-- The body on whole staging buffers, the inputs' at read contents `x0`, `x1` and the output's at anything, runs to the
    continuation holding the inputs' as they were and the output's at `out0_2 x0 x1`. The load of the output buffer
    needs only that the buffer is owned, at whatever contents. -/
theorem sound_kernel (c : Dev nD) (E : Set ℕ) (i : grid0.Coords)
    (arg1 : Memref sig .tc .vmem S12x8x16384 .f32) (harg1 : arg1.IsWhole)
    (arg2 : Memref sig .tc .vmem S1x8x16384 .f32) (harg2 : arg2.IsWhole)
    (arg3 : Memref sig .tc .vmem S12x16384 .f32) (harg3 : arg3.IsWhole)
    (x0 : Vec F S12x8x16384 .f32) (x1 : Vec F S1x8x16384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.FrameRunBits.lean ====
/-
  The kernel program's main function around its one region: the host operations before the region run to the
  region-entry contents, the region runs as the pipeline with the body obligation discharged at every grid point, and
  the one host operation after it (the transpose of the region's result) runs on. No operation before or after the
  region writes any of the four argument arrays, and the region stages none of them: they end as launched.
-/
import proofs.«163780_j49606872269475_2_alg».proof.Proof.FrameBodyBits

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
set_option maxHeartbeats 4000000 in
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## No host operation before the region writes an argument array -/

/-- An operation that writes none of the four argument arrays. -/
abbrev KeepsArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

set_option maxHeartbeats 8000000 in
theorem hostOps0_keeps : (hostOps0 : List (HloOp τ sig (Elt F))).Forall KeepsArgs := by
  simp only [hostOps0, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_1_keeps : (hostOps0_1 : List (HloOp τ sig (Elt F))).Forall KeepsArgs := by
  simp only [hostOps0_1, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_2_keeps : (hostOps0_2 : List (HloOp τ sig (Elt F))).Forall KeepsArgs := by
  simp only [hostOps0_2, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_3_keeps : (hostOps0_3 : List (HloOp τ sig (Elt F))).Forall KeepsArgs := by
  simp only [hostOps0_3, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_4_keeps : (hostOps0_4 : List (HloOp τ sig (Elt F))).Forall KeepsArgs := by
  simp only [hostOps0_4, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_5_keeps : (hostOps0_5 : List (HloOp τ sig (Elt F))).Forall KeepsArgs := by
  simp only [hostOps0_5, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_6_keeps : (hostOps0_6 : List (HloOp τ sig (Elt F))).Forall KeepsArgs := by
  simp only [hostOps0_6, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_7_keeps : (hostOps0_7 : List (HloOp τ sig (Elt F))).Forall KeepsArgs := by
  simp only [hostOps0_7, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_8_keeps : (hostOps0_8 : List (HloOp τ sig (Elt F))).Forall KeepsArgs := by
  simp only [hostOps0_8, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_9_keeps : (hostOps0_9 : List (HloOp τ sig (Elt F))).Forall KeepsArgs := by
  simp only [hostOps0_9, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_10_keeps : (hostOps0_10 : List (HloOp τ sig (Elt F))).Forall KeepsArgs := by
  simp only [hostOps0_10, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_11_keeps : (hostOps0_11 : List (HloOp τ sig (Elt F))).Forall KeepsArgs := by
  simp only [hostOps0_11, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
set_option maxHeartbeats 8000000 in
theorem hostOps0_12_keeps : (hostOps0_12 : List (HloOp τ sig (Elt F))).Forall KeepsArgs := by
  simp only [hostOps0_12, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_13_keeps : (hostOps0_13 : List (HloOp τ sig (Elt F))).Forall KeepsArgs := by
  simp only [hostOps0_13, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- Every operation of every stretch before the region writes none of the argument arrays. -/
theorem prefix_keeps : ∀ ops ∈ ([hostOps0, hostOps0_1, hostOps0_2, hostOps0_3, hostOps0_4, hostOps0_5, hostOps0_6, hostOps0_7, hostOps0_8, hostOps0_9, hostOps0_10, hostOps0_11, hostOps0_12, hostOps0_13] : List (List (HloOp τ sig (Elt F)))), ∀ op ∈ ops, KeepsArgs op := by
  intro ops hops
  simp only [List.mem_cons, List.mem_nil_iff, or_false] at hops
  rcases hops with rfl | rfl | rfl | rfl | rfl | rfl | rfl | rfl | rfl | rfl | rfl | rfl | rfl | rfl
  · exact List.forall_iff_forall_mem.mp hostOps0_keeps
  · exact List.forall_iff_forall_mem.mp hostOps0_1_keeps
  · exact List.forall_iff_forall_mem.mp hostOps0_2_keeps
  · exact List.forall_iff_forall_mem.mp hostOps0_3_keeps
  · exact List.forall_iff_forall_mem.mp hostOps0_4_keeps
  · exact List.forall_iff_forall_mem.mp hostOps0_5_keeps
  · exact List.forall_iff_forall_mem.mp hostOps0_6_keeps
  · exact List.forall_iff_forall_mem.mp hostOps0_7_keeps
  · exact List.forall_iff_forall_mem.mp hostOps0_8_keeps
  · exact List.forall_iff_forall_mem.mp hostOps0_9_keeps
  · exact List.forall_iff_forall_mem.mp hostOps0_10_keeps
  · exact List.forall_iff_forall_mem.mp hostOps0_11_keeps
  · exact List.forall_iff_forall_mem.mp hostOps0_12_keeps
  · exact List.forall_iff_forall_mem.mp hostOps0_13_keeps

theorem flatten_keeps {op : HloOp τ sig (Elt F)}
    (h : op ∈ List.flatten [hostOps0, hostOps0_1, hostOps0_2, hostOps0_3, hostOps0_4, hostOps0_5, hostOps0_6, hostOps0_7, hostOps0_8, hostOps0_9, hostOps0_10, hostOps0_11, hostOps0_12, hostOps0_13]) : KeepsArgs op := by
  obtain ⟨ops, hops, hop⟩ := List.mem_flatten.mp h
  exact prefix_keeps ops hops op hop

/-! ## The main function around the region -/

/-- The main function at the certificate's variants: the fourteen stretches of host operations, the region, the one
    host operation after it; it reduces to the region continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] [hostOps1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩ main_chain

/-- The operation after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline (it writes the transposed result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The argument arrays, at the region's entry and at the end -/

/-- The region finds `main_arg0` as launched. -/
theorem V_main_arg0 (c : Dev nD) : V m c main_arg0 = m ((c : Thread nD τ).loc main_arg0) :=
  StableHlo.after_of_forall_not_mem (b := Proc.devRef .tc main_arg0) _ _ (fun op hop => (flatten_keeps hop).1)

/-- The operation after the region does not write `main_arg0`, and the region stages no argument array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The region finds `main_arg1` as launched. -/
theorem V_main_arg1 (c : Dev nD) : V m c main_arg1 = m ((c : Thread nD τ).loc main_arg1) :=
  StableHlo.after_of_forall_not_mem (b := Proc.devRef .tc main_arg1) _ _ (fun op hop => (flatten_keeps hop).2.1)

/-- The operation after the region does not write `main_arg1`, and the region stages no argument array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The region finds `main_arg2` as launched. -/
theorem V_main_arg2 (c : Dev nD) : V m c main_arg2 = m ((c : Thread nD τ).loc main_arg2) :=
  StableHlo.after_of_forall_not_mem (b := Proc.devRef .tc main_arg2) _ _ (fun op hop => (flatten_keeps hop).2.2.1)

/-- The operation after the region does not write `main_arg2`, and the region stages no argument array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The region finds `main_arg3` as launched. -/
theorem V_main_arg3 (c : Dev nD) : V m c main_arg3 = m ((c : Thread nD τ).loc main_arg3) :=
  StableHlo.after_of_forall_not_mem (b := Proc.devRef .tc main_arg3) _ _ (fun op hop => (flatten_keeps hop).2.2.2)

/-- The operation after the region does not write `main_arg3`, and the region stages no argument array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The frame claim's post from the frame run's -/

/-- For any proof data, a run to the library's frame post, read at the four argument arrays (none is an array of the
    pipeline, each is unscoped), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The run and the frame -/

set_option backward.isDefEq.respectTransparency.types false in
/-- From any memory with zero counters: every weakly fair execution of the main function on the TensorCores
    terminates, and every final state has every array of the pipeline at what the library computes from the proof data
    and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Fr.run_main' depends on axioms: [propext, Classical.choice, Quot.sound] -/
#guard_msgs in #print axioms run_main

/-- The frame of the kernel program: it runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.PayIdeal.lean ====
/-
  The arithmetic of one grid point, read index by index.

  A grid point holds the eight corner values of every channel for 16384 sample points (a block of shape 12 × 8 × 16384) and
  the eight corner weights of the same points (a block of shape 1 × 8 × 16384). It spreads the weights over the twelve
  channels, multiplies entry by entry, and adds over the corner axis into a zero accumulator. So the entry it stores for
  channel `ch` and point `j` of the block is the sum over the eight corners `k` of value(ch, k, j) · weight(0, k, j).
-/
import proofs.«163780_j49606872269475_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.KVal

open Idealize.ShloMosaic Idealize.ShloMosaic.ValueIdx Idealize.SL.Sem
open Cert.KernelIdeal Cert.KernelIdeal.Gen

/-- The index the corner sum inserts on the corner axis: corner `k` between the channel and the point. -/
theorem lift_eq (h : S12x8x16384.Reduces [1] S12x16384) (ch : Fin 12) (j : Fin 16384) (k : Fin 8) :
    h.lift (ix2 ch j) k = ix3 ch k j := by
  funext a
  apply Fin.ext
  match a with
  | ⟨0, _⟩ => rfl
  | ⟨1, _⟩ => rfl
  | ⟨2, _⟩ => rfl

/-- A sum over the corner axis of a 12 × 8 × 16384 block into a zero accumulator, at channel `ch` and point `j`. -/
theorem cornerSum_apply (src : FVec Ideal S12x8x16384 .f32) (h : S12x8x16384.Reduces [1] S12x16384)
    (hφ : FKind.Formats .f32) (hacc : (0x00000000#32 : BitVec 32) = 0x00000000#32) (ch : Fin 12) (j : Fin 16384) :
    multiReduction (F := Ideal) .add [1] S12x16384 src 0x00000000#32 h hφ hacc (ix2 ch j)
      = ∑ k : Fin 8, src (ix3 ch k j) := by
  refine (Ideal.multiReduction_add_single src 0x00000000#32 h hφ hacc (ix2 ch j)).trans ?_
  exact Finset.sum_congr rfl fun k _ => congrArg src (lift_eq h ch j k)

/-- The weights spread over the channels: channel `ch`, corner `k`, point `j` reads the weight block at (0, k, j). -/
theorem spread_apply (x : FVec Ideal S1x8x16384 .f32) (h : S1x8x16384.Broadcasts S12x8x16384) (ch : Fin 12) (k : Fin 8)
    (j : Fin 16384) : broadcastTo S12x8x16384 x h (ix3 ch k j) = x (ix3 (0 : Fin 1) k j) := by
  refine broadcastTo_apply x h (ix3 ch k j) (ix3 (0 : Fin 1) k j) fun a => ?_
  match a with
  | ⟨0, _⟩ => rfl
  | ⟨1, _⟩ => rfl
  | ⟨2, _⟩ => rfl

/-- What a grid point stores, at channel `ch` and point `j` of its block: the eight corner values times the eight corner
    weights, added. -/
theorem pay_apply (x0 : Vec Ideal S12x8x16384 .f32) (x2 : Vec Ideal S1x8x16384 .f32) (ch : Fin 12) (j : Fin 16384) :
    Cert.KernelIdeal.Gen.k0_pay1 (F := Ideal) x0 x2 (ix2 ch j)
      = ∑ k : Fin 8, x0 (ix3 ch k j) * x2 (ix3 (0 : Fin 1) k j) := by
  unfold Cert.KernelIdeal.Gen.k0_pay1
  refine (cornerSum_apply _ _ _ _ ch j).trans ?_
  refine Finset.sum_congr rfl fun k _ => ?_
  rw [mulf_apply, shapeCast_self, shapeCast_self, spread_apply]

end Cert.KernelIdeal.KVal

end
-- ==== Proof.EntryIdeal.lean ====
/-
  What the TensorCore buffers of core `c` hold when the kernel's one region is entered: the launch memory after the host
  operations that precede the region, as one valuation (`V0`), and the same read at a TensorCore reference (`V`).
  The host operations before the region compute, per sample point, the eight corner indices and the eight trilinear
  weights, gather the eight corner values of every channel, and stack them; the region then forms the weighted sums.
-/
import proofs.«163780_j49606872269475_2_alg».proof.Proof.Gen.KernelIdeal.Launch

noncomputable section

namespace Cert.KernelIdeal.Fr

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- The fourteen stretches of host operations before the region, in order. -/
abbrev prefixOps : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12, hostOps0_13]

/-- Core `c`'s TensorCore buffer contents when the region is entered, as a valuation. -/
abbrev V0 (c : Dev nD) : Valuation τ sig (Elt F) :=
  StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13]) (fun b => m (c, b))

/-- The same read at a TensorCore reference. -/
abbrev V (c : Dev nD) (b : Ref sig .tc) : Buf (Elt F) ((c : Thread nD τ).loc b) := V0 m c (Proc.devRef .tc b)

end Cert.KernelIdeal.Fr

end
-- ==== Proof.FrameIdeal.lean ====
/-
  The one region of the kernel program, as the pipeline runs it: the three windows' literal rectangles, each window's
  block at a grid point read off its array as the region finds it, the value the body leaves in the output window's
  buffer (the weighted sum over the eight corners, as one covering store), and the proof data of the pipeline.
-/
import proofs.«163780_j49606872269475_2_alg».proof.Proof.EntryIdeal
import proofs.«163780_j49606872269475_2_alg».proof.Proof.Gen.KernelIdeal.Skeleton
import proofs.«163780_j49606872269475_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each window's buffer, whole -/

abbrev r0_0 : Rect S12x8x16384 := Rect.unit (s := S12x8x16384) ![0, 0, 0] S12x8x16384.size inb_S12x8x16384_S12x8x16384_0_0_0
abbrev r0_1 : Rect S1x8x16384 := Rect.unit (s := S1x8x16384) ![0, 0, 0] S1x8x16384.size inb_S1x8x16384_S1x8x16384_0_0_0
abbrev r0_2 : Rect S12x16384 := Rect.unit (s := S12x16384) ![0, 0] S12x16384.size inb_S12x16384_S12x16384_0_0

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The output window's buffer after the body, from the two input blocks: the one store, covering the buffer, of the
    sum over the eight corners of corner value times corner weight. -/
def out0_2 (x0 : Vec F S12x8x16384 .f32) (x1 : Vec F S1x8x16384 .f32) : Vec F S12x16384 .f32 :=
  View.canon [⟨r0_2, k0_pay1 (View.ld x0 r0_0) (View.ld x1 r0_1)⟩]

/-! ## The pipeline's proof data -/

/-- The proof data of the pipeline on core `c`: the arrays as the region finds them; after the body at point `t` each
    input buffer still at its block and the output buffer at `out0_2` of the two input blocks; the invariant is the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents (the definition projected; the entry valuation stays folded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Fr

end
-- ==== Proof.KernelValue.lean ====
/-
  The value the kernel program leaves in its result.

  The region runs over 128 grid points. Point `t` loads block `t` of the corner values (all 12 channels and 8 corners of
  the 16384 sample points `16384 t … 16384 t + 16383`) and block `t` of the corner weights, and writes back block `t` of a
  12 × 2097152 array: for each channel and each of its sample points, the sum over the eight corners of value times weight.
  Every sample point lies in exactly the block of number `n / 16384`, so the 128 blocks fill the array, and the array the
  region leaves is one function of the two arrays it finds: `region g w (ch, n) = ∑ k, g (ch, k, n) · w (0, k, n)`.
  One host operation follows the region and exchanges the two axes, so the program's result at (n, ch) is that sum.
-/
import proofs.«163780_j49606872269475_2_alg».proof.Proof.PayIdeal
import proofs.«163780_j49606872269475_2_alg».proof.Proof.EntryIdeal
import proofs.«163780_j49606872269475_2_alg».proof.Proof.FrameIdeal
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.Tactic

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

/-! ## The region's result as one function of the two arrays it reads -/

/-- Channel `ch` of sample point `n`: the eight corner values times the eight corner weights, added. -/
def cornerSum (g : Vec Ideal S12x8x2097152 .f32) (w : Vec Ideal S1x8x2097152 .f32) (ch : Fin 12) (n : Fin 2097152) : EReal :=
  ∑ k : Fin 8, g (ix3 ch k n) * w (ix3 (0 : Fin 1) k n)

/-- The array the region leaves: channel-major, 12 × 2097152. -/
def region (g : Vec Ideal S12x8x2097152 .f32) (w : Vec Ideal S1x8x2097152 .f32) : S12x2097152.Idx → EReal :=
  fun i => cornerSum g w (i 0) (i 1)

/-- The program's result: point-major, 2097152 × 12. -/
def Kout (g : Vec Ideal S12x8x2097152 .f32) (w : Vec Ideal S1x8x2097152 .f32) : S2097152x12.Idx → EReal :=
  fun i => cornerSum g w (i 1) (i 0)

theorem region_apply (g : Vec Ideal S12x8x2097152 .f32) (w : Vec Ideal S1x8x2097152 .f32) (ch : Fin 12) (n : Fin 2097152) :
    region g w (ix2 ch n) = ∑ k : Fin 8, g (ix3 ch k n) * w (ix3 (0 : Fin 1) k n) := rfl

theorem Kout_apply (g : Vec Ideal S12x8x2097152 .f32) (w : Vec Ideal S1x8x2097152 .f32) (n : Fin 2097152) (ch : Fin 12) :
    Kout g w (ix2 n ch) = ∑ k : Fin 8, g (ix3 ch k n) * w (ix3 (0 : Fin 1) k n) := rfl

/-- The result is the region's array with its two axes exchanged. -/
theorem transpose_region (g : Vec Ideal S12x8x2097152 .f32) (w : Vec Ideal S1x8x2097152 .f32)
    (h : S12x2097152.Transposes [1, 0] S2097152x12) :
    transpose S2097152x12 [1, 0] (region g w) h = Kout g w := by
  funext i
  obtain ⟨n, ch, rfl⟩ : ∃ (n : Fin 2097152) (ch : Fin 12), i = ix2 n ch := ⟨i 0, i 1, eq_ix2 i⟩
  exact transpose_ix2_apply (region g w) h n ch

variable (m : (ℓ : Loc nD τ sig) → Buf (Elt Ideal) ℓ) (ρ : Dev nD → PrngReg)

/-! ## Where the blocks sit -/

theorem hz2 : (![0, 0] : Fin 2 → Nat) = fun _ => 0 := funext fun a => by fin_cases a <;> rfl
theorem hz3 : (![0, 0, 0] : Fin 3 → Nat) = fun _ => 0 := funext fun a => by fin_cases a <;> rfl

/-- At grid point `t` each of the three windows is at block `t` of the point axis and at block 0 of every other axis. -/
theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = t.val
    ∧ win0_2.index t (0 : Fin 2) = 0 ∧ win0_2.index t (1 : Fin 2) = t.val :=
  (by decide +kernel : ∀ t : Fin grid0.N, _)

/-! ## What a grid point reads and writes -/

/-- Block `t` of a 12 × 8 × 2097152 array, at channel `ch`, corner `k`, point `j` of the block, is the array at point
    `16384 t + j`. -/
theorem blk0_read (X : Vec Ideal S12x8x2097152 .f32) (t : Fin cfg0.N) (ch : Fin 12) (k : Fin 8) (j : Fin 16384)
    (i : S12x8x2097152.Idx) (h0 : (i 0).val = ch.val) (h1 : (i 1).val = k.val) (h2 : (i 2).val = t.val * 16384 + j.val) :
    (((cfg0.win 0).blk t).view.read (Elt Ideal) X : Vec Ideal S12x8x16384 .f32) (ix3 ch k j) = X i := by
  obtain ⟨e0, e1, e2, -⟩ := idx_facts t
  rw [View.read_apply]
  show X _ = X i
  refine congrArg X (funext fun a => Fin.ext ?_)
  match a with
  | ⟨0, _⟩ => show win0_0.index t (0 : Fin 3) * 12 + 1 * ch.val = (i 0).val; rw [e0, h0]; omega
  | ⟨1, _⟩ => show win0_0.index t (1 : Fin 3) * 8 + 1 * k.val = (i 1).val; rw [e1, h1]; omega
  | ⟨2, _⟩ => show win0_0.index t (2 : Fin 3) * 16384 + 1 * j.val = (i 2).val; rw [e2, h2]; omega

/-- Block `t` of a 1 × 8 × 2097152 array, likewise. -/
theorem blk1_read (X : Vec Ideal S1x8x2097152 .f32) (t : Fin cfg0.N) (k : Fin 8) (j : Fin 16384)
    (i : S1x8x2097152.Idx) (h0 : (i 0).val = 0) (h1 : (i 1).val = k.val) (h2 : (i 2).val = t.val * 16384 + j.val) :
    (((cfg0.win 1).blk t).view.read (Elt Ideal) X : Vec Ideal S1x8x16384 .f32) (ix3 (0 : Fin 1) k j) = X i := by
  obtain ⟨-, -, -, e0, e1, e2, -⟩ := idx_facts t
  rw [View.read_apply]
  show X _ = X i
  refine congrArg X (funext fun a => Fin.ext ?_)
  match a with
  | ⟨0, _⟩ => show win0_1.index t (0 : Fin 3) * 1 + 1 * (0 : Fin 1).val = (i 0).val; rw [e0, h0]; rfl
  | ⟨1, _⟩ => show win0_1.index t (1 : Fin 3) * 8 + 1 * k.val = (i 1).val; rw [e1, h1]; omega
  | ⟨2, _⟩ => show win0_1.index t (2 : Fin 3) * 16384 + 1 * j.val = (i 2).val; rw [e2, h2]; omega

/-- The value block and the weight block a grid point loads, read in the arrays the region finds. -/
theorem iblk0_apply (c : Dev nD) (t : Fin cfg0.N) (ch : Fin 12) (k : Fin 8) (j : Fin 16384) (i : S12x8x2097152.Idx)
    (h0 : (i 0).val = ch.val) (h1 : (i 1).val = k.val) (h2 : (i 2).val = t.val * 16384 + j.val) :
    (iblk m c 0 t : Vec Ideal S12x8x16384 .f32) (ix3 ch k j) = V m c main_v148 i :=
  blk0_read (V m c main_v148) t ch k j i h0 h1 h2

theorem iblk1_apply (c : Dev nD) (t : Fin cfg0.N) (k : Fin 8) (j : Fin 16384) (i : S1x8x2097152.Idx)
    (h0 : (i 0).val = 0) (h1 : (i 1).val = k.val) (h2 : (i 2).val = t.val * 16384 + j.val) :
    (iblk m c 1 t : Vec Ideal S1x8x16384 .f32) (ix3 (0 : Fin 1) k j) = V m c main_v147 i :=
  blk1_read (V m c main_v147) t k j i h0 h1 h2

/-- An entry of the region's array from its two coordinates. -/
theorem region_at (g : Vec Ideal S12x8x2097152 .f32) (w : Vec Ideal S1x8x2097152 .f32) (i : S12x2097152.Idx) (ch : Fin 12)
    (n : Fin 2097152) (h0 : (i 0).val = ch.val) (h1 : (i 1).val = n.val) :
    region g w i = ∑ k : Fin 8, g (ix3 ch k n) * w (ix3 (0 : Fin 1) k n) := by
  obtain rfl : i = ix2 ch n := funext fun a => Fin.ext (by match a with | ⟨0, _⟩ => exact h0 | ⟨1, _⟩ => exact h1)
  rfl

/-- One grid point, over any two arrays `g`, `w` and any two blocks `x0`, `x1` that are their blocks at point `t`:
    what the point stores is block `t` of the region's array of `g` and `w`. -/
theorem point_eq (g : Vec Ideal S12x8x2097152 .f32) (w : Vec Ideal S1x8x2097152 .f32) (t : Fin cfg0.N)
    (x0 : Vec Ideal S12x8x16384 .f32) (x1 : Vec Ideal S1x8x16384 .f32)
    (hx0 : ∀ (ch : Fin 12) (k : Fin 8) (j : Fin 16384) (i : S12x8x2097152.Idx), (i 0).val = ch.val → (i 1).val = k.val →
      (i 2).val = t.val * 16384 + j.val → x0 (ix3 ch k j) = g i)
    (hx1 : ∀ (k : Fin 8) (j : Fin 16384) (i : S1x8x2097152.Idx), (i 0).val = 0 → (i 1).val = k.val →
      (i 2).val = t.val * 16384 + j.val → x1 (ix3 (0 : Fin 1) k j) = w i) :
    (cfg0.win 2).cut (grid0.coords t) (k0_pay1 (F := Ideal) x0 x1)
      = ((cfg0.win 2).blk t).view.read (Elt Ideal) (region g w) := by
  refine funext fun (y : S12x16384.Idx) => ?_
  rw [View.read_apply]
  obtain ⟨ch, j, rfl⟩ : ∃ (ch : Fin 12) (j : Fin 16384), y = ix2 ch j := ⟨y 0, y 1, eq_ix2 y⟩
  have ht : t.val < 128 := Nat.lt_of_lt_of_eq t.isLt (N_0 : cfg0.N = 128)
  have hlt : t.val * 16384 + j.val < 2097152 := by have := j.isLt; omega
  obtain ⟨-, -, -, -, -, -, e6, e7⟩ := idx_facts t
  show k0_pay1 (F := Ideal) x0 x1 (ix2 ch j) = region g w (((cfg0.win 2).blk t).view.emb (ix2 ch j))
  refine (pay_apply x0 x1 ch j).trans ?_
  refine Eq.trans ?_ (region_at g w _ ch ⟨t.val * 16384 + j.val, hlt⟩ ?_ ?_).symm
  · exact Finset.sum_congr rfl fun k _ => congrArg₂ (· * ·) (hx0 ch k j _ rfl rfl rfl) (hx1 k j _ rfl rfl rfl)
  · show win0_2.index t (0 : Fin 2) * 12 + 1 * ch.val = ch.val
    rw [e6]; omega
  · show win0_2.index t (1 : Fin 2) * 16384 + 1 * j.val = t.val * 16384 + j.val
    rw [e7]; omega

/-- WHAT POINT `t` WRITES BACK is block `t` of the region's array of the two arrays the region finds. -/
theorem flushed_eq (c : Dev nD) (t : Fin cfg0.N) :
    (dats m 0 c).flushed 2 t
      = ((cfg0.win 2).blk t).view.read (Elt Ideal) (region (V m c main_v148) (V m c main_v147)) := by
  show (cfg0.win 2).cut (grid0.coords t) ((dats m 0 c).after 2 t) = _
  rw [after0_2]
  unfold out0_2
  rw [View.canon_unit_zero hz2]
  simp only [View.ld_unit_zero (S := S12x8x16384) hz3, View.ld_unit_zero (S := S1x8x16384) hz3]
  exact point_eq (V m c main_v148) (V m c main_v147) t (iblk m c 0 t) (iblk m c 1 t) (iblk0_apply m c t) (iblk1_apply m c t)

/-! ## From blocks to the array -/

/-- An index of the region's array is in point `t`'s block iff each coordinate is in the block's range on its axis. -/
theorem mem_blk (t : Fin cfg0.N) (i : S12x2097152.Idx) :
    i ∈ ((cfg0.win 2).blk t).view.set ↔ ∀ a : Fin 2, win0_2.index t a * S12x16384.size a ≤ (i a).val
      ∧ (i a).val < win0_2.index t a * S12x16384.size a + S12x16384.size a := by
  show i ∈ ((View.whole main_v149).slice (win0_2.rect t)).set ↔ _
  rw [View.set_slice_whole, Rect.mem_set_unit]
  exact Iff.rfl

/-- Every index of the region's array is written back by some point: sample point `n` by point `n / 16384`. -/
theorem covered (i : S12x2097152.Idx) :
    ∃ t : Fin cfg0.N, (cfg0.win 2).flush t = true ∧ i ∈ ((cfg0.win 2).blk t).view.set := by
  have hi0 : (i 0).val < 12 := (i 0).isLt
  have hi1 : (i 1).val < 2097152 := (i 1).isLt
  have hq : (i 1).val / 16384 < cfg0.N := by rw [show cfg0.N = 128 from N_0]; omega
  obtain ⟨-, -, -, -, -, -, e6, e7⟩ := idx_facts ⟨(i 1).val / 16384, hq⟩
  refine ⟨⟨(i 1).val / 16384, hq⟩, flush0_2 _, ?_⟩
  rw [mem_blk]
  intro a
  match a with
  | ⟨0, _⟩ =>
    show win0_2.index ⟨(i 1).val / 16384, hq⟩ (0 : Fin 2) * 12 ≤ (i 0).val
      ∧ (i 0).val < win0_2.index ⟨(i 1).val / 16384, hq⟩ (0 : Fin 2) * 12 + 12
    rw [e6]; omega
  | ⟨1, _⟩ =>
    show win0_2.index ⟨(i 1).val / 16384, hq⟩ (1 : Fin 2) * 16384 ≤ (i 1).val
      ∧ (i 1).val < win0_2.index ⟨(i 1).val / 16384, hq⟩ (1 : Fin 2) * 16384 + 16384
    rw [e7]
    show (i 1).val / 16384 * 16384 ≤ (i 1).val ∧ (i 1).val < (i 1).val / 16384 * 16384 + 16384
    omega

/-- So the region leaves in its result array the corner sums of the two arrays it finds. -/
theorem final (c : Dev nD) :
    (dats m 0 c).arrAt 2 cfg0.N = region (V m c main_v148) (V m c main_v147) :=
  (dats m 0 c).arrAt_eq_of_cover 2 (region (V m c main_v148) (V m c main_v147)) (fun t _ => flushed_eq m c t) covered

/-! ## The exchange of axes after the region -/

/-- After the one host operation that follows the region, the result buffer holds the region's array with its two axes
    exchanged. -/
theorem tail_eq (c : Dev nD) :
    Pipeline.afterTail₀ cfgs (dats m) 0 (V0 m) [hostOps1] c main_v150
      = transpose S2097152x12 [1, 0] (region (V m c main_v148) (V m c main_v147)) transposes_S12x2097152_S2097152x12_1_0 := by
  unfold Pipeline.afterTail₀
  show StableHlo.after hostOps1 _ (Proc.devRef .tc main_v150) = _
  after_results
  refine congrArg (fun x : S12x2097152.Idx → EReal => transpose S2097152x12 [1, 0] x transposes_S12x2097152_S2097152x12_1_0) ?_
  exact (Pipeline.withArrays_arr spec0 launch0.win.arr_inj c (V0 m c) (fun w => (dats m 0 c).arrAt w cfg0.N) 2).trans
    (final m c)

end Cert.KernelIdeal.KVal

end
-- ==== Proof.FrameBodyIdeal.lean ====
/-
  The body of the region at a grid point, as the pipeline calls it: on whole staging buffers holding the two input
  blocks, it loads both, loads the output buffer once (the value is not used), and stores over the whole output buffer
  the sum over the eight corners of corner value times corner weight. Hence the library's body obligation at every point.
-/
import proofs.«163780_j49606872269475_2_alg».proof.Proof.FrameIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The input windows hold their blocks -/

/-- Input window 0's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for input window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The one store covers the output buffer -/

theorem cover0_2 (p0 : Vec F S12x16384 .f32) (y : S12x16384.Idx) :
    ∃ pc ∈ ([⟨r0_2, p0⟩] : List (View.Piece (Elt F) S12x16384 .f32)), y ∈ pc.1.set :=
  View.cover_of_tiled [⟨r0_2, p0⟩] S12x16384.size (by rfl) y

/-! ## The body's triple -/

set_option maxHeartbeats 1000000 in
/-- The body on whole staging buffers, the inputs' at read contents `x0`, `x1` and the output's at anything, runs to the
    continuation holding the inputs' as they were and the output's at `out0_2 x0 x1`. The load of the output buffer
    needs only that the buffer is owned, at whatever contents. -/
theorem sound_kernel (c : Dev nD) (E : Set ℕ) (i : grid0.Coords)
    (arg1 : Memref sig .tc .vmem S12x8x16384 .f32) (harg1 : arg1.IsWhole)
    (arg2 : Memref sig .tc .vmem S1x8x16384 .f32) (harg2 : arg2.IsWhole)
    (arg3 : Memref sig .tc .vmem S12x16384 .f32) (harg3 : arg3.IsWhole)
    (x0 : Vec F S12x8x16384 .f32) (x1 : Vec F S1x8x16384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__combine_kernel i arg1 harg1 arg2 harg2 arg3 harg3) K := by
  simp only [cc0__combine_kernel_eq_skeleton]; unfold cc0__combine_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the input buffers hold their blocks, so the body's triple applies; the invariant and the
    core's owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.FrameRunIdeal.lean ====
/-
  The kernel program's main function around its one region: the host operations before the region run to the
  region-entry contents, the region runs as the pipeline with the body obligation discharged at every grid point, and
  the one host operation after it (the transpose of the region's result) runs on. No operation before or after the
  region writes any of the four argument arrays, and the region stages none of them: they end as launched.
-/
import proofs.«163780_j49606872269475_2_alg».proof.Proof.FrameBodyIdeal

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations allocate nothing -/

set_option maxHeartbeats 4000000 in
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
set_option maxHeartbeats 4000000 in
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## No host operation before the region writes an argument array -/

/-- An operation that writes none of the four argument arrays. -/
abbrev KeepsArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

set_option maxHeartbeats 8000000 in
theorem hostOps0_keeps : (hostOps0 : List (HloOp τ sig (Elt F))).Forall KeepsArgs := by
  simp only [hostOps0, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_1_keeps : (hostOps0_1 : List (HloOp τ sig (Elt F))).Forall KeepsArgs := by
  simp only [hostOps0_1, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_2_keeps : (hostOps0_2 : List (HloOp τ sig (Elt F))).Forall KeepsArgs := by
  simp only [hostOps0_2, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_3_keeps : (hostOps0_3 : List (HloOp τ sig (Elt F))).Forall KeepsArgs := by
  simp only [hostOps0_3, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_4_keeps : (hostOps0_4 : List (HloOp τ sig (Elt F))).Forall KeepsArgs := by
  simp only [hostOps0_4, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_5_keeps : (hostOps0_5 : List (HloOp τ sig (Elt F))).Forall KeepsArgs := by
  simp only [hostOps0_5, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_6_keeps : (hostOps0_6 : List (HloOp τ sig (Elt F))).Forall KeepsArgs := by
  simp only [hostOps0_6, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_7_keeps : (hostOps0_7 : List (HloOp τ sig (Elt F))).Forall KeepsArgs := by
  simp only [hostOps0_7, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_8_keeps : (hostOps0_8 : List (HloOp τ sig (Elt F))).Forall KeepsArgs := by
  simp only [hostOps0_8, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_9_keeps : (hostOps0_9 : List (HloOp τ sig (Elt F))).Forall KeepsArgs := by
  simp only [hostOps0_9, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_10_keeps : (hostOps0_10 : List (HloOp τ sig (Elt F))).Forall KeepsArgs := by
  simp only [hostOps0_10, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_11_keeps : (hostOps0_11 : List (HloOp τ sig (Elt F))).Forall KeepsArgs := by
  simp only [hostOps0_11, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
set_option maxHeartbeats 8000000 in
theorem hostOps0_12_keeps : (hostOps0_12 : List (HloOp τ sig (Elt F))).Forall KeepsArgs := by
  simp only [hostOps0_12, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)
theorem hostOps0_13_keeps : (hostOps0_13 : List (HloOp τ sig (Elt F))).Forall KeepsArgs := by
  simp only [hostOps0_13, List.Forall, KeepsArgs, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
  repeat' apply And.intro
  all_goals exact StableHlo.devRef_ne_of_ne (by decide)

/-- Every operation of every stretch before the region writes none of the argument arrays. -/
theorem prefix_keeps : ∀ ops ∈ ([hostOps0, hostOps0_1, hostOps0_2, hostOps0_3, hostOps0_4, hostOps0_5, hostOps0_6, hostOps0_7, hostOps0_8, hostOps0_9, hostOps0_10, hostOps0_11, hostOps0_12, hostOps0_13] : List (List (HloOp τ sig (Elt F)))), ∀ op ∈ ops, KeepsArgs op := by
  intro ops hops
  simp only [List.mem_cons, List.mem_nil_iff, or_false] at hops
  rcases hops with rfl | rfl | rfl | rfl | rfl | rfl | rfl | rfl | rfl | rfl | rfl | rfl | rfl | rfl
  · exact List.forall_iff_forall_mem.mp hostOps0_keeps
  · exact List.forall_iff_forall_mem.mp hostOps0_1_keeps
  · exact List.forall_iff_forall_mem.mp hostOps0_2_keeps
  · exact List.forall_iff_forall_mem.mp hostOps0_3_keeps
  · exact List.forall_iff_forall_mem.mp hostOps0_4_keeps
  · exact List.forall_iff_forall_mem.mp hostOps0_5_keeps
  · exact List.forall_iff_forall_mem.mp hostOps0_6_keeps
  · exact List.forall_iff_forall_mem.mp hostOps0_7_keeps
  · exact List.forall_iff_forall_mem.mp hostOps0_8_keeps
  · exact List.forall_iff_forall_mem.mp hostOps0_9_keeps
  · exact List.forall_iff_forall_mem.mp hostOps0_10_keeps
  · exact List.forall_iff_forall_mem.mp hostOps0_11_keeps
  · exact List.forall_iff_forall_mem.mp hostOps0_12_keeps
  · exact List.forall_iff_forall_mem.mp hostOps0_13_keeps

theorem flatten_keeps {op : HloOp τ sig (Elt F)}
    (h : op ∈ List.flatten [hostOps0, hostOps0_1, hostOps0_2, hostOps0_3, hostOps0_4, hostOps0_5, hostOps0_6, hostOps0_7, hostOps0_8, hostOps0_9, hostOps0_10, hostOps0_11, hostOps0_12, hostOps0_13]) : KeepsArgs op := by
  obtain ⟨ops, hops, hop⟩ := List.mem_flatten.mp h
  exact prefix_keeps ops hops op hop

/-! ## The main function around the region -/

/-- The main function at the certificate's variants: the fourteen stretches of host operations, the region, the one
    host operation after it; it reduces to the region continued by the later operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13] [hostOps1]
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub⟩
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh⟩ main_chain

/-- The operation after the region touches the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And writes no array of the pipeline (it writes the transposed result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! ## The argument arrays, at the region's entry and at the end -/

/-- The region finds `main_arg0` as launched. -/
theorem V_main_arg0 (c : Dev nD) : V m c main_arg0 = m ((c : Thread nD τ).loc main_arg0) :=
  StableHlo.after_of_forall_not_mem (b := Proc.devRef .tc main_arg0) _ _ (fun op hop => (flatten_keeps hop).1)

/-- The operation after the region does not write `main_arg0`, and the region stages no argument array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The region finds `main_arg1` as launched. -/
theorem V_main_arg1 (c : Dev nD) : V m c main_arg1 = m ((c : Thread nD τ).loc main_arg1) :=
  StableHlo.after_of_forall_not_mem (b := Proc.devRef .tc main_arg1) _ _ (fun op hop => (flatten_keeps hop).2.1)

/-- The operation after the region does not write `main_arg1`, and the region stages no argument array: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The region finds `main_arg2` as launched. -/
theorem V_main_arg2 (c : Dev nD) : V m c main_arg2 = m ((c : Thread nD τ).loc main_arg2) :=
  StableHlo.after_of_forall_not_mem (b := Proc.devRef .tc main_arg2) _ _ (fun op hop => (flatten_keeps hop).2.2.1)

/-- The operation after the region does not write `main_arg2`, and the region stages no argument array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- The region finds `main_arg3` as launched. -/
theorem V_main_arg3 (c : Dev nD) : V m c main_arg3 = m ((c : Thread nD τ).loc main_arg3) :=
  StableHlo.after_of_forall_not_mem (b := Proc.devRef .tc main_arg3) _ _ (fun op hop => (flatten_keeps hop).2.2.2)

/-- The operation after the region does not write `main_arg3`, and the region stages no argument array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The frame claim's post from the frame run's -/

/-- For any proof data, a run to the library's frame post, read at the four argument arrays (none is an array of the
    pipeline, each is unscoped), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The run and the frame -/

set_option backward.isDefEq.respectTransparency.types false in
/-- From any memory with zero counters: every weakly fair execution of the main function on the TensorCores
    terminates, and every final state has every array of the pipeline at what the library computes from the proof data
    and every other unscoped buffer as the operation after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Fr.run_main' depends on axioms: [propext, Classical.choice, Quot.sound] -/
#guard_msgs in #print axioms run_main

/-- The frame of the kernel program: it runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.KernelRun.lean ====
/-
  The kernel program's run, read: from the run around the region — every array of the pipeline at what the grid points
  wrote back, every other buffer as the host operation after the region leaves it — to the statement that the result buffer
  holds, at (n, ch), the sum over the eight corners of corner value times corner weight of channel `ch` at sample point `n`,
  and that the four arguments are as launched.
-/
import proofs.«163780_j49606872269475_2_alg».proof.Proof.KernelValue
import proofs.«163780_j49606872269475_2_alg».proof.Proof.FrameRunIdeal

noncomputable section

open scoped BigOperators

namespace Cert.KernelIdeal.KVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Fr

/-- THE KERNEL PROGRAM'S RUN: every weakly fair execution ends with the result buffer at the corner sums of the two arrays
    the region finds — channel `ch` of point `n` at index (n, ch) — and the four arguments as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v150)
          = Kout (Cert.KernelIdeal.Fr.V m c main_v148) (Cert.KernelIdeal.Fr.V m c main_v147)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(((h c).2 main_v150 (Pipeline.mem_restRefs_of main_v150 (by decide) (by decide))).trans (tail_eq m c)).trans
        (transpose_region _ _ _),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KVal

end
-- ==== Proof.EntryLemmas.lean ====
/-
  Lemmas for reading, element by element, the two arrays the region stages.

  Words: a 32-bit signed integer in range is its unsigned reading; a nonnegative index is not wrapped around; the flat
  voxel index z · 25600 + y · 160 + x of three coordinates in 0 … 159 does not wrap. Arrays: eight rows stacked, read at
  an index; a reduction by "and" of bits that are all 1; the gather of columns of a two-axis array at a stack of flat
  indices, read at an index; the whole indexing the kernel program does (wrap a negative index, mask the indices in
  bounds, gather, select) read at an index when every index is in bounds; the grid flattened to twelve rows of 4096000
  voxels, read at a flat index. Last, how one buffer's contents are read off a straight line of host operations.
-/
import proofs.«163780_j49606872269475_2_alg».proof.Proof.EntryIdeal
import Idealize.ShloMosaic.Lib.StableHlo.Run
import Idealize.ShloMosaic.Lib.ValueIdx
import Idealize.ShloMosaic.Lib.Pipeline.Value
import Idealize.ShloMosaic.PureOps.Reduce

noncomputable section

namespace Cert.KernelIdeal.HVal

open Idealize.ShloMosaic Idealize.ShloMosaic.TcCoe Idealize.ShloMosaic.ValueIdx
open Idealize.SL Idealize.SL.Sem
open Cert.KernelIdeal Cert.KernelIdeal.Gen
open Idealize.ShloMosaic.StableHlo

/-! ## Words: comparisons and the index wrap on a 32-bit signed integer in range -/

/-- A signed reading between 0 and a bound below 2³¹ is the unsigned reading. -/
theorem toNat_of_range (v : BitVec 32) (b : Nat) (hb : b < 2147483648) (h0 : 0 ≤ v.toInt) (h1 : v.toInt ≤ b) :
    v.toNat ≤ b ∧ v.toInt = (v.toNat : Int) := by
  have hc := BitVec.toInt_eq_toNat_cond v
  have hl := v.isLt
  split_ifs at hc <;> omega

/-- A nonnegative index is not wrapped around. -/
theorem wrap_nonneg (v e : BitVec 32) (h : 0 ≤ v.toInt) :
    Scalar.select (IntOp.cmpi .slt v (0#32)) (IntOp.addi v e) v = v := by
  have h0 : (0#32 : BitVec 32).toInt = 0 := by decide
  have hc : IntOp.cmpi .slt v (0#32) = 0#1 := by
    unfold IntOp.cmpi
    simp only [BitVec.slt, h0]
    have : ¬ v.toInt < 0 := by omega
    simp [this]
  rw [hc]
  exact select_zero _ _

/-- "At least 0", signed, holds of a nonnegative reading. -/
theorem cmpi_sge_zero (v : BitVec 32) (h : 0 ≤ v.toInt) : IntOp.cmpi .sge v (0#32) = 1#1 := by
  have h0 : (0#32 : BitVec 32).toInt = 0 := by decide
  unfold IntOp.cmpi
  simp only [BitVec.sle, h0]
  simp [h]

/-- "At most 4095999", signed, holds of a reading at most 4095999. -/
theorem cmpi_sle_last (v : BitVec 32) (h : v.toInt ≤ 4095999) : IntOp.cmpi .sle v (4095999#32) = 1#1 := by
  have h0 : (4095999#32 : BitVec 32).toInt = 4095999 := by decide
  unfold IntOp.cmpi
  simp only [BitVec.sle, h0]
  simp [h]

/-- The flat index of voxel (z, y, x) of a 160 × 160 × 160 grid, computed on 32-bit integers, does not wrap when the
    three coordinates are in 0 … 159: its signed reading is z · 25600 + y · 160 + x. -/
theorem lin_toInt (z y x : BitVec 32) (hz0 : 0 ≤ z.toInt) (hz1 : z.toInt ≤ 159) (hy0 : 0 ≤ y.toInt) (hy1 : y.toInt ≤ 159)
    (hx0 : 0 ≤ x.toInt) (hx1 : x.toInt ≤ 159) :
    (IntOp.addi (IntOp.addi (IntOp.muli z (25600#32)) (IntOp.muli y (160#32))) x).toInt
      = ((z.toInt.toNat * 25600 + y.toInt.toNat * 160 + x.toInt.toNat : Nat) : Int) := by
  obtain ⟨hz, ez⟩ := toNat_of_range z 159 (by decide) hz0 hz1
  obtain ⟨hy, ey⟩ := toNat_of_range y 159 (by decide) hy0 hy1
  obtain ⟨hx, ex⟩ := toNat_of_range x 159 (by decide) hx0 hx1
  have hn : (IntOp.addi (IntOp.addi (IntOp.muli z (25600#32)) (IntOp.muli y (160#32))) x).toNat
      = z.toNat * 25600 + y.toNat * 160 + x.toNat := by
    unfold IntOp.addi IntOp.muli
    rw [BitVec.toNat_add, BitVec.toNat_add, BitVec.toNat_mul, BitVec.toNat_mul]
    show ((z.toNat * 25600 % 2 ^ 32 + y.toNat * 160 % 2 ^ 32) % 2 ^ 32 + x.toNat) % 2 ^ 32 = _
    omega
  have hc := BitVec.toInt_eq_toNat_cond (IntOp.addi (IntOp.addi (IntOp.muli z (25600#32)) (IntOp.muli y (160#32))) x)
  rw [hn] at hc
  rw [hc, ez, ey, ex, if_pos (by omega)]
  simp only [Int.toNat_natCast]

/-! ## Eight rows stacked, read at an index -/

/-- Eight rows of one length stacked into an eight-row array. -/
def cat8 {α : Type} (r0 r1 r2 r3 r4 r5 r6 r7 : S1x2097152.Idx → α) : S8x2097152.Idx → α :=
  concatenate S8x2097152 0 [⟨S1x2097152, r0⟩, ⟨S1x2097152, r1⟩, ⟨S1x2097152, r2⟩, ⟨S1x2097152, r3⟩, ⟨S1x2097152, r4⟩,
    ⟨S1x2097152, r5⟩, ⟨S1x2097152, r6⟩, ⟨S1x2097152, r7⟩]
    concatenates_S1x2097152_S1x2097152_S1x2097152_S1x2097152_S1x2097152_S1x2097152_S1x2097152_S1x2097152_S8x2097152_d0

/-- Row k of the stack at column n is the k-th of the eight rows at column n. -/
theorem cat8_apply {α : Type} (r0 r1 r2 r3 r4 r5 r6 r7 : S1x2097152.Idx → α) (k : Fin 8) (n : Fin 2097152) :
    cat8 r0 r1 r2 r3 r4 r5 r6 r7 (ix2 k n) = (![r0, r1, r2, r3, r4, r5, r6, r7] k) (ix2 (0 : Fin 1) n) := by
  have key := concatenate_ofFn_apply (t := S8x2097152) (s₁ := S1x2097152) (0 : Fin 2) (N := 8)
    (fun j : Fin 8 => ![r0, r1, r2, r3, r4, r5, r6, r7] j)
    concatenates_S1x2097152_S1x2097152_S1x2097152_S1x2097152_S1x2097152_S1x2097152_S1x2097152_S1x2097152_S8x2097152_d0
    rfl 1 rfl (ix2 k n) k (by show k.val / 1 = k.val; omega)
    (ix2 (0 : Fin 1) n) (by show (0 : Nat) = k.val % 1; omega)
    (fun b hb => by
      match b with
      | ⟨0, _⟩ => exact absurd rfl hb
      | ⟨1, _⟩ => rfl)
  exact key

/-- A one-row copy of a vector reads the vector. -/
theorem row_apply {α : Type} (v : S2097152.Idx → α) (n : Fin 2097152) :
    broadcastInDim S1x2097152 ![1] bcast_S2097152_S1x2097152_1 v (ix2 (0 : Fin 1) n) = v (ix1 n) :=
  broadcastInDim_apply _ bcast_S2097152_S1x2097152_1 v _ (ix1 n) (fun a => match a with
    | ⟨0, _⟩ => by show n.val = if (2097152 : Nat) = 1 then 0 else n.val; rw [if_neg (by decide)])

/-! ## A reduction by "and" of bits that are all 1 -/

theorem foldl_andi_one {ι : Type} (f : ι → BitVec 1) (hf : ∀ n, f n = 1#1) :
    ∀ l : List ι, l.foldl (fun r n => IntOp.andi r (f n)) (1#1) = 1#1
  | [] => rfl
  | a :: l => by
    rw [List.foldl_cons, hf a, show IntOp.andi (1#1) (1#1) = 1#1 from by decide]
    exact foldl_andi_one f hf l

theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl, hi]
  exact foldl_andi_one x hx _

/-! ## The gather of columns of a two-axis array at a stack of flat indices, read at an index -/

/-- The kernel program's gather dimension numbers: operand [12, 4096000], start indices [8, N, 1], result [12, 8, N]. -/
abbrev gdK : GatherDims S12x4096000 S8x2097152x1 S12x8x2097152 := gather_S12x4096000_S8x2097152x1_S12x8x2097152_0_1_n_n_1_2_121

/-- The start-indices index of the one component of the start index of result element (ch, k, n) is (k, n, 0). -/
theorem siIdx_eq (ch : Fin 12) (k : Fin 8) (n : Fin 2097152) :
    gdK.siIdx (ix3 ch k n) ⟨0, by decide⟩ = (ix3 k n (0 : Fin 1) : S8x2097152x1.Idx) := by
  funext b; refine Fin.ext ?_
  match b with
  | ⟨0, _⟩ => rfl
  | ⟨1, _⟩ => rfl
  | ⟨2, _⟩ => rfl

/-- The gather at (ch, k, n): the operand at row ch and at the column the start index (k, n, 0) names, read as a
    signed integer and clamped into the operand's columns. -/
theorem gather_apply {α : Type} (g : S12x4096000.Idx → α) (idx : IVec S8x2097152x1 32) (ch : Fin 12) (k : Fin 8) (n : Fin 2097152) :
    Host.gather gdK g idx (ix3 ch k n)
      = g (ix2 ch (⟨min (idx (ix3 k n (0 : Fin 1))).toInt.toNat 4095999, by omega⟩ : Fin 4096000)) := by
  unfold Host.gather
  congr 1
  funext a; refine Fin.ext ?_
  show gdK.start (ix3 ch k n) idx a + gdK.batchCoord (ix3 ch k n) a + gdK.offCoord (ix3 ch k n) a = _
  match a with
  | ⟨0, _⟩ =>
    have hb : gdK.batchCoord (ix3 ch k n) (0 : Fin 2) = 0 := GatherDims.batchCoord_eq_zero _ _ _ List.not_mem_nil
    have hs : gdK.start (ix3 ch k n) idx (0 : Fin 2) = 0 := by
      unfold GatherDims.start; rw [dif_neg (by decide)]
    have ho : gdK.offCoord (ix3 ch k n) (0 : Fin 2) = ch.val := by
      unfold GatherDims.offCoord
      rw [dif_pos (by decide)]
      rfl
    show gdK.start (ix3 ch k n) idx (0 : Fin 2) + gdK.batchCoord (ix3 ch k n) (0 : Fin 2) + gdK.offCoord (ix3 ch k n) (0 : Fin 2) = ch.val
    rw [hs, hb, ho]; omega
  | ⟨1, _⟩ =>
    show gdK.start (ix3 ch k n) idx (1 : Fin 2) + gdK.batchCoord (ix3 ch k n) (1 : Fin 2) + gdK.offCoord (ix3 ch k n) (1 : Fin 2) = _
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have e : (⟨List.idxOf (1 : Fin 2) gdK.startIndexMap, List.idxOf_lt_length_iff.2 (by decide)⟩ : Fin gdK.startIndexMap.length)
        = ⟨0, by decide⟩ := Fin.ext (by decide)
    rw [e, siIdx_eq]
    rfl

/-! ## Indexing the columns of a two-axis array by a stack of flat indices, as the kernel program does it -/

section Take

variable (g : (⟨S12x4096000, .f32⟩ : BufTy).Contents (Elt Ideal)) (idx : (⟨S8x2097152, .i32⟩ : BufTy).Contents (Elt Ideal))

/-- A negative index counts from the end: the extent is added to it. -/
def wrapIdx : IVec S8x2097152 32 :=
  select (cmpi .slt idx (broadcastInDim S8x2097152 ![] bcast_S_S8x2097152 (constantI S_ 32 0#32)))
    (addi idx (broadcastInDim S8x2097152 ![] bcast_S_S8x2097152 (constantI S_ 32 4096000#32))) idx

/-- The wrapped indices as start indices of one component. -/
def startIdx : IVec S8x2097152x1 32 :=
  broadcastInDim S8x2097152x1 ![0, 1] bcast_S8x2097152_S8x2097152x1_0_1 (wrapIdx idx)

/-- Which start indices lie inside the operand's columns, 0 … 4095999. -/
def inBounds : IVec S8x2097152x1 1 :=
  andi (cmpi .sge (startIdx idx) (broadcastInDim S8x2097152x1 ![] bcast_S_S8x2097152x1 (constantI S_ 32 0#32)))
    (cmpi .sle (startIdx idx) (broadcastInDim S8x2097152x1 ![0, 1, 2] bcast_S1x1x1_S8x2097152x1_0_1_2
      (broadcastInDim S1x1x1 ![2] bcast_S1_S1x1x1_2 (constantI S1 32 4095999#32))))

/-- The same, per index (the "and" over the one component). -/
def inMask : IVec S8x2097152 1 :=
  Host.reduce IntOp.andi (inBounds idx) (constantI S_ 1 1#1) reducesTo_S8x2097152x1_S8x2097152_d2 h_S_

/-- Columns of g at the indices idx, for every row of g; not-a-number where an index is out of bounds. -/
def take : (⟨S12x8x2097152, .f32⟩ : BufTy).Contents (Elt Ideal) :=
  select (broadcastInDim S12x8x2097152 ![1, 2] bcast_S8x2097152_S12x8x2097152_1_2 (inMask idx))
    (Host.gather gather_S12x4096000_S8x2097152x1_S12x8x2097152_0_1_n_n_1_2_121 g (startIdx idx))
    (broadcastInDim S12x8x2097152 ![] bcast_S_S12x8x2097152 (constant (F := Ideal) S_ .f32 0x7FC00000#32))

theorem wrapIdx_apply (j : S8x2097152.Idx) (h0 : 0 ≤ (idx j).toInt) : wrapIdx idx j = idx j := by
  show Scalar.select (IntOp.cmpi .slt (idx j) (0#32)) (IntOp.addi (idx j) (4096000#32)) (idx j) = idx j
  exact wrap_nonneg _ _ h0

theorem startIdx_apply (k : Fin 8) (n : Fin 2097152) (z : Fin 1) : startIdx idx (ix3 k n z) = wrapIdx idx (ix2 k n) :=
  broadcastInDim_apply _ bcast_S8x2097152_S8x2097152x1_0_1 (wrapIdx idx) (ix3 k n z) (ix2 k n) (fun a => match a with
    | ⟨0, _⟩ => by show k.val = if (8 : Nat) = 1 then 0 else k.val; rw [if_neg (by decide)]
    | ⟨1, _⟩ => by show n.val = if (2097152 : Nat) = 1 then 0 else n.val; rw [if_neg (by decide)])

variable (hr : ∀ (k : Fin 8) (n : Fin 2097152), 0 ≤ (idx (ix2 k n)).toInt ∧ (idx (ix2 k n)).toInt ≤ 4095999)
include hr

theorem inBounds_one (i : S8x2097152x1.Idx) : inBounds idx i = 1#1 := by
  obtain ⟨k, n, z, rfl⟩ : ∃ (k : Fin 8) (n : Fin 2097152) (z : Fin 1), i = ix3 k n z := ⟨i 0, i 1, i 2, eq_ix3 i⟩
  show IntOp.andi (IntOp.cmpi .sge (startIdx idx (ix3 k n z)) (0#32)) (IntOp.cmpi .sle (startIdx idx (ix3 k n z)) (4095999#32)) = 1#1
  rw [startIdx_apply, wrapIdx_apply idx _ (hr k n).1, cmpi_sge_zero _ (hr k n).1, cmpi_sle_last _ (hr k n).2]
  decide

theorem inMask_one (j : S8x2097152.Idx) : inMask idx j = 1#1 :=
  reduce_andi_of_all _ _ _ _ j (inBounds_one idx hr) (fun _ => rfl)

/-- With every index in bounds, element (ch, k, n) is g at row ch and column idx (k, n). -/
theorem take_apply (ch : Fin 12) (k : Fin 8) (n : Fin 2097152) :
    take g idx (ix3 ch k n)
      = g (ix2 ch (⟨(idx (ix2 k n)).toInt.toNat, by have := hr k n; omega⟩ : Fin 4096000)) := by
  have hm : broadcastInDim S12x8x2097152 ![1, 2] bcast_S8x2097152_S12x8x2097152_1_2 (inMask idx) (ix3 ch k n) = 1#1 := by
    rw [broadcastInDim_apply _ bcast_S8x2097152_S12x8x2097152_1_2 (inMask idx) (ix3 ch k n) (ix2 k n) (fun a => match a with
      | ⟨0, _⟩ => by show k.val = if (8 : Nat) = 1 then 0 else k.val; rw [if_neg (by decide)]
      | ⟨1, _⟩ => by show n.val = if (2097152 : Nat) = 1 then 0 else n.val; rw [if_neg (by decide)])]
    exact inMask_one idx hr _
  unfold take
  rw [select_apply, hm, select_one]
  refine (gather_apply g (startIdx idx) ch k n).trans ?_
  refine congrArg (fun p : Fin 4096000 => g (ix2 ch p)) (Fin.ext ?_)
  show min (startIdx idx (ix3 k n (0 : Fin 1))).toInt.toNat 4095999 = (idx (ix2 k n)).toInt.toNat
  rw [startIdx_apply, wrapIdx_apply idx _ (hr k n).1]
  have := hr k n
  omega

end Take

/-! ## The grid as twelve rows of 4096000 voxels -/

/-- The grid with its unit axis dropped and its three spatial axes flattened. -/
def gridFlat (x1 : (⟨S1x12x160x160x160, .f32⟩ : BufTy).Contents (Elt Ideal)) : (⟨S12x4096000, .f32⟩ : BufTy).Contents (Elt Ideal) :=
  shapeCast S12x4096000 (shapeCast S12x160x160x160 x1 shapeCasts_S1x12x160x160x160_S12x160x160x160)
    shapeCasts_S12x160x160x160_S12x4096000

/-- Row ch, column z · 25600 + y · 160 + x of the flattened grid is the grid's voxel (z, y, x) of channel ch. -/
theorem gridFlat_apply (x1 : (⟨S1x12x160x160x160, .f32⟩ : BufTy).Contents (Elt Ideal)) (ch : Fin 12) (z y x : Fin 160)
    (p : Fin 4096000) (hp : p.val = z.val * 25600 + y.val * 160 + x.val) :
    gridFlat x1 (ix2 ch p) = x1 (ix5 (0 : Fin 1) ch z y x) := by
  unfold gridFlat
  rw [shapeCast_apply _ shapeCasts_S12x160x160x160_S12x4096000 (ix2 ch p) (ix4 ch z y x) (by
    rw [Shape.rowMajor_val_four, Shape.rowMajor_val_two]
    show ((ch.val * 160 + z.val) * 160 + y.val) * 160 + x.val = ch.val * 4096000 + p.val
    omega)]
  exact shapeCast_apply x1 shapeCasts_S1x12x160x160x160_S12x160x160x160 (ix4 ch z y x) (ix5 (0 : Fin 1) ch z y x) (by
    rw [Shape.rowMajor_val_five, Shape.rowMajor_val_four]
    show ((((0 : Nat) * 12 + ch.val) * 160 + z.val) * 160 + y.val) * 160 + x.val = ((ch.val * 160 + z.val) * 160 + y.val) * 160 + x.val
    omega)

/-! ## The flat voxel index, per sample point -/

/-- z · 25600 + y · 160 + x on vectors of 32-bit integers, one entry per sample point. -/
def lin (Z Y X : IVec S2097152 32) : IVec S2097152 32 :=
  addi (addi (muli Z (broadcastInDim S2097152 ![] bcast_S_S2097152 (constantI S_ 32 25600#32)))
    (muli Y (broadcastInDim S2097152 ![] bcast_S_S2097152 (constantI S_ 32 160#32)))) X

theorem lin_apply (Z Y X : IVec S2097152 32) (i : S2097152.Idx) :
    lin Z Y X i = IntOp.addi (IntOp.addi (IntOp.muli (Z i) (25600#32)) (IntOp.muli (Y i) (160#32))) (X i) := rfl

/-- A vector as a one-row array. -/
abbrev row {α : Type} (v : S2097152.Idx → α) : S1x2097152.Idx → α :=
  broadcastInDim S1x2097152 ![1] bcast_S2097152_S1x2097152_1 v

/-! ## Reading one buffer off the straight line of host operations -/

/-- Two lines of operations run one after the other are their concatenation run as one. -/
theorem after_append (l₁ l₂ : List (HloOp τ sig (Elt Ideal))) :
    ∀ W : Valuation τ sig (Elt Ideal), StableHlo.after (l₁ ++ l₂) W = StableHlo.after l₂ (StableHlo.after l₁ W) := by
  induction l₁ with
  | nil => intro W; rfl
  | cons op l ih => intro W; exact ih (op.result W)

section Concat8
variable (W : Valuation τ sig (Elt Ideal))

/-- The concatenate of the eight index rows leaves in its result buffer the stack of the eight operands' contents. -/
theorem v137_result' (hxs hy) :
    (StableHlo.nary (τ := τ) ![main_v129, main_v130, main_v131, main_v132, main_v133, main_v134, main_v135, main_v136] main_v137
      (fun u => concatenate S8x2097152 0 [⟨S1x2097152, u 0⟩, ⟨S1x2097152, u 1⟩, ⟨S1x2097152, u 2⟩, ⟨S1x2097152, u 3⟩, ⟨S1x2097152, u 4⟩, ⟨S1x2097152, u 5⟩, ⟨S1x2097152, u 6⟩, ⟨S1x2097152, u 7⟩] concatenates_S1x2097152_S1x2097152_S1x2097152_S1x2097152_S1x2097152_S1x2097152_S1x2097152_S1x2097152_S8x2097152_d0)
      hxs hy).result W (no_index (Proc.devRef .tc main_v137))
    = (cat8 (W (Proc.devRef .tc main_v129)) (W (Proc.devRef .tc main_v130)) (W (Proc.devRef .tc main_v131))
        (W (Proc.devRef .tc main_v132)) (W (Proc.devRef .tc main_v133)) (W (Proc.devRef .tc main_v134))
        (W (Proc.devRef .tc main_v135)) (W (Proc.devRef .tc main_v136)) : (⟨S8x2097152, .i32⟩ : BufTy).Contents (Elt Ideal)) :=
  StableHlo.nary_result _ _ _ hxs hy W

/-- The concatenate of the eight weight rows, likewise. -/
theorem v146_result' (hxs hy) :
    (StableHlo.nary (τ := τ) ![main_v138, main_v139, main_v140, main_v141, main_v142, main_v143, main_v144, main_v145] main_v146
      (fun u => concatenate S8x2097152 0 [⟨S1x2097152, u 0⟩, ⟨S1x2097152, u 1⟩, ⟨S1x2097152, u 2⟩, ⟨S1x2097152, u 3⟩, ⟨S1x2097152, u 4⟩, ⟨S1x2097152, u 5⟩, ⟨S1x2097152, u 6⟩, ⟨S1x2097152, u 7⟩] concatenates_S1x2097152_S1x2097152_S1x2097152_S1x2097152_S1x2097152_S1x2097152_S1x2097152_S1x2097152_S8x2097152_d0)
      hxs hy).result W (no_index (Proc.devRef .tc main_v146))
    = (cat8 (W (Proc.devRef .tc main_v138)) (W (Proc.devRef .tc main_v139)) (W (Proc.devRef .tc main_v140))
        (W (Proc.devRef .tc main_v141)) (W (Proc.devRef .tc main_v142)) (W (Proc.devRef .tc main_v143))
        (W (Proc.devRef .tc main_v144)) (W (Proc.devRef .tc main_v145)) : (⟨S8x2097152, .f32⟩ : BufTy).Contents (Elt Ideal)) :=
  StableHlo.nary_result _ _ _ hxs hy W
end Concat8

/-- Contents moved to a buffer's own type and back are the contents. -/
theorem ofBuf_toBuf {T : BufTy} (x : StableHlo.TRef sig T) (v : T.Contents (Elt Ideal)) : x.ofBuf (x.toBuf v) = v := by
  obtain ⟨r, h, a, b⟩ := x
  subst h
  rfl

/-- The contents of one buffer after a straight line of host operations, in one rewriting pass: every operation's
    result at its own buffer is its function's value, and at any other buffer what was there before. -/
macro "prefix_results" : tactic =>
  `(tactic| (simp (disch := decide) only [StableHlo.after_cons, StableHlo.after_nil,
      StableHlo.nullary_result', StableHlo.unary_result', StableHlo.binary_result', StableHlo.ternary_result', StableHlo.reshape_result',
      v137_result', v146_result', ofBuf_toBuf,
      StableHlo.nullary_result_ne', StableHlo.unary_result_ne', StableHlo.binary_result_ne', StableHlo.ternary_result_ne', StableHlo.reshape_result_ne',
      StableHlo.nary_result_ne']))

/-- The indexing of the grid, read off its operations: from any contents before it, its result is the columns of the
    flattened grid's buffer at the indices in the stacked indices' buffer. -/
theorem take_read (B : Valuation τ sig (Elt Ideal)) :
    (StableHlo.TRef.of main_v148 : StableHlo.TRef sig ⟨S12x8x2097152, .f32⟩).ofBuf
        (StableHlo.after hostOps0_13 B (Proc.devRef .tc main_v148))
      = take (B (Proc.devRef .tc main_v1)) (B (Proc.devRef .tc main_v137)) := by
  simp only [hostOps0_13]
  prefix_results
  rfl

end Cert.KernelIdeal.HVal

end
-- ==== Proof.Spec.lean ====
/-
  The common value of the two programs, index by index.

  Both programs locate each sample point in the 160 × 160 × 160 voxel grid, take the lower corner of its cell on each axis
  (clipped into 0 … 159) and the next one (clipped again), and form the trilinear combination of the eight corner values
  of every channel with the eight products of the per-axis weights. Corner number `k` (0 … 7) takes the upper corner on
  the depth axis when bit 2 of `k` is set, on the height axis when bit 1 is set, on the width axis when bit 0 is set.

  Written here over the stage functions of the reference's host program: `zsel`, `ysel`, `xsel` — corner `k`'s three
  clipped integer coordinates, per point —, `wt` — corner `k`'s weight, per point —, `cell` — the grid's value at a channel
  and three integer coordinates, each read as a signed integer and clamped into 0 … 159 —, and `G`, the sum over the
  eight corners of value times weight.
-/
import proofs.«163780_j49606872269475_2_alg».proof.Proof.RefStagesP
import Idealize.ShloMosaic.Lib.ValueIdx

noncomputable section

open scoped BigOperators

namespace Cert.Spec

open Idealize.ShloMosaic Idealize.ShloMosaic.ValueIdx Cert.ReferenceIdeal Cert.ReferenceIdeal.Read

/-- The sample points, the voxel grid, and a bound of the sampled box, as arrays of extended reals. -/
abbrev Pts := (⟨S2097152x3, .f32⟩ : BufTy).Contents (Elt Ideal)
abbrev Grid := (⟨S1x12x160x160x160, .f32⟩ : BufTy).Contents (Elt Ideal)
abbrev Bnd := (⟨S3, .f32⟩ : BufTy).Contents (Elt Ideal)
/-- One 32-bit integer per sample point; one extended real per sample point. -/
abbrev PtI := (⟨S2097152, .i32⟩ : BufTy).Contents (Elt Ideal)
abbrev PtF := (⟨S2097152, .f32⟩ : BufTy).Contents (Elt Ideal)

variable (x0 : Pts) (x1 : Grid) (x2 x3 : Bnd)

/-- Corner `k`'s clipped coordinate on the depth axis: the lower cell corner for `k < 4`, the upper one otherwise. -/
def zsel (k : Fin 8) : PtI :=
  if k.val < 4 then val_main_v48 (F := Ideal) x0 x2 x3 else val_main_v57 (F := Ideal) x0 x2 x3
/-- On the height axis: the lower corner when bit 1 of `k` is clear. -/
def ysel (k : Fin 8) : PtI :=
  if k.val / 2 % 2 = 0 then val_main_v46 (F := Ideal) x0 x2 x3 else val_main_v54 (F := Ideal) x0 x2 x3
/-- On the width axis: the lower corner when `k` is even. -/
def xsel (k : Fin 8) : PtI :=
  if k.val % 2 = 0 then val_main_v44 (F := Ideal) x0 x2 x3 else val_main_v51 (F := Ideal) x0 x2 x3

/-- Corner `k`'s trilinear weight, per point: the product of the three per-axis weights. -/
def wt : Fin 8 → PtF
  | ⟨0, _⟩ => val_main_v85 (F := Ideal) x0 x2 x3
  | ⟨1, _⟩ => val_main_v110 (F := Ideal) x0 x2 x3
  | ⟨2, _⟩ => val_main_v136 (F := Ideal) x0 x2 x3
  | ⟨3, _⟩ => val_main_v162 (F := Ideal) x0 x2 x3
  | ⟨4, _⟩ => val_main_v188 (F := Ideal) x0 x2 x3
  | ⟨5, _⟩ => val_main_v214 (F := Ideal) x0 x2 x3
  | ⟨6, _⟩ => val_main_v240 (F := Ideal) x0 x2 x3
  | ⟨7, _⟩ => val_main_v266 (F := Ideal) x0 x2 x3

/-- The grid's value at channel `ch` and the integer coordinates `z`, `y`, `x`, each read signed and clamped into 0 … 159. -/
def cell (ch : Fin 12) (z y x : BitVec 32) : EReal :=
  x1 (ix5 (0 : Fin 1) ch (⟨min z.toInt.toNat 159, by omega⟩ : Fin 160) (⟨min y.toInt.toNat 159, by omega⟩ : Fin 160)
    (⟨min x.toInt.toNat 159, by omega⟩ : Fin 160))

/-- The interpolated value of channel `ch` at sample point `n`. -/
def G (n : Fin 2097152) (ch : Fin 12) : EReal :=
  ∑ k : Fin 8, cell x1 ch (zsel x0 x2 x3 k (ix1 n)) (ysel x0 x2 x3 k (ix1 n)) (xsel x0 x2 x3 k (ix1 n)) * wt x0 x2 x3 k (ix1 n)

end Cert.Spec

end
-- ==== Proof.EntryWeights.lean ====
/-
  The stacked weights when the region is entered, as a whole array.

  The host operations compute the eight products of per-axis weights by the same operations, in the same order, as the
  reference, make each a row, stack the rows and put a unit axis in front.
-/
import proofs.«163780_j49606872269475_2_alg».proof.Proof.EntryLemmas
import proofs.«163780_j49606872269475_2_alg».proof.Proof.Spec

noncomputable section

namespace Cert.KernelIdeal.HVal

open Idealize.ShloMosaic Idealize.ShloMosaic.TcCoe Idealize.ShloMosaic.ValueIdx
open Idealize.SL Idealize.SL.Sem
open Cert.KernelIdeal Cert.KernelIdeal.Gen
open Idealize.ShloMosaic.StableHlo

section Entry

variable (m : (ℓ : Loc nD τ sig) → Buf (Elt Ideal) ℓ) (c : Dev nD)

/-- The program's four arguments as core c holds them at launch: the sample points, the grid, the two bounds. -/
abbrev A0 : Cert.Spec.Pts := m ((c : Thread nD τ).loc main_arg0)
abbrev A1 : Cert.Spec.Grid := m ((c : Thread nD τ).loc main_arg1)
abbrev A2 : Cert.Spec.Bnd := m ((c : Thread nD τ).loc main_arg2)
abbrev A3 : Cert.Spec.Bnd := m ((c : Thread nD τ).loc main_arg3)

set_option maxRecDepth 8192 in
set_option maxHeartbeats 8000000 in
/-- The stacked weights, whole: the eight corner weights, each a row, stacked, under a leading unit axis. Both sides
    are the same composition of the same operations on the arguments. -/
theorem stacked_weights :
    (Cert.KernelIdeal.Fr.V m c main_v147 : (⟨S1x8x2097152, .f32⟩ : BufTy).Contents (Elt Ideal))
      = broadcastInDim S1x8x2097152 ![1, 2] bcast_S8x2097152_S1x8x2097152_1_2
          (cat8 (row (Cert.Spec.wt (A0 m c) (A2 m c) (A3 m c) 0)) (row (Cert.Spec.wt (A0 m c) (A2 m c) (A3 m c) 1))
            (row (Cert.Spec.wt (A0 m c) (A2 m c) (A3 m c) 2)) (row (Cert.Spec.wt (A0 m c) (A2 m c) (A3 m c) 3))
            (row (Cert.Spec.wt (A0 m c) (A2 m c) (A3 m c) 4)) (row (Cert.Spec.wt (A0 m c) (A2 m c) (A3 m c) 5))
            (row (Cert.Spec.wt (A0 m c) (A2 m c) (A3 m c) 6)) (row (Cert.Spec.wt (A0 m c) (A2 m c) (A3 m c) 7))) := by
  dsimp only [Cert.KernelIdeal.Fr.V, Cert.KernelIdeal.Fr.V0]
  simp only [hostOps0, hostOps0_1, hostOps0_2, hostOps0_3, hostOps0_4, hostOps0_5, hostOps0_6, hostOps0_7,
    hostOps0_8, hostOps0_9, hostOps0_10, hostOps0_11, hostOps0_12, hostOps0_13,
    List.flatten_cons, List.flatten_nil, List.append_nil, List.cons_append, List.nil_append]
  prefix_results
  rfl

end Entry

end Cert.KernelIdeal.HVal

end
-- ==== Proof.EntryRead.lean ====
/-
  The gathered corner values when the region is entered, as a whole array.

  Up to the indexing of the grid, the host operations compute the six clipped corner coordinates by the same
  operations, in the same order, as the reference (an upper corner is the lower one plus 1, clipped again), form the
  eight flat voxel indices, make each a row and stack the rows; they also flatten the grid. The indexing then takes,
  for every channel, the flattened grid's columns at the stacked indices.
-/
import proofs.«163780_j49606872269475_2_alg».proof.Proof.EntryWeights

noncomputable section

namespace Cert.KernelIdeal.HVal

open Idealize.ShloMosaic Idealize.ShloMosaic.TcCoe Idealize.ShloMosaic.ValueIdx
open Idealize.SL Idealize.SL.Sem
open Cert.KernelIdeal Cert.KernelIdeal.Gen
open Idealize.ShloMosaic.StableHlo

/-- The next voxel along an axis, clipped into 0 … 159. -/
def clipUp (v : IVec S2097152 32) : IVec S2097152 32 :=
  minsi (broadcastInDim S2097152 ![] bcast_S_S2097152 (id (constantI S_ 32 159#32)))
    (maxsi (broadcastInDim S2097152 ![] bcast_S_S2097152 (id (constantI S_ 32 0#32)))
      (addi v (broadcastInDim S2097152 ![] bcast_S_S2097152 (constantI S_ 32 1#32))))

section Entry

variable (m : (ℓ : Loc nD τ sig) → Buf (Elt Ideal) ℓ) (c : Dev nD)

/-- The eight corners' flat voxel indices, stacked: corner k takes the upper cell corner on the depth axis when bit 2
    of k is set, on the height axis when bit 1 is set, on the width axis when bit 0 is set. -/
abbrev stackedIdxV : IVec S8x2097152 32 :=
  cat8 (row (lin (Cert.ReferenceIdeal.Read.val_main_v48 (F := Ideal) (A0 m c) (A2 m c) (A3 m c)) (Cert.ReferenceIdeal.Read.val_main_v46 (F := Ideal) (A0 m c) (A2 m c) (A3 m c)) (Cert.ReferenceIdeal.Read.val_main_v44 (F := Ideal) (A0 m c) (A2 m c) (A3 m c))))
    (row (lin (Cert.ReferenceIdeal.Read.val_main_v48 (F := Ideal) (A0 m c) (A2 m c) (A3 m c)) (Cert.ReferenceIdeal.Read.val_main_v46 (F := Ideal) (A0 m c) (A2 m c) (A3 m c)) (Cert.ReferenceIdeal.Read.val_main_v51 (F := Ideal) (A0 m c) (A2 m c) (A3 m c))))
    (row (lin (Cert.ReferenceIdeal.Read.val_main_v48 (F := Ideal) (A0 m c) (A2 m c) (A3 m c)) (Cert.ReferenceIdeal.Read.val_main_v54 (F := Ideal) (A0 m c) (A2 m c) (A3 m c)) (Cert.ReferenceIdeal.Read.val_main_v44 (F := Ideal) (A0 m c) (A2 m c) (A3 m c))))
    (row (lin (Cert.ReferenceIdeal.Read.val_main_v48 (F := Ideal) (A0 m c) (A2 m c) (A3 m c)) (Cert.ReferenceIdeal.Read.val_main_v54 (F := Ideal) (A0 m c) (A2 m c) (A3 m c)) (Cert.ReferenceIdeal.Read.val_main_v51 (F := Ideal) (A0 m c) (A2 m c) (A3 m c))))
    (row (lin (Cert.ReferenceIdeal.Read.val_main_v57 (F := Ideal) (A0 m c) (A2 m c) (A3 m c)) (Cert.ReferenceIdeal.Read.val_main_v46 (F := Ideal) (A0 m c) (A2 m c) (A3 m c)) (Cert.ReferenceIdeal.Read.val_main_v44 (F := Ideal) (A0 m c) (A2 m c) (A3 m c))))
    (row (lin (Cert.ReferenceIdeal.Read.val_main_v57 (F := Ideal) (A0 m c) (A2 m c) (A3 m c)) (Cert.ReferenceIdeal.Read.val_main_v46 (F := Ideal) (A0 m c) (A2 m c) (A3 m c)) (Cert.ReferenceIdeal.Read.val_main_v51 (F := Ideal) (A0 m c) (A2 m c) (A3 m c))))
    (row (lin (Cert.ReferenceIdeal.Read.val_main_v57 (F := Ideal) (A0 m c) (A2 m c) (A3 m c)) (Cert.ReferenceIdeal.Read.val_main_v54 (F := Ideal) (A0 m c) (A2 m c) (A3 m c)) (Cert.ReferenceIdeal.Read.val_main_v44 (F := Ideal) (A0 m c) (A2 m c) (A3 m c))))
    (row (lin (Cert.ReferenceIdeal.Read.val_main_v57 (F := Ideal) (A0 m c) (A2 m c) (A3 m c)) (Cert.ReferenceIdeal.Read.val_main_v54 (F := Ideal) (A0 m c) (A2 m c) (A3 m c)) (Cert.ReferenceIdeal.Read.val_main_v51 (F := Ideal) (A0 m c) (A2 m c) (A3 m c))))

/-- Core c's buffer contents after the host operations that precede the indexing of the grid. -/
def pre : Valuation τ sig (Elt Ideal) :=
  StableHlo.after (List.flatten [hostOps0, hostOps0_1, hostOps0_2, hostOps0_3, hostOps0_4, hostOps0_5, hostOps0_6, hostOps0_7,
    hostOps0_8, hostOps0_9, hostOps0_10, hostOps0_11, hostOps0_12]) (fun b => m (c, b))

/-- The contents when the region is entered are those, then the indexing of the grid. -/
theorem V0_eq : Cert.KernelIdeal.Fr.V0 m c = StableHlo.after hostOps0_13 (pre m c) := by
  have hl : (List.flatten [hostOps0, hostOps0_1, hostOps0_2, hostOps0_3, hostOps0_4, hostOps0_5, hostOps0_6, hostOps0_7,
    hostOps0_8, hostOps0_9, hostOps0_10, hostOps0_11, hostOps0_12, hostOps0_13] : List (HloOp τ sig (Elt Ideal)))
      = List.flatten [hostOps0, hostOps0_1, hostOps0_2, hostOps0_3, hostOps0_4, hostOps0_5, hostOps0_6, hostOps0_7,
    hostOps0_8, hostOps0_9, hostOps0_10, hostOps0_11, hostOps0_12] ++ hostOps0_13 := by
    simp only [List.flatten_cons, List.flatten_nil, List.append_nil, List.append_assoc]
  show StableHlo.after (List.flatten [hostOps0, hostOps0_1, hostOps0_2, hostOps0_3, hostOps0_4, hostOps0_5, hostOps0_6, hostOps0_7,
    hostOps0_8, hostOps0_9, hostOps0_10, hostOps0_11, hostOps0_12, hostOps0_13]) (fun b => m (c, b)) = _
  rw [hl, after_append]
  rfl

set_option maxHeartbeats 2000000 in
/-- Before the indexing, this lower corner coordinate's buffer holds the reference's stage of the same operations. -/
theorem pre_v45 : (pre m c (Proc.devRef .tc main_v45) : (⟨S2097152, .i32⟩ : BufTy).Contents (Elt Ideal))
    = Cert.ReferenceIdeal.Read.val_main_v44 (F := Ideal) (A0 m c) (A2 m c) (A3 m c) := by
  unfold pre
  simp only [hostOps0, hostOps0_1, hostOps0_2, hostOps0_3, hostOps0_4, hostOps0_5, hostOps0_6, hostOps0_7,
    hostOps0_8, hostOps0_9, hostOps0_10, hostOps0_11, hostOps0_12,
    List.flatten_cons, List.flatten_nil, List.append_nil, List.cons_append, List.nil_append]
  prefix_results
  rfl

set_option maxHeartbeats 2000000 in
/-- Before the indexing, this lower corner coordinate's buffer holds the reference's stage of the same operations. -/
theorem pre_v47 : (pre m c (Proc.devRef .tc main_v47) : (⟨S2097152, .i32⟩ : BufTy).Contents (Elt Ideal))
    = Cert.ReferenceIdeal.Read.val_main_v46 (F := Ideal) (A0 m c) (A2 m c) (A3 m c) := by
  unfold pre
  simp only [hostOps0, hostOps0_1, hostOps0_2, hostOps0_3, hostOps0_4, hostOps0_5, hostOps0_6, hostOps0_7,
    hostOps0_8, hostOps0_9, hostOps0_10, hostOps0_11, hostOps0_12,
    List.flatten_cons, List.flatten_nil, List.append_nil, List.cons_append, List.nil_append]
  prefix_results
  rfl

set_option maxHeartbeats 2000000 in
/-- Before the indexing, this lower corner coordinate's buffer holds the reference's stage of the same operations. -/
theorem pre_v49 : (pre m c (Proc.devRef .tc main_v49) : (⟨S2097152, .i32⟩ : BufTy).Contents (Elt Ideal))
    = Cert.ReferenceIdeal.Read.val_main_v48 (F := Ideal) (A0 m c) (A2 m c) (A3 m c) := by
  unfold pre
  simp only [hostOps0, hostOps0_1, hostOps0_2, hostOps0_3, hostOps0_4, hostOps0_5, hostOps0_6, hostOps0_7,
    hostOps0_8, hostOps0_9, hostOps0_10, hostOps0_11, hostOps0_12,
    List.flatten_cons, List.flatten_nil, List.append_nil, List.cons_append, List.nil_append]
  prefix_results
  rfl

set_option maxHeartbeats 2000000 in
/-- Before the indexing, this upper corner coordinate's buffer holds the lower corner's plus 1, clipped. -/
theorem pre_v52_raw : (pre m c (Proc.devRef .tc main_v52) : (⟨S2097152, .i32⟩ : BufTy).Contents (Elt Ideal))
    = clipUp (pre m c (Proc.devRef .tc main_v45)) := by
  unfold pre
  simp only [hostOps0, hostOps0_1, hostOps0_2, hostOps0_3, hostOps0_4, hostOps0_5, hostOps0_6, hostOps0_7,
    hostOps0_8, hostOps0_9, hostOps0_10, hostOps0_11, hostOps0_12,
    List.flatten_cons, List.flatten_nil, List.append_nil, List.cons_append, List.nil_append]
  prefix_results
  rfl

/-- So it holds the reference's stage of the same operations. -/
theorem pre_v52 : (pre m c (Proc.devRef .tc main_v52) : (⟨S2097152, .i32⟩ : BufTy).Contents (Elt Ideal))
    = Cert.ReferenceIdeal.Read.val_main_v51 (F := Ideal) (A0 m c) (A2 m c) (A3 m c) := by
  rw [pre_v52_raw m c, pre_v45 m c]
  rfl

set_option maxHeartbeats 2000000 in
/-- Before the indexing, this upper corner coordinate's buffer holds the lower corner's plus 1, clipped. -/
theorem pre_v55_raw : (pre m c (Proc.devRef .tc main_v55) : (⟨S2097152, .i32⟩ : BufTy).Contents (Elt Ideal))
    = clipUp (pre m c (Proc.devRef .tc main_v47)) := by
  unfold pre
  simp only [hostOps0, hostOps0_1, hostOps0_2, hostOps0_3, hostOps0_4, hostOps0_5, hostOps0_6, hostOps0_7,
    hostOps0_8, hostOps0_9, hostOps0_10, hostOps0_11, hostOps0_12,
    List.flatten_cons, List.flatten_nil, List.append_nil, List.cons_append, List.nil_append]
  prefix_results
  rfl

/-- So it holds the reference's stage of the same operations. -/
theorem pre_v55 : (pre m c (Proc.devRef .tc main_v55) : (⟨S2097152, .i32⟩ : BufTy).Contents (Elt Ideal))
    = Cert.ReferenceIdeal.Read.val_main_v54 (F := Ideal) (A0 m c) (A2 m c) (A3 m c) := by
  rw [pre_v55_raw m c, pre_v47 m c]
  rfl

set_option maxHeartbeats 2000000 in
/-- Before the indexing, this upper corner coordinate's buffer holds the lower corner's plus 1, clipped. -/
theorem pre_v58_raw : (pre m c (Proc.devRef .tc main_v58) : (⟨S2097152, .i32⟩ : BufTy).Contents (Elt Ideal))
    = clipUp (pre m c (Proc.devRef .tc main_v49)) := by
  unfold pre
  simp only [hostOps0, hostOps0_1, hostOps0_2, hostOps0_3, hostOps0_4, hostOps0_5, hostOps0_6, hostOps0_7,
    hostOps0_8, hostOps0_9, hostOps0_10, hostOps0_11, hostOps0_12,
    List.flatten_cons, List.flatten_nil, List.append_nil, List.cons_append, List.nil_append]
  prefix_results
  rfl

/-- So it holds the reference's stage of the same operations. -/
theorem pre_v58 : (pre m c (Proc.devRef .tc main_v58) : (⟨S2097152, .i32⟩ : BufTy).Contents (Elt Ideal))
    = Cert.ReferenceIdeal.Read.val_main_v57 (F := Ideal) (A0 m c) (A2 m c) (A3 m c) := by
  rw [pre_v58_raw m c, pre_v49 m c]
  rfl

set_option maxRecDepth 8192 in
set_option maxHeartbeats 4000000 in
/-- Before the indexing, the stacked indices' buffer holds the stack of the eight rows z · 25600 + y · 160 + x of the
    corner coordinates' buffers. -/
theorem pre_idx_raw :
    (pre m c (Proc.devRef .tc main_v137) : (⟨S8x2097152, .i32⟩ : BufTy).Contents (Elt Ideal))
      = cat8 (row (lin (pre m c (Proc.devRef .tc main_v49)) (pre m c (Proc.devRef .tc main_v47)) (pre m c (Proc.devRef .tc main_v45))))
        (row (lin (pre m c (Proc.devRef .tc main_v49)) (pre m c (Proc.devRef .tc main_v47)) (pre m c (Proc.devRef .tc main_v52))))
        (row (lin (pre m c (Proc.devRef .tc main_v49)) (pre m c (Proc.devRef .tc main_v55)) (pre m c (Proc.devRef .tc main_v45))))
        (row (lin (pre m c (Proc.devRef .tc main_v49)) (pre m c (Proc.devRef .tc main_v55)) (pre m c (Proc.devRef .tc main_v52))))
        (row (lin (pre m c (Proc.devRef .tc main_v58)) (pre m c (Proc.devRef .tc main_v47)) (pre m c (Proc.devRef .tc main_v45))))
        (row (lin (pre m c (Proc.devRef .tc main_v58)) (pre m c (Proc.devRef .tc main_v47)) (pre m c (Proc.devRef .tc main_v52))))
        (row (lin (pre m c (Proc.devRef .tc main_v58)) (pre m c (Proc.devRef .tc main_v55)) (pre m c (Proc.devRef .tc main_v45))))
        (row (lin (pre m c (Proc.devRef .tc main_v58)) (pre m c (Proc.devRef .tc main_v55)) (pre m c (Proc.devRef .tc main_v52)))) := by
  unfold pre
  simp only [hostOps0, hostOps0_1, hostOps0_2, hostOps0_3, hostOps0_4, hostOps0_5, hostOps0_6, hostOps0_7,
    hostOps0_8, hostOps0_9, hostOps0_10, hostOps0_11, hostOps0_12,
    List.flatten_cons, List.flatten_nil, List.append_nil, List.cons_append, List.nil_append]
  prefix_results
  rfl

/-- So it holds the eight corners' flat voxel indices, stacked. -/
theorem pre_idx :
    (pre m c (Proc.devRef .tc main_v137) : (⟨S8x2097152, .i32⟩ : BufTy).Contents (Elt Ideal)) = stackedIdxV m c := by
  rw [pre_idx_raw m c, pre_v45 m c, pre_v47 m c, pre_v49 m c, pre_v52 m c, pre_v55 m c, pre_v58 m c]

set_option maxHeartbeats 2000000 in
/-- Before the indexing, the flattened grid's buffer holds the grid, flattened. -/
theorem pre_grid :
    (pre m c (Proc.devRef .tc main_v1) : (⟨S12x4096000, .f32⟩ : BufTy).Contents (Elt Ideal)) = gridFlat (A1 m c) := by
  unfold pre
  simp only [hostOps0, hostOps0_1, hostOps0_2, hostOps0_3, hostOps0_4, hostOps0_5, hostOps0_6, hostOps0_7,
    hostOps0_8, hostOps0_9, hostOps0_10, hostOps0_11, hostOps0_12,
    List.flatten_cons, List.flatten_nil, List.append_nil, List.cons_append, List.nil_append]
  prefix_results
  rfl

/-- The gathered corner values, whole: the flattened grid indexed by the stack of the eight flat voxel indices. -/
theorem gathered_corners (j : S12x8x2097152.Idx) :
    Cert.KernelIdeal.Fr.V m c main_v148 j = take (gridFlat (A1 m c)) (stackedIdxV m c) j := by
  have h := congrFun (take_read (pre m c)) j
  rw [pre_idx m c, pre_grid m c] at h
  show Cert.KernelIdeal.Fr.V0 m c (Proc.devRef .tc main_v148) j = _
  rw [V0_eq]
  exact h

end Entry

end Cert.KernelIdeal.HVal

end
-- ==== Proof.IntFacts.lean ====
/-
  Facts about the 32-bit signed integers the index computation uses.

  A value clipped into 0 … 159 (the larger of it and 0, then the smaller of that and 159, both comparisons signed)
  reads, as a signed integer, between 0 and 159; and wrapping a negative index around by adding the axis's extent —
  what indexing does with a negative index — leaves a nonnegative index as it is.
-/
import Idealize.ShloMosaic.PureOps.Ideal
import Idealize.ShloMosaic.Lib.ValueIdx

namespace Cert.IntFacts

open Idealize.ShloMosaic

/-- Clipping into 0 … 159 lands in 0 … 159, whatever the value clipped. -/
theorem clip_range (v : BitVec 32) :
    0 ≤ (IntOp.minsi (159#32) (IntOp.maxsi (0#32) v)).toInt ∧ (IntOp.minsi (159#32) (IntOp.maxsi (0#32) v)).toInt ≤ 159 := by
  have h159 : (159#32 : BitVec 32).toInt = 159 := by decide
  have h0 : (0#32 : BitVec 32).toInt = 0 := by decide
  unfold IntOp.minsi IntOp.maxsi
  simp only [BitVec.slt, decide_eq_true_eq, h159, h0]
  split_ifs with h1 h2 h2
  · omega
  · omega
  · omega
  · omega

/-- A nonnegative index is not wrapped around. -/
theorem wrap_nonneg (v e : BitVec 32) (h : 0 ≤ v.toInt) :
    Scalar.select (IntOp.cmpi .slt v (0#32)) (IntOp.addi v e) v = v := by
  have h0 : (0#32 : BitVec 32).toInt = 0 := by decide
  have hc : IntOp.cmpi .slt v (0#32) = 0#1 := by
    unfold IntOp.cmpi
    simp only [BitVec.slt, h0]
    have : ¬ v.toInt < 0 := by omega
    simp [this]
  rw [hc]
  exact ValueIdx.select_zero _ _

/-- A signed reading in 0 … 159 is below 160 as a natural number, and the clamp into 0 … 159 does nothing to it. -/
theorem clamp_id (v : BitVec 32) (h0 : 0 ≤ v.toInt) (h1 : v.toInt ≤ 159) : min v.toInt.toNat 159 = v.toInt.toNat := by
  omega

end Cert.IntFacts
-- ==== Proof.Ranges.lean ====
/-
  The eight corners' integer coordinates lie in the grid.

  Each of the six coordinate arrays (the lower and the upper cell corner on each of the three axes) is, per point,
  the smaller of 159 and the larger of 0 and some integer — so it reads, signed, between 0 and 159.
-/
import proofs.«163780_j49606872269475_2_alg».proof.Proof.Spec
import proofs.«163780_j49606872269475_2_alg».proof.Proof.IntFacts

noncomputable section

namespace Cert.Spec

open Idealize.ShloMosaic Idealize.ShloMosaic.ValueIdx Cert.ReferenceIdeal Cert.ReferenceIdeal.Read Cert.IntFacts

variable (x0 : Pts) (x2 x3 : Bnd)

/-- The lower corner on the width axis. -/
theorem x0_range (i : S2097152.Idx) :
    0 ≤ (val_main_v44 (F := Ideal) x0 x2 x3 i).toInt ∧ (val_main_v44 (F := Ideal) x0 x2 x3 i).toInt ≤ 159 := by
  simp only [val_main_v44_apply, val_main_call0_v4_apply, val_main_call0_v3_apply, val_main_c_10_apply,
    val_main_call0_v2_apply, val_main_call0_v1_apply, val_main_call0_v0_apply, val_main_c_apply]
  exact clip_range _
/-- The lower corner on the height axis. -/
theorem y0_range (i : S2097152.Idx) :
    0 ≤ (val_main_v46 (F := Ideal) x0 x2 x3 i).toInt ∧ (val_main_v46 (F := Ideal) x0 x2 x3 i).toInt ≤ 159 := by
  simp only [val_main_v46_apply, val_main_call1_v4_apply, val_main_call1_v3_apply, val_main_c_12_apply,
    val_main_call1_v2_apply, val_main_call1_v1_apply, val_main_call1_v0_apply, val_main_c_11_apply]
  exact clip_range _
/-- The lower corner on the depth axis. -/
theorem z0_range (i : S2097152.Idx) :
    0 ≤ (val_main_v48 (F := Ideal) x0 x2 x3 i).toInt ∧ (val_main_v48 (F := Ideal) x0 x2 x3 i).toInt ≤ 159 := by
  simp only [val_main_v48_apply, val_main_call2_v4_apply, val_main_call2_v3_apply, val_main_c_14_apply,
    val_main_call2_v2_apply, val_main_call2_v1_apply, val_main_call2_v0_apply, val_main_c_13_apply]
  exact clip_range _
/-- The upper corner on the width axis. -/
theorem x1_range (i : S2097152.Idx) :
    0 ≤ (val_main_v51 (F := Ideal) x0 x2 x3 i).toInt ∧ (val_main_v51 (F := Ideal) x0 x2 x3 i).toInt ≤ 159 := by
  simp only [val_main_v51_apply, val_main_call3_v4_apply, val_main_call3_v3_apply, val_main_c_17_apply,
    val_main_call3_v2_apply, val_main_call3_v1_apply, val_main_call3_v0_apply, val_main_c_16_apply]
  exact clip_range _
/-- The upper corner on the height axis. -/
theorem y1_range (i : S2097152.Idx) :
    0 ≤ (val_main_v54 (F := Ideal) x0 x2 x3 i).toInt ∧ (val_main_v54 (F := Ideal) x0 x2 x3 i).toInt ≤ 159 := by
  simp only [val_main_v54_apply, val_main_call4_v4_apply, val_main_call4_v3_apply, val_main_c_20_apply,
    val_main_call4_v2_apply, val_main_call4_v1_apply, val_main_call4_v0_apply, val_main_c_19_apply]
  exact clip_range _
/-- The upper corner on the depth axis. -/
theorem z1_range (i : S2097152.Idx) :
    0 ≤ (val_main_v57 (F := Ideal) x0 x2 x3 i).toInt ∧ (val_main_v57 (F := Ideal) x0 x2 x3 i).toInt ≤ 159 := by
  simp only [val_main_v57_apply, val_main_call5_v4_apply, val_main_call5_v3_apply, val_main_c_23_apply,
    val_main_call5_v2_apply, val_main_call5_v1_apply, val_main_call5_v0_apply, val_main_c_22_apply]
  exact clip_range _

/-- Corner `k`'s depth coordinate at point `n` is in 0 … 159. -/
theorem zsel_range (k : Fin 8) (n : Fin 2097152) :
    0 ≤ (zsel x0 x2 x3 k (ix1 n)).toInt ∧ (zsel x0 x2 x3 k (ix1 n)).toInt ≤ 159 := by
  unfold zsel; split
  · exact z0_range x0 x2 x3 _
  · exact z1_range x0 x2 x3 _
/-- Its height coordinate. -/
theorem ysel_range (k : Fin 8) (n : Fin 2097152) :
    0 ≤ (ysel x0 x2 x3 k (ix1 n)).toInt ∧ (ysel x0 x2 x3 k (ix1 n)).toInt ≤ 159 := by
  unfold ysel; split
  · exact y0_range x0 x2 x3 _
  · exact y1_range x0 x2 x3 _
/-- Its width coordinate. -/
theorem xsel_range (k : Fin 8) (n : Fin 2097152) :
    0 ≤ (xsel x0 x2 x3 k (ix1 n)).toInt ∧ (xsel x0 x2 x3 k (ix1 n)).toInt ≤ 159 := by
  unfold xsel; split
  · exact x0_range x0 x2 x3 _
  · exact x1_range x0 x2 x3 _

end Cert.Spec

end
-- ==== Proof.EntryValue.lean ====
/-
  What the two arrays the region stages hold when the region is entered, element by element.

  The stacked weights at (0, k, n) are corner k's weight at point n. The gathered corner values at (ch, k, n) are the
  grid's voxel of channel ch at corner k's three clipped coordinates at point n: the coordinates lie in 0 … 159, so the
  flat index z · 25600 + y · 160 + x does not wrap, is not negative, is within the flattened grid's 4096000 columns
  (the bounds mask is 1 and the clamp does nothing), and decodes back to the three coordinates.
-/
import proofs.«163780_j49606872269475_2_alg».proof.Proof.EntryRead
import proofs.«163780_j49606872269475_2_alg».proof.Proof.Ranges

noncomputable section

namespace Cert.KernelIdeal.HVal

open Idealize.ShloMosaic Idealize.ShloMosaic.TcCoe Idealize.ShloMosaic.ValueIdx
open Idealize.SL Idealize.SL.Sem
open Cert.KernelIdeal Cert.KernelIdeal.Gen
open Idealize.ShloMosaic.StableHlo

/-! ## Which cell corner each of the eight corners takes on each axis -/

section Sel

variable (x0 : Cert.Spec.Pts) (x2 x3 : Cert.Spec.Bnd)

theorem zsel_lo (k : Fin 8) (h : k.val < 4) :
    Cert.Spec.zsel x0 x2 x3 k = Cert.ReferenceIdeal.Read.val_main_v48 (F := Ideal) x0 x2 x3 := by
  unfold Cert.Spec.zsel; exact if_pos h
theorem zsel_hi (k : Fin 8) (h : ¬ k.val < 4) :
    Cert.Spec.zsel x0 x2 x3 k = Cert.ReferenceIdeal.Read.val_main_v57 (F := Ideal) x0 x2 x3 := by
  unfold Cert.Spec.zsel; exact if_neg h
theorem ysel_lo (k : Fin 8) (h : k.val / 2 % 2 = 0) :
    Cert.Spec.ysel x0 x2 x3 k = Cert.ReferenceIdeal.Read.val_main_v46 (F := Ideal) x0 x2 x3 := by
  unfold Cert.Spec.ysel; exact if_pos h
theorem ysel_hi (k : Fin 8) (h : ¬ k.val / 2 % 2 = 0) :
    Cert.Spec.ysel x0 x2 x3 k = Cert.ReferenceIdeal.Read.val_main_v54 (F := Ideal) x0 x2 x3 := by
  unfold Cert.Spec.ysel; exact if_neg h
theorem xsel_lo (k : Fin 8) (h : k.val % 2 = 0) :
    Cert.Spec.xsel x0 x2 x3 k = Cert.ReferenceIdeal.Read.val_main_v44 (F := Ideal) x0 x2 x3 := by
  unfold Cert.Spec.xsel; exact if_pos h
theorem xsel_hi (k : Fin 8) (h : ¬ k.val % 2 = 0) :
    Cert.Spec.xsel x0 x2 x3 k = Cert.ReferenceIdeal.Read.val_main_v51 (F := Ideal) x0 x2 x3 := by
  unfold Cert.Spec.xsel; exact if_neg h

end Sel

/-! ## The two staged arrays, element by element -/

section Entry

variable (m : (ℓ : Loc nD τ sig) → Buf (Elt Ideal) ℓ) (c : Dev nD)

/-- The stacked weights at (0, k, n): corner k's weight at point n. -/
theorem entry_w (k : Fin 8) (n : Fin 2097152) :
    Cert.KernelIdeal.Fr.V m c main_v147 (ix3 (0 : Fin 1) k n) = Cert.Spec.wt (A0 m c) (A2 m c) (A3 m c) k (ix1 n) := by
  refine (congrFun (stacked_weights m c) (ix3 (0 : Fin 1) k n)).trans ?_
  refine (broadcastInDim_apply _ bcast_S8x2097152_S1x8x2097152_1_2 _ (ix3 (0 : Fin 1) k n) (ix2 k n) (fun a => match a with
    | ⟨0, _⟩ => by show k.val = if (8 : Nat) = 1 then 0 else k.val; rw [if_neg (by decide)]
    | ⟨1, _⟩ => by show n.val = if (2097152 : Nat) = 1 then 0 else n.val; rw [if_neg (by decide)])).trans ?_
  refine (cat8_apply _ _ _ _ _ _ _ _ k n).trans ?_
  match k with
  | ⟨0, _⟩ => exact row_apply (Cert.Spec.wt (A0 m c) (A2 m c) (A3 m c) 0) n
  | ⟨1, _⟩ => exact row_apply (Cert.Spec.wt (A0 m c) (A2 m c) (A3 m c) 1) n
  | ⟨2, _⟩ => exact row_apply (Cert.Spec.wt (A0 m c) (A2 m c) (A3 m c) 2) n
  | ⟨3, _⟩ => exact row_apply (Cert.Spec.wt (A0 m c) (A2 m c) (A3 m c) 3) n
  | ⟨4, _⟩ => exact row_apply (Cert.Spec.wt (A0 m c) (A2 m c) (A3 m c) 4) n
  | ⟨5, _⟩ => exact row_apply (Cert.Spec.wt (A0 m c) (A2 m c) (A3 m c) 5) n
  | ⟨6, _⟩ => exact row_apply (Cert.Spec.wt (A0 m c) (A2 m c) (A3 m c) 6) n
  | ⟨7, _⟩ => exact row_apply (Cert.Spec.wt (A0 m c) (A2 m c) (A3 m c) 7) n

/-- The stack of flat voxel indices at (k, n): corner k's flat voxel index at point n. -/
theorem stackedIdxV_apply (k : Fin 8) (n : Fin 2097152) :
    stackedIdxV m c (ix2 k n)
      = lin (Cert.Spec.zsel (A0 m c) (A2 m c) (A3 m c) k) (Cert.Spec.ysel (A0 m c) (A2 m c) (A3 m c) k)
          (Cert.Spec.xsel (A0 m c) (A2 m c) (A3 m c) k) (ix1 n) := by
  refine (cat8_apply _ _ _ _ _ _ _ _ k n).trans ?_
  match k with
  | ⟨0, h⟩ =>
    rw [zsel_lo (A0 m c) (A2 m c) (A3 m c) ⟨0, h⟩ (by show (0 : Nat) < 4; decide), ysel_lo (A0 m c) (A2 m c) (A3 m c) ⟨0, h⟩ (by show (0 : Nat) / 2 % 2 = 0; decide),
      xsel_lo (A0 m c) (A2 m c) (A3 m c) ⟨0, h⟩ (by show (0 : Nat) % 2 = 0; decide)]
    exact row_apply (lin (Cert.ReferenceIdeal.Read.val_main_v48 (F := Ideal) (A0 m c) (A2 m c) (A3 m c)) (Cert.ReferenceIdeal.Read.val_main_v46 (F := Ideal) (A0 m c) (A2 m c) (A3 m c)) (Cert.ReferenceIdeal.Read.val_main_v44 (F := Ideal) (A0 m c) (A2 m c) (A3 m c))) n
  | ⟨1, h⟩ =>
    rw [zsel_lo (A0 m c) (A2 m c) (A3 m c) ⟨1, h⟩ (by show (1 : Nat) < 4; decide), ysel_lo (A0 m c) (A2 m c) (A3 m c) ⟨1, h⟩ (by show (1 : Nat) / 2 % 2 = 0; decide),
      xsel_hi (A0 m c) (A2 m c) (A3 m c) ⟨1, h⟩ (by show ¬ (1 : Nat) % 2 = 0; decide)]
    exact row_apply (lin (Cert.ReferenceIdeal.Read.val_main_v48 (F := Ideal) (A0 m c) (A2 m c) (A3 m c)) (Cert.ReferenceIdeal.Read.val_main_v46 (F := Ideal) (A0 m c) (A2 m c) (A3 m c)) (Cert.ReferenceIdeal.Read.val_main_v51 (F := Ideal) (A0 m c) (A2 m c) (A3 m c))) n
  | ⟨2, h⟩ =>
    rw [zsel_lo (A0 m c) (A2 m c) (A3 m c) ⟨2, h⟩ (by show (2 : Nat) < 4; decide), ysel_hi (A0 m c) (A2 m c) (A3 m c) ⟨2, h⟩ (by show ¬ (2 : Nat) / 2 % 2 = 0; decide),
      xsel_lo (A0 m c) (A2 m c) (A3 m c) ⟨2, h⟩ (by show (2 : Nat) % 2 = 0; decide)]
    exact row_apply (lin (Cert.ReferenceIdeal.Read.val_main_v48 (F := Ideal) (A0 m c) (A2 m c) (A3 m c)) (Cert.ReferenceIdeal.Read.val_main_v54 (F := Ideal) (A0 m c) (A2 m c) (A3 m c)) (Cert.ReferenceIdeal.Read.val_main_v44 (F := Ideal) (A0 m c) (A2 m c) (A3 m c))) n
  | ⟨3, h⟩ =>
    rw [zsel_lo (A0 m c) (A2 m c) (A3 m c) ⟨3, h⟩ (by show (3 : Nat) < 4; decide), ysel_hi (A0 m c) (A2 m c) (A3 m c) ⟨3, h⟩ (by show ¬ (3 : Nat) / 2 % 2 = 0; decide),
      xsel_hi (A0 m c) (A2 m c) (A3 m c) ⟨3, h⟩ (by show ¬ (3 : Nat) % 2 = 0; decide)]
    exact row_apply (lin (Cert.ReferenceIdeal.Read.val_main_v48 (F := Ideal) (A0 m c) (A2 m c) (A3 m c)) (Cert.ReferenceIdeal.Read.val_main_v54 (F := Ideal) (A0 m c) (A2 m c) (A3 m c)) (Cert.ReferenceIdeal.Read.val_main_v51 (F := Ideal) (A0 m c) (A2 m c) (A3 m c))) n
  | ⟨4, h⟩ =>
    rw [zsel_hi (A0 m c) (A2 m c) (A3 m c) ⟨4, h⟩ (by show ¬ (4 : Nat) < 4; decide), ysel_lo (A0 m c) (A2 m c) (A3 m c) ⟨4, h⟩ (by show (4 : Nat) / 2 % 2 = 0; decide),
      xsel_lo (A0 m c) (A2 m c) (A3 m c) ⟨4, h⟩ (by show (4 : Nat) % 2 = 0; decide)]
    exact row_apply (lin (Cert.ReferenceIdeal.Read.val_main_v57 (F := Ideal) (A0 m c) (A2 m c) (A3 m c)) (Cert.ReferenceIdeal.Read.val_main_v46 (F := Ideal) (A0 m c) (A2 m c) (A3 m c)) (Cert.ReferenceIdeal.Read.val_main_v44 (F := Ideal) (A0 m c) (A2 m c) (A3 m c))) n
  | ⟨5, h⟩ =>
    rw [zsel_hi (A0 m c) (A2 m c) (A3 m c) ⟨5, h⟩ (by show ¬ (5 : Nat) < 4; decide), ysel_lo (A0 m c) (A2 m c) (A3 m c) ⟨5, h⟩ (by show (5 : Nat) / 2 % 2 = 0; decide),
      xsel_hi (A0 m c) (A2 m c) (A3 m c) ⟨5, h⟩ (by show ¬ (5 : Nat) % 2 = 0; decide)]
    exact row_apply (lin (Cert.ReferenceIdeal.Read.val_main_v57 (F := Ideal) (A0 m c) (A2 m c) (A3 m c)) (Cert.ReferenceIdeal.Read.val_main_v46 (F := Ideal) (A0 m c) (A2 m c) (A3 m c)) (Cert.ReferenceIdeal.Read.val_main_v51 (F := Ideal) (A0 m c) (A2 m c) (A3 m c))) n
  | ⟨6, h⟩ =>
    rw [zsel_hi (A0 m c) (A2 m c) (A3 m c) ⟨6, h⟩ (by show ¬ (6 : Nat) < 4; decide), ysel_hi (A0 m c) (A2 m c) (A3 m c) ⟨6, h⟩ (by show ¬ (6 : Nat) / 2 % 2 = 0; decide),
      xsel_lo (A0 m c) (A2 m c) (A3 m c) ⟨6, h⟩ (by show (6 : Nat) % 2 = 0; decide)]
    exact row_apply (lin (Cert.ReferenceIdeal.Read.val_main_v57 (F := Ideal) (A0 m c) (A2 m c) (A3 m c)) (Cert.ReferenceIdeal.Read.val_main_v54 (F := Ideal) (A0 m c) (A2 m c) (A3 m c)) (Cert.ReferenceIdeal.Read.val_main_v44 (F := Ideal) (A0 m c) (A2 m c) (A3 m c))) n
  | ⟨7, h⟩ =>
    rw [zsel_hi (A0 m c) (A2 m c) (A3 m c) ⟨7, h⟩ (by show ¬ (7 : Nat) < 4; decide), ysel_hi (A0 m c) (A2 m c) (A3 m c) ⟨7, h⟩ (by show ¬ (7 : Nat) / 2 % 2 = 0; decide),
      xsel_hi (A0 m c) (A2 m c) (A3 m c) ⟨7, h⟩ (by show ¬ (7 : Nat) % 2 = 0; decide)]
    exact row_apply (lin (Cert.ReferenceIdeal.Read.val_main_v57 (F := Ideal) (A0 m c) (A2 m c) (A3 m c)) (Cert.ReferenceIdeal.Read.val_main_v54 (F := Ideal) (A0 m c) (A2 m c) (A3 m c)) (Cert.ReferenceIdeal.Read.val_main_v51 (F := Ideal) (A0 m c) (A2 m c) (A3 m c))) n

/-- Corner k's flat voxel index at point n, read signed, is z · 25600 + y · 160 + x of its three clipped coordinates. -/
theorem cornerIdx_toInt (k : Fin 8) (n : Fin 2097152) :
    (stackedIdxV m c (ix2 k n)).toInt
      = (((Cert.Spec.zsel (A0 m c) (A2 m c) (A3 m c) k (ix1 n)).toInt.toNat * 25600
          + (Cert.Spec.ysel (A0 m c) (A2 m c) (A3 m c) k (ix1 n)).toInt.toNat * 160
          + (Cert.Spec.xsel (A0 m c) (A2 m c) (A3 m c) k (ix1 n)).toInt.toNat : Nat) : Int) := by
  rw [stackedIdxV_apply]
  exact lin_toInt _ _ _ (Cert.Spec.zsel_range _ _ _ k n).1 (Cert.Spec.zsel_range _ _ _ k n).2
    (Cert.Spec.ysel_range _ _ _ k n).1 (Cert.Spec.ysel_range _ _ _ k n).2
    (Cert.Spec.xsel_range _ _ _ k n).1 (Cert.Spec.xsel_range _ _ _ k n).2

/-- Every flat voxel index is within the flattened grid's 4096000 columns. -/
theorem stackedIdxV_range (k : Fin 8) (n : Fin 2097152) :
    0 ≤ (stackedIdxV m c (ix2 k n)).toInt ∧ (stackedIdxV m c (ix2 k n)).toInt ≤ 4095999 := by
  rw [cornerIdx_toInt]
  have hz := Cert.Spec.zsel_range (A0 m c) (A2 m c) (A3 m c) k n
  have hy := Cert.Spec.ysel_range (A0 m c) (A2 m c) (A3 m c) k n
  have hx := Cert.Spec.xsel_range (A0 m c) (A2 m c) (A3 m c) k n
  omega

/-- The gathered corner values at (ch, k, n): the grid's voxel of channel ch at corner k's three clipped coordinates at
    point n. -/
theorem entry_g (ch : Fin 12) (k : Fin 8) (n : Fin 2097152) :
    Cert.KernelIdeal.Fr.V m c main_v148 (ix3 ch k n)
      = Cert.Spec.cell (A1 m c) ch (Cert.Spec.zsel (A0 m c) (A2 m c) (A3 m c) k (ix1 n))
          (Cert.Spec.ysel (A0 m c) (A2 m c) (A3 m c) k (ix1 n)) (Cert.Spec.xsel (A0 m c) (A2 m c) (A3 m c) k (ix1 n)) := by
  refine (gathered_corners m c (ix3 ch k n)).trans ?_
  refine (take_apply (gridFlat (A1 m c)) (stackedIdxV m c) (stackedIdxV_range m c) ch k n).trans ?_
  unfold Cert.Spec.cell
  refine gridFlat_apply (A1 m c) ch _ _ _ _ ?_
  have hz := Cert.Spec.zsel_range (A0 m c) (A2 m c) (A3 m c) k n
  have hy := Cert.Spec.ysel_range (A0 m c) (A2 m c) (A3 m c) k n
  have hx := Cert.Spec.xsel_range (A0 m c) (A2 m c) (A3 m c) k n
  have hl := cornerIdx_toInt m c k n
  show (stackedIdxV m c (ix2 k n)).toInt.toNat
    = min (Cert.Spec.zsel (A0 m c) (A2 m c) (A3 m c) k (ix1 n)).toInt.toNat 159 * 25600
      + min (Cert.Spec.ysel (A0 m c) (A2 m c) (A3 m c) k (ix1 n)).toInt.toNat 159 * 160
      + min (Cert.Spec.xsel (A0 m c) (A2 m c) (A3 m c) k (ix1 n)).toInt.toNat 159
  omega

end Entry

end Cert.KernelIdeal.HVal

end
-- ==== Proof.RefRun.lean ====
/-
  The reference program's run.

  The reference's @main is a straight line of 379 host operations (jax's outlined clips written out at their call
  sites), printed in six stretches. Listed here stretch by stretch: each printed stretch IS the line of its operations,
  so @main is the line of all of them in order; the operations touch TensorCore references only; hence every weakly fair
  execution of @main terminates, and every buffer ends at what the operations, applied in order to the launch contents,
  leave in it. Read at the result buffer that is the last stage function of the arguments' launch contents — the stage
  functions are these same operations, one definition each —, and at an argument, which no operation writes, the launch
  contents themselves.
-/
import proofs.«163780_j49606872269475_2_alg».proof.Proof.RefStagesP
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's stretch 0, in order. -/
abbrev ops0 : List (HloOp τ sig (Elt F)) :=
  [ reshape main_arg1 main_v0 rfl shapeCasts_S1x12x160x160x160_S12x160x160x160,
    unary main_arg2 main_v1 (broadcastInDim S1x3 ![1] bcast_S3_S1x3_1 : (⟨S3, .f32⟩ : BufTy).Contents (Elt F) → (⟨S1x3, .f32⟩ : BufTy).Contents (Elt F)),
    unary main_v1 main_v2 (broadcastInDim S2097152x3 ![0, 1] bcast_S1x3_S2097152x3_0_1 : (⟨S1x3, .f32⟩ : BufTy).Contents (Elt F) → (⟨S2097152x3, .f32⟩ : BufTy).Contents (Elt F)),
    binary main_arg0 main_v2 main_v3 (subf : (⟨S2097152x3, .f32⟩ : BufTy).Contents (Elt F) → (⟨S2097152x3, .f32⟩ : BufTy).Contents (Elt F) → (⟨S2097152x3, .f32⟩ : BufTy).Contents (Elt F)),
    binary main_arg3 main_arg2 main_v4 (subf : (⟨S3, .f32⟩ : BufTy).Contents (Elt F) → (⟨S3, .f32⟩ : BufTy).Contents (Elt F) → (⟨S3, .f32⟩ : BufTy).Contents (Elt F)),
    unary main_v4 main_v5 (broadcastInDim S1x3 ![1] bcast_S3_S1x3_1 : (⟨S3, .f32⟩ : BufTy).Contents (Elt F) → (⟨S1x3, .f32⟩ : BufTy).Contents (Elt F)),
    unary main_v5 main_v6 (broadcastInDim S2097152x3 ![0, 1] bcast_S1x3_S2097152x3_0_1 : (⟨S1x3, .f32⟩ : BufTy).Contents (Elt F) → (⟨S2097152x3, .f32⟩ : BufTy).Contents (Elt F)),
    binary main_v3 main_v6 main_v7 (Host.divf : (⟨S2097152x3, .f32⟩ : BufTy).Contents (Elt F) → (⟨S2097152x3, .f32⟩ : BufTy).Contents (Elt F) → (⟨S2097152x3, .f32⟩ : BufTy).Contents (Elt F)),
    unary main_v7 main_v8 (Host.reverse [1] : (⟨S2097152x3, .f32⟩ : BufTy).Contents (Elt F) → (⟨S2097152x3, .f32⟩ : BufTy).Contents (Elt F)),
    nullary main_cst (constant S_ .f32 0x40000000#32),
    unary main_cst main_v9 (broadcastInDim S2097152x3 ![] bcast_S_S2097152x3 : (⟨S_, .f32⟩ : BufTy).Contents (Elt F) → (⟨S2097152x3, .f32⟩ : BufTy).Contents (Elt F)),
    binary main_v8 main_v9 main_v10 (mulf : (⟨S2097152x3, .f32⟩ : BufTy).Contents (Elt F) → (⟨S2097152x3, .f32⟩ : BufTy).Contents (Elt F) → (⟨S2097152x3, .f32⟩ : BufTy).Contents (Elt F)),
    nullary main_cst_0 (constant S_ .f32 0x3F800000#32),
    unary main_cst_0 main_v11 (broadcastInDim S2097152x3 ![] bcast_S_S2097152x3 : (⟨S_, .f32⟩ : BufTy).Contents (Elt F) → (⟨S2097152x3, .f32⟩ : BufTy).Contents (Elt F)),
    binary main_v10 main_v11 main_v12 (subf : (⟨S2097152x3, .f32⟩ : BufTy).Contents (Elt F) → (⟨S2097152x3, .f32⟩ : BufTy).Contents (Elt F) → (⟨S2097152x3, .f32⟩ : BufTy).Contents (Elt F)),
    unary main_v12 main_v13 ((extractStridedSlice S2097152x1 ![0, 0] · slices_S2097152x3_S2097152x1_0_0) : (⟨S2097152x3, .f32⟩ : BufTy).Contents (Elt F) → (⟨S2097152x1, .f32⟩ : BufTy).Contents (Elt F)),
    reshape main_v13 main_v14 rfl shapeCasts_S2097152x1_S2097152,
    unary main_v12 main_v15 ((extractStridedSlice S2097152x1 ![0, 1] · slices_S2097152x3_S2097152x1_0_1) : (⟨S2097152x3, .f32⟩ : BufTy).Contents (Elt F) → (⟨S2097152x1, .f32⟩ : BufTy).Contents (Elt F)),
    reshape main_v15 main_v16 rfl shapeCasts_S2097152x1_S2097152,
    unary main_v12 main_v17 ((extractStridedSlice S2097152x1 ![0, 2] · slices_S2097152x3_S2097152x1_0_2) : (⟨S2097152x3, .f32⟩ : BufTy).Contents (Elt F) → (⟨S2097152x1, .f32⟩ : BufTy).Contents (Elt F)),
    reshape main_v17 main_v18 rfl shapeCasts_S2097152x1_S2097152,
    nullary main_cst_1 (constant S_ .f32 0x3F800000#32),
    unary main_cst_1 main_v19 (broadcastInDim S2097152 ![] bcast_S_S2097152 : (⟨S_, .f32⟩ : BufTy).Contents (Elt F) → (⟨S2097152, .f32⟩ : BufTy).Contents (Elt F)),
    binary main_v14 main_v19 main_v20 (addf : (⟨S2097152, .f32⟩ : BufTy).Contents (Elt F) → (⟨S2097152, .f32⟩ : BufTy).Contents (Elt F) → (⟨S2097152, .f32⟩ : BufTy).Contents (Elt F)),
    nullary main_cst_2 (constant S_ .f32 0x3F000000#32),
    unary main_cst_2 main_v21 (broadcastInDim S2097152 ![] bcast_S_S2097152 : (⟨S_, .f32⟩ : BufTy).Contents (Elt F) → (⟨S2097152, .f32⟩ : BufTy).Contents (Elt F)),
    binary main_v20 main_v21 main_v22 (mulf : (⟨S2097152, .f32⟩ : BufTy).Contents (Elt F) → (⟨S2097152, .f32⟩ : BufTy).Contents (Elt F) → (⟨S2097152, .f32⟩ : BufTy).Contents (Elt F)),
    nullary main_cst_3 (constant S_ .f32 0x431F0000#32),
    unary main_cst_3 main_v23 (broadcastInDim S2097152 ![] bcast_S_S2097152 : (⟨S_, .f32⟩ : BufTy).Contents (Elt F) → (⟨S2097152, .f32⟩ : BufTy).Contents (Elt F)),
    binary main_v22 main_v23 main_v24 (mulf : (⟨S2097152, .f32⟩ : BufTy).Contents (Elt F) → (⟨S2097152, .f32⟩ : BufTy).Contents (Elt F) → (⟨S2097152, .f32⟩ : BufTy).Contents (Elt F)),
    nullary main_cst_4 (constant S_ .f32 0x3F800000#32),
    unary main_cst_4 main_v25 (broadcastInDim S2097152 ![] bcast_S_S2097152 : (⟨S_, .f32⟩ : BufTy).Contents (Elt F) → (⟨S2097152, .f32⟩ : BufTy).Contents (Elt F)),
    binary main_v16 main_v25 main_v26 (addf : (⟨S2097152, .f32⟩ : BufTy).Contents (Elt F) → (⟨S2097152, .f32⟩ : BufTy).Contents (Elt F) → (⟨S2097152, .f32⟩ : BufTy).Contents (Elt F)),
    nullary main_cst_5 (constant S_ .f32 0x3F000000#32),
    unary main_cst_5 main_v27 (broadcastInDim S2097152 ![] bcast_S_S2097152 : (⟨S_, .f32⟩ : BufTy).Contents (Elt F) → (⟨S2097152, .f32⟩ : BufTy).Contents (Elt F)),
    binary main_v26 main_v27 main_v28 (mulf : (⟨S2097152, .f32⟩ : BufTy).Contents (Elt F) → (⟨S2097152, .f32⟩ : BufTy).Contents (Elt F) → (⟨S2097152, .f32⟩ : BufTy).Contents (Elt F)),
    nullary main_cst_6 (constant S_ .f32 0x431F0000#32),
    unary main_cst_6 main_v29 (broadcastInDim S2097152 ![] bcast_S_S2097152 : (⟨S_, .f32⟩ : BufTy).Contents (Elt F) → (⟨S2097152, .f32⟩ : BufTy).Contents (Elt F)),
    binary main_v28 main_v29 main_v30 (mulf : (⟨S2097152, .f32⟩ : BufTy).Contents (Elt F) → (⟨S2097152, .f32⟩ : BufTy).Contents (Elt F) → (⟨S2097152, .f32⟩ : BufTy).Contents (Elt F)),
    nullary main_cst_7 (constant S_ .f32 0x3F800000#32),
    unary main_cst_7 main_v31 (broadcastInDim S2097152 ![] bcast_S_S2097152 : (⟨S_, .f32⟩ : BufTy).Contents (Elt F) → (⟨S2097152, .f32⟩ : BufTy).Contents (Elt F)),
    binary main_v18 main_v31 main_v32 (addf : (⟨S2097152, .f32⟩ : BufTy).Contents (Elt F) → (⟨S2097152, .f32⟩ : BufTy).Contents (Elt F) → (⟨S2097152, .f32⟩ : BufTy).Contents (Elt F)),
    nullary main_cst_8 (constant S_ .f32 0x3F000000#32),
    unary main_cst_8 main_v33 (broadcastInDim S2097152 ![] bcast_S_S2097152 : (⟨S_, .f32⟩ : BufTy).Contents (Elt F) → (⟨S2097152, .f32⟩ : BufTy).Contents (Elt F)),
    binary main_v32 main_v33 main_v34 (mulf : (⟨S2097152, .f32⟩ : BufTy).Contents (Elt F) → (⟨S2097152, .f32⟩ : BufTy).Contents (Elt F) → (⟨S2097152, .f32⟩ : BufTy).Contents (Elt F)),
    nullary main_cst_9 (constant S_ .f32 0x431F0000#32),
    unary main_cst_9 main_v35 (broadcastInDim S2097152 ![] bcast_S_S2097152 : (⟨S_, .f32⟩ : BufTy).Contents (Elt F) → (⟨S2097152, .f32⟩ : BufTy).Contents (Elt F)),
    binary main_v34 main_v35 main_v36 (mulf : (⟨S2097152, .f32⟩ : BufTy).Contents (Elt F) → (⟨S2097152, .f32⟩ : BufTy).Contents (Elt F) → (⟨S2097152, .f32⟩ : BufTy).Contents (Elt F)),
    unary main_v24 main_v37 (Host.floor : (⟨S2097152, .f32⟩ : BufTy).Contents (Elt F) → (⟨S2097152, .f32⟩ : BufTy).Contents (Elt F)),
    unary main_v30 main_v38 (Host.floor : (⟨S2097152, .f32⟩ : BufTy).Contents (Elt F) → (⟨S2097152, .f32⟩ : BufTy).Contents (Elt F)),
    unary main_v36 main_v39 (Host.floor : (⟨S2097152, .f32⟩ : BufTy).Contents (Elt F) → (⟨S2097152, .f32⟩ : BufTy).Contents (Elt F)),
    binary main_v24 main_v37 main_v40 (subf : (⟨S2097152, .f32⟩ : BufTy).Contents (Elt F) → (⟨S2097152, .f32⟩ : BufTy).Contents (Elt F) → (⟨S2097152, .f32⟩ : BufTy).Contents (Elt F)),
    binary main_v30 main_v38 main_v41 (subf : (⟨S2097152, .f32⟩ : BufTy).Contents (Elt F) → (⟨S2097152, .f32⟩ : BufTy).Contents (Elt F) → (⟨S2097152, .f32⟩ : BufTy).Contents (Elt F)),
    binary main_v36 main_v39 main_v42 (subf : (⟨S2097152, .f32⟩ : BufTy).Contents (Elt F) → (⟨S2097152, .f32⟩ : BufTy).Contents (Elt F) → (⟨S2097152, .f32⟩ : BufTy).Contents (Elt F)),
    unary main_v37 main_v43 (fptosi 32 : (⟨S2097152, .f32⟩ : BufTy).Contents (Elt F) → (⟨S2097152, .i32⟩ : BufTy).Contents (Elt F)),
    nullary main_c (constantI S_ 32 0#32),
    nullary main_c_10 (constantI S_ 32 159#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2097152, .i32⟩) main_call0_v1) (broadcastInDim S2097152 ![] bcast_S_S2097152),
    TRef.binary (TRef.of (T := ⟨S2097152, .i32⟩) main_call0_v1) (TRef.of (T := ⟨S2097152, .i32⟩) main_v43) (TRef.of (T := ⟨S2097152, .i32⟩) main_call0_v2) maxsi,
    TRef.unary (TRef.of (T := ⟨S_, .i32⟩) main_c_10) (TRef.of (T := ⟨S_, .i32⟩) main_call0_v3) id,
    TRef.unary (TRef.of (T := ⟨S_, .i32⟩) main_call0_v3) (TRef.of (T := ⟨S2097152, .i32⟩) main_call0_v4) (broadcastInDim S2097152 ![] bcast_S_S2097152),
    TRef.binary (TRef.of (T := ⟨S2097152, .i32⟩) main_call0_v4) (TRef.of (T := ⟨S2097152, .i32⟩) main_call0_v2) (TRef.of (T := ⟨S2097152, .i32⟩) main_v44) minsi,
    unary main_v38 main_v45 (fptosi 32 : (⟨S2097152, .f32⟩ : BufTy).Contents (Elt F) → (⟨S2097152, .i32⟩ : BufTy).Contents (Elt F)),
    nullary main_c_11 (constantI S_ 32 0#32) ]

/-- The operations of @main's stretch 1, in order. -/
abbrev ops1 : List (HloOp τ sig (Elt F)) :=
  [ nullary main_c_12 (constantI S_ 32 159#32),
    TRef.unary (TRef.of (T := ⟨S_, .i32⟩) main_c_11) (TRef.of (T := ⟨S_, .i32⟩) main_call1_v0) id,
    TRef.unary (TRef.of (T := ⟨S_, .i32⟩) main_call1_v0) (TRef.of (T := ⟨S2097152, .i32⟩) main_call1_v1) (broadcastInDim S2097152 ![] bcast_S_S2097152),
    TRef.binary (TRef.of (T := ⟨S2097152, .i32⟩) main_call1_v1) (TRef.of (T := ⟨S2097152, .i32⟩) main_v45) (TRef.of (T := ⟨S2097152, .i32⟩) main_call1_v2) maxsi,
    TRef.unary (TRef.of (T := ⟨S_, .i32⟩) main_c_12) (TRef.of (T := ⟨S_, .i32⟩) main_call1_v3) id,
    TRef.unary (TRef.of (T := ⟨S_, .i32⟩) main_call1_v3) (TRef.of (T := ⟨S2097152, .i32⟩) main_call1_v4) (broadcastInDim S2097152 ![] bcast_S_S2097152),
    TRef.binary (TRef.of (T := ⟨S2097152, .i32⟩) main_call1_v4) (TRef.of (T := ⟨S2097152, .i32⟩) main_call1_v2) (TRef.of (T := ⟨S2097152, .i32⟩) main_v46) minsi,
    unary main_v39 main_v47 (fptosi 32 : (⟨S2097152, .f32⟩ : BufTy).Contents (Elt F) → (⟨S2097152, .i32⟩ : BufTy).Contents (Elt F)),
    nullary main_c_13 (constantI S_ 32 0#32),
    nullary main_c_14 (constantI S_ 32 159#32),
    TRef.unary (TRef.of (T := ⟨S_, .i32⟩) main_c_13) (TRef.of (T := ⟨S_, .i32⟩) main_call2_v0) id,
    TRef.unary (TRef.of (T := ⟨S_, .i32⟩) main_call2_v0) (TRef.of (T := ⟨S2097152, .i32⟩) main_call2_v1) (broadcastInDim S2097152 ![] bcast_S_S2097152),
    TRef.binary (TRef.of (T := ⟨S2097152, .i32⟩) main_call2_v1) (TRef.of (T := ⟨S2097152, .i32⟩) main_v47) (TRef.of (T := ⟨S2097152, .i32⟩) main_call2_v2) maxsi,
    TRef.unary (TRef.of (T := ⟨S_, .i32⟩) main_c_14) (TRef.of (T := ⟨S_, .i32⟩) main_call2_v3) id,
    TRef.unary (TRef.of (T := ⟨S_, .i32⟩) main_call2_v3) (TRef.of (T := ⟨S2097152, .i32⟩) main_call2_v4) (broadcastInDim S2097152 ![] bcast_S_S2097152),
    TRef.binary (TRef.of (T := ⟨S2097152, .i32⟩) main_call2_v4) (TRef.of (T := ⟨S2097152, .i32⟩) main_call2_v2) (TRef.of (T := ⟨S2097152, .i32⟩) main_v48) minsi,
    nullary main_c_15 (constantI S_ 32 1#32),
    unary main_c_15 main_v49 (broadcastInDim S2097152 ![] bcast_S_S2097152 : (⟨S_, .i32⟩ : BufTy).Contents (Elt F) → (⟨S2097152, .i32⟩ : BufTy).Contents (Elt F)),
    binary main_v44 main_v49 main_v50 (addi : (⟨S2097152, .i32⟩ : BufTy).Contents (Elt F) → (⟨S2097152, .i32⟩ : BufTy).Contents (Elt F) → (⟨S2097152, .i32⟩ : BufTy).Contents (Elt F)),
    nullary main_c_16 (constantI S_ 32 0#32),
    nullary main_c_17 (constantI S_ 32 159#32),
    TRef.unary (TRef.of (T := ⟨S_, .i32⟩) main_c_16) (TRef.of (T := ⟨S_, .i32⟩) main_call3_v0) id,
    TRef.unary (TRef.of (T := ⟨S_, .i32⟩) main_call3_v0) (TRef.of (T := ⟨S2097152, .i32⟩) main_call3_v1) (broadcastInDim S2097152 ![] bcast_S_S2097152),
    TRef.binary (TRef.of (T := ⟨S2097152, .i32⟩) main_call3_v1) (TRef.of (T := ⟨S2097152, .i32⟩) main_v50) (TRef.of (T := ⟨S2097152, .i32⟩) main_call3_v2) maxsi,
    TRef.unary (TRef.of (T := ⟨S_, .i32⟩) main_c_17) (TRef.of (T := ⟨S_, .i32⟩) main_call3_v3) id,
    TRef.unary (TRef.of (T := ⟨S_, .i32⟩) main_call3_v3) (TRef.of (T := ⟨S2097152, .i32⟩) main_call3_v4) (broadcastInDim S2097152 ![] bcast_S_S2097152),
    TRef.binary (TRef.of (T := ⟨S2097152, .i32⟩) main_call3_v4) (TRef.of (T := ⟨S2097152, .i32⟩) main_call3_v2) (TRef.of (T := ⟨S2097152, .i32⟩) main_v51) minsi,
    nullary main_c_18 (constantI S_ 32 1#32),
    unary main_c_18 main_v52 (broadcastInDim S2097152 ![] bcast_S_S2097152 : (⟨S_, .i32⟩ : BufTy).Contents (Elt F) → (⟨S2097152, .i32⟩ : BufTy).Contents (Elt F)),
    binary main_v46 main_v52 main_v53 (addi : (⟨S2097152, .i32⟩ : BufTy).Contents (Elt F) → (⟨S2097152, .i32⟩ : BufTy).Contents (Elt F) → (⟨S2097152, .i32⟩ : BufTy).Contents (Elt F)),
    nullary main_c_19 (constantI S_ 32 0#32),
    nullary main_c_20 (constantI S_ 32 159#32),
    TRef.unary (TRef.of (T := ⟨S_, .i32⟩) main_c_19) (TRef.of (T := ⟨S_, .i32⟩) main_call4_v0) id,
    TRef.unary (TRef.of (T := ⟨S_, .i32⟩) main_call4_v0) (TRef.of (T := ⟨S2097152, .i32⟩) main_call4_v1) (broadcastInDim S2097152 ![] bcast_S_S2097152),
    TRef.binary (TRef.of (T := ⟨S2097152, .i32⟩) main_call4_v1) (TRef.of (T := ⟨S2097152, .i32⟩) main_v53) (TRef.of (T := ⟨S2097152, .i32⟩) main_call4_v2) maxsi,
    TRef.unary (TRef.of (T := ⟨S_, .i32⟩) main_c_20) (TRef.of (T := ⟨S_, .i32⟩) main_call4_v3) id,
    TRef.unary (TRef.of (T := ⟨S_, .i32⟩) main_call4_v3) (TRef.of (T := ⟨S2097152, .i32⟩) main_call4_v4) (broadcastInDim S2097152 ![] bcast_S_S2097152),
    TRef.binary (TRef.of (T := ⟨S2097152, .i32⟩) main_call4_v4) (TRef.of (T := ⟨S2097152, .i32⟩) main_call4_v2) (TRef.of (T := ⟨S2097152, .i32⟩) main_v54) minsi,
    nullary main_c_21 (constantI S_ 32 1#32),
    unary main_c_21 main_v55 (broadcastInDim S2097152 ![] bcast_S_S2097152 : (⟨S_, .i32⟩ : BufTy).Contents (Elt F) → (⟨S2097152, .i32⟩ : BufTy).Contents (Elt F)),
    binary main_v48 main_v55 main_v56 (addi : (⟨S2097152, .i32⟩ : BufTy).Contents (Elt F) → (⟨S2097152, .i32⟩ : BufTy).Contents (Elt F) → (⟨S2097152, .i32⟩ : BufTy).Contents (Elt F)),
    nullary main_c_22 (constantI S_ 32 0#32),
    nullary main_c_23 (constantI S_ 32 159#32),
    TRef.unary (TRef.of (T := ⟨S_, .i32⟩) main_c_22) (TRef.of (T := ⟨S_, .i32⟩) main_call5_v0) id,
    TRef.unary (TRef.of (T := ⟨S_, .i32⟩) main_call5_v0) (TRef.of (T := ⟨S2097152, .i32⟩) main_call5_v1) (broadcastInDim S2097152 ![] bcast_S_S2097152),
    TRef.binary (TRef.of (T := ⟨S2097152, .i32⟩) main_call5_v1) (TRef.of (T := ⟨S2097152, .i32⟩) main_v56) (TRef.of (T := ⟨S2097152, .i32⟩) main_call5_v2) maxsi,
    TRef.unary (TRef.of (T := ⟨S_, .i32⟩) main_c_23) (TRef.of (T := ⟨S_, .i32⟩) main_call5_v3) id,
    TRef.unary (TRef.of (T := ⟨S_, .i32⟩) main_call5_v3) (TRef.of (T := ⟨S2097152, .i32⟩) main_call5_v4) (broadcastInDim S2097152 ![] bcast_S_S2097152),
    TRef.binary (TRef.of (T := ⟨S2097152, .i32⟩) main_call5_v4) (TRef.of (T := ⟨S2097152, .i32⟩) main_call5_v2) (TRef.of (T := ⟨S2097152, .i32⟩) main_v57) minsi,
    nullary main_cst_24 (constant S_ .f32 0x3F800000#32),
    unary main_cst_24 main_v58 (broadcastInDim S2097152 ![] bcast_S_S2097152 : (⟨S_, .f32⟩ : BufTy).Contents (Elt F) → (⟨S2097152, .f32⟩ : BufTy).Contents (Elt F)),
    binary main_v58 main_v40 main_v59 (subf : (⟨S2097152, .f32⟩ : BufTy).Contents (Elt F) → (⟨S2097152, .f32⟩ : BufTy).Contents (Elt F) → (⟨S2097152, .f32⟩ : BufTy).Contents (Elt F)),
    nullary main_cst_25 (constant S_ .f32 0x3F800000#32),
    unary main_cst_25 main_v60 (broadcastInDim S2097152 ![] bcast_S_S2097152 : (⟨S_, .f32⟩ : BufTy).Contents (Elt F) → (⟨S2097152, .f32⟩ : BufTy).Contents (Elt F)),
    binary main_v60 main_v41 main_v61 (subf : (⟨S2097152, .f32⟩ : BufTy).Contents (Elt F) → (⟨S2097152, .f32⟩ : BufTy).Contents (Elt F) → (⟨S2097152, .f32⟩ : BufTy).Contents (Elt F)),
    nullary main_cst_26 (constant S_ .f32 0x3F800000#32),
    unary main_cst_26 main_v62 (broadcastInDim S2097152 ![] bcast_S_S2097152 : (⟨S_, .f32⟩ : BufTy).Contents (Elt F) → (⟨S2097152, .f32⟩ : BufTy).Contents (Elt F)),
    binary main_v62 main_v42 main_v63 (subf : (⟨S2097152, .f32⟩ : BufTy).Contents (Elt F) → (⟨S2097152, .f32⟩ : BufTy).Contents (Elt F) → (⟨S2097152, .f32⟩ : BufTy).Contents (Elt F)),
    nullary main_c_27 (constantI S_ 32 0#32),
    unary main_c_27 main_v64 (broadcastInDim S2097152 ![] bcast_S_S2097152 : (⟨S_, .i32⟩ : BufTy).Contents (Elt F) → (⟨S2097152, .i32⟩ : BufTy).Contents (Elt F)),
    binary main_v48 main_v64 main_v65 (cmpi .slt : (⟨S2097152, .i32⟩ : BufTy).Contents (Elt F) → (⟨S2097152, .i32⟩ : BufTy).Contents (Elt F) → (⟨S2097152, .i1⟩ : BufTy).Contents (Elt F)),
    nullary main_c_28 (constantI S_ 32 160#32),
    unary main_c_28 main_v66 (broadcastInDim S2097152 ![] bcast_S_S2097152 : (⟨S_, .i32⟩ : BufTy).Contents (Elt F) → (⟨S2097152, .i32⟩ : BufTy).Contents (Elt F)),
    binary main_v48 main_v66 main_v67 (addi : (⟨S2097152, .i32⟩ : BufTy).Contents (Elt F) → (⟨S2097152, .i32⟩ : BufTy).Contents (Elt F) → (⟨S2097152, .i32⟩ : BufTy).Contents (Elt F)),
    ternary main_v65 main_v67 main_v48 main_v68 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_29 (constantI S_ 32 0#32),
    unary main_c_29 main_v69 (broadcastInDim S2097152 ![] bcast_S_S2097152 : (⟨S_, .i32⟩ : BufTy).Contents (Elt F) → (⟨S2097152, .i32⟩ : BufTy).Contents (Elt F)),
    binary main_v46 main_v69 main_v70 (cmpi .slt : (⟨S2097152, .i32⟩ : BufTy).Contents (Elt F) → (⟨S2097152, .i32⟩ : BufTy).Contents (Elt F) → (⟨S2097152, .i1⟩ : BufTy).Contents (Elt F)),
    nullary main_c_30 (constantI S_ 32 160#32),
    unary main_c_30 main_v71 (broadcastInDim S2097152 ![] bcast_S_S2097152 : (⟨S_, .i32⟩ : BufTy).Contents (Elt F) → (⟨S2097152, .i32⟩ : BufTy).Contents (Elt F)),
    binary main_v46 main_v71 main_v72 (addi : (⟨S2097152, .i32⟩ : BufTy).Contents (Elt F) → (⟨S2097152, .i32⟩ : BufTy).Contents (Elt F) → (⟨S2097152, .i32⟩ : BufTy).Contents (Elt F)),
    ternary main_v70 main_v72 main_v46 main_v73 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_31 (constantI S_ 32 0#32),
    unary main_c_31 main_v74 (broadcastInDim S2097152 ![] bcast_S_S2097152 : (⟨S_, .i32⟩ : BufTy).Contents (Elt F) → (⟨S2097152, .i32⟩ : BufTy).Contents (Elt F)),
    binary main_v44 main_v74 main_v75 (cmpi .slt : (⟨S2097152, .i32⟩ : BufTy).Contents (Elt F) → (⟨S2097152, .i32⟩ : BufTy).Contents (Elt F) → (⟨S2097152, .i1⟩ : BufTy).Contents (Elt F)),
    nullary main_c_32 (constantI S_ 32 160#32),
    unary main_c_32 main_v76 (broadcastInDim S2097152 ![] bcast_S_S2097152 : (⟨S_, .i32⟩ : BufTy).Contents (Elt F) → (⟨S2097152, .i32⟩ : BufTy).Contents (Elt F)),
    binary main_v44 main_v76 main_v77 (addi : (⟨S2097152, .i32⟩ : BufTy).Contents (Elt F) → (⟨S2097152, .i32⟩ : BufTy).Contents (Elt F) → (⟨S2097152, .i32⟩ : BufTy).Contents (Elt F)),
    ternary main_v75 main_v77 main_v44 main_v78 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v68 main_v79 (broadcastInDim S2097152x1 ![0] bcast_S2097152_S2097152x1_0 : (⟨S2097152, .i32⟩ : BufTy).Contents (Elt F) → (⟨S2097152x1, .i32⟩ : BufTy).Contents (Elt F)),
    unary main_v73 main_v80 (broadcastInDim S2097152x1 ![0] bcast_S2097152_S2097152x1_0 : (⟨S2097152, .i32⟩ : BufTy).Contents (Elt F) → (⟨S2097152x1, .i32⟩ : BufTy).Contents (Elt F)),
    unary main_v78 main_v81 (broadcastInDim S2097152x1 ![0] bcast_S2097152_S2097152x1_0 : (⟨S2097152, .i32⟩ : BufTy).Contents (Elt F) → (⟨S2097152x1, .i32⟩ : BufTy).Contents (Elt F)),
    nary ![main_v79, main_v80, main_v81] main_v82 (fun u => concatenate S2097152x3 1 [⟨S2097152x1, u 0⟩, ⟨S2097152x1, u 1⟩, ⟨S2097152x1, u 2⟩] concatenates_S2097152x1_S2097152x1_S2097152x1_S2097152x3_d1),
    binary main_v0 main_v82 main_v83 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v63 main_v61 main_v84 (mulf : (⟨S2097152, .f32⟩ : BufTy).Contents (Elt F) → (⟨S2097152, .f32⟩ : BufTy).Contents (Elt F) → (⟨S2097152, .f32⟩ : BufTy).Contents (Elt F)) ]

/-- The operations of @main's stretch 2, in order. -/
abbrev ops2 : List (HloOp τ sig (Elt F)) :=
  [ binary main_v84 main_v59 main_v85 (mulf : (⟨S2097152, .f32⟩ : BufTy).Contents (Elt F) → (⟨S2097152, .f32⟩ : BufTy).Contents (Elt F) → (⟨S2097152, .f32⟩ : BufTy).Contents (Elt F)),
    unary main_v85 main_v86 (broadcastInDim S1x2097152 ![1] bcast_S2097152_S1x2097152_1 : (⟨S2097152, .f32⟩ : BufTy).Contents (Elt F) → (⟨S1x2097152, .f32⟩ : BufTy).Contents (Elt F)),
    unary main_v86 main_v87 (broadcastInDim S12x2097152 ![0, 1] bcast_S1x2097152_S12x2097152_0_1 : (⟨S1x2097152, .f32⟩ : BufTy).Contents (Elt F) → (⟨S12x2097152, .f32⟩ : BufTy).Contents (Elt F)),
    binary main_v83 main_v87 main_v88 (mulf : (⟨S12x2097152, .f32⟩ : BufTy).Contents (Elt F) → (⟨S12x2097152, .f32⟩ : BufTy).Contents (Elt F) → (⟨S12x2097152, .f32⟩ : BufTy).Contents (Elt F)),
    nullary main_c_33 (constantI S_ 32 0#32),
    unary main_c_33 main_v89 (broadcastInDim S2097152 ![] bcast_S_S2097152 : (⟨S_, .i32⟩ : BufTy).Contents (Elt F) → (⟨S2097152, .i32⟩ : BufTy).Contents (Elt F)),
    binary main_v48 main_v89 main_v90 (cmpi .slt : (⟨S2097152, .i32⟩ : BufTy).Contents (Elt F) → (⟨S2097152, .i32⟩ : BufTy).Contents (Elt F) → (⟨S2097152, .i1⟩ : BufTy).Contents (Elt F)),
    nullary main_c_34 (constantI S_ 32 160#32),
    unary main_c_34 main_v91 (broadcastInDim S2097152 ![] bcast_S_S2097152 : (⟨S_, .i32⟩ : BufTy).Contents (Elt F) → (⟨S2097152, .i32⟩ : BufTy).Contents (Elt F)),
    binary main_v48 main_v91 main_v92 (addi : (⟨S2097152, .i32⟩ : BufTy).Contents (Elt F) → (⟨S2097152, .i32⟩ : BufTy).Contents (Elt F) → (⟨S2097152, .i32⟩ : BufTy).Contents (Elt F)),
    ternary main_v90 main_v92 main_v48 main_v93 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_35 (constantI S_ 32 0#32),
    unary main_c_35 main_v94 (broadcastInDim S2097152 ![] bcast_S_S2097152 : (⟨S_, .i32⟩ : BufTy).Contents (Elt F) → (⟨S2097152, .i32⟩ : BufTy).Contents (Elt F)),
    binary main_v46 main_v94 main_v95 (cmpi .slt : (⟨S2097152, .i32⟩ : BufTy).Contents (Elt F) → (⟨S2097152, .i32⟩ : BufTy).Contents (Elt F) → (⟨S2097152, .i1⟩ : BufTy).Contents (Elt F)),
    nullary main_c_36 (constantI S_ 32 160#32),
    unary main_c_36 main_v96 (broadcastInDim S2097152 ![] bcast_S_S2097152 : (⟨S_, .i32⟩ : BufTy).Contents (Elt F) → (⟨S2097152, .i32⟩ : BufTy).Contents (Elt F)),
    binary main_v46 main_v96 main_v97 (addi : (⟨S2097152, .i32⟩ : BufTy).Contents (Elt F) → (⟨S2097152, .i32⟩ : BufTy).Contents (Elt F) → (⟨S2097152, .i32⟩ : BufTy).Contents (Elt F)),
    ternary main_v95 main_v97 main_v46 main_v98 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_37 (constantI S_ 32 0#32),
    unary main_c_37 main_v99 (broadcastInDim S2097152 ![] bcast_S_S2097152 : (⟨S_, .i32⟩ : BufTy).Contents (Elt F) → (⟨S2097152, .i32⟩ : BufTy).Contents (Elt F)),
    binary main_v51 main_v99 main_v100 (cmpi .slt : (⟨S2097152, .i32⟩ : BufTy).Contents (Elt F) → (⟨S2097152, .i32⟩ : BufTy).Contents (Elt F) → (⟨S2097152, .i1⟩ : BufTy).Contents (Elt F)),
    nullary main_c_38 (constantI S_ 32 160#32),
    unary main_c_38 main_v101 (broadcastInDim S2097152 ![] bcast_S_S2097152 : (⟨S_, .i32⟩ : BufTy).Contents (Elt F) → (⟨S2097152, .i32⟩ : BufTy).Contents (Elt F)),
    binary main_v51 main_v101 main_v102 (addi : (⟨S2097152, .i32⟩ : BufTy).Contents (Elt F) → (⟨S2097152, .i32⟩ : BufTy).Contents (Elt F) → (⟨S2097152, .i32⟩ : BufTy).Contents (Elt F)),
    ternary main_v100 main_v102 main_v51 main_v103 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v93 main_v104 (broadcastInDim S2097152x1 ![0] bcast_S2097152_S2097152x1_0 : (⟨S2097152, .i32⟩ : BufTy).Contents (Elt F) → (⟨S2097152x1, .i32⟩ : BufTy).Contents (Elt F)),
    unary main_v98 main_v105 (broadcastInDim S2097152x1 ![0] bcast_S2097152_S2097152x1_0 : (⟨S2097152, .i32⟩ : BufTy).Contents (Elt F) → (⟨S2097152x1, .i32⟩ : BufTy).Contents (Elt F)),
    unary main_v103 main_v106 (broadcastInDim S2097152x1 ![0] bcast_S2097152_S2097152x1_0 : (⟨S2097152, .i32⟩ : BufTy).Contents (Elt F) → (⟨S2097152x1, .i32⟩ : BufTy).Contents (Elt F)),
    nary ![main_v104, main_v105, main_v106] main_v107 (fun u => concatenate S2097152x3 1 [⟨S2097152x1, u 0⟩, ⟨S2097152x1, u 1⟩, ⟨S2097152x1, u 2⟩] concatenates_S2097152x1_S2097152x1_S2097152x1_S2097152x3_d1),
    binary main_v0 main_v107 main_v108 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v63 main_v61 main_v109 (mulf : (⟨S2097152, .f32⟩ : BufTy).Contents (Elt F) → (⟨S2097152, .f32⟩ : BufTy).Contents (Elt F) → (⟨S2097152, .f32⟩ : BufTy).Contents (Elt F)),
    binary main_v109 main_v40 main_v110 (mulf : (⟨S2097152, .f32⟩ : BufTy).Contents (Elt F) → (⟨S2097152, .f32⟩ : BufTy).Contents (Elt F) → (⟨S2097152, .f32⟩ : BufTy).Contents (Elt F)),
    unary main_v110 main_v111 (broadcastInDim S1x2097152 ![1] bcast_S2097152_S1x2097152_1 : (⟨S2097152, .f32⟩ : BufTy).Contents (Elt F) → (⟨S1x2097152, .f32⟩ : BufTy).Contents (Elt F)),
    unary main_v111 main_v112 (broadcastInDim S12x2097152 ![0, 1] bcast_S1x2097152_S12x2097152_0_1 : (⟨S1x2097152, .f32⟩ : BufTy).Contents (Elt F) → (⟨S12x2097152, .f32⟩ : BufTy).Contents (Elt F)),
    binary main_v108 main_v112 main_v113 (mulf : (⟨S12x2097152, .f32⟩ : BufTy).Contents (Elt F) → (⟨S12x2097152, .f32⟩ : BufTy).Contents (Elt F) → (⟨S12x2097152, .f32⟩ : BufTy).Contents (Elt F)),
    binary main_v88 main_v113 main_v114 (addf : (⟨S12x2097152, .f32⟩ : BufTy).Contents (Elt F) → (⟨S12x2097152, .f32⟩ : BufTy).Contents (Elt F) → (⟨S12x2097152, .f32⟩ : BufTy).Contents (Elt F)),
    nullary main_c_39 (constantI S_ 32 0#32),
    unary main_c_39 main_v115 (broadcastInDim S2097152 ![] bcast_S_S2097152 : (⟨S_, .i32⟩ : BufTy).Contents (Elt F) → (⟨S2097152, .i32⟩ : BufTy).Contents (Elt F)),
    binary main_v48 main_v115 main_v116 (cmpi .slt : (⟨S2097152, .i32⟩ : BufTy).Contents (Elt F) → (⟨S2097152, .i32⟩ : BufTy).Contents (Elt F) → (⟨S2097152, .i1⟩ : BufTy).Contents (Elt F)),
    nullary main_c_40 (constantI S_ 32 160#32),
    unary main_c_40 main_v117 (broadcastInDim S2097152 ![] bcast_S_S2097152 : (⟨S_, .i32⟩ : BufTy).Contents (Elt F) → (⟨S2097152, .i32⟩ : BufTy).Contents (Elt F)),
    binary main_v48 main_v117 main_v118 (addi : (⟨S2097152, .i32⟩ : BufTy).Contents (Elt F) → (⟨S2097152, .i32⟩ : BufTy).Contents (Elt F) → (⟨S2097152, .i32⟩ : BufTy).Contents (Elt F)),
    ternary main_v116 main_v118 main_v48 main_v119 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_41 (constantI S_ 32 0#32),
    unary main_c_41 main_v120 (broadcastInDim S2097152 ![] bcast_S_S2097152 : (⟨S_, .i32⟩ : BufTy).Contents (Elt F) → (⟨S2097152, .i32⟩ : BufTy).Contents (Elt F)),
    binary main_v54 main_v120 main_v121 (cmpi .slt : (⟨S2097152, .i32⟩ : BufTy).Contents (Elt F) → (⟨S2097152, .i32⟩ : BufTy).Contents (Elt F) → (⟨S2097152, .i1⟩ : BufTy).Contents (Elt F)),
    nullary main_c_42 (constantI S_ 32 160#32),
    unary main_c_42 main_v122 (broadcastInDim S2097152 ![] bcast_S_S2097152 : (⟨S_, .i32⟩ : BufTy).Contents (Elt F) → (⟨S2097152, .i32⟩ : BufTy).Contents (Elt F)),
    binary main_v54 main_v122 main_v123 (addi : (⟨S2097152, .i32⟩ : BufTy).Contents (Elt F) → (⟨S2097152, .i32⟩ : BufTy).Contents (Elt F) → (⟨S2097152, .i32⟩ : BufTy).Contents (Elt F)),
    ternary main_v121 main_v123 main_v54 main_v124 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_43 (constantI S_ 32 0#32),
    unary main_c_43 main_v125 (broadcastInDim S2097152 ![] bcast_S_S2097152 : (⟨S_, .i32⟩ : BufTy).Contents (Elt F) → (⟨S2097152, .i32⟩ : BufTy).Contents (Elt F)),
    binary main_v44 main_v125 main_v126 (cmpi .slt : (⟨S2097152, .i32⟩ : BufTy).Contents (Elt F) → (⟨S2097152, .i32⟩ : BufTy).Contents (Elt F) → (⟨S2097152, .i1⟩ : BufTy).Contents (Elt F)),
    nullary main_c_44 (constantI S_ 32 160#32),
    unary main_c_44 main_v127 (broadcastInDim S2097152 ![] bcast_S_S2097152 : (⟨S_, .i32⟩ : BufTy).Contents (Elt F) → (⟨S2097152, .i32⟩ : BufTy).Contents (Elt F)),
    binary main_v44 main_v127 main_v128 (addi : (⟨S2097152, .i32⟩ : BufTy).Contents (Elt F) → (⟨S2097152, .i32⟩ : BufTy).Contents (Elt F) → (⟨S2097152, .i32⟩ : BufTy).Contents (Elt F)),
    ternary main_v126 main_v128 main_v44 main_v129 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v119 main_v130 (broadcastInDim S2097152x1 ![0] bcast_S2097152_S2097152x1_0 : (⟨S2097152, .i32⟩ : BufTy).Contents (Elt F) → (⟨S2097152x1, .i32⟩ : BufTy).Contents (Elt F)),
    unary main_v124 main_v131 (broadcastInDim S2097152x1 ![0] bcast_S2097152_S2097152x1_0 : (⟨S2097152, .i32⟩ : BufTy).Contents (Elt F) → (⟨S2097152x1, .i32⟩ : BufTy).Contents (Elt F)),
    unary main_v129 main_v132 (broadcastInDim S2097152x1 ![0] bcast_S2097152_S2097152x1_0 : (⟨S2097152, .i32⟩ : BufTy).Contents (Elt F) → (⟨S2097152x1, .i32⟩ : BufTy).Contents (Elt F)) ]

/-- The operations of @main's stretch 3, in order. -/
abbrev ops3 : List (HloOp τ sig (Elt F)) :=
  [ nary ![main_v130, main_v131, main_v132] main_v133 (fun u => concatenate S2097152x3 1 [⟨S2097152x1, u 0⟩, ⟨S2097152x1, u 1⟩, ⟨S2097152x1, u 2⟩] concatenates_S2097152x1_S2097152x1_S2097152x1_S2097152x3_d1),
    binary main_v0 main_v133 main_v134 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v63 main_v41 main_v135 (mulf : (⟨S2097152, .f32⟩ : BufTy).Contents (Elt F) → (⟨S2097152, .f32⟩ : BufTy).Contents (Elt F) → (⟨S2097152, .f32⟩ : BufTy).Contents (Elt F)),
    binary main_v135 main_v59 main_v136 (mulf : (⟨S2097152, .f32⟩ : BufTy).Contents (Elt F) → (⟨S2097152, .f32⟩ : BufTy).Contents (Elt F) → (⟨S2097152, .f32⟩ : BufTy).Contents (Elt F)),
    unary main_v136 main_v137 (broadcastInDim S1x2097152 ![1] bcast_S2097152_S1x2097152_1 : (⟨S2097152, .f32⟩ : BufTy).Contents (Elt F) → (⟨S1x2097152, .f32⟩ : BufTy).Contents (Elt F)),
    unary main_v137 main_v138 (broadcastInDim S12x2097152 ![0, 1] bcast_S1x2097152_S12x2097152_0_1 : (⟨S1x2097152, .f32⟩ : BufTy).Contents (Elt F) → (⟨S12x2097152, .f32⟩ : BufTy).Contents (Elt F)),
    binary main_v134 main_v138 main_v139 (mulf : (⟨S12x2097152, .f32⟩ : BufTy).Contents (Elt F) → (⟨S12x2097152, .f32⟩ : BufTy).Contents (Elt F) → (⟨S12x2097152, .f32⟩ : BufTy).Contents (Elt F)),
    binary main_v114 main_v139 main_v140 (addf : (⟨S12x2097152, .f32⟩ : BufTy).Contents (Elt F) → (⟨S12x2097152, .f32⟩ : BufTy).Contents (Elt F) → (⟨S12x2097152, .f32⟩ : BufTy).Contents (Elt F)),
    nullary main_c_45 (constantI S_ 32 0#32),
    unary main_c_45 main_v141 (broadcastInDim S2097152 ![] bcast_S_S2097152 : (⟨S_, .i32⟩ : BufTy).Contents (Elt F) → (⟨S2097152, .i32⟩ : BufTy).Contents (Elt F)),
    binary main_v48 main_v141 main_v142 (cmpi .slt : (⟨S2097152, .i32⟩ : BufTy).Contents (Elt F) → (⟨S2097152, .i32⟩ : BufTy).Contents (Elt F) → (⟨S2097152, .i1⟩ : BufTy).Contents (Elt F)),
    nullary main_c_46 (constantI S_ 32 160#32),
    unary main_c_46 main_v143 (broadcastInDim S2097152 ![] bcast_S_S2097152 : (⟨S_, .i32⟩ : BufTy).Contents (Elt F) → (⟨S2097152, .i32⟩ : BufTy).Contents (Elt F)),
    binary main_v48 main_v143 main_v144 (addi : (⟨S2097152, .i32⟩ : BufTy).Contents (Elt F) → (⟨S2097152, .i32⟩ : BufTy).Contents (Elt F) → (⟨S2097152, .i32⟩ : BufTy).Contents (Elt F)),
    ternary main_v142 main_v144 main_v48 main_v145 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_47 (constantI S_ 32 0#32),
    unary main_c_47 main_v146 (broadcastInDim S2097152 ![] bcast_S_S2097152 : (⟨S_, .i32⟩ : BufTy).Contents (Elt F) → (⟨S2097152, .i32⟩ : BufTy).Contents (Elt F)),
    binary main_v54 main_v146 main_v147 (cmpi .slt : (⟨S2097152, .i32⟩ : BufTy).Contents (Elt F) → (⟨S2097152, .i32⟩ : BufTy).Contents (Elt F) → (⟨S2097152, .i1⟩ : BufTy).Contents (Elt F)),
    nullary main_c_48 (constantI S_ 32 160#32),
    unary main_c_48 main_v148 (broadcastInDim S2097152 ![] bcast_S_S2097152 : (⟨S_, .i32⟩ : BufTy).Contents (Elt F) → (⟨S2097152, .i32⟩ : BufTy).Contents (Elt F)),
    binary main_v54 main_v148 main_v149 (addi : (⟨S2097152, .i32⟩ : BufTy).Contents (Elt F) → (⟨S2097152, .i32⟩ : BufTy).Contents (Elt F) → (⟨S2097152, .i32⟩ : BufTy).Contents (Elt F)),
    ternary main_v147 main_v149 main_v54 main_v150 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_49 (constantI S_ 32 0#32),
    unary main_c_49 main_v151 (broadcastInDim S2097152 ![] bcast_S_S2097152 : (⟨S_, .i32⟩ : BufTy).Contents (Elt F) → (⟨S2097152, .i32⟩ : BufTy).Contents (Elt F)),
    binary main_v51 main_v151 main_v152 (cmpi .slt : (⟨S2097152, .i32⟩ : BufTy).Contents (Elt F) → (⟨S2097152, .i32⟩ : BufTy).Contents (Elt F) → (⟨S2097152, .i1⟩ : BufTy).Contents (Elt F)),
    nullary main_c_50 (constantI S_ 32 160#32),
    unary main_c_50 main_v153 (broadcastInDim S2097152 ![] bcast_S_S2097152 : (⟨S_, .i32⟩ : BufTy).Contents (Elt F) → (⟨S2097152, .i32⟩ : BufTy).Contents (Elt F)),
    binary main_v51 main_v153 main_v154 (addi : (⟨S2097152, .i32⟩ : BufTy).Contents (Elt F) → (⟨S2097152, .i32⟩ : BufTy).Contents (Elt F) → (⟨S2097152, .i32⟩ : BufTy).Contents (Elt F)),
    ternary main_v152 main_v154 main_v51 main_v155 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v145 main_v156 (broadcastInDim S2097152x1 ![0] bcast_S2097152_S2097152x1_0 : (⟨S2097152, .i32⟩ : BufTy).Contents (Elt F) → (⟨S2097152x1, .i32⟩ : BufTy).Contents (Elt F)),
    unary main_v150 main_v157 (broadcastInDim S2097152x1 ![0] bcast_S2097152_S2097152x1_0 : (⟨S2097152, .i32⟩ : BufTy).Contents (Elt F) → (⟨S2097152x1, .i32⟩ : BufTy).Contents (Elt F)),
    unary main_v155 main_v158 (broadcastInDim S2097152x1 ![0] bcast_S2097152_S2097152x1_0 : (⟨S2097152, .i32⟩ : BufTy).Contents (Elt F) → (⟨S2097152x1, .i32⟩ : BufTy).Contents (Elt F)),
    nary ![main_v156, main_v157, main_v158] main_v159 (fun u => concatenate S2097152x3 1 [⟨S2097152x1, u 0⟩, ⟨S2097152x1, u 1⟩, ⟨S2097152x1, u 2⟩] concatenates_S2097152x1_S2097152x1_S2097152x1_S2097152x3_d1),
    binary main_v0 main_v159 main_v160 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v63 main_v41 main_v161 (mulf : (⟨S2097152, .f32⟩ : BufTy).Contents (Elt F) → (⟨S2097152, .f32⟩ : BufTy).Contents (Elt F) → (⟨S2097152, .f32⟩ : BufTy).Contents (Elt F)),
    binary main_v161 main_v40 main_v162 (mulf : (⟨S2097152, .f32⟩ : BufTy).Contents (Elt F) → (⟨S2097152, .f32⟩ : BufTy).Contents (Elt F) → (⟨S2097152, .f32⟩ : BufTy).Contents (Elt F)),
    unary main_v162 main_v163 (broadcastInDim S1x2097152 ![1] bcast_S2097152_S1x2097152_1 : (⟨S2097152, .f32⟩ : BufTy).Contents (Elt F) → (⟨S1x2097152, .f32⟩ : BufTy).Contents (Elt F)),
    unary main_v163 main_v164 (broadcastInDim S12x2097152 ![0, 1] bcast_S1x2097152_S12x2097152_0_1 : (⟨S1x2097152, .f32⟩ : BufTy).Contents (Elt F) → (⟨S12x2097152, .f32⟩ : BufTy).Contents (Elt F)),
    binary main_v160 main_v164 main_v165 (mulf : (⟨S12x2097152, .f32⟩ : BufTy).Contents (Elt F) → (⟨S12x2097152, .f32⟩ : BufTy).Contents (Elt F) → (⟨S12x2097152, .f32⟩ : BufTy).Contents (Elt F)),
    binary main_v140 main_v165 main_v166 (addf : (⟨S12x2097152, .f32⟩ : BufTy).Contents (Elt F) → (⟨S12x2097152, .f32⟩ : BufTy).Contents (Elt F) → (⟨S12x2097152, .f32⟩ : BufTy).Contents (Elt F)),
    nullary main_c_51 (constantI S_ 32 0#32),
    unary main_c_51 main_v167 (broadcastInDim S2097152 ![] bcast_S_S2097152 : (⟨S_, .i32⟩ : BufTy).Contents (Elt F) → (⟨S2097152, .i32⟩ : BufTy).Contents (Elt F)),
    binary main_v57 main_v167 main_v168 (cmpi .slt : (⟨S2097152, .i32⟩ : BufTy).Contents (Elt F) → (⟨S2097152, .i32⟩ : BufTy).Contents (Elt F) → (⟨S2097152, .i1⟩ : BufTy).Contents (Elt F)),
    nullary main_c_52 (constantI S_ 32 160#32),
    unary main_c_52 main_v169 (broadcastInDim S2097152 ![] bcast_S_S2097152 : (⟨S_, .i32⟩ : BufTy).Contents (Elt F) → (⟨S2097152, .i32⟩ : BufTy).Contents (Elt F)),
    binary main_v57 main_v169 main_v170 (addi : (⟨S2097152, .i32⟩ : BufTy).Contents (Elt F) → (⟨S2097152, .i32⟩ : BufTy).Contents (Elt F) → (⟨S2097152, .i32⟩ : BufTy).Contents (Elt F)),
    ternary main_v168 main_v170 main_v57 main_v171 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_53 (constantI S_ 32 0#32),
    unary main_c_53 main_v172 (broadcastInDim S2097152 ![] bcast_S_S2097152 : (⟨S_, .i32⟩ : BufTy).Contents (Elt F) → (⟨S2097152, .i32⟩ : BufTy).Contents (Elt F)),
    binary main_v46 main_v172 main_v173 (cmpi .slt : (⟨S2097152, .i32⟩ : BufTy).Contents (Elt F) → (⟨S2097152, .i32⟩ : BufTy).Contents (Elt F) → (⟨S2097152, .i1⟩ : BufTy).Contents (Elt F)),
    nullary main_c_54 (constantI S_ 32 160#32),
    unary main_c_54 main_v174 (broadcastInDim S2097152 ![] bcast_S_S2097152 : (⟨S_, .i32⟩ : BufTy).Contents (Elt F) → (⟨S2097152, .i32⟩ : BufTy).Contents (Elt F)),
    binary main_v46 main_v174 main_v175 (addi : (⟨S2097152, .i32⟩ : BufTy).Contents (Elt F) → (⟨S2097152, .i32⟩ : BufTy).Contents (Elt F) → (⟨S2097152, .i32⟩ : BufTy).Contents (Elt F)),
    ternary main_v173 main_v175 main_v46 main_v176 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_55 (constantI S_ 32 0#32),
    unary main_c_55 main_v177 (broadcastInDim S2097152 ![] bcast_S_S2097152 : (⟨S_, .i32⟩ : BufTy).Contents (Elt F) → (⟨S2097152, .i32⟩ : BufTy).Contents (Elt F)),
    binary main_v44 main_v177 main_v178 (cmpi .slt : (⟨S2097152, .i32⟩ : BufTy).Contents (Elt F) → (⟨S2097152, .i32⟩ : BufTy).Contents (Elt F) → (⟨S2097152, .i1⟩ : BufTy).Contents (Elt F)),
    nullary main_c_56 (constantI S_ 32 160#32),
    unary main_c_56 main_v179 (broadcastInDim S2097152 ![] bcast_S_S2097152 : (⟨S_, .i32⟩ : BufTy).Contents (Elt F) → (⟨S2097152, .i32⟩ : BufTy).Contents (Elt F)),
    binary main_v44 main_v179 main_v180 (addi : (⟨S2097152, .i32⟩ : BufTy).Contents (Elt F) → (⟨S2097152, .i32⟩ : BufTy).Contents (Elt F) → (⟨S2097152, .i32⟩ : BufTy).Contents (Elt F)) ]

/-- The operations of @main's stretch 4, in order. -/
abbrev ops4 : List (HloOp τ sig (Elt F)) :=
  [ ternary main_v178 main_v180 main_v44 main_v181 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v171 main_v182 (broadcastInDim S2097152x1 ![0] bcast_S2097152_S2097152x1_0 : (⟨S2097152, .i32⟩ : BufTy).Contents (Elt F) → (⟨S2097152x1, .i32⟩ : BufTy).Contents (Elt F)),
    unary main_v176 main_v183 (broadcastInDim S2097152x1 ![0] bcast_S2097152_S2097152x1_0 : (⟨S2097152, .i32⟩ : BufTy).Contents (Elt F) → (⟨S2097152x1, .i32⟩ : BufTy).Contents (Elt F)),
    unary main_v181 main_v184 (broadcastInDim S2097152x1 ![0] bcast_S2097152_S2097152x1_0 : (⟨S2097152, .i32⟩ : BufTy).Contents (Elt F) → (⟨S2097152x1, .i32⟩ : BufTy).Contents (Elt F)),
    nary ![main_v182, main_v183, main_v184] main_v185 (fun u => concatenate S2097152x3 1 [⟨S2097152x1, u 0⟩, ⟨S2097152x1, u 1⟩, ⟨S2097152x1, u 2⟩] concatenates_S2097152x1_S2097152x1_S2097152x1_S2097152x3_d1),
    binary main_v0 main_v185 main_v186 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v42 main_v61 main_v187 (mulf : (⟨S2097152, .f32⟩ : BufTy).Contents (Elt F) → (⟨S2097152, .f32⟩ : BufTy).Contents (Elt F) → (⟨S2097152, .f32⟩ : BufTy).Contents (Elt F)),
    binary main_v187 main_v59 main_v188 (mulf : (⟨S2097152, .f32⟩ : BufTy).Contents (Elt F) → (⟨S2097152, .f32⟩ : BufTy).Contents (Elt F) → (⟨S2097152, .f32⟩ : BufTy).Contents (Elt F)),
    unary main_v188 main_v189 (broadcastInDim S1x2097152 ![1] bcast_S2097152_S1x2097152_1 : (⟨S2097152, .f32⟩ : BufTy).Contents (Elt F) → (⟨S1x2097152, .f32⟩ : BufTy).Contents (Elt F)),
    unary main_v189 main_v190 (broadcastInDim S12x2097152 ![0, 1] bcast_S1x2097152_S12x2097152_0_1 : (⟨S1x2097152, .f32⟩ : BufTy).Contents (Elt F) → (⟨S12x2097152, .f32⟩ : BufTy).Contents (Elt F)),
    binary main_v186 main_v190 main_v191 (mulf : (⟨S12x2097152, .f32⟩ : BufTy).Contents (Elt F) → (⟨S12x2097152, .f32⟩ : BufTy).Contents (Elt F) → (⟨S12x2097152, .f32⟩ : BufTy).Contents (Elt F)),
    binary main_v166 main_v191 main_v192 (addf : (⟨S12x2097152, .f32⟩ : BufTy).Contents (Elt F) → (⟨S12x2097152, .f32⟩ : BufTy).Contents (Elt F) → (⟨S12x2097152, .f32⟩ : BufTy).Contents (Elt F)),
    nullary main_c_57 (constantI S_ 32 0#32),
    unary main_c_57 main_v193 (broadcastInDim S2097152 ![] bcast_S_S2097152 : (⟨S_, .i32⟩ : BufTy).Contents (Elt F) → (⟨S2097152, .i32⟩ : BufTy).Contents (Elt F)),
    binary main_v57 main_v193 main_v194 (cmpi .slt : (⟨S2097152, .i32⟩ : BufTy).Contents (Elt F) → (⟨S2097152, .i32⟩ : BufTy).Contents (Elt F) → (⟨S2097152, .i1⟩ : BufTy).Contents (Elt F)),
    nullary main_c_58 (constantI S_ 32 160#32),
    unary main_c_58 main_v195 (broadcastInDim S2097152 ![] bcast_S_S2097152 : (⟨S_, .i32⟩ : BufTy).Contents (Elt F) → (⟨S2097152, .i32⟩ : BufTy).Contents (Elt F)),
    binary main_v57 main_v195 main_v196 (addi : (⟨S2097152, .i32⟩ : BufTy).Contents (Elt F) → (⟨S2097152, .i32⟩ : BufTy).Contents (Elt F) → (⟨S2097152, .i32⟩ : BufTy).Contents (Elt F)),
    ternary main_v194 main_v196 main_v57 main_v197 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_59 (constantI S_ 32 0#32),
    unary main_c_59 main_v198 (broadcastInDim S2097152 ![] bcast_S_S2097152 : (⟨S_, .i32⟩ : BufTy).Contents (Elt F) → (⟨S2097152, .i32⟩ : BufTy).Contents (Elt F)),
    binary main_v46 main_v198 main_v199 (cmpi .slt : (⟨S2097152, .i32⟩ : BufTy).Contents (Elt F) → (⟨S2097152, .i32⟩ : BufTy).Contents (Elt F) → (⟨S2097152, .i1⟩ : BufTy).Contents (Elt F)),
    nullary main_c_60 (constantI S_ 32 160#32),
    unary main_c_60 main_v200 (broadcastInDim S2097152 ![] bcast_S_S2097152 : (⟨S_, .i32⟩ : BufTy).Contents (Elt F) → (⟨S2097152, .i32⟩ : BufTy).Contents (Elt F)),
    binary main_v46 main_v200 main_v201 (addi : (⟨S2097152, .i32⟩ : BufTy).Contents (Elt F) → (⟨S2097152, .i32⟩ : BufTy).Contents (Elt F) → (⟨S2097152, .i32⟩ : BufTy).Contents (Elt F)),
    ternary main_v199 main_v201 main_v46 main_v202 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_61 (constantI S_ 32 0#32),
    unary main_c_61 main_v203 (broadcastInDim S2097152 ![] bcast_S_S2097152 : (⟨S_, .i32⟩ : BufTy).Contents (Elt F) → (⟨S2097152, .i32⟩ : BufTy).Contents (Elt F)),
    binary main_v51 main_v203 main_v204 (cmpi .slt : (⟨S2097152, .i32⟩ : BufTy).Contents (Elt F) → (⟨S2097152, .i32⟩ : BufTy).Contents (Elt F) → (⟨S2097152, .i1⟩ : BufTy).Contents (Elt F)),
    nullary main_c_62 (constantI S_ 32 160#32),
    unary main_c_62 main_v205 (broadcastInDim S2097152 ![] bcast_S_S2097152 : (⟨S_, .i32⟩ : BufTy).Contents (Elt F) → (⟨S2097152, .i32⟩ : BufTy).Contents (Elt F)),
    binary main_v51 main_v205 main_v206 (addi : (⟨S2097152, .i32⟩ : BufTy).Contents (Elt F) → (⟨S2097152, .i32⟩ : BufTy).Contents (Elt F) → (⟨S2097152, .i32⟩ : BufTy).Contents (Elt F)),
    ternary main_v204 main_v206 main_v51 main_v207 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v197 main_v208 (broadcastInDim S2097152x1 ![0] bcast_S2097152_S2097152x1_0 : (⟨S2097152, .i32⟩ : BufTy).Contents (Elt F) → (⟨S2097152x1, .i32⟩ : BufTy).Contents (Elt F)),
    unary main_v202 main_v209 (broadcastInDim S2097152x1 ![0] bcast_S2097152_S2097152x1_0 : (⟨S2097152, .i32⟩ : BufTy).Contents (Elt F) → (⟨S2097152x1, .i32⟩ : BufTy).Contents (Elt F)),
    unary main_v207 main_v210 (broadcastInDim S2097152x1 ![0] bcast_S2097152_S2097152x1_0 : (⟨S2097152, .i32⟩ : BufTy).Contents (Elt F) → (⟨S2097152x1, .i32⟩ : BufTy).Contents (Elt F)),
    nary ![main_v208, main_v209, main_v210] main_v211 (fun u => concatenate S2097152x3 1 [⟨S2097152x1, u 0⟩, ⟨S2097152x1, u 1⟩, ⟨S2097152x1, u 2⟩] concatenates_S2097152x1_S2097152x1_S2097152x1_S2097152x3_d1),
    binary main_v0 main_v211 main_v212 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v42 main_v61 main_v213 (mulf : (⟨S2097152, .f32⟩ : BufTy).Contents (Elt F) → (⟨S2097152, .f32⟩ : BufTy).Contents (Elt F) → (⟨S2097152, .f32⟩ : BufTy).Contents (Elt F)),
    binary main_v213 main_v40 main_v214 (mulf : (⟨S2097152, .f32⟩ : BufTy).Contents (Elt F) → (⟨S2097152, .f32⟩ : BufTy).Contents (Elt F) → (⟨S2097152, .f32⟩ : BufTy).Contents (Elt F)),
    unary main_v214 main_v215 (broadcastInDim S1x2097152 ![1] bcast_S2097152_S1x2097152_1 : (⟨S2097152, .f32⟩ : BufTy).Contents (Elt F) → (⟨S1x2097152, .f32⟩ : BufTy).Contents (Elt F)),
    unary main_v215 main_v216 (broadcastInDim S12x2097152 ![0, 1] bcast_S1x2097152_S12x2097152_0_1 : (⟨S1x2097152, .f32⟩ : BufTy).Contents (Elt F) → (⟨S12x2097152, .f32⟩ : BufTy).Contents (Elt F)),
    binary main_v212 main_v216 main_v217 (mulf : (⟨S12x2097152, .f32⟩ : BufTy).Contents (Elt F) → (⟨S12x2097152, .f32⟩ : BufTy).Contents (Elt F) → (⟨S12x2097152, .f32⟩ : BufTy).Contents (Elt F)),
    binary main_v192 main_v217 main_v218 (addf : (⟨S12x2097152, .f32⟩ : BufTy).Contents (Elt F) → (⟨S12x2097152, .f32⟩ : BufTy).Contents (Elt F) → (⟨S12x2097152, .f32⟩ : BufTy).Contents (Elt F)),
    nullary main_c_63 (constantI S_ 32 0#32),
    unary main_c_63 main_v219 (broadcastInDim S2097152 ![] bcast_S_S2097152 : (⟨S_, .i32⟩ : BufTy).Contents (Elt F) → (⟨S2097152, .i32⟩ : BufTy).Contents (Elt F)),
    binary main_v57 main_v219 main_v220 (cmpi .slt : (⟨S2097152, .i32⟩ : BufTy).Contents (Elt F) → (⟨S2097152, .i32⟩ : BufTy).Contents (Elt F) → (⟨S2097152, .i1⟩ : BufTy).Contents (Elt F)),
    nullary main_c_64 (constantI S_ 32 160#32),
    unary main_c_64 main_v221 (broadcastInDim S2097152 ![] bcast_S_S2097152 : (⟨S_, .i32⟩ : BufTy).Contents (Elt F) → (⟨S2097152, .i32⟩ : BufTy).Contents (Elt F)),
    binary main_v57 main_v221 main_v222 (addi : (⟨S2097152, .i32⟩ : BufTy).Contents (Elt F) → (⟨S2097152, .i32⟩ : BufTy).Contents (Elt F) → (⟨S2097152, .i32⟩ : BufTy).Contents (Elt F)),
    ternary main_v220 main_v222 main_v57 main_v223 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_65 (constantI S_ 32 0#32),
    unary main_c_65 main_v224 (broadcastInDim S2097152 ![] bcast_S_S2097152 : (⟨S_, .i32⟩ : BufTy).Contents (Elt F) → (⟨S2097152, .i32⟩ : BufTy).Contents (Elt F)),
    binary main_v54 main_v224 main_v225 (cmpi .slt : (⟨S2097152, .i32⟩ : BufTy).Contents (Elt F) → (⟨S2097152, .i32⟩ : BufTy).Contents (Elt F) → (⟨S2097152, .i1⟩ : BufTy).Contents (Elt F)),
    nullary main_c_66 (constantI S_ 32 160#32),
    unary main_c_66 main_v226 (broadcastInDim S2097152 ![] bcast_S_S2097152 : (⟨S_, .i32⟩ : BufTy).Contents (Elt F) → (⟨S2097152, .i32⟩ : BufTy).Contents (Elt F)),
    binary main_v54 main_v226 main_v227 (addi : (⟨S2097152, .i32⟩ : BufTy).Contents (Elt F) → (⟨S2097152, .i32⟩ : BufTy).Contents (Elt F) → (⟨S2097152, .i32⟩ : BufTy).Contents (Elt F)),
    ternary main_v225 main_v227 main_v54 main_v228 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_67 (constantI S_ 32 0#32),
    unary main_c_67 main_v229 (broadcastInDim S2097152 ![] bcast_S_S2097152 : (⟨S_, .i32⟩ : BufTy).Contents (Elt F) → (⟨S2097152, .i32⟩ : BufTy).Contents (Elt F)) ]

/-- The operations of @main's stretch 5, in order. -/
abbrev ops5 : List (HloOp τ sig (Elt F)) :=
  [ binary main_v44 main_v229 main_v230 (cmpi .slt : (⟨S2097152, .i32⟩ : BufTy).Contents (Elt F) → (⟨S2097152, .i32⟩ : BufTy).Contents (Elt F) → (⟨S2097152, .i1⟩ : BufTy).Contents (Elt F)),
    nullary main_c_68 (constantI S_ 32 160#32),
    unary main_c_68 main_v231 (broadcastInDim S2097152 ![] bcast_S_S2097152 : (⟨S_, .i32⟩ : BufTy).Contents (Elt F) → (⟨S2097152, .i32⟩ : BufTy).Contents (Elt F)),
    binary main_v44 main_v231 main_v232 (addi : (⟨S2097152, .i32⟩ : BufTy).Contents (Elt F) → (⟨S2097152, .i32⟩ : BufTy).Contents (Elt F) → (⟨S2097152, .i32⟩ : BufTy).Contents (Elt F)),
    ternary main_v230 main_v232 main_v44 main_v233 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v223 main_v234 (broadcastInDim S2097152x1 ![0] bcast_S2097152_S2097152x1_0 : (⟨S2097152, .i32⟩ : BufTy).Contents (Elt F) → (⟨S2097152x1, .i32⟩ : BufTy).Contents (Elt F)),
    unary main_v228 main_v235 (broadcastInDim S2097152x1 ![0] bcast_S2097152_S2097152x1_0 : (⟨S2097152, .i32⟩ : BufTy).Contents (Elt F) → (⟨S2097152x1, .i32⟩ : BufTy).Contents (Elt F)),
    unary main_v233 main_v236 (broadcastInDim S2097152x1 ![0] bcast_S2097152_S2097152x1_0 : (⟨S2097152, .i32⟩ : BufTy).Contents (Elt F) → (⟨S2097152x1, .i32⟩ : BufTy).Contents (Elt F)),
    nary ![main_v234, main_v235, main_v236] main_v237 (fun u => concatenate S2097152x3 1 [⟨S2097152x1, u 0⟩, ⟨S2097152x1, u 1⟩, ⟨S2097152x1, u 2⟩] concatenates_S2097152x1_S2097152x1_S2097152x1_S2097152x3_d1),
    binary main_v0 main_v237 main_v238 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v42 main_v41 main_v239 (mulf : (⟨S2097152, .f32⟩ : BufTy).Contents (Elt F) → (⟨S2097152, .f32⟩ : BufTy).Contents (Elt F) → (⟨S2097152, .f32⟩ : BufTy).Contents (Elt F)),
    binary main_v239 main_v59 main_v240 (mulf : (⟨S2097152, .f32⟩ : BufTy).Contents (Elt F) → (⟨S2097152, .f32⟩ : BufTy).Contents (Elt F) → (⟨S2097152, .f32⟩ : BufTy).Contents (Elt F)),
    unary main_v240 main_v241 (broadcastInDim S1x2097152 ![1] bcast_S2097152_S1x2097152_1 : (⟨S2097152, .f32⟩ : BufTy).Contents (Elt F) → (⟨S1x2097152, .f32⟩ : BufTy).Contents (Elt F)),
    unary main_v241 main_v242 (broadcastInDim S12x2097152 ![0, 1] bcast_S1x2097152_S12x2097152_0_1 : (⟨S1x2097152, .f32⟩ : BufTy).Contents (Elt F) → (⟨S12x2097152, .f32⟩ : BufTy).Contents (Elt F)),
    binary main_v238 main_v242 main_v243 (mulf : (⟨S12x2097152, .f32⟩ : BufTy).Contents (Elt F) → (⟨S12x2097152, .f32⟩ : BufTy).Contents (Elt F) → (⟨S12x2097152, .f32⟩ : BufTy).Contents (Elt F)),
    binary main_v218 main_v243 main_v244 (addf : (⟨S12x2097152, .f32⟩ : BufTy).Contents (Elt F) → (⟨S12x2097152, .f32⟩ : BufTy).Contents (Elt F) → (⟨S12x2097152, .f32⟩ : BufTy).Contents (Elt F)),
    nullary main_c_69 (constantI S_ 32 0#32),
    unary main_c_69 main_v245 (broadcastInDim S2097152 ![] bcast_S_S2097152 : (⟨S_, .i32⟩ : BufTy).Contents (Elt F) → (⟨S2097152, .i32⟩ : BufTy).Contents (Elt F)),
    binary main_v57 main_v245 main_v246 (cmpi .slt : (⟨S2097152, .i32⟩ : BufTy).Contents (Elt F) → (⟨S2097152, .i32⟩ : BufTy).Contents (Elt F) → (⟨S2097152, .i1⟩ : BufTy).Contents (Elt F)),
    nullary main_c_70 (constantI S_ 32 160#32),
    unary main_c_70 main_v247 (broadcastInDim S2097152 ![] bcast_S_S2097152 : (⟨S_, .i32⟩ : BufTy).Contents (Elt F) → (⟨S2097152, .i32⟩ : BufTy).Contents (Elt F)),
    binary main_v57 main_v247 main_v248 (addi : (⟨S2097152, .i32⟩ : BufTy).Contents (Elt F) → (⟨S2097152, .i32⟩ : BufTy).Contents (Elt F) → (⟨S2097152, .i32⟩ : BufTy).Contents (Elt F)),
    ternary main_v246 main_v248 main_v57 main_v249 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_71 (constantI S_ 32 0#32),
    unary main_c_71 main_v250 (broadcastInDim S2097152 ![] bcast_S_S2097152 : (⟨S_, .i32⟩ : BufTy).Contents (Elt F) → (⟨S2097152, .i32⟩ : BufTy).Contents (Elt F)),
    binary main_v54 main_v250 main_v251 (cmpi .slt : (⟨S2097152, .i32⟩ : BufTy).Contents (Elt F) → (⟨S2097152, .i32⟩ : BufTy).Contents (Elt F) → (⟨S2097152, .i1⟩ : BufTy).Contents (Elt F)),
    nullary main_c_72 (constantI S_ 32 160#32),
    unary main_c_72 main_v252 (broadcastInDim S2097152 ![] bcast_S_S2097152 : (⟨S_, .i32⟩ : BufTy).Contents (Elt F) → (⟨S2097152, .i32⟩ : BufTy).Contents (Elt F)),
    binary main_v54 main_v252 main_v253 (addi : (⟨S2097152, .i32⟩ : BufTy).Contents (Elt F) → (⟨S2097152, .i32⟩ : BufTy).Contents (Elt F) → (⟨S2097152, .i32⟩ : BufTy).Contents (Elt F)),
    ternary main_v251 main_v253 main_v54 main_v254 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_73 (constantI S_ 32 0#32),
    unary main_c_73 main_v255 (broadcastInDim S2097152 ![] bcast_S_S2097152 : (⟨S_, .i32⟩ : BufTy).Contents (Elt F) → (⟨S2097152, .i32⟩ : BufTy).Contents (Elt F)),
    binary main_v51 main_v255 main_v256 (cmpi .slt : (⟨S2097152, .i32⟩ : BufTy).Contents (Elt F) → (⟨S2097152, .i32⟩ : BufTy).Contents (Elt F) → (⟨S2097152, .i1⟩ : BufTy).Contents (Elt F)),
    nullary main_c_74 (constantI S_ 32 160#32),
    unary main_c_74 main_v257 (broadcastInDim S2097152 ![] bcast_S_S2097152 : (⟨S_, .i32⟩ : BufTy).Contents (Elt F) → (⟨S2097152, .i32⟩ : BufTy).Contents (Elt F)),
    binary main_v51 main_v257 main_v258 (addi : (⟨S2097152, .i32⟩ : BufTy).Contents (Elt F) → (⟨S2097152, .i32⟩ : BufTy).Contents (Elt F) → (⟨S2097152, .i32⟩ : BufTy).Contents (Elt F)),
    ternary main_v256 main_v258 main_v51 main_v259 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v249 main_v260 (broadcastInDim S2097152x1 ![0] bcast_S2097152_S2097152x1_0 : (⟨S2097152, .i32⟩ : BufTy).Contents (Elt F) → (⟨S2097152x1, .i32⟩ : BufTy).Contents (Elt F)),
    unary main_v254 main_v261 (broadcastInDim S2097152x1 ![0] bcast_S2097152_S2097152x1_0 : (⟨S2097152, .i32⟩ : BufTy).Contents (Elt F) → (⟨S2097152x1, .i32⟩ : BufTy).Contents (Elt F)),
    unary main_v259 main_v262 (broadcastInDim S2097152x1 ![0] bcast_S2097152_S2097152x1_0 : (⟨S2097152, .i32⟩ : BufTy).Contents (Elt F) → (⟨S2097152x1, .i32⟩ : BufTy).Contents (Elt F)),
    nary ![main_v260, main_v261, main_v262] main_v263 (fun u => concatenate S2097152x3 1 [⟨S2097152x1, u 0⟩, ⟨S2097152x1, u 1⟩, ⟨S2097152x1, u 2⟩] concatenates_S2097152x1_S2097152x1_S2097152x1_S2097152x3_d1),
    binary main_v0 main_v263 main_v264 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v42 main_v41 main_v265 (mulf : (⟨S2097152, .f32⟩ : BufTy).Contents (Elt F) → (⟨S2097152, .f32⟩ : BufTy).Contents (Elt F) → (⟨S2097152, .f32⟩ : BufTy).Contents (Elt F)),
    binary main_v265 main_v40 main_v266 (mulf : (⟨S2097152, .f32⟩ : BufTy).Contents (Elt F) → (⟨S2097152, .f32⟩ : BufTy).Contents (Elt F) → (⟨S2097152, .f32⟩ : BufTy).Contents (Elt F)),
    unary main_v266 main_v267 (broadcastInDim S1x2097152 ![1] bcast_S2097152_S1x2097152_1 : (⟨S2097152, .f32⟩ : BufTy).Contents (Elt F) → (⟨S1x2097152, .f32⟩ : BufTy).Contents (Elt F)),
    unary main_v267 main_v268 (broadcastInDim S12x2097152 ![0, 1] bcast_S1x2097152_S12x2097152_0_1 : (⟨S1x2097152, .f32⟩ : BufTy).Contents (Elt F) → (⟨S12x2097152, .f32⟩ : BufTy).Contents (Elt F)),
    binary main_v264 main_v268 main_v269 (mulf : (⟨S12x2097152, .f32⟩ : BufTy).Contents (Elt F) → (⟨S12x2097152, .f32⟩ : BufTy).Contents (Elt F) → (⟨S12x2097152, .f32⟩ : BufTy).Contents (Elt F)),
    binary main_v244 main_v269 main_v270 (addf : (⟨S12x2097152, .f32⟩ : BufTy).Contents (Elt F) → (⟨S12x2097152, .f32⟩ : BufTy).Contents (Elt F) → (⟨S12x2097152, .f32⟩ : BufTy).Contents (Elt F)),
    unary main_v270 main_v271 ((transpose S2097152x12 [1, 0] · transposes_S12x2097152_S2097152x12_1_0) : (⟨S12x2097152, .f32⟩ : BufTy).Contents (Elt F) → (⟨S2097152x12, .f32⟩ : BufTy).Contents (Elt F)) ]

/-- All of @main's operations, in order. -/
abbrev ops : List (HloOp τ sig (Elt F)) := ops0 ++ (ops1 ++ (ops2 ++ (ops3 ++ (ops4 ++ ops5))))

set_option maxRecDepth 8192 in
set_option maxHeartbeats 4000000 in
/-- The printed stretch 0 is the line of its operations. -/
theorem part0_eq (c : Dev nD) : main_part0 (F := F) c = seq ops0 := rfl
set_option maxRecDepth 8192 in
set_option maxHeartbeats 4000000 in
/-- The printed stretch 1 is the line of its operations. -/
theorem part1_eq (c : Dev nD) : main_part1 (F := F) c = seq ops1 := rfl
set_option maxRecDepth 8192 in
set_option maxHeartbeats 4000000 in
/-- The printed stretch 2 is the line of its operations. -/
theorem part2_eq (c : Dev nD) : main_part2 (F := F) c = seq ops2 := rfl
set_option maxRecDepth 8192 in
set_option maxHeartbeats 4000000 in
/-- The printed stretch 3 is the line of its operations. -/
theorem part3_eq (c : Dev nD) : main_part3 (F := F) c = seq ops3 := rfl
set_option maxRecDepth 8192 in
set_option maxHeartbeats 4000000 in
/-- The printed stretch 4 is the line of its operations. -/
theorem part4_eq (c : Dev nD) : main_part4 (F := F) c = seq ops4 := rfl
set_option maxRecDepth 8192 in
set_option maxHeartbeats 4000000 in
/-- The printed stretch 5 is the line of its operations. -/
theorem part5_eq (c : Dev nD) : main_part5 (F := F) c = seq ops5 := rfl

/-- @main is the line of all its operations. -/
theorem main_eq (c : Dev nD) : main (F := F) c = seq ops := by
  show (main_part0 (F := F) c >>= fun _ => main_part1 (F := F) c >>= fun _ => main_part2 (F := F) c >>= fun _ =>
    main_part3 (F := F) c >>= fun _ => main_part4 (F := F) c >>= fun _ => main_part5 (F := F) c) = _
  rw [part0_eq, part1_eq, part2_eq, part3_eq, part4_eq, part5_eq]
  simp only [seq_append]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Stretch 0's operations touch TensorCore references only. -/
theorem ops0_sub : (ops0 : List (HloOp τ sig (Elt F))).Forall fun op => op.bufs ⊆ tcRefs τ sig :=
  ⟨reshape_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., binary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub ..⟩
set_option maxRecDepth 8192 in
/-- Stretch 1's operations touch TensorCore references only. -/
theorem ops1_sub : (ops1 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub ..⟩
set_option maxRecDepth 8192 in
/-- Stretch 2's operations touch TensorCore references only. -/
theorem ops2_sub : (ops2 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub ..⟩
set_option maxRecDepth 8192 in
/-- Stretch 3's operations touch TensorCore references only. -/
theorem ops3_sub : (ops3 : List (HloOp τ sig (Elt F))).Forall fun op => op.bufs ⊆ tcRefs τ sig :=
  ⟨nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub ..⟩
set_option maxRecDepth 8192 in
/-- Stretch 4's operations touch TensorCore references only. -/
theorem ops4_sub : (ops4 : List (HloOp τ sig (Elt F))).Forall fun op => op.bufs ⊆ tcRefs τ sig :=
  ⟨ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub ..⟩
set_option maxRecDepth 8192 in
/-- Stretch 5's operations touch TensorCore references only. -/
theorem ops5_sub : (ops5 : List (HloOp τ sig (Elt F))).Forall fun op => op.bufs ⊆ tcRefs τ sig :=
  ⟨binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., binary_bufs_sub .., binary_bufs_sub .., unary_bufs_sub .., unary_bufs_sub .., binary_bufs_sub .., binary_bufs_sub .., unary_bufs_sub ..⟩

/-- So do all of them. -/
theorem ops_sub : (ops : List (HloOp τ sig (Elt F))).Forall fun op => op.bufs ⊆ tcRefs τ sig :=
  List.forall_append.2 ⟨ops0_sub, List.forall_append.2 ⟨ops1_sub, List.forall_append.2 ⟨ops2_sub,
    List.forall_append.2 ⟨ops3_sub, List.forall_append.2 ⟨ops4_sub, ops5_sub⟩⟩⟩⟩⟩

/-- Stretch 0's operations allocate nothing. -/
theorem ops0_fresh : ∀ op ∈ (ops0 : List (HloOp τ sig (Elt F))), op.fresh = ∅ := by
  intro _ h; (repeat (cases h with | head => rfl | tail _ h => ?_)); exact nomatch h
/-- Stretch 1's operations allocate nothing. -/
theorem ops1_fresh : ∀ op ∈ (ops1 : List (HloOp τ sig (Elt F))), op.fresh = ∅ := by
  intro _ h; (repeat (cases h with | head => rfl | tail _ h => ?_)); exact nomatch h
/-- Stretch 2's operations allocate nothing. -/
theorem ops2_fresh : ∀ op ∈ (ops2 : List (HloOp τ sig (Elt F))), op.fresh = ∅ := by
  intro _ h; (repeat (cases h with | head => rfl | tail _ h => ?_)); exact nomatch h
/-- Stretch 3's operations allocate nothing. -/
theorem ops3_fresh : ∀ op ∈ (ops3 : List (HloOp τ sig (Elt F))), op.fresh = ∅ := by
  intro _ h; (repeat (cases h with | head => rfl | tail _ h => ?_)); exact nomatch h
/-- Stretch 4's operations allocate nothing. -/
theorem ops4_fresh : ∀ op ∈ (ops4 : List (HloOp τ sig (Elt F))), op.fresh = ∅ := by
  intro _ h; (repeat (cases h with | head => rfl | tail _ h => ?_)); exact nomatch h
/-- Stretch 5's operations allocate nothing. -/
theorem ops5_fresh : ∀ op ∈ (ops5 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [List.mem_append] at h
  rcases h with h | h | h | h | h | h
  exacts [ops0_fresh op h, ops1_fresh op h, ops2_fresh op h, ops3_fresh op h, ops4_fresh op h, ops5_fresh op h]

/-- Every weakly fair execution of @main terminates with every TensorCore buffer at what the operations leave in it. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops : List (HloOp τ sig (Elt F))) (launchContents m d) (Proc.devRef .tc b) :=
  run_seq scopedRefs_eq scopedSems_eq defs main (fun _ => (ops : List (HloOp τ sig (Elt F)))) main_eq (fun _ => ops_sub) m ρ
    (fun _ => ops_fresh)

/-- The operations as one literal line. -/
theorem ops_eq : (ops : List (HloOp τ sig (Elt F))) = ops0 ++ (ops1 ++ (ops2 ++ (ops3 ++ (ops4 ++ ops5)))) := rfl

end Cert.ReferenceIdeal.HandRun

end
-- ==== Proof.RefSplit.lean ====
/-
  The reference's line of operations cut in two: the first 123 operations compute, per sample point, the three fractional
  parts, the three one-minus-fractions, the six clipped corner coordinates, and drop the grid's leading unit axis; the
  remaining 256 are the eight corners' gathers and weights, the eight products, their sum and the final transposition.
  Running the whole line is running the first part, then the second from what the first leaves.
-/
import proofs.«163780_j49606872269475_2_alg».proof.Proof.RefRun
import Idealize.ShloMosaic.Lib.ValueIdx

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

/-- The first 123 operations, in order. -/
abbrev opsA : List (HloOp τ sig (Elt F)) :=
  [ reshape main_arg1 main_v0 rfl shapeCasts_S1x12x160x160x160_S12x160x160x160,
    unary main_arg2 main_v1 (broadcastInDim S1x3 ![1] bcast_S3_S1x3_1 : (⟨S3, .f32⟩ : BufTy).Contents (Elt F) → (⟨S1x3, .f32⟩ : BufTy).Contents (Elt F)),
    unary main_v1 main_v2 (broadcastInDim S2097152x3 ![0, 1] bcast_S1x3_S2097152x3_0_1 : (⟨S1x3, .f32⟩ : BufTy).Contents (Elt F) → (⟨S2097152x3, .f32⟩ : BufTy).Contents (Elt F)),
    binary main_arg0 main_v2 main_v3 (subf : (⟨S2097152x3, .f32⟩ : BufTy).Contents (Elt F) → (⟨S2097152x3, .f32⟩ : BufTy).Contents (Elt F) → (⟨S2097152x3, .f32⟩ : BufTy).Contents (Elt F)),
    binary main_arg3 main_arg2 main_v4 (subf : (⟨S3, .f32⟩ : BufTy).Contents (Elt F) → (⟨S3, .f32⟩ : BufTy).Contents (Elt F) → (⟨S3, .f32⟩ : BufTy).Contents (Elt F)),
    unary main_v4 main_v5 (broadcastInDim S1x3 ![1] bcast_S3_S1x3_1 : (⟨S3, .f32⟩ : BufTy).Contents (Elt F) → (⟨S1x3, .f32⟩ : BufTy).Contents (Elt F)),
    unary main_v5 main_v6 (broadcastInDim S2097152x3 ![0, 1] bcast_S1x3_S2097152x3_0_1 : (⟨S1x3, .f32⟩ : BufTy).Contents (Elt F) → (⟨S2097152x3, .f32⟩ : BufTy).Contents (Elt F)),
    binary main_v3 main_v6 main_v7 (Host.divf : (⟨S2097152x3, .f32⟩ : BufTy).Contents (Elt F) → (⟨S2097152x3, .f32⟩ : BufTy).Contents (Elt F) → (⟨S2097152x3, .f32⟩ : BufTy).Contents (Elt F)),
    unary main_v7 main_v8 (Host.reverse [1] : (⟨S2097152x3, .f32⟩ : BufTy).Contents (Elt F) → (⟨S2097152x3, .f32⟩ : BufTy).Contents (Elt F)),
    nullary main_cst (constant S_ .f32 0x40000000#32),
    unary main_cst main_v9 (broadcastInDim S2097152x3 ![] bcast_S_S2097152x3 : (⟨S_, .f32⟩ : BufTy).Contents (Elt F) → (⟨S2097152x3, .f32⟩ : BufTy).Contents (Elt F)),
    binary main_v8 main_v9 main_v10 (mulf : (⟨S2097152x3, .f32⟩ : BufTy).Contents (Elt F) → (⟨S2097152x3, .f32⟩ : BufTy).Contents (Elt F) → (⟨S2097152x3, .f32⟩ : BufTy).Contents (Elt F)),
    nullary main_cst_0 (constant S_ .f32 0x3F800000#32),
    unary main_cst_0 main_v11 (broadcastInDim S2097152x3 ![] bcast_S_S2097152x3 : (⟨S_, .f32⟩ : BufTy).Contents (Elt F) → (⟨S2097152x3, .f32⟩ : BufTy).Contents (Elt F)),
    binary main_v10 main_v11 main_v12 (subf : (⟨S2097152x3, .f32⟩ : BufTy).Contents (Elt F) → (⟨S2097152x3, .f32⟩ : BufTy).Contents (Elt F) → (⟨S2097152x3, .f32⟩ : BufTy).Contents (Elt F)),
    unary main_v12 main_v13 ((extractStridedSlice S2097152x1 ![0, 0] · slices_S2097152x3_S2097152x1_0_0) : (⟨S2097152x3, .f32⟩ : BufTy).Contents (Elt F) → (⟨S2097152x1, .f32⟩ : BufTy).Contents (Elt F)),
    reshape main_v13 main_v14 rfl shapeCasts_S2097152x1_S2097152,
    unary main_v12 main_v15 ((extractStridedSlice S2097152x1 ![0, 1] · slices_S2097152x3_S2097152x1_0_1) : (⟨S2097152x3, .f32⟩ : BufTy).Contents (Elt F) → (⟨S2097152x1, .f32⟩ : BufTy).Contents (Elt F)),
    reshape main_v15 main_v16 rfl shapeCasts_S2097152x1_S2097152,
    unary main_v12 main_v17 ((extractStridedSlice S2097152x1 ![0, 2] · slices_S2097152x3_S2097152x1_0_2) : (⟨S2097152x3, .f32⟩ : BufTy).Contents (Elt F) → (⟨S2097152x1, .f32⟩ : BufTy).Contents (Elt F)),
    reshape main_v17 main_v18 rfl shapeCasts_S2097152x1_S2097152,
    nullary main_cst_1 (constant S_ .f32 0x3F800000#32),
    unary main_cst_1 main_v19 (broadcastInDim S2097152 ![] bcast_S_S2097152 : (⟨S_, .f32⟩ : BufTy).Contents (Elt F) → (⟨S2097152, .f32⟩ : BufTy).Contents (Elt F)),
    binary main_v14 main_v19 main_v20 (addf : (⟨S2097152, .f32⟩ : BufTy).Contents (Elt F) → (⟨S2097152, .f32⟩ : BufTy).Contents (Elt F) → (⟨S2097152, .f32⟩ : BufTy).Contents (Elt F)),
    nullary main_cst_2 (constant S_ .f32 0x3F000000#32),
    unary main_cst_2 main_v21 (broadcastInDim S2097152 ![] bcast_S_S2097152 : (⟨S_, .f32⟩ : BufTy).Contents (Elt F) → (⟨S2097152, .f32⟩ : BufTy).Contents (Elt F)),
    binary main_v20 main_v21 main_v22 (mulf : (⟨S2097152, .f32⟩ : BufTy).Contents (Elt F) → (⟨S2097152, .f32⟩ : BufTy).Contents (Elt F) → (⟨S2097152, .f32⟩ : BufTy).Contents (Elt F)),
    nullary main_cst_3 (constant S_ .f32 0x431F0000#32),
    unary main_cst_3 main_v23 (broadcastInDim S2097152 ![] bcast_S_S2097152 : (⟨S_, .f32⟩ : BufTy).Contents (Elt F) → (⟨S2097152, .f32⟩ : BufTy).Contents (Elt F)),
    binary main_v22 main_v23 main_v24 (mulf : (⟨S2097152, .f32⟩ : BufTy).Contents (Elt F) → (⟨S2097152, .f32⟩ : BufTy).Contents (Elt F) → (⟨S2097152, .f32⟩ : BufTy).Contents (Elt F)),
    nullary main_cst_4 (constant S_ .f32 0x3F800000#32),
    unary main_cst_4 main_v25 (broadcastInDim S2097152 ![] bcast_S_S2097152 : (⟨S_, .f32⟩ : BufTy).Contents (Elt F) → (⟨S2097152, .f32⟩ : BufTy).Contents (Elt F)),
    binary main_v16 main_v25 main_v26 (addf : (⟨S2097152, .f32⟩ : BufTy).Contents (Elt F) → (⟨S2097152, .f32⟩ : BufTy).Contents (Elt F) → (⟨S2097152, .f32⟩ : BufTy).Contents (Elt F)),
    nullary main_cst_5 (constant S_ .f32 0x3F000000#32),
    unary main_cst_5 main_v27 (broadcastInDim S2097152 ![] bcast_S_S2097152 : (⟨S_, .f32⟩ : BufTy).Contents (Elt F) → (⟨S2097152, .f32⟩ : BufTy).Contents (Elt F)),
    binary main_v26 main_v27 main_v28 (mulf : (⟨S2097152, .f32⟩ : BufTy).Contents (Elt F) → (⟨S2097152, .f32⟩ : BufTy).Contents (Elt F) → (⟨S2097152, .f32⟩ : BufTy).Contents (Elt F)),
    nullary main_cst_6 (constant S_ .f32 0x431F0000#32),
    unary main_cst_6 main_v29 (broadcastInDim S2097152 ![] bcast_S_S2097152 : (⟨S_, .f32⟩ : BufTy).Contents (Elt F) → (⟨S2097152, .f32⟩ : BufTy).Contents (Elt F)),
    binary main_v28 main_v29 main_v30 (mulf : (⟨S2097152, .f32⟩ : BufTy).Contents (Elt F) → (⟨S2097152, .f32⟩ : BufTy).Contents (Elt F) → (⟨S2097152, .f32⟩ : BufTy).Contents (Elt F)),
    nullary main_cst_7 (constant S_ .f32 0x3F800000#32),
    unary main_cst_7 main_v31 (broadcastInDim S2097152 ![] bcast_S_S2097152 : (⟨S_, .f32⟩ : BufTy).Contents (Elt F) → (⟨S2097152, .f32⟩ : BufTy).Contents (Elt F)),
    binary main_v18 main_v31 main_v32 (addf : (⟨S2097152, .f32⟩ : BufTy).Contents (Elt F) → (⟨S2097152, .f32⟩ : BufTy).Contents (Elt F) → (⟨S2097152, .f32⟩ : BufTy).Contents (Elt F)),
    nullary main_cst_8 (constant S_ .f32 0x3F000000#32),
    unary main_cst_8 main_v33 (broadcastInDim S2097152 ![] bcast_S_S2097152 : (⟨S_, .f32⟩ : BufTy).Contents (Elt F) → (⟨S2097152, .f32⟩ : BufTy).Contents (Elt F)),
    binary main_v32 main_v33 main_v34 (mulf : (⟨S2097152, .f32⟩ : BufTy).Contents (Elt F) → (⟨S2097152, .f32⟩ : BufTy).Contents (Elt F) → (⟨S2097152, .f32⟩ : BufTy).Contents (Elt F)),
    nullary main_cst_9 (constant S_ .f32 0x431F0000#32),
    unary main_cst_9 main_v35 (broadcastInDim S2097152 ![] bcast_S_S2097152 : (⟨S_, .f32⟩ : BufTy).Contents (Elt F) → (⟨S2097152, .f32⟩ : BufTy).Contents (Elt F)),
    binary main_v34 main_v35 main_v36 (mulf : (⟨S2097152, .f32⟩ : BufTy).Contents (Elt F) → (⟨S2097152, .f32⟩ : BufTy).Contents (Elt F) → (⟨S2097152, .f32⟩ : BufTy).Contents (Elt F)),
    unary main_v24 main_v37 (Host.floor : (⟨S2097152, .f32⟩ : BufTy).Contents (Elt F) → (⟨S2097152, .f32⟩ : BufTy).Contents (Elt F)),
    unary main_v30 main_v38 (Host.floor : (⟨S2097152, .f32⟩ : BufTy).Contents (Elt F) → (⟨S2097152, .f32⟩ : BufTy).Contents (Elt F)),
    unary main_v36 main_v39 (Host.floor : (⟨S2097152, .f32⟩ : BufTy).Contents (Elt F) → (⟨S2097152, .f32⟩ : BufTy).Contents (Elt F)),
    binary main_v24 main_v37 main_v40 (subf : (⟨S2097152, .f32⟩ : BufTy).Contents (Elt F) → (⟨S2097152, .f32⟩ : BufTy).Contents (Elt F) → (⟨S2097152, .f32⟩ : BufTy).Contents (Elt F)),
    binary main_v30 main_v38 main_v41 (subf : (⟨S2097152, .f32⟩ : BufTy).Contents (Elt F) → (⟨S2097152, .f32⟩ : BufTy).Contents (Elt F) → (⟨S2097152, .f32⟩ : BufTy).Contents (Elt F)),
    binary main_v36 main_v39 main_v42 (subf : (⟨S2097152, .f32⟩ : BufTy).Contents (Elt F) → (⟨S2097152, .f32⟩ : BufTy).Contents (Elt F) → (⟨S2097152, .f32⟩ : BufTy).Contents (Elt F)),
    unary main_v37 main_v43 (fptosi 32 : (⟨S2097152, .f32⟩ : BufTy).Contents (Elt F) → (⟨S2097152, .i32⟩ : BufTy).Contents (Elt F)),
    nullary main_c (constantI S_ 32 0#32),
    nullary main_c_10 (constantI S_ 32 159#32),
    TRef.unary (TRef.of (T := ⟨S_, .i32⟩) main_c) (TRef.of (T := ⟨S_, .i32⟩) main_call0_v0) id,
    TRef.unary (TRef.of (T := ⟨S_, .i32⟩) main_call0_v0) (TRef.of (T := ⟨S2097152, .i32⟩) main_call0_v1) (broadcastInDim S2097152 ![] bcast_S_S2097152),
    TRef.binary (TRef.of (T := ⟨S2097152, .i32⟩) main_call0_v1) (TRef.of (T := ⟨S2097152, .i32⟩) main_v43) (TRef.of (T := ⟨S2097152, .i32⟩) main_call0_v2) maxsi,
    TRef.unary (TRef.of (T := ⟨S_, .i32⟩) main_c_10) (TRef.of (T := ⟨S_, .i32⟩) main_call0_v3) id,
    TRef.unary (TRef.of (T := ⟨S_, .i32⟩) main_call0_v3) (TRef.of (T := ⟨S2097152, .i32⟩) main_call0_v4) (broadcastInDim S2097152 ![] bcast_S_S2097152),
    TRef.binary (TRef.of (T := ⟨S2097152, .i32⟩) main_call0_v4) (TRef.of (T := ⟨S2097152, .i32⟩) main_call0_v2) (TRef.of (T := ⟨S2097152, .i32⟩) main_v44) minsi,
    unary main_v38 main_v45 (fptosi 32 : (⟨S2097152, .f32⟩ : BufTy).Contents (Elt F) → (⟨S2097152, .i32⟩ : BufTy).Contents (Elt F)),
    nullary main_c_11 (constantI S_ 32 0#32),
    nullary main_c_12 (constantI S_ 32 159#32),
    TRef.unary (TRef.of (T := ⟨S_, .i32⟩) main_c_11) (TRef.of (T := ⟨S_, .i32⟩) main_call1_v0) id,
    TRef.unary (TRef.of (T := ⟨S_, .i32⟩) main_call1_v0) (TRef.of (T := ⟨S2097152, .i32⟩) main_call1_v1) (broadcastInDim S2097152 ![] bcast_S_S2097152),
    TRef.binary (TRef.of (T := ⟨S2097152, .i32⟩) main_call1_v1) (TRef.of (T := ⟨S2097152, .i32⟩) main_v45) (TRef.of (T := ⟨S2097152, .i32⟩) main_call1_v2) maxsi,
    TRef.unary (TRef.of (T := ⟨S_, .i32⟩) main_c_12) (TRef.of (T := ⟨S_, .i32⟩) main_call1_v3) id,
    TRef.unary (TRef.of (T := ⟨S_, .i32⟩) main_call1_v3) (TRef.of (T := ⟨S2097152, .i32⟩) main_call1_v4) (broadcastInDim S2097152 ![] bcast_S_S2097152),
    TRef.binary (TRef.of (T := ⟨S2097152, .i32⟩) main_call1_v4) (TRef.of (T := ⟨S2097152, .i32⟩) main_call1_v2) (TRef.of (T := ⟨S2097152, .i32⟩) main_v46) minsi,
    unary main_v39 main_v47 (fptosi 32 : (⟨S2097152, .f32⟩ : BufTy).Contents (Elt F) → (⟨S2097152, .i32⟩ : BufTy).Contents (Elt F)),
    nullary main_c_13 (constantI S_ 32 0#32),
    nullary main_c_14 (constantI S_ 32 159#32),
    TRef.unary (TRef.of (T := ⟨S_, .i32⟩) main_c_13) (TRef.of (T := ⟨S_, .i32⟩) main_call2_v0) id,
    TRef.unary (TRef.of (T := ⟨S_, .i32⟩) main_call2_v0) (TRef.of (T := ⟨S2097152, .i32⟩) main_call2_v1) (broadcastInDim S2097152 ![] bcast_S_S2097152),
    TRef.binary (TRef.of (T := ⟨S2097152, .i32⟩) main_call2_v1) (TRef.of (T := ⟨S2097152, .i32⟩) main_v47) (TRef.of (T := ⟨S2097152, .i32⟩) main_call2_v2) maxsi,
    TRef.unary (TRef.of (T := ⟨S_, .i32⟩) main_c_14) (TRef.of (T := ⟨S_, .i32⟩) main_call2_v3) id,
    TRef.unary (TRef.of (T := ⟨S_, .i32⟩) main_call2_v3) (TRef.of (T := ⟨S2097152, .i32⟩) main_call2_v4) (broadcastInDim S2097152 ![] bcast_S_S2097152),
    TRef.binary (TRef.of (T := ⟨S2097152, .i32⟩) main_call2_v4) (TRef.of (T := ⟨S2097152, .i32⟩) main_call2_v2) (TRef.of (T := ⟨S2097152, .i32⟩) main_v48) minsi,
    nullary main_c_15 (constantI S_ 32 1#32),
    unary main_c_15 main_v49 (broadcastInDim S2097152 ![] bcast_S_S2097152 : (⟨S_, .i32⟩ : BufTy).Contents (Elt F) → (⟨S2097152, .i32⟩ : BufTy).Contents (Elt F)),
    binary main_v44 main_v49 main_v50 (addi : (⟨S2097152, .i32⟩ : BufTy).Contents (Elt F) → (⟨S2097152, .i32⟩ : BufTy).Contents (Elt F) → (⟨S2097152, .i32⟩ : BufTy).Contents (Elt F)),
    nullary main_c_16 (constantI S_ 32 0#32),
    nullary main_c_17 (constantI S_ 32 159#32),
    TRef.unary (TRef.of (T := ⟨S_, .i32⟩) main_c_16) (TRef.of (T := ⟨S_, .i32⟩) main_call3_v0) id,
    TRef.unary (TRef.of (T := ⟨S_, .i32⟩) main_call3_v0) (TRef.of (T := ⟨S2097152, .i32⟩) main_call3_v1) (broadcastInDim S2097152 ![] bcast_S_S2097152),
    TRef.binary (TRef.of (T := ⟨S2097152, .i32⟩) main_call3_v1) (TRef.of (T := ⟨S2097152, .i32⟩) main_v50) (TRef.of (T := ⟨S2097152, .i32⟩) main_call3_v2) maxsi,
    TRef.unary (TRef.of (T := ⟨S_, .i32⟩) main_c_17) (TRef.of (T := ⟨S_, .i32⟩) main_call3_v3) id,
    TRef.unary (TRef.of (T := ⟨S_, .i32⟩) main_call3_v3) (TRef.of (T := ⟨S2097152, .i32⟩) main_call3_v4) (broadcastInDim S2097152 ![] bcast_S_S2097152),
    TRef.binary (TRef.of (T := ⟨S2097152, .i32⟩) main_call3_v4) (TRef.of (T := ⟨S2097152, .i32⟩) main_call3_v2) (TRef.of (T := ⟨S2097152, .i32⟩) main_v51) minsi,
    nullary main_c_18 (constantI S_ 32 1#32),
    unary main_c_18 main_v52 (broadcastInDim S2097152 ![] bcast_S_S2097152 : (⟨S_, .i32⟩ : BufTy).Contents (Elt F) → (⟨S2097152, .i32⟩ : BufTy).Contents (Elt F)),
    binary main_v46 main_v52 main_v53 (addi : (⟨S2097152, .i32⟩ : BufTy).Contents (Elt F) → (⟨S2097152, .i32⟩ : BufTy).Contents (Elt F) → (⟨S2097152, .i32⟩ : BufTy).Contents (Elt F)),
    nullary main_c_19 (constantI S_ 32 0#32),
    nullary main_c_20 (constantI S_ 32 159#32),
    TRef.unary (TRef.of (T := ⟨S_, .i32⟩) main_c_19) (TRef.of (T := ⟨S_, .i32⟩) main_call4_v0) id,
    TRef.unary (TRef.of (T := ⟨S_, .i32⟩) main_call4_v0) (TRef.of (T := ⟨S2097152, .i32⟩) main_call4_v1) (broadcastInDim S2097152 ![] bcast_S_S2097152),
    TRef.binary (TRef.of (T := ⟨S2097152, .i32⟩) main_call4_v1) (TRef.of (T := ⟨S2097152, .i32⟩) main_v53) (TRef.of (T := ⟨S2097152, .i32⟩) main_call4_v2) maxsi,
    TRef.unary (TRef.of (T := ⟨S_, .i32⟩) main_c_20) (TRef.of (T := ⟨S_, .i32⟩) main_call4_v3) id,
    TRef.unary (TRef.of (T := ⟨S_, .i32⟩) main_call4_v3) (TRef.of (T := ⟨S2097152, .i32⟩) main_call4_v4) (broadcastInDim S2097152 ![] bcast_S_S2097152),
    TRef.binary (TRef.of (T := ⟨S2097152, .i32⟩) main_call4_v4) (TRef.of (T := ⟨S2097152, .i32⟩) main_call4_v2) (TRef.of (T := ⟨S2097152, .i32⟩) main_v54) minsi,
    nullary main_c_21 (constantI S_ 32 1#32),
    unary main_c_21 main_v55 (broadcastInDim S2097152 ![] bcast_S_S2097152 : (⟨S_, .i32⟩ : BufTy).Contents (Elt F) → (⟨S2097152, .i32⟩ : BufTy).Contents (Elt F)),
    binary main_v48 main_v55 main_v56 (addi : (⟨S2097152, .i32⟩ : BufTy).Contents (Elt F) → (⟨S2097152, .i32⟩ : BufTy).Contents (Elt F) → (⟨S2097152, .i32⟩ : BufTy).Contents (Elt F)),
    nullary main_c_22 (constantI S_ 32 0#32),
    nullary main_c_23 (constantI S_ 32 159#32),
    TRef.unary (TRef.of (T := ⟨S_, .i32⟩) main_c_22) (TRef.of (T := ⟨S_, .i32⟩) main_call5_v0) id,
    TRef.unary (TRef.of (T := ⟨S_, .i32⟩) main_call5_v0) (TRef.of (T := ⟨S2097152, .i32⟩) main_call5_v1) (broadcastInDim S2097152 ![] bcast_S_S2097152),
    TRef.binary (TRef.of (T := ⟨S2097152, .i32⟩) main_call5_v1) (TRef.of (T := ⟨S2097152, .i32⟩) main_v56) (TRef.of (T := ⟨S2097152, .i32⟩) main_call5_v2) maxsi,
    TRef.unary (TRef.of (T := ⟨S_, .i32⟩) main_c_23) (TRef.of (T := ⟨S_, .i32⟩) main_call5_v3) id,
    TRef.unary (TRef.of (T := ⟨S_, .i32⟩) main_call5_v3) (TRef.of (T := ⟨S2097152, .i32⟩) main_call5_v4) (broadcastInDim S2097152 ![] bcast_S_S2097152),
    TRef.binary (TRef.of (T := ⟨S2097152, .i32⟩) main_call5_v4) (TRef.of (T := ⟨S2097152, .i32⟩) main_call5_v2) (TRef.of (T := ⟨S2097152, .i32⟩) main_v57) minsi,
    nullary main_cst_24 (constant S_ .f32 0x3F800000#32),
    unary main_cst_24 main_v58 (broadcastInDim S2097152 ![] bcast_S_S2097152 : (⟨S_, .f32⟩ : BufTy).Contents (Elt F) → (⟨S2097152, .f32⟩ : BufTy).Contents (Elt F)),
    binary main_v58 main_v40 main_v59 (subf : (⟨S2097152, .f32⟩ : BufTy).Contents (Elt F) → (⟨S2097152, .f32⟩ : BufTy).Contents (Elt F) → (⟨S2097152, .f32⟩ : BufTy).Contents (Elt F)),
    nullary main_cst_25 (constant S_ .f32 0x3F800000#32),
    unary main_cst_25 main_v60 (broadcastInDim S2097152 ![] bcast_S_S2097152 : (⟨S_, .f32⟩ : BufTy).Contents (Elt F) → (⟨S2097152, .f32⟩ : BufTy).Contents (Elt F)),
    binary main_v60 main_v41 main_v61 (subf : (⟨S2097152, .f32⟩ : BufTy).Contents (Elt F) → (⟨S2097152, .f32⟩ : BufTy).Contents (Elt F) → (⟨S2097152, .f32⟩ : BufTy).Contents (Elt F)),
    nullary main_cst_26 (constant S_ .f32 0x3F800000#32),
    unary main_cst_26 main_v62 (broadcastInDim S2097152 ![] bcast_S_S2097152 : (⟨S_, .f32⟩ : BufTy).Contents (Elt F) → (⟨S2097152, .f32⟩ : BufTy).Contents (Elt F)),
    binary main_v62 main_v42 main_v63 (subf : (⟨S2097152, .f32⟩ : BufTy).Contents (Elt F) → (⟨S2097152, .f32⟩ : BufTy).Contents (Elt F) → (⟨S2097152, .f32⟩ : BufTy).Contents (Elt F)) ]

/-- The remaining 256 operations, in order. -/
abbrev opsB : List (HloOp τ sig (Elt F)) :=
  [ nullary main_c_27 (constantI S_ 32 0#32),
    unary main_c_27 main_v64 (broadcastInDim S2097152 ![] bcast_S_S2097152 : (⟨S_, .i32⟩ : BufTy).Contents (Elt F) → (⟨S2097152, .i32⟩ : BufTy).Contents (Elt F)),
    binary main_v48 main_v64 main_v65 (cmpi .slt : (⟨S2097152, .i32⟩ : BufTy).Contents (Elt F) → (⟨S2097152, .i32⟩ : BufTy).Contents (Elt F) → (⟨S2097152, .i1⟩ : BufTy).Contents (Elt F)),
    nullary main_c_28 (constantI S_ 32 160#32),
    unary main_c_28 main_v66 (broadcastInDim S2097152 ![] bcast_S_S2097152 : (⟨S_, .i32⟩ : BufTy).Contents (Elt F) → (⟨S2097152, .i32⟩ : BufTy).Contents (Elt F)),
    binary main_v48 main_v66 main_v67 (addi : (⟨S2097152, .i32⟩ : BufTy).Contents (Elt F) → (⟨S2097152, .i32⟩ : BufTy).Contents (Elt F) → (⟨S2097152, .i32⟩ : BufTy).Contents (Elt F)),
    ternary main_v65 main_v67 main_v48 main_v68 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_29 (constantI S_ 32 0#32),
    unary main_c_29 main_v69 (broadcastInDim S2097152 ![] bcast_S_S2097152 : (⟨S_, .i32⟩ : BufTy).Contents (Elt F) → (⟨S2097152, .i32⟩ : BufTy).Contents (Elt F)),
    binary main_v46 main_v69 main_v70 (cmpi .slt : (⟨S2097152, .i32⟩ : BufTy).Contents (Elt F) → (⟨S2097152, .i32⟩ : BufTy).Contents (Elt F) → (⟨S2097152, .i1⟩ : BufTy).Contents (Elt F)),
    nullary main_c_30 (constantI S_ 32 160#32),
    unary main_c_30 main_v71 (broadcastInDim S2097152 ![] bcast_S_S2097152 : (⟨S_, .i32⟩ : BufTy).Contents (Elt F) → (⟨S2097152, .i32⟩ : BufTy).Contents (Elt F)),
    binary main_v46 main_v71 main_v72 (addi : (⟨S2097152, .i32⟩ : BufTy).Contents (Elt F) → (⟨S2097152, .i32⟩ : BufTy).Contents (Elt F) → (⟨S2097152, .i32⟩ : BufTy).Contents (Elt F)),
    ternary main_v70 main_v72 main_v46 main_v73 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_31 (constantI S_ 32 0#32),
    unary main_c_31 main_v74 (broadcastInDim S2097152 ![] bcast_S_S2097152 : (⟨S_, .i32⟩ : BufTy).Contents (Elt F) → (⟨S2097152, .i32⟩ : BufTy).Contents (Elt F)),
    binary main_v44 main_v74 main_v75 (cmpi .slt : (⟨S2097152, .i32⟩ : BufTy).Contents (Elt F) → (⟨S2097152, .i32⟩ : BufTy).Contents (Elt F) → (⟨S2097152, .i1⟩ : BufTy).Contents (Elt F)),
    nullary main_c_32 (constantI S_ 32 160#32),
    unary main_c_32 main_v76 (broadcastInDim S2097152 ![] bcast_S_S2097152 : (⟨S_, .i32⟩ : BufTy).Contents (Elt F) → (⟨S2097152, .i32⟩ : BufTy).Contents (Elt F)),
    binary main_v44 main_v76 main_v77 (addi : (⟨S2097152, .i32⟩ : BufTy).Contents (Elt F) → (⟨S2097152, .i32⟩ : BufTy).Contents (Elt F) → (⟨S2097152, .i32⟩ : BufTy).Contents (Elt F)),
    ternary main_v75 main_v77 main_v44 main_v78 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v68 main_v79 (broadcastInDim S2097152x1 ![0] bcast_S2097152_S2097152x1_0 : (⟨S2097152, .i32⟩ : BufTy).Contents (Elt F) → (⟨S2097152x1, .i32⟩ : BufTy).Contents (Elt F)),
    unary main_v73 main_v80 (broadcastInDim S2097152x1 ![0] bcast_S2097152_S2097152x1_0 : (⟨S2097152, .i32⟩ : BufTy).Contents (Elt F) → (⟨S2097152x1, .i32⟩ : BufTy).Contents (Elt F)),
    unary main_v78 main_v81 (broadcastInDim S2097152x1 ![0] bcast_S2097152_S2097152x1_0 : (⟨S2097152, .i32⟩ : BufTy).Contents (Elt F) → (⟨S2097152x1, .i32⟩ : BufTy).Contents (Elt F)),
    nary ![main_v79, main_v80, main_v81] main_v82 (fun u => concatenate S2097152x3 1 [⟨S2097152x1, u 0⟩, ⟨S2097152x1, u 1⟩, ⟨S2097152x1, u 2⟩] concatenates_S2097152x1_S2097152x1_S2097152x1_S2097152x3_d1),
    binary main_v0 main_v82 main_v83 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v63 main_v61 main_v84 (mulf : (⟨S2097152, .f32⟩ : BufTy).Contents (Elt F) → (⟨S2097152, .f32⟩ : BufTy).Contents (Elt F) → (⟨S2097152, .f32⟩ : BufTy).Contents (Elt F)),
    binary main_v84 main_v59 main_v85 (mulf : (⟨S2097152, .f32⟩ : BufTy).Contents (Elt F) → (⟨S2097152, .f32⟩ : BufTy).Contents (Elt F) → (⟨S2097152, .f32⟩ : BufTy).Contents (Elt F)),
    unary main_v85 main_v86 (broadcastInDim S1x2097152 ![1] bcast_S2097152_S1x2097152_1 : (⟨S2097152, .f32⟩ : BufTy).Contents (Elt F) → (⟨S1x2097152, .f32⟩ : BufTy).Contents (Elt F)),
    unary main_v86 main_v87 (broadcastInDim S12x2097152 ![0, 1] bcast_S1x2097152_S12x2097152_0_1 : (⟨S1x2097152, .f32⟩ : BufTy).Contents (Elt F) → (⟨S12x2097152, .f32⟩ : BufTy).Contents (Elt F)),
    binary main_v83 main_v87 main_v88 (mulf : (⟨S12x2097152, .f32⟩ : BufTy).Contents (Elt F) → (⟨S12x2097152, .f32⟩ : BufTy).Contents (Elt F) → (⟨S12x2097152, .f32⟩ : BufTy).Contents (Elt F)),
    nullary main_c_33 (constantI S_ 32 0#32),
    unary main_c_33 main_v89 (broadcastInDim S2097152 ![] bcast_S_S2097152 : (⟨S_, .i32⟩ : BufTy).Contents (Elt F) → (⟨S2097152, .i32⟩ : BufTy).Contents (Elt F)),
    binary main_v48 main_v89 main_v90 (cmpi .slt : (⟨S2097152, .i32⟩ : BufTy).Contents (Elt F) → (⟨S2097152, .i32⟩ : BufTy).Contents (Elt F) → (⟨S2097152, .i1⟩ : BufTy).Contents (Elt F)),
    nullary main_c_34 (constantI S_ 32 160#32),
    unary main_c_34 main_v91 (broadcastInDim S2097152 ![] bcast_S_S2097152 : (⟨S_, .i32⟩ : BufTy).Contents (Elt F) → (⟨S2097152, .i32⟩ : BufTy).Contents (Elt F)),
    binary main_v48 main_v91 main_v92 (addi : (⟨S2097152, .i32⟩ : BufTy).Contents (Elt F) → (⟨S2097152, .i32⟩ : BufTy).Contents (Elt F) → (⟨S2097152, .i32⟩ : BufTy).Contents (Elt F)),
    ternary main_v90 main_v92 main_v48 main_v93 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_35 (constantI S_ 32 0#32),
    unary main_c_35 main_v94 (broadcastInDim S2097152 ![] bcast_S_S2097152 : (⟨S_, .i32⟩ : BufTy).Contents (Elt F) → (⟨S2097152, .i32⟩ : BufTy).Contents (Elt F)),
    binary main_v46 main_v94 main_v95 (cmpi .slt : (⟨S2097152, .i32⟩ : BufTy).Contents (Elt F) → (⟨S2097152, .i32⟩ : BufTy).Contents (Elt F) → (⟨S2097152, .i1⟩ : BufTy).Contents (Elt F)),
    nullary main_c_36 (constantI S_ 32 160#32),
    unary main_c_36 main_v96 (broadcastInDim S2097152 ![] bcast_S_S2097152 : (⟨S_, .i32⟩ : BufTy).Contents (Elt F) → (⟨S2097152, .i32⟩ : BufTy).Contents (Elt F)),
    binary main_v46 main_v96 main_v97 (addi : (⟨S2097152, .i32⟩ : BufTy).Contents (Elt F) → (⟨S2097152, .i32⟩ : BufTy).Contents (Elt F) → (⟨S2097152, .i32⟩ : BufTy).Contents (Elt F)),
    ternary main_v95 main_v97 main_v46 main_v98 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_37 (constantI S_ 32 0#32),
    unary main_c_37 main_v99 (broadcastInDim S2097152 ![] bcast_S_S2097152 : (⟨S_, .i32⟩ : BufTy).Contents (Elt F) → (⟨S2097152, .i32⟩ : BufTy).Contents (Elt F)),
    binary main_v51 main_v99 main_v100 (cmpi .slt : (⟨S2097152, .i32⟩ : BufTy).Contents (Elt F) → (⟨S2097152, .i32⟩ : BufTy).Contents (Elt F) → (⟨S2097152, .i1⟩ : BufTy).Contents (Elt F)),
    nullary main_c_38 (constantI S_ 32 160#32),
    unary main_c_38 main_v101 (broadcastInDim S2097152 ![] bcast_S_S2097152 : (⟨S_, .i32⟩ : BufTy).Contents (Elt F) → (⟨S2097152, .i32⟩ : BufTy).Contents (Elt F)),
    binary main_v51 main_v101 main_v102 (addi : (⟨S2097152, .i32⟩ : BufTy).Contents (Elt F) → (⟨S2097152, .i32⟩ : BufTy).Contents (Elt F) → (⟨S2097152, .i32⟩ : BufTy).Contents (Elt F)),
    ternary main_v100 main_v102 main_v51 main_v103 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v93 main_v104 (broadcastInDim S2097152x1 ![0] bcast_S2097152_S2097152x1_0 : (⟨S2097152, .i32⟩ : BufTy).Contents (Elt F) → (⟨S2097152x1, .i32⟩ : BufTy).Contents (Elt F)),
    unary main_v98 main_v105 (broadcastInDim S2097152x1 ![0] bcast_S2097152_S2097152x1_0 : (⟨S2097152, .i32⟩ : BufTy).Contents (Elt F) → (⟨S2097152x1, .i32⟩ : BufTy).Contents (Elt F)),
    unary main_v103 main_v106 (broadcastInDim S2097152x1 ![0] bcast_S2097152_S2097152x1_0 : (⟨S2097152, .i32⟩ : BufTy).Contents (Elt F) → (⟨S2097152x1, .i32⟩ : BufTy).Contents (Elt F)),
    nary ![main_v104, main_v105, main_v106] main_v107 (fun u => concatenate S2097152x3 1 [⟨S2097152x1, u 0⟩, ⟨S2097152x1, u 1⟩, ⟨S2097152x1, u 2⟩] concatenates_S2097152x1_S2097152x1_S2097152x1_S2097152x3_d1),
    binary main_v0 main_v107 main_v108 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v63 main_v61 main_v109 (mulf : (⟨S2097152, .f32⟩ : BufTy).Contents (Elt F) → (⟨S2097152, .f32⟩ : BufTy).Contents (Elt F) → (⟨S2097152, .f32⟩ : BufTy).Contents (Elt F)),
    binary main_v109 main_v40 main_v110 (mulf : (⟨S2097152, .f32⟩ : BufTy).Contents (Elt F) → (⟨S2097152, .f32⟩ : BufTy).Contents (Elt F) → (⟨S2097152, .f32⟩ : BufTy).Contents (Elt F)),
    unary main_v110 main_v111 (broadcastInDim S1x2097152 ![1] bcast_S2097152_S1x2097152_1 : (⟨S2097152, .f32⟩ : BufTy).Contents (Elt F) → (⟨S1x2097152, .f32⟩ : BufTy).Contents (Elt F)),
    unary main_v111 main_v112 (broadcastInDim S12x2097152 ![0, 1] bcast_S1x2097152_S12x2097152_0_1 : (⟨S1x2097152, .f32⟩ : BufTy).Contents (Elt F) → (⟨S12x2097152, .f32⟩ : BufTy).Contents (Elt F)),
    binary main_v108 main_v112 main_v113 (mulf : (⟨S12x2097152, .f32⟩ : BufTy).Contents (Elt F) → (⟨S12x2097152, .f32⟩ : BufTy).Contents (Elt F) → (⟨S12x2097152, .f32⟩ : BufTy).Contents (Elt F)),
    binary main_v88 main_v113 main_v114 (addf : (⟨S12x2097152, .f32⟩ : BufTy).Contents (Elt F) → (⟨S12x2097152, .f32⟩ : BufTy).Contents (Elt F) → (⟨S12x2097152, .f32⟩ : BufTy).Contents (Elt F)),
    nullary main_c_39 (constantI S_ 32 0#32),
    unary main_c_39 main_v115 (broadcastInDim S2097152 ![] bcast_S_S2097152 : (⟨S_, .i32⟩ : BufTy).Contents (Elt F) → (⟨S2097152, .i32⟩ : BufTy).Contents (Elt F)),
    binary main_v48 main_v115 main_v116 (cmpi .slt : (⟨S2097152, .i32⟩ : BufTy).Contents (Elt F) → (⟨S2097152, .i32⟩ : BufTy).Contents (Elt F) → (⟨S2097152, .i1⟩ : BufTy).Contents (Elt F)),
    nullary main_c_40 (constantI S_ 32 160#32),
    unary main_c_40 main_v117 (broadcastInDim S2097152 ![] bcast_S_S2097152 : (⟨S_, .i32⟩ : BufTy).Contents (Elt F) → (⟨S2097152, .i32⟩ : BufTy).Contents (Elt F)),
    binary main_v48 main_v117 main_v118 (addi : (⟨S2097152, .i32⟩ : BufTy).Contents (Elt F) → (⟨S2097152, .i32⟩ : BufTy).Contents (Elt F) → (⟨S2097152, .i32⟩ : BufTy).Contents (Elt F)),
    ternary main_v116 main_v118 main_v48 main_v119 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_41 (constantI S_ 32 0#32),
    unary main_c_41 main_v120 (broadcastInDim S2097152 ![] bcast_S_S2097152 : (⟨S_, .i32⟩ : BufTy).Contents (Elt F) → (⟨S2097152, .i32⟩ : BufTy).Contents (Elt F)),
    binary main_v54 main_v120 main_v121 (cmpi .slt : (⟨S2097152, .i32⟩ : BufTy).Contents (Elt F) → (⟨S2097152, .i32⟩ : BufTy).Contents (Elt F) → (⟨S2097152, .i1⟩ : BufTy).Contents (Elt F)),
    nullary main_c_42 (constantI S_ 32 160#32),
    unary main_c_42 main_v122 (broadcastInDim S2097152 ![] bcast_S_S2097152 : (⟨S_, .i32⟩ : BufTy).Contents (Elt F) → (⟨S2097152, .i32⟩ : BufTy).Contents (Elt F)),
    binary main_v54 main_v122 main_v123 (addi : (⟨S2097152, .i32⟩ : BufTy).Contents (Elt F) → (⟨S2097152, .i32⟩ : BufTy).Contents (Elt F) → (⟨S2097152, .i32⟩ : BufTy).Contents (Elt F)),
    ternary main_v121 main_v123 main_v54 main_v124 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_43 (constantI S_ 32 0#32),
    unary main_c_43 main_v125 (broadcastInDim S2097152 ![] bcast_S_S2097152 : (⟨S_, .i32⟩ : BufTy).Contents (Elt F) → (⟨S2097152, .i32⟩ : BufTy).Contents (Elt F)),
    binary main_v44 main_v125 main_v126 (cmpi .slt : (⟨S2097152, .i32⟩ : BufTy).Contents (Elt F) → (⟨S2097152, .i32⟩ : BufTy).Contents (Elt F) → (⟨S2097152, .i1⟩ : BufTy).Contents (Elt F)),
    nullary main_c_44 (constantI S_ 32 160#32),
    unary main_c_44 main_v127 (broadcastInDim S2097152 ![] bcast_S_S2097152 : (⟨S_, .i32⟩ : BufTy).Contents (Elt F) → (⟨S2097152, .i32⟩ : BufTy).Contents (Elt F)),
    binary main_v44 main_v127 main_v128 (addi : (⟨S2097152, .i32⟩ : BufTy).Contents (Elt F) → (⟨S2097152, .i32⟩ : BufTy).Contents (Elt F) → (⟨S2097152, .i32⟩ : BufTy).Contents (Elt F)),
    ternary main_v126 main_v128 main_v44 main_v129 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v119 main_v130 (broadcastInDim S2097152x1 ![0] bcast_S2097152_S2097152x1_0 : (⟨S2097152, .i32⟩ : BufTy).Contents (Elt F) → (⟨S2097152x1, .i32⟩ : BufTy).Contents (Elt F)),
    unary main_v124 main_v131 (broadcastInDim S2097152x1 ![0] bcast_S2097152_S2097152x1_0 : (⟨S2097152, .i32⟩ : BufTy).Contents (Elt F) → (⟨S2097152x1, .i32⟩ : BufTy).Contents (Elt F)),
    unary main_v129 main_v132 (broadcastInDim S2097152x1 ![0] bcast_S2097152_S2097152x1_0 : (⟨S2097152, .i32⟩ : BufTy).Contents (Elt F) → (⟨S2097152x1, .i32⟩ : BufTy).Contents (Elt F)),
    nary ![main_v130, main_v131, main_v132] main_v133 (fun u => concatenate S2097152x3 1 [⟨S2097152x1, u 0⟩, ⟨S2097152x1, u 1⟩, ⟨S2097152x1, u 2⟩] concatenates_S2097152x1_S2097152x1_S2097152x1_S2097152x3_d1),
    binary main_v0 main_v133 main_v134 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v63 main_v41 main_v135 (mulf : (⟨S2097152, .f32⟩ : BufTy).Contents (Elt F) → (⟨S2097152, .f32⟩ : BufTy).Contents (Elt F) → (⟨S2097152, .f32⟩ : BufTy).Contents (Elt F)),
    binary main_v135 main_v59 main_v136 (mulf : (⟨S2097152, .f32⟩ : BufTy).Contents (Elt F) → (⟨S2097152, .f32⟩ : BufTy).Contents (Elt F) → (⟨S2097152, .f32⟩ : BufTy).Contents (Elt F)),
    unary main_v136 main_v137 (broadcastInDim S1x2097152 ![1] bcast_S2097152_S1x2097152_1 : (⟨S2097152, .f32⟩ : BufTy).Contents (Elt F) → (⟨S1x2097152, .f32⟩ : BufTy).Contents (Elt F)),
    unary main_v137 main_v138 (broadcastInDim S12x2097152 ![0, 1] bcast_S1x2097152_S12x2097152_0_1 : (⟨S1x2097152, .f32⟩ : BufTy).Contents (Elt F) → (⟨S12x2097152, .f32⟩ : BufTy).Contents (Elt F)),
    binary main_v134 main_v138 main_v139 (mulf : (⟨S12x2097152, .f32⟩ : BufTy).Contents (Elt F) → (⟨S12x2097152, .f32⟩ : BufTy).Contents (Elt F) → (⟨S12x2097152, .f32⟩ : BufTy).Contents (Elt F)),
    binary main_v114 main_v139 main_v140 (addf : (⟨S12x2097152, .f32⟩ : BufTy).Contents (Elt F) → (⟨S12x2097152, .f32⟩ : BufTy).Contents (Elt F) → (⟨S12x2097152, .f32⟩ : BufTy).Contents (Elt F)),
    nullary main_c_45 (constantI S_ 32 0#32),
    unary main_c_45 main_v141 (broadcastInDim S2097152 ![] bcast_S_S2097152 : (⟨S_, .i32⟩ : BufTy).Contents (Elt F) → (⟨S2097152, .i32⟩ : BufTy).Contents (Elt F)),
    binary main_v48 main_v141 main_v142 (cmpi .slt : (⟨S2097152, .i32⟩ : BufTy).Contents (Elt F) → (⟨S2097152, .i32⟩ : BufTy).Contents (Elt F) → (⟨S2097152, .i1⟩ : BufTy).Contents (Elt F)),
    nullary main_c_46 (constantI S_ 32 160#32),
    unary main_c_46 main_v143 (broadcastInDim S2097152 ![] bcast_S_S2097152 : (⟨S_, .i32⟩ : BufTy).Contents (Elt F) → (⟨S2097152, .i32⟩ : BufTy).Contents (Elt F)),
    binary main_v48 main_v143 main_v144 (addi : (⟨S2097152, .i32⟩ : BufTy).Contents (Elt F) → (⟨S2097152, .i32⟩ : BufTy).Contents (Elt F) → (⟨S2097152, .i32⟩ : BufTy).Contents (Elt F)),
    ternary main_v142 main_v144 main_v48 main_v145 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_47 (constantI S_ 32 0#32),
    unary main_c_47 main_v146 (broadcastInDim S2097152 ![] bcast_S_S2097152 : (⟨S_, .i32⟩ : BufTy).Contents (Elt F) → (⟨S2097152, .i32⟩ : BufTy).Contents (Elt F)),
    binary main_v54 main_v146 main_v147 (cmpi .slt : (⟨S2097152, .i32⟩ : BufTy).Contents (Elt F) → (⟨S2097152, .i32⟩ : BufTy).Contents (Elt F) → (⟨S2097152, .i1⟩ : BufTy).Contents (Elt F)),
    nullary main_c_48 (constantI S_ 32 160#32),
    unary main_c_48 main_v148 (broadcastInDim S2097152 ![] bcast_S_S2097152 : (⟨S_, .i32⟩ : BufTy).Contents (Elt F) → (⟨S2097152, .i32⟩ : BufTy).Contents (Elt F)),
    binary main_v54 main_v148 main_v149 (addi : (⟨S2097152, .i32⟩ : BufTy).Contents (Elt F) → (⟨S2097152, .i32⟩ : BufTy).Contents (Elt F) → (⟨S2097152, .i32⟩ : BufTy).Contents (Elt F)),
    ternary main_v147 main_v149 main_v54 main_v150 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_49 (constantI S_ 32 0#32),
    unary main_c_49 main_v151 (broadcastInDim S2097152 ![] bcast_S_S2097152 : (⟨S_, .i32⟩ : BufTy).Contents (Elt F) → (⟨S2097152, .i32⟩ : BufTy).Contents (Elt F)),
    binary main_v51 main_v151 main_v152 (cmpi .slt : (⟨S2097152, .i32⟩ : BufTy).Contents (Elt F) → (⟨S2097152, .i32⟩ : BufTy).Contents (Elt F) → (⟨S2097152, .i1⟩ : BufTy).Contents (Elt F)),
    nullary main_c_50 (constantI S_ 32 160#32),
    unary main_c_50 main_v153 (broadcastInDim S2097152 ![] bcast_S_S2097152 : (⟨S_, .i32⟩ : BufTy).Contents (Elt F) → (⟨S2097152, .i32⟩ : BufTy).Contents (Elt F)),
    binary main_v51 main_v153 main_v154 (addi : (⟨S2097152, .i32⟩ : BufTy).Contents (Elt F) → (⟨S2097152, .i32⟩ : BufTy).Contents (Elt F) → (⟨S2097152, .i32⟩ : BufTy).Contents (Elt F)),
    ternary main_v152 main_v154 main_v51 main_v155 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v145 main_v156 (broadcastInDim S2097152x1 ![0] bcast_S2097152_S2097152x1_0 : (⟨S2097152, .i32⟩ : BufTy).Contents (Elt F) → (⟨S2097152x1, .i32⟩ : BufTy).Contents (Elt F)),
    unary main_v150 main_v157 (broadcastInDim S2097152x1 ![0] bcast_S2097152_S2097152x1_0 : (⟨S2097152, .i32⟩ : BufTy).Contents (Elt F) → (⟨S2097152x1, .i32⟩ : BufTy).Contents (Elt F)),
    unary main_v155 main_v158 (broadcastInDim S2097152x1 ![0] bcast_S2097152_S2097152x1_0 : (⟨S2097152, .i32⟩ : BufTy).Contents (Elt F) → (⟨S2097152x1, .i32⟩ : BufTy).Contents (Elt F)),
    nary ![main_v156, main_v157, main_v158] main_v159 (fun u => concatenate S2097152x3 1 [⟨S2097152x1, u 0⟩, ⟨S2097152x1, u 1⟩, ⟨S2097152x1, u 2⟩] concatenates_S2097152x1_S2097152x1_S2097152x1_S2097152x3_d1),
    binary main_v0 main_v159 main_v160 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v63 main_v41 main_v161 (mulf : (⟨S2097152, .f32⟩ : BufTy).Contents (Elt F) → (⟨S2097152, .f32⟩ : BufTy).Contents (Elt F) → (⟨S2097152, .f32⟩ : BufTy).Contents (Elt F)),
    binary main_v161 main_v40 main_v162 (mulf : (⟨S2097152, .f32⟩ : BufTy).Contents (Elt F) → (⟨S2097152, .f32⟩ : BufTy).Contents (Elt F) → (⟨S2097152, .f32⟩ : BufTy).Contents (Elt F)),
    unary main_v162 main_v163 (broadcastInDim S1x2097152 ![1] bcast_S2097152_S1x2097152_1 : (⟨S2097152, .f32⟩ : BufTy).Contents (Elt F) → (⟨S1x2097152, .f32⟩ : BufTy).Contents (Elt F)),
    unary main_v163 main_v164 (broadcastInDim S12x2097152 ![0, 1] bcast_S1x2097152_S12x2097152_0_1 : (⟨S1x2097152, .f32⟩ : BufTy).Contents (Elt F) → (⟨S12x2097152, .f32⟩ : BufTy).Contents (Elt F)),
    binary main_v160 main_v164 main_v165 (mulf : (⟨S12x2097152, .f32⟩ : BufTy).Contents (Elt F) → (⟨S12x2097152, .f32⟩ : BufTy).Contents (Elt F) → (⟨S12x2097152, .f32⟩ : BufTy).Contents (Elt F)),
    binary main_v140 main_v165 main_v166 (addf : (⟨S12x2097152, .f32⟩ : BufTy).Contents (Elt F) → (⟨S12x2097152, .f32⟩ : BufTy).Contents (Elt F) → (⟨S12x2097152, .f32⟩ : BufTy).Contents (Elt F)),
    nullary main_c_51 (constantI S_ 32 0#32),
    unary main_c_51 main_v167 (broadcastInDim S2097152 ![] bcast_S_S2097152 : (⟨S_, .i32⟩ : BufTy).Contents (Elt F) → (⟨S2097152, .i32⟩ : BufTy).Contents (Elt F)),
    binary main_v57 main_v167 main_v168 (cmpi .slt : (⟨S2097152, .i32⟩ : BufTy).Contents (Elt F) → (⟨S2097152, .i32⟩ : BufTy).Contents (Elt F) → (⟨S2097152, .i1⟩ : BufTy).Contents (Elt F)),
    nullary main_c_52 (constantI S_ 32 160#32),
    unary main_c_52 main_v169 (broadcastInDim S2097152 ![] bcast_S_S2097152 : (⟨S_, .i32⟩ : BufTy).Contents (Elt F) → (⟨S2097152, .i32⟩ : BufTy).Contents (Elt F)),
    binary main_v57 main_v169 main_v170 (addi : (⟨S2097152, .i32⟩ : BufTy).Contents (Elt F) → (⟨S2097152, .i32⟩ : BufTy).Contents (Elt F) → (⟨S2097152, .i32⟩ : BufTy).Contents (Elt F)),
    ternary main_v168 main_v170 main_v57 main_v171 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_53 (constantI S_ 32 0#32),
    unary main_c_53 main_v172 (broadcastInDim S2097152 ![] bcast_S_S2097152 : (⟨S_, .i32⟩ : BufTy).Contents (Elt F) → (⟨S2097152, .i32⟩ : BufTy).Contents (Elt F)),
    binary main_v46 main_v172 main_v173 (cmpi .slt : (⟨S2097152, .i32⟩ : BufTy).Contents (Elt F) → (⟨S2097152, .i32⟩ : BufTy).Contents (Elt F) → (⟨S2097152, .i1⟩ : BufTy).Contents (Elt F)),
    nullary main_c_54 (constantI S_ 32 160#32),
    unary main_c_54 main_v174 (broadcastInDim S2097152 ![] bcast_S_S2097152 : (⟨S_, .i32⟩ : BufTy).Contents (Elt F) → (⟨S2097152, .i32⟩ : BufTy).Contents (Elt F)),
    binary main_v46 main_v174 main_v175 (addi : (⟨S2097152, .i32⟩ : BufTy).Contents (Elt F) → (⟨S2097152, .i32⟩ : BufTy).Contents (Elt F) → (⟨S2097152, .i32⟩ : BufTy).Contents (Elt F)),
    ternary main_v173 main_v175 main_v46 main_v176 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_55 (constantI S_ 32 0#32),
    unary main_c_55 main_v177 (broadcastInDim S2097152 ![] bcast_S_S2097152 : (⟨S_, .i32⟩ : BufTy).Contents (Elt F) → (⟨S2097152, .i32⟩ : BufTy).Contents (Elt F)),
    binary main_v44 main_v177 main_v178 (cmpi .slt : (⟨S2097152, .i32⟩ : BufTy).Contents (Elt F) → (⟨S2097152, .i32⟩ : BufTy).Contents (Elt F) → (⟨S2097152, .i1⟩ : BufTy).Contents (Elt F)),
    nullary main_c_56 (constantI S_ 32 160#32),
    unary main_c_56 main_v179 (broadcastInDim S2097152 ![] bcast_S_S2097152 : (⟨S_, .i32⟩ : BufTy).Contents (Elt F) → (⟨S2097152, .i32⟩ : BufTy).Contents (Elt F)),
    binary main_v44 main_v179 main_v180 (addi : (⟨S2097152, .i32⟩ : BufTy).Contents (Elt F) → (⟨S2097152, .i32⟩ : BufTy).Contents (Elt F) → (⟨S2097152, .i32⟩ : BufTy).Contents (Elt F)),
    ternary main_v178 main_v180 main_v44 main_v181 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v171 main_v182 (broadcastInDim S2097152x1 ![0] bcast_S2097152_S2097152x1_0 : (⟨S2097152, .i32⟩ : BufTy).Contents (Elt F) → (⟨S2097152x1, .i32⟩ : BufTy).Contents (Elt F)),
    unary main_v176 main_v183 (broadcastInDim S2097152x1 ![0] bcast_S2097152_S2097152x1_0 : (⟨S2097152, .i32⟩ : BufTy).Contents (Elt F) → (⟨S2097152x1, .i32⟩ : BufTy).Contents (Elt F)),
    unary main_v181 main_v184 (broadcastInDim S2097152x1 ![0] bcast_S2097152_S2097152x1_0 : (⟨S2097152, .i32⟩ : BufTy).Contents (Elt F) → (⟨S2097152x1, .i32⟩ : BufTy).Contents (Elt F)),
    nary ![main_v182, main_v183, main_v184] main_v185 (fun u => concatenate S2097152x3 1 [⟨S2097152x1, u 0⟩, ⟨S2097152x1, u 1⟩, ⟨S2097152x1, u 2⟩] concatenates_S2097152x1_S2097152x1_S2097152x1_S2097152x3_d1),
    binary main_v0 main_v185 main_v186 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v42 main_v61 main_v187 (mulf : (⟨S2097152, .f32⟩ : BufTy).Contents (Elt F) → (⟨S2097152, .f32⟩ : BufTy).Contents (Elt F) → (⟨S2097152, .f32⟩ : BufTy).Contents (Elt F)),
    binary main_v187 main_v59 main_v188 (mulf : (⟨S2097152, .f32⟩ : BufTy).Contents (Elt F) → (⟨S2097152, .f32⟩ : BufTy).Contents (Elt F) → (⟨S2097152, .f32⟩ : BufTy).Contents (Elt F)),
    unary main_v188 main_v189 (broadcastInDim S1x2097152 ![1] bcast_S2097152_S1x2097152_1 : (⟨S2097152, .f32⟩ : BufTy).Contents (Elt F) → (⟨S1x2097152, .f32⟩ : BufTy).Contents (Elt F)),
    unary main_v189 main_v190 (broadcastInDim S12x2097152 ![0, 1] bcast_S1x2097152_S12x2097152_0_1 : (⟨S1x2097152, .f32⟩ : BufTy).Contents (Elt F) → (⟨S12x2097152, .f32⟩ : BufTy).Contents (Elt F)),
    binary main_v186 main_v190 main_v191 (mulf : (⟨S12x2097152, .f32⟩ : BufTy).Contents (Elt F) → (⟨S12x2097152, .f32⟩ : BufTy).Contents (Elt F) → (⟨S12x2097152, .f32⟩ : BufTy).Contents (Elt F)),
    binary main_v166 main_v191 main_v192 (addf : (⟨S12x2097152, .f32⟩ : BufTy).Contents (Elt F) → (⟨S12x2097152, .f32⟩ : BufTy).Contents (Elt F) → (⟨S12x2097152, .f32⟩ : BufTy).Contents (Elt F)),
    nullary main_c_57 (constantI S_ 32 0#32),
    unary main_c_57 main_v193 (broadcastInDim S2097152 ![] bcast_S_S2097152 : (⟨S_, .i32⟩ : BufTy).Contents (Elt F) → (⟨S2097152, .i32⟩ : BufTy).Contents (Elt F)),
    binary main_v57 main_v193 main_v194 (cmpi .slt : (⟨S2097152, .i32⟩ : BufTy).Contents (Elt F) → (⟨S2097152, .i32⟩ : BufTy).Contents (Elt F) → (⟨S2097152, .i1⟩ : BufTy).Contents (Elt F)),
    nullary main_c_58 (constantI S_ 32 160#32),
    unary main_c_58 main_v195 (broadcastInDim S2097152 ![] bcast_S_S2097152 : (⟨S_, .i32⟩ : BufTy).Contents (Elt F) → (⟨S2097152, .i32⟩ : BufTy).Contents (Elt F)),
    binary main_v57 main_v195 main_v196 (addi : (⟨S2097152, .i32⟩ : BufTy).Contents (Elt F) → (⟨S2097152, .i32⟩ : BufTy).Contents (Elt F) → (⟨S2097152, .i32⟩ : BufTy).Contents (Elt F)),
    ternary main_v194 main_v196 main_v57 main_v197 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_59 (constantI S_ 32 0#32),
    unary main_c_59 main_v198 (broadcastInDim S2097152 ![] bcast_S_S2097152 : (⟨S_, .i32⟩ : BufTy).Contents (Elt F) → (⟨S2097152, .i32⟩ : BufTy).Contents (Elt F)),
    binary main_v46 main_v198 main_v199 (cmpi .slt : (⟨S2097152, .i32⟩ : BufTy).Contents (Elt F) → (⟨S2097152, .i32⟩ : BufTy).Contents (Elt F) → (⟨S2097152, .i1⟩ : BufTy).Contents (Elt F)),
    nullary main_c_60 (constantI S_ 32 160#32),
    unary main_c_60 main_v200 (broadcastInDim S2097152 ![] bcast_S_S2097152 : (⟨S_, .i32⟩ : BufTy).Contents (Elt F) → (⟨S2097152, .i32⟩ : BufTy).Contents (Elt F)),
    binary main_v46 main_v200 main_v201 (addi : (⟨S2097152, .i32⟩ : BufTy).Contents (Elt F) → (⟨S2097152, .i32⟩ : BufTy).Contents (Elt F) → (⟨S2097152, .i32⟩ : BufTy).Contents (Elt F)),
    ternary main_v199 main_v201 main_v46 main_v202 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_61 (constantI S_ 32 0#32),
    unary main_c_61 main_v203 (broadcastInDim S2097152 ![] bcast_S_S2097152 : (⟨S_, .i32⟩ : BufTy).Contents (Elt F) → (⟨S2097152, .i32⟩ : BufTy).Contents (Elt F)),
    binary main_v51 main_v203 main_v204 (cmpi .slt : (⟨S2097152, .i32⟩ : BufTy).Contents (Elt F) → (⟨S2097152, .i32⟩ : BufTy).Contents (Elt F) → (⟨S2097152, .i1⟩ : BufTy).Contents (Elt F)),
    nullary main_c_62 (constantI S_ 32 160#32),
    unary main_c_62 main_v205 (broadcastInDim S2097152 ![] bcast_S_S2097152 : (⟨S_, .i32⟩ : BufTy).Contents (Elt F) → (⟨S2097152, .i32⟩ : BufTy).Contents (Elt F)),
    binary main_v51 main_v205 main_v206 (addi : (⟨S2097152, .i32⟩ : BufTy).Contents (Elt F) → (⟨S2097152, .i32⟩ : BufTy).Contents (Elt F) → (⟨S2097152, .i32⟩ : BufTy).Contents (Elt F)),
    ternary main_v204 main_v206 main_v51 main_v207 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v197 main_v208 (broadcastInDim S2097152x1 ![0] bcast_S2097152_S2097152x1_0 : (⟨S2097152, .i32⟩ : BufTy).Contents (Elt F) → (⟨S2097152x1, .i32⟩ : BufTy).Contents (Elt F)),
    unary main_v202 main_v209 (broadcastInDim S2097152x1 ![0] bcast_S2097152_S2097152x1_0 : (⟨S2097152, .i32⟩ : BufTy).Contents (Elt F) → (⟨S2097152x1, .i32⟩ : BufTy).Contents (Elt F)),
    unary main_v207 main_v210 (broadcastInDim S2097152x1 ![0] bcast_S2097152_S2097152x1_0 : (⟨S2097152, .i32⟩ : BufTy).Contents (Elt F) → (⟨S2097152x1, .i32⟩ : BufTy).Contents (Elt F)),
    nary ![main_v208, main_v209, main_v210] main_v211 (fun u => concatenate S2097152x3 1 [⟨S2097152x1, u 0⟩, ⟨S2097152x1, u 1⟩, ⟨S2097152x1, u 2⟩] concatenates_S2097152x1_S2097152x1_S2097152x1_S2097152x3_d1),
    binary main_v0 main_v211 main_v212 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v42 main_v61 main_v213 (mulf : (⟨S2097152, .f32⟩ : BufTy).Contents (Elt F) → (⟨S2097152, .f32⟩ : BufTy).Contents (Elt F) → (⟨S2097152, .f32⟩ : BufTy).Contents (Elt F)),
    binary main_v213 main_v40 main_v214 (mulf : (⟨S2097152, .f32⟩ : BufTy).Contents (Elt F) → (⟨S2097152, .f32⟩ : BufTy).Contents (Elt F) → (⟨S2097152, .f32⟩ : BufTy).Contents (Elt F)),
    unary main_v214 main_v215 (broadcastInDim S1x2097152 ![1] bcast_S2097152_S1x2097152_1 : (⟨S2097152, .f32⟩ : BufTy).Contents (Elt F) → (⟨S1x2097152, .f32⟩ : BufTy).Contents (Elt F)),
    unary main_v215 main_v216 (broadcastInDim S12x2097152 ![0, 1] bcast_S1x2097152_S12x2097152_0_1 : (⟨S1x2097152, .f32⟩ : BufTy).Contents (Elt F) → (⟨S12x2097152, .f32⟩ : BufTy).Contents (Elt F)),
    binary main_v212 main_v216 main_v217 (mulf : (⟨S12x2097152, .f32⟩ : BufTy).Contents (Elt F) → (⟨S12x2097152, .f32⟩ : BufTy).Contents (Elt F) → (⟨S12x2097152, .f32⟩ : BufTy).Contents (Elt F)),
    binary main_v192 main_v217 main_v218 (addf : (⟨S12x2097152, .f32⟩ : BufTy).Contents (Elt F) → (⟨S12x2097152, .f32⟩ : BufTy).Contents (Elt F) → (⟨S12x2097152, .f32⟩ : BufTy).Contents (Elt F)),
    nullary main_c_63 (constantI S_ 32 0#32),
    unary main_c_63 main_v219 (broadcastInDim S2097152 ![] bcast_S_S2097152 : (⟨S_, .i32⟩ : BufTy).Contents (Elt F) → (⟨S2097152, .i32⟩ : BufTy).Contents (Elt F)),
    binary main_v57 main_v219 main_v220 (cmpi .slt : (⟨S2097152, .i32⟩ : BufTy).Contents (Elt F) → (⟨S2097152, .i32⟩ : BufTy).Contents (Elt F) → (⟨S2097152, .i1⟩ : BufTy).Contents (Elt F)),
    nullary main_c_64 (constantI S_ 32 160#32),
    unary main_c_64 main_v221 (broadcastInDim S2097152 ![] bcast_S_S2097152 : (⟨S_, .i32⟩ : BufTy).Contents (Elt F) → (⟨S2097152, .i32⟩ : BufTy).Contents (Elt F)),
    binary main_v57 main_v221 main_v222 (addi : (⟨S2097152, .i32⟩ : BufTy).Contents (Elt F) → (⟨S2097152, .i32⟩ : BufTy).Contents (Elt F) → (⟨S2097152, .i32⟩ : BufTy).Contents (Elt F)),
    ternary main_v220 main_v222 main_v57 main_v223 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_65 (constantI S_ 32 0#32),
    unary main_c_65 main_v224 (broadcastInDim S2097152 ![] bcast_S_S2097152 : (⟨S_, .i32⟩ : BufTy).Contents (Elt F) → (⟨S2097152, .i32⟩ : BufTy).Contents (Elt F)),
    binary main_v54 main_v224 main_v225 (cmpi .slt : (⟨S2097152, .i32⟩ : BufTy).Contents (Elt F) → (⟨S2097152, .i32⟩ : BufTy).Contents (Elt F) → (⟨S2097152, .i1⟩ : BufTy).Contents (Elt F)),
    nullary main_c_66 (constantI S_ 32 160#32),
    unary main_c_66 main_v226 (broadcastInDim S2097152 ![] bcast_S_S2097152 : (⟨S_, .i32⟩ : BufTy).Contents (Elt F) → (⟨S2097152, .i32⟩ : BufTy).Contents (Elt F)),
    binary main_v54 main_v226 main_v227 (addi : (⟨S2097152, .i32⟩ : BufTy).Contents (Elt F) → (⟨S2097152, .i32⟩ : BufTy).Contents (Elt F) → (⟨S2097152, .i32⟩ : BufTy).Contents (Elt F)),
    ternary main_v225 main_v227 main_v54 main_v228 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_67 (constantI S_ 32 0#32),
    unary main_c_67 main_v229 (broadcastInDim S2097152 ![] bcast_S_S2097152 : (⟨S_, .i32⟩ : BufTy).Contents (Elt F) → (⟨S2097152, .i32⟩ : BufTy).Contents (Elt F)),
    binary main_v44 main_v229 main_v230 (cmpi .slt : (⟨S2097152, .i32⟩ : BufTy).Contents (Elt F) → (⟨S2097152, .i32⟩ : BufTy).Contents (Elt F) → (⟨S2097152, .i1⟩ : BufTy).Contents (Elt F)),
    nullary main_c_68 (constantI S_ 32 160#32),
    unary main_c_68 main_v231 (broadcastInDim S2097152 ![] bcast_S_S2097152 : (⟨S_, .i32⟩ : BufTy).Contents (Elt F) → (⟨S2097152, .i32⟩ : BufTy).Contents (Elt F)),
    binary main_v44 main_v231 main_v232 (addi : (⟨S2097152, .i32⟩ : BufTy).Contents (Elt F) → (⟨S2097152, .i32⟩ : BufTy).Contents (Elt F) → (⟨S2097152, .i32⟩ : BufTy).Contents (Elt F)),
    ternary main_v230 main_v232 main_v44 main_v233 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v223 main_v234 (broadcastInDim S2097152x1 ![0] bcast_S2097152_S2097152x1_0 : (⟨S2097152, .i32⟩ : BufTy).Contents (Elt F) → (⟨S2097152x1, .i32⟩ : BufTy).Contents (Elt F)),
    unary main_v228 main_v235 (broadcastInDim S2097152x1 ![0] bcast_S2097152_S2097152x1_0 : (⟨S2097152, .i32⟩ : BufTy).Contents (Elt F) → (⟨S2097152x1, .i32⟩ : BufTy).Contents (Elt F)),
    unary main_v233 main_v236 (broadcastInDim S2097152x1 ![0] bcast_S2097152_S2097152x1_0 : (⟨S2097152, .i32⟩ : BufTy).Contents (Elt F) → (⟨S2097152x1, .i32⟩ : BufTy).Contents (Elt F)),
    nary ![main_v234, main_v235, main_v236] main_v237 (fun u => concatenate S2097152x3 1 [⟨S2097152x1, u 0⟩, ⟨S2097152x1, u 1⟩, ⟨S2097152x1, u 2⟩] concatenates_S2097152x1_S2097152x1_S2097152x1_S2097152x3_d1),
    binary main_v0 main_v237 main_v238 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v42 main_v41 main_v239 (mulf : (⟨S2097152, .f32⟩ : BufTy).Contents (Elt F) → (⟨S2097152, .f32⟩ : BufTy).Contents (Elt F) → (⟨S2097152, .f32⟩ : BufTy).Contents (Elt F)),
    binary main_v239 main_v59 main_v240 (mulf : (⟨S2097152, .f32⟩ : BufTy).Contents (Elt F) → (⟨S2097152, .f32⟩ : BufTy).Contents (Elt F) → (⟨S2097152, .f32⟩ : BufTy).Contents (Elt F)),
    unary main_v240 main_v241 (broadcastInDim S1x2097152 ![1] bcast_S2097152_S1x2097152_1 : (⟨S2097152, .f32⟩ : BufTy).Contents (Elt F) → (⟨S1x2097152, .f32⟩ : BufTy).Contents (Elt F)),
    unary main_v241 main_v242 (broadcastInDim S12x2097152 ![0, 1] bcast_S1x2097152_S12x2097152_0_1 : (⟨S1x2097152, .f32⟩ : BufTy).Contents (Elt F) → (⟨S12x2097152, .f32⟩ : BufTy).Contents (Elt F)),
    binary main_v238 main_v242 main_v243 (mulf : (⟨S12x2097152, .f32⟩ : BufTy).Contents (Elt F) → (⟨S12x2097152, .f32⟩ : BufTy).Contents (Elt F) → (⟨S12x2097152, .f32⟩ : BufTy).Contents (Elt F)),
    binary main_v218 main_v243 main_v244 (addf : (⟨S12x2097152, .f32⟩ : BufTy).Contents (Elt F) → (⟨S12x2097152, .f32⟩ : BufTy).Contents (Elt F) → (⟨S12x2097152, .f32⟩ : BufTy).Contents (Elt F)),
    nullary main_c_69 (constantI S_ 32 0#32),
    unary main_c_69 main_v245 (broadcastInDim S2097152 ![] bcast_S_S2097152 : (⟨S_, .i32⟩ : BufTy).Contents (Elt F) → (⟨S2097152, .i32⟩ : BufTy).Contents (Elt F)),
    binary main_v57 main_v245 main_v246 (cmpi .slt : (⟨S2097152, .i32⟩ : BufTy).Contents (Elt F) → (⟨S2097152, .i32⟩ : BufTy).Contents (Elt F) → (⟨S2097152, .i1⟩ : BufTy).Contents (Elt F)),
    nullary main_c_70 (constantI S_ 32 160#32),
    unary main_c_70 main_v247 (broadcastInDim S2097152 ![] bcast_S_S2097152 : (⟨S_, .i32⟩ : BufTy).Contents (Elt F) → (⟨S2097152, .i32⟩ : BufTy).Contents (Elt F)),
    binary main_v57 main_v247 main_v248 (addi : (⟨S2097152, .i32⟩ : BufTy).Contents (Elt F) → (⟨S2097152, .i32⟩ : BufTy).Contents (Elt F) → (⟨S2097152, .i32⟩ : BufTy).Contents (Elt F)),
    ternary main_v246 main_v248 main_v57 main_v249 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_71 (constantI S_ 32 0#32),
    unary main_c_71 main_v250 (broadcastInDim S2097152 ![] bcast_S_S2097152 : (⟨S_, .i32⟩ : BufTy).Contents (Elt F) → (⟨S2097152, .i32⟩ : BufTy).Contents (Elt F)),
    binary main_v54 main_v250 main_v251 (cmpi .slt : (⟨S2097152, .i32⟩ : BufTy).Contents (Elt F) → (⟨S2097152, .i32⟩ : BufTy).Contents (Elt F) → (⟨S2097152, .i1⟩ : BufTy).Contents (Elt F)),
    nullary main_c_72 (constantI S_ 32 160#32),
    unary main_c_72 main_v252 (broadcastInDim S2097152 ![] bcast_S_S2097152 : (⟨S_, .i32⟩ : BufTy).Contents (Elt F) → (⟨S2097152, .i32⟩ : BufTy).Contents (Elt F)),
    binary main_v54 main_v252 main_v253 (addi : (⟨S2097152, .i32⟩ : BufTy).Contents (Elt F) → (⟨S2097152, .i32⟩ : BufTy).Contents (Elt F) → (⟨S2097152, .i32⟩ : BufTy).Contents (Elt F)),
    ternary main_v251 main_v253 main_v54 main_v254 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    nullary main_c_73 (constantI S_ 32 0#32),
    unary main_c_73 main_v255 (broadcastInDim S2097152 ![] bcast_S_S2097152 : (⟨S_, .i32⟩ : BufTy).Contents (Elt F) → (⟨S2097152, .i32⟩ : BufTy).Contents (Elt F)),
    binary main_v51 main_v255 main_v256 (cmpi .slt : (⟨S2097152, .i32⟩ : BufTy).Contents (Elt F) → (⟨S2097152, .i32⟩ : BufTy).Contents (Elt F) → (⟨S2097152, .i1⟩ : BufTy).Contents (Elt F)),
    nullary main_c_74 (constantI S_ 32 160#32),
    unary main_c_74 main_v257 (broadcastInDim S2097152 ![] bcast_S_S2097152 : (⟨S_, .i32⟩ : BufTy).Contents (Elt F) → (⟨S2097152, .i32⟩ : BufTy).Contents (Elt F)),
    binary main_v51 main_v257 main_v258 (addi : (⟨S2097152, .i32⟩ : BufTy).Contents (Elt F) → (⟨S2097152, .i32⟩ : BufTy).Contents (Elt F) → (⟨S2097152, .i32⟩ : BufTy).Contents (Elt F)),
    ternary main_v256 main_v258 main_v51 main_v259 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v249 main_v260 (broadcastInDim S2097152x1 ![0] bcast_S2097152_S2097152x1_0 : (⟨S2097152, .i32⟩ : BufTy).Contents (Elt F) → (⟨S2097152x1, .i32⟩ : BufTy).Contents (Elt F)),
    unary main_v254 main_v261 (broadcastInDim S2097152x1 ![0] bcast_S2097152_S2097152x1_0 : (⟨S2097152, .i32⟩ : BufTy).Contents (Elt F) → (⟨S2097152x1, .i32⟩ : BufTy).Contents (Elt F)),
    unary main_v259 main_v262 (broadcastInDim S2097152x1 ![0] bcast_S2097152_S2097152x1_0 : (⟨S2097152, .i32⟩ : BufTy).Contents (Elt F) → (⟨S2097152x1, .i32⟩ : BufTy).Contents (Elt F)),
    nary ![main_v260, main_v261, main_v262] main_v263 (fun u => concatenate S2097152x3 1 [⟨S2097152x1, u 0⟩, ⟨S2097152x1, u 1⟩, ⟨S2097152x1, u 2⟩] concatenates_S2097152x1_S2097152x1_S2097152x1_S2097152x3_d1),
    binary main_v0 main_v263 main_v264 ((fun x i => Host.gather gather_S12x160x160x160_S2097152x3_S12x2097152_0_123_n_n_123_1_12111 x i) : (⟨S12x160x160x160, .f32⟩ : BufTy).Contents (Elt F) → (⟨S2097152x3, .i32⟩ : BufTy).Contents (Elt F) → (⟨S12x2097152, .f32⟩ : BufTy).Contents (Elt F)),
    binary main_v42 main_v41 main_v265 (mulf : (⟨S2097152, .f32⟩ : BufTy).Contents (Elt F) → (⟨S2097152, .f32⟩ : BufTy).Contents (Elt F) → (⟨S2097152, .f32⟩ : BufTy).Contents (Elt F)),
    binary main_v265 main_v40 main_v266 (mulf : (⟨S2097152, .f32⟩ : BufTy).Contents (Elt F) → (⟨S2097152, .f32⟩ : BufTy).Contents (Elt F) → (⟨S2097152, .f32⟩ : BufTy).Contents (Elt F)),
    unary main_v266 main_v267 (broadcastInDim S1x2097152 ![1] bcast_S2097152_S1x2097152_1 : (⟨S2097152, .f32⟩ : BufTy).Contents (Elt F) → (⟨S1x2097152, .f32⟩ : BufTy).Contents (Elt F)),
    unary main_v267 main_v268 (broadcastInDim S12x2097152 ![0, 1] bcast_S1x2097152_S12x2097152_0_1 : (⟨S1x2097152, .f32⟩ : BufTy).Contents (Elt F) → (⟨S12x2097152, .f32⟩ : BufTy).Contents (Elt F)),
    binary main_v264 main_v268 main_v269 (mulf : (⟨S12x2097152, .f32⟩ : BufTy).Contents (Elt F) → (⟨S12x2097152, .f32⟩ : BufTy).Contents (Elt F) → (⟨S12x2097152, .f32⟩ : BufTy).Contents (Elt F)),
    binary main_v244 main_v269 main_v270 (addf : (⟨S12x2097152, .f32⟩ : BufTy).Contents (Elt F) → (⟨S12x2097152, .f32⟩ : BufTy).Contents (Elt F) → (⟨S12x2097152, .f32⟩ : BufTy).Contents (Elt F)),
    unary main_v270 main_v271 ((transpose S2097152x12 [1, 0] · transposes_S12x2097152_S2097152x12_1_0) : (⟨S12x2097152, .f32⟩ : BufTy).Contents (Elt F) → (⟨S2097152x12, .f32⟩ : BufTy).Contents (Elt F)) ]

set_option maxRecDepth 16384 in
set_option maxHeartbeats 4000000 in
/-- The whole line is the first part followed by the second. -/
theorem ops_split : (ops : List (HloOp τ sig (Elt F))) = opsA ++ opsB := by
  simp only [ops, ops0, ops1, ops2, ops3, ops4, ops5, opsA, opsB, List.cons_append, List.nil_append]

/-- Two lines run one after the other. -/
theorem after_app (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

variable (m : (ℓ : Loc nD τ sig) → Buf (Elt Ideal) ℓ) (c : Dev nD)

/-- What core `c`'s buffers hold after the first part. -/
def pre : Valuation τ sig (Elt Ideal) := after (opsA : List (HloOp τ sig (Elt Ideal))) (launchContents m c)

/-- The whole line from the launch contents is the second part from there. -/
theorem after_split : after (ops : List (HloOp τ sig (Elt Ideal))) (launchContents m c) = after (opsB : List (HloOp τ sig (Elt Ideal))) (pre m c) := by
  rw [ops_split, after_app]; rfl

end Cert.ReferenceIdeal.HandRun

end
-- ==== Proof.RefPre.lean ====
/-
  What the first part of the reference's line leaves in the buffers the second part reads: the grid without its leading
  unit axis, the three fractional parts and the three one-minus-fractions, and the six clipped corner coordinates —
  each the stage function of the same operations (an upper corner is the lower one plus 1, clipped again).
-/
import proofs.«163780_j49606872269475_2_alg».proof.Proof.RefSplit
import Idealize.ShloMosaic.Lib.ValueIdx

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ) (c : Dev nD)

/-- The next voxel along an axis, clipped into 0 … 159. -/
def clipUp (v : (⟨S2097152, .i32⟩ : BufTy).Contents (Elt Ideal)) : (⟨S2097152, .i32⟩ : BufTy).Contents (Elt Ideal) :=
  minsi (broadcastInDim S2097152 ![] bcast_S_S2097152 (id (constantI S_ 32 159#32)))
    (maxsi (broadcastInDim S2097152 ![] bcast_S_S2097152 (id (constantI S_ 32 0#32)))
      (addi v (broadcastInDim S2097152 ![] bcast_S_S2097152 (constantI S_ 32 1#32))))

set_option maxHeartbeats 4000000 in
theorem pre_v0 : (pre m c (Proc.devRef .tc main_v0) : (⟨S12x160x160x160, .f32⟩ : BufTy).Contents (Elt Ideal))
    = Cert.ReferenceIdeal.Read.val_main_v0 (F := Ideal) (m ((c.tc : Thread nD τ).loc main_arg1)) := by
  unfold pre
  simp only [opsA]
  after_results_simp
  rfl

set_option maxHeartbeats 4000000 in
theorem pre_v40 : (pre m c (Proc.devRef .tc main_v40) : (⟨S2097152, .f32⟩ : BufTy).Contents (Elt Ideal))
    = Cert.ReferenceIdeal.Read.val_main_v40 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v41 : (pre m c (Proc.devRef .tc main_v41) : (⟨S2097152, .f32⟩ : BufTy).Contents (Elt Ideal))
    = Cert.ReferenceIdeal.Read.val_main_v41 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v42 : (pre m c (Proc.devRef .tc main_v42) : (⟨S2097152, .f32⟩ : BufTy).Contents (Elt Ideal))
    = Cert.ReferenceIdeal.Read.val_main_v42 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v59 : (pre m c (Proc.devRef .tc main_v59) : (⟨S2097152, .f32⟩ : BufTy).Contents (Elt Ideal))
    = Cert.ReferenceIdeal.Read.val_main_v59 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v61 : (pre m c (Proc.devRef .tc main_v61) : (⟨S2097152, .f32⟩ : BufTy).Contents (Elt Ideal))
    = Cert.ReferenceIdeal.Read.val_main_v61 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v63 : (pre m c (Proc.devRef .tc main_v63) : (⟨S2097152, .f32⟩ : BufTy).Contents (Elt Ideal))
    = Cert.ReferenceIdeal.Read.val_main_v63 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v44 : (pre m c (Proc.devRef .tc main_v44) : (⟨S2097152, .i32⟩ : BufTy).Contents (Elt Ideal))
    = Cert.ReferenceIdeal.Read.val_main_v44 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v46 : (pre m c (Proc.devRef .tc main_v46) : (⟨S2097152, .i32⟩ : BufTy).Contents (Elt Ideal))
    = Cert.ReferenceIdeal.Read.val_main_v46 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v48 : (pre m c (Proc.devRef .tc main_v48) : (⟨S2097152, .i32⟩ : BufTy).Contents (Elt Ideal))
    = Cert.ReferenceIdeal.Read.val_main_v48 (F := Ideal) (m ((c.tc : Thread nD τ).loc main_arg0)) (m ((c.tc : Thread nD τ).loc main_arg2)) (m ((c.tc : Thread nD τ).loc main_arg3)) := by
  unfold pre
  simp only [opsA]
  after_results_simp
  rfl

set_option maxHeartbeats 4000000 in
theorem pre_v51_raw : (pre m c (Proc.devRef .tc main_v51) : (⟨S2097152, .i32⟩ : BufTy).Contents (Elt Ideal))
    = clipUp (pre m c (Proc.devRef .tc main_v44)) := by
  unfold pre
  simp only [opsA]
  after_results_simp
  rfl

theorem pre_v51 : (pre m c (Proc.devRef .tc main_v51) : (⟨S2097152, .i32⟩ : BufTy).Contents (Elt Ideal))
    = Cert.ReferenceIdeal.Read.val_main_v51 (F := Ideal) (m ((c.tc : Thread nD τ).loc main_arg0)) (m ((c.tc : Thread nD τ).loc main_arg2)) (m ((c.tc : Thread nD τ).loc main_arg3)) := by
  rw [pre_v51_raw m c, pre_v44 m c]
  rfl

set_option maxHeartbeats 4000000 in
theorem pre_v54_raw : (pre m c (Proc.devRef .tc main_v54) : (⟨S2097152, .i32⟩ : BufTy).Contents (Elt Ideal))
    = clipUp (pre m c (Proc.devRef .tc main_v46)) := by
  unfold pre
  simp only [opsA]
  after_results_simp
  rfl

theorem pre_v54 : (pre m c (Proc.devRef .tc main_v54) : (⟨S2097152, .i32⟩ : BufTy).Contents (Elt Ideal))
    = Cert.ReferenceIdeal.Read.val_main_v54 (F := Ideal) (m ((c.tc : Thread nD τ).loc main_arg0)) (m ((c.tc : Thread nD τ).loc main_arg2)) (m ((c.tc : Thread nD τ).loc main_arg3)) := by
  rw [pre_v54_raw m c, pre_v46 m c]
  rfl

set_option maxHeartbeats 4000000 in
theorem pre_v57_raw : (pre m c (Proc.devRef .tc main_v57) : (⟨S2097152, .i32⟩ : BufTy).Contents (Elt Ideal))
    = clipUp (pre m c (Proc.devRef .tc main_v48)) := by
  unfold pre
  simp only [opsA]
  after_results_simp
  rfl

theorem pre_v57 : (pre m c (Proc.devRef .tc main_v57) : (⟨S2097152, .i32⟩ : BufTy).Contents (Elt Ideal))
    = Cert.ReferenceIdeal.Read.val_main_v57 (F := Ideal) (m ((c.tc : Thread nD τ).loc main_arg0)) (m ((c.tc : Thread nD τ).loc main_arg2)) (m ((c.tc : Thread nD τ).loc main_arg3)) := by
  rw [pre_v57_raw m c, pre_v48 m c]
  rfl

end Cert.ReferenceIdeal.HandRun

end
-- ==== Proof.RefTail.lean ====
/-
  The second part of the reference's line, read off whole: from any contents before it, the result buffer ends at the
  transposition of the sum, corner by corner in the corners' order, of the products of the corner's gathered grid values
  and the corner's weight spread over the channels — each gather at three coordinate arrays laid side by side as columns
  after a negative entry is wrapped around by 160, each weight the product of three of the six per-axis factors.
-/
import proofs.«163780_j49606872269475_2_alg».proof.Proof.RefSplit
import Idealize.ShloMosaic.Lib.ValueIdx

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx

/-- Three columns laid side by side. -/
def cols {α : Type} (a b c : S2097152x1.Idx → α) : S2097152x3.Idx → α :=
  concatenate S2097152x3 1 [⟨S2097152x1, a⟩, ⟨S2097152x1, b⟩, ⟨S2097152x1, c⟩] concatenates_S2097152x1_S2097152x1_S2097152x1_S2097152x3_d1

section Columns
variable (W : Valuation τ sig (Elt Ideal))
/-- The operation that lays three columns side by side leaves in its result buffer the three operands' contents so laid. -/
theorem v82_result' (hxs hy) :
    (StableHlo.nary (τ := τ) ![main_v79, main_v80, main_v81] main_v82
      (fun u => concatenate S2097152x3 1 [⟨S2097152x1, u 0⟩, ⟨S2097152x1, u 1⟩, ⟨S2097152x1, u 2⟩] concatenates_S2097152x1_S2097152x1_S2097152x1_S2097152x3_d1)
      hxs hy).result W (no_index (Proc.devRef .tc main_v82))
    = (cols (W (Proc.devRef .tc main_v79)) (W (Proc.devRef .tc main_v80)) (W (Proc.devRef .tc main_v81)) : (⟨S2097152x3, .i32⟩ : BufTy).Contents (Elt Ideal)) :=
  StableHlo.nary_result _ _ _ hxs hy W
/-- The operation that lays three columns side by side leaves in its result buffer the three operands' contents so laid. -/
theorem v107_result' (hxs hy) :
    (StableHlo.nary (τ := τ) ![main_v104, main_v105, main_v106] main_v107
      (fun u => concatenate S2097152x3 1 [⟨S2097152x1, u 0⟩, ⟨S2097152x1, u 1⟩, ⟨S2097152x1, u 2⟩] concatenates_S2097152x1_S2097152x1_S2097152x1_S2097152x3_d1)
      hxs hy).result W (no_index (Proc.devRef .tc main_v107))
    = (cols (W (Proc.devRef .tc main_v104)) (W (Proc.devRef .tc main_v105)) (W (Proc.devRef .tc main_v106)) : (⟨S2097152x3, .i32⟩ : BufTy).Contents (Elt Ideal)) :=
  StableHlo.nary_result _ _ _ hxs hy W
/-- The operation that lays three columns side by side leaves in its result buffer the three operands' contents so laid. -/
theorem v133_result' (hxs hy) :
    (StableHlo.nary (τ := τ) ![main_v130, main_v131, main_v132] main_v133
      (fun u => concatenate S2097152x3 1 [⟨S2097152x1, u 0⟩, ⟨S2097152x1, u 1⟩, ⟨S2097152x1, u 2⟩] concatenates_S2097152x1_S2097152x1_S2097152x1_S2097152x3_d1)
      hxs hy).result W (no_index (Proc.devRef .tc main_v133))
    = (cols (W (Proc.devRef .tc main_v130)) (W (Proc.devRef .tc main_v131)) (W (Proc.devRef .tc main_v132)) : (⟨S2097152x3, .i32⟩ : BufTy).Contents (Elt Ideal)) :=
  StableHlo.nary_result _ _ _ hxs hy W
/-- The operation that lays three columns side by side leaves in its result buffer the three operands' contents so laid. -/
theorem v159_result' (hxs hy) :
    (StableHlo.nary (τ := τ) ![main_v156, main_v157, main_v158] main_v159
      (fun u => concatenate S2097152x3 1 [⟨S2097152x1, u 0⟩, ⟨S2097152x1, u 1⟩, ⟨S2097152x1, u 2⟩] concatenates_S2097152x1_S2097152x1_S2097152x1_S2097152x3_d1)
      hxs hy).result W (no_index (Proc.devRef .tc main_v159))
    = (cols (W (Proc.devRef .tc main_v156)) (W (Proc.devRef .tc main_v157)) (W (Proc.devRef .tc main_v158)) : (⟨S2097152x3, .i32⟩ : BufTy).Contents (Elt Ideal)) :=
  StableHlo.nary_result _ _ _ hxs hy W
/-- The operation that lays three columns side by side leaves in its result buffer the three operands' contents so laid. -/
theorem v185_result' (hxs hy) :
    (StableHlo.nary (τ := τ) ![main_v182, main_v183, main_v184] main_v185
      (fun u => concatenate S2097152x3 1 [⟨S2097152x1, u 0⟩, ⟨S2097152x1, u 1⟩, ⟨S2097152x1, u 2⟩] concatenates_S2097152x1_S2097152x1_S2097152x1_S2097152x3_d1)
      hxs hy).result W (no_index (Proc.devRef .tc main_v185))
    = (cols (W (Proc.devRef .tc main_v182)) (W (Proc.devRef .tc main_v183)) (W (Proc.devRef .tc main_v184)) : (⟨S2097152x3, .i32⟩ : BufTy).Contents (Elt Ideal)) :=
  StableHlo.nary_result _ _ _ hxs hy W
/-- The operation that lays three columns side by side leaves in its result buffer the three operands' contents so laid. -/
theorem v211_result' (hxs hy) :
    (StableHlo.nary (τ := τ) ![main_v208, main_v209, main_v210] main_v211
      (fun u => concatenate S2097152x3 1 [⟨S2097152x1, u 0⟩, ⟨S2097152x1, u 1⟩, ⟨S2097152x1, u 2⟩] concatenates_S2097152x1_S2097152x1_S2097152x1_S2097152x3_d1)
      hxs hy).result W (no_index (Proc.devRef .tc main_v211))
    = (cols (W (Proc.devRef .tc main_v208)) (W (Proc.devRef .tc main_v209)) (W (Proc.devRef .tc main_v210)) : (⟨S2097152x3, .i32⟩ : BufTy).Contents (Elt Ideal)) :=
  StableHlo.nary_result _ _ _ hxs hy W
/-- The operation that lays three columns side by side leaves in its result buffer the three operands' contents so laid. -/
theorem v237_result' (hxs hy) :
    (StableHlo.nary (τ := τ) ![main_v234, main_v235, main_v236] main_v237
      (fun u => concatenate S2097152x3 1 [⟨S2097152x1, u 0⟩, ⟨S2097152x1, u 1⟩, ⟨S2097152x1, u 2⟩] concatenates_S2097152x1_S2097152x1_S2097152x1_S2097152x3_d1)
      hxs hy).result W (no_index (Proc.devRef .tc main_v237))
    = (cols (W (Proc.devRef .tc main_v234)) (W (Proc.devRef .tc main_v235)) (W (Proc.devRef .tc main_v236)) : (⟨S2097152x3, .i32⟩ : BufTy).Contents (Elt Ideal)) :=
  StableHlo.nary_result _ _ _ hxs hy W
/-- The operation that lays three columns side by side leaves in its result buffer the three operands' contents so laid. -/
theorem v263_result' (hxs hy) :
    (StableHlo.nary (τ := τ) ![main_v260, main_v261, main_v262] main_v263
      (fun u => concatenate S2097152x3 1 [⟨S2097152x1, u 0⟩, ⟨S2097152x1, u 1⟩, ⟨S2097152x1, u 2⟩] concatenates_S2097152x1_S2097152x1_S2097152x1_S2097152x3_d1)
      hxs hy).result W (no_index (Proc.devRef .tc main_v263))
    = (cols (W (Proc.devRef .tc main_v260)) (W (Proc.devRef .tc main_v261)) (W (Proc.devRef .tc main_v262)) : (⟨S2097152x3, .i32⟩ : BufTy).Contents (Elt Ideal)) :=
  StableHlo.nary_result _ _ _ hxs hy W
end Columns

/-- The contents of one buffer after a straight line of host operations, in one rewriting pass. -/
macro "tail_results" : tactic =>
  `(tactic| (simp (disch := decide) only [StableHlo.after_cons, StableHlo.after_nil,
      StableHlo.nullary_result', StableHlo.unary_result', StableHlo.binary_result', StableHlo.ternary_result', StableHlo.reshape_result',
      v82_result', v107_result', v133_result', v159_result', v185_result', v211_result', v237_result', v263_result',
      StableHlo.nullary_result_ne', StableHlo.unary_result_ne', StableHlo.binary_result_ne', StableHlo.ternary_result_ne', StableHlo.reshape_result_ne',
      StableHlo.nary_result_ne']))

/-- The constant arrays the wrapping uses: all zeros, all 160s. -/
def zeroV : IVec S2097152 32 := broadcastInDim S2097152 ![] bcast_S_S2097152 (constantI S_ 32 0#32)
def e160V : IVec S2097152 32 := broadcastInDim S2097152 ![] bcast_S_S2097152 (constantI S_ 32 160#32)

/-- One corner's term: the grid gathered at the three coordinate arrays, times the weight spread over the channels. -/
def term (g : FVec Ideal S12x160x160x160 .f32) (zs ys xs : IVec S2097152 32) (w : FVec Ideal S2097152 .f32) : FVec Ideal S12x2097152 .f32 :=
  mulf (Host.gather gather_S12x160x160x160_S2097152x3_S12x2097152_0_123_n_n_123_1_12111 g
      (cols (broadcastInDim S2097152x1 ![0] bcast_S2097152_S2097152x1_0 (select (cmpi .slt zs zeroV) (addi zs e160V) zs))
        (broadcastInDim S2097152x1 ![0] bcast_S2097152_S2097152x1_0 (select (cmpi .slt ys zeroV) (addi ys e160V) ys))
        (broadcastInDim S2097152x1 ![0] bcast_S2097152_S2097152x1_0 (select (cmpi .slt xs zeroV) (addi xs e160V) xs))))
    (broadcastInDim S12x2097152 ![0, 1] bcast_S1x2097152_S12x2097152_0_1 (broadcastInDim S1x2097152 ![1] bcast_S2097152_S1x2097152_1 w))

/-- The sum of the eight corners' terms, before the transposition, from the grid, the six coordinate arrays (lower and
    upper on the depth, height and width axes) and the six per-axis factors (fraction and one minus it, per axis). -/
def total (g : FVec Ideal S12x160x160x160 .f32) (z0 z1 y0 y1 x0 x1 : IVec S2097152 32)
    (fx fy fz ox oy oz : FVec Ideal S2097152 .f32) : FVec Ideal S12x2097152 .f32 :=
  addf (addf (addf (addf (addf (addf (addf
    (term g z0 y0 x0 (mulf (mulf oz oy) ox))
    (term g z0 y0 x1 (mulf (mulf oz oy) fx)))
    (term g z0 y1 x0 (mulf (mulf oz fy) ox)))
    (term g z0 y1 x1 (mulf (mulf oz fy) fx)))
    (term g z1 y0 x0 (mulf (mulf fz oy) ox)))
    (term g z1 y0 x1 (mulf (mulf fz oy) fx)))
    (term g z1 y1 x0 (mulf (mulf fz fy) ox)))
    (term g z1 y1 x1 (mulf (mulf fz fy) fx))

set_option maxRecDepth 16384 in
set_option maxHeartbeats 40000000 in
/-- The second part read off, from any contents `VA` before it. -/
theorem tail_read (VA : Valuation τ sig (Elt Ideal)) :
    (after (opsB : List (HloOp τ sig (Elt Ideal))) VA (Proc.devRef .tc main_v271) : (⟨S2097152x12, .f32⟩ : BufTy).Contents (Elt Ideal))
      = transpose S2097152x12 [1, 0] (total (VA (Proc.devRef .tc main_v0) : (⟨S12x160x160x160, .f32⟩ : BufTy).Contents (Elt Ideal))
          (VA (Proc.devRef .tc main_v48) : (⟨S2097152, .i32⟩ : BufTy).Contents (Elt Ideal)) (VA (Proc.devRef .tc main_v57) : (⟨S2097152, .i32⟩ : BufTy).Contents (Elt Ideal))
          (VA (Proc.devRef .tc main_v46) : (⟨S2097152, .i32⟩ : BufTy).Contents (Elt Ideal)) (VA (Proc.devRef .tc main_v54) : (⟨S2097152, .i32⟩ : BufTy).Contents (Elt Ideal))
          (VA (Proc.devRef .tc main_v44) : (⟨S2097152, .i32⟩ : BufTy).Contents (Elt Ideal)) (VA (Proc.devRef .tc main_v51) : (⟨S2097152, .i32⟩ : BufTy).Contents (Elt Ideal))
          (VA (Proc.devRef .tc main_v40) : (⟨S2097152, .f32⟩ : BufTy).Contents (Elt Ideal)) (VA (Proc.devRef .tc main_v41) : (⟨S2097152, .f32⟩ : BufTy).Contents (Elt Ideal)) (VA (Proc.devRef .tc main_v42) : (⟨S2097152, .f32⟩ : BufTy).Contents (Elt Ideal))
          (VA (Proc.devRef .tc main_v59) : (⟨S2097152, .f32⟩ : BufTy).Contents (Elt Ideal)) (VA (Proc.devRef .tc main_v61) : (⟨S2097152, .f32⟩ : BufTy).Contents (Elt Ideal)) (VA (Proc.devRef .tc main_v63) : (⟨S2097152, .f32⟩ : BufTy).Contents (Elt Ideal)))
        transposes_S12x2097152_S2097152x12_1_0 := by
  simp only [opsB]
  tail_results
  rfl

end Cert.ReferenceIdeal.HandRun

end
-- ==== Proof.RefGather.lean ====
/-
  The reference's indexing of the grid read at an index.

  `g[:, z, y, x]` with three integer arrays of one entry per sample point lowers to a gather whose start indices are the
  rows `(z n, y n, x n)` of an `[N, 3]` array — the three coordinate arrays, each as a column, laid side by side — and
  whose result element `(ch, n)` is the grid's element at channel `ch` and at the three entries of row `n`, each read
  as a signed integer and clamped into 0 … 159.
-/
import proofs.«163780_j49606872269475_2_alg».proof.Proof.Gen.ReferenceIdeal
import Idealize.ShloMosaic.Lib.ValueIdx
import Idealize.ShloMosaic.Lib.Pipeline.Value

noncomputable section

namespace Cert.RefGather

open Idealize.ShloMosaic Idealize.ShloMosaic.ValueIdx Cert.ReferenceIdeal Cert.ReferenceIdeal.Gen

variable {α : Type}

/-- The reference's gather dimension numbers: operand `[12, 160, 160, 160]`, start indices `[N, 3]`, result `[12, N]`. -/
abbrev gd3 : GatherDims S12x160x160x160 S2097152x3 S12x2097152 := gather_S12x160x160x160_S2097152x3_S12x2097152_0_123_n_n_123_1_12111

/-- The start-indices index of component `c` of point `n`'s start index is `(n, c)`. -/
theorem siIdx_eq (ch : Fin 12) (n : Fin 2097152) (c : Fin 3) :
    gd3.siIdx (ix2 ch n) ⟨c.val, c.isLt⟩ = (ix2 n c : S2097152x3.Idx) := by
  funext b; refine Fin.ext ?_
  match b with
  | ⟨0, _⟩ => rfl
  | ⟨1, _⟩ => rfl

/-- On a collapsed axis `a` that the start index map names at position `c`, the operand coordinate is the clamped
    entry `c` of row `n`. -/
theorem coord_eq (idx : IVec S2097152x3 32) (ch : Fin 12) (n : Fin 2097152) (a : Fin 4) (c : Fin 3)
    (ha : a ∈ gd3.startIndexMap) (hc : a ∈ gd3.collapsedSliceDims)
    (hi : List.idxOf a gd3.startIndexMap = c.val) (hs : S12x160x160x160.size a - gd3.sliceSizes a = 159) :
    gd3.start (ix2 ch n) idx a + gd3.batchCoord (ix2 ch n) a + gd3.offCoord (ix2 ch n) a
      = min (idx (ix2 n c)).toInt.toNat 159 := by
  rw [GatherDims.batchCoord_eq_zero _ _ _ List.not_mem_nil,
    GatherDims.offCoord_eq_zero _ _ _ (fun h => ((GatherDims.mem_sKept _ _).mp h).1 hc)]
  unfold GatherDims.start
  rw [dif_pos ha, hs]
  have e : (⟨List.idxOf a gd3.startIndexMap, List.idxOf_lt_length_iff.2 ha⟩ : Fin gd3.startIndexMap.length) = ⟨c.val, c.isLt⟩ :=
    Fin.ext hi
  rw [e, siIdx_eq]
  rfl

/-- On the channel axis, which the start indices do not address, the operand coordinate is the result's. -/
theorem coord0_eq (idx : IVec S2097152x3 32) (ch : Fin 12) (n : Fin 2097152) :
    gd3.start (ix2 ch n) idx (0 : Fin 4) + gd3.batchCoord (ix2 ch n) (0 : Fin 4) + gd3.offCoord (ix2 ch n) (0 : Fin 4) = ch.val := by
  rw [GatherDims.batchCoord_eq_zero _ _ _ List.not_mem_nil]
  have hs : gd3.start (ix2 ch n) idx (0 : Fin 4) = 0 := by
    unfold GatherDims.start; rw [dif_neg (by decide)]
  have ho : gd3.offCoord (ix2 ch n) (0 : Fin 4) = ch.val := by
    unfold GatherDims.offCoord
    rw [dif_pos (by decide)]
    rfl
  rw [hs, ho]; omega

/-- The gather at `(ch, n)`: the operand at channel `ch` and the three clamped entries of row `n` of the start indices. -/
theorem gather_apply (g : S12x160x160x160.Idx → α) (idx : IVec S2097152x3 32) (ch : Fin 12) (n : Fin 2097152) :
    Host.gather gd3 g idx (ix2 ch n)
      = g (ix4 ch (⟨min (idx (ix2 n (0 : Fin 3))).toInt.toNat 159, by omega⟩ : Fin 160)
          (⟨min (idx (ix2 n (1 : Fin 3))).toInt.toNat 159, by omega⟩ : Fin 160)
          (⟨min (idx (ix2 n (2 : Fin 3))).toInt.toNat 159, by omega⟩ : Fin 160)) := by
  unfold Host.gather
  congr 1
  funext a; refine Fin.ext ?_
  show gd3.start (ix2 ch n) idx a + gd3.batchCoord (ix2 ch n) a + gd3.offCoord (ix2 ch n) a = _
  match a with
  | ⟨0, _⟩ => exact coord0_eq idx ch n
  | ⟨1, _⟩ => exact coord_eq idx ch n (1 : Fin 4) (0 : Fin 3) (by decide) (by decide) (by decide) (by decide)
  | ⟨2, _⟩ => exact coord_eq idx ch n (2 : Fin 4) (1 : Fin 3) (by decide) (by decide) (by decide) (by decide)
  | ⟨3, _⟩ => exact coord_eq idx ch n (3 : Fin 4) (2 : Fin 3) (by decide) (by decide) (by decide) (by decide)

/-- Three columns laid side by side, read at `(n, j)`: column `j` at row `n`. -/
theorem columns_apply (a b c : S2097152x1.Idx → BitVec 32) (n : Fin 2097152) (j : Fin 3) :
    concatenate S2097152x3 1 [⟨S2097152x1, a⟩, ⟨S2097152x1, b⟩, ⟨S2097152x1, c⟩]
        concatenates_S2097152x1_S2097152x1_S2097152x1_S2097152x3_d1 (ix2 n j)
      = (![a, b, c] j) (ix2 n (0 : Fin 1)) := by
  have key := concatenate_ofFn_apply (t := S2097152x3) (s₁ := S2097152x1) (1 : Fin 2) (N := 3) (fun k : Fin 3 => ![a, b, c] k)
    concatenates_S2097152x1_S2097152x1_S2097152x1_S2097152x3_d1 rfl 1 rfl (ix2 n j) j (by show j.val / 1 = j.val; omega)
    (ix2 n (0 : Fin 1)) (by show (0 : Nat) = j.val % 1; omega)
    (fun b hb => by
      match b with
      | ⟨0, _⟩ => rfl
      | ⟨1, _⟩ => exact absurd rfl hb)
  exact key

end Cert.RefGather

end
-- ==== Proof.RefValue.lean ====
/-
  The reference's result, index by index.

  The reference adds up, corner by corner and in the corners' order, the grid's value at the corner times the corner's
  weight. Each corner value is a gather of the grid at the three coordinate arrays, laid side by side as the columns of an
  `[N, 3]` array after a negative coordinate has been wrapped around by the axis's extent; the coordinates are in
  0 … 159, so nothing is wrapped and the gather's clamp does nothing: the corner value at channel `ch` and point `n` is
  the grid at `(ch, z n, y n, x n)`. Each weight is spread over the twelve channels. So element `(n, ch)` of the result is
  the sum over the eight corners of grid value times weight — the specification's `G`.
-/
import proofs.«163780_j49606872269475_2_alg».proof.Proof.Ranges
import proofs.«163780_j49606872269475_2_alg».proof.Proof.RefGather

noncomputable section

open scoped BigOperators

namespace Cert.RefValue

open Idealize.ShloMosaic Idealize.ShloMosaic.ValueIdx Cert.ReferenceIdeal Cert.ReferenceIdeal.Gen Cert.ReferenceIdeal.Read
open Cert.Spec Cert.IntFacts Cert.RefGather

/-- A column made of one coordinate array, a negative entry wrapped around by `e`, read at row `n`: the entry itself
    when it is not negative. -/
theorem column_apply (v zero e : PtI) (hzero : ∀ i, zero i = 0#32) (n : Fin 2097152) (h : 0 ≤ (v (ix1 n)).toInt) :
    broadcastInDim S2097152x1 ![0] bcast_S2097152_S2097152x1_0 (select (cmpi .slt v zero) (addi v e) v) (ix2 n (0 : Fin 1))
      = v (ix1 n) := by
  rw [broadcastInDim_apply _ bcast_S2097152_S2097152x1_0 _ (ix2 n (0 : Fin 1)) (ix1 n) (fun a => match a with
    | ⟨0, _⟩ => by show n.val = if (2097152 : Nat) = 1 then 0 else n.val; rw [if_neg (by decide)])]
  show Scalar.select (IntOp.cmpi .slt (v (ix1 n)) (zero (ix1 n))) (IntOp.addi (v (ix1 n)) (e (ix1 n))) (v (ix1 n)) = _
  rw [hzero]
  exact wrap_nonneg _ _ h

/-- The grid without its leading unit axis, read at `(ch, z, y, x)`. -/
theorem grid4_apply (x1 : Grid) (ch : Fin 12) (z y x : Fin 160) :
    val_main_v0 (F := Ideal) x1 (ix4 ch z y x) = x1 (ix5 (0 : Fin 1) ch z y x) := by
  rw [val_main_v0_apply]
  refine congrArg x1 (funext fun a => Fin.ext ?_)
  have hc := ch.isLt; have hz := z.isLt; have hy := y.isLt; have hx := x.isLt
  match a with
  | ⟨0, _⟩ => rfl
  | ⟨1, _⟩ => show (((ch.val * 160 + z.val) * 160 + y.val) * 160 + x.val) / 4096000 % 12 = ch.val; omega
  | ⟨2, _⟩ => show (((ch.val * 160 + z.val) * 160 + y.val) * 160 + x.val) / 25600 % 160 = z.val; omega
  | ⟨3, _⟩ => show (((ch.val * 160 + z.val) * 160 + y.val) * 160 + x.val) / 160 % 160 = y.val; omega
  | ⟨4, _⟩ => show (((ch.val * 160 + z.val) * 160 + y.val) * 160 + x.val) % 160 = x.val; omega

/-- One corner's gather at `(ch, n)`, for coordinate arrays that are not negative at `n`: the grid's `cell`. -/
theorem corner_apply (x1 : Grid) (zs ys xs zz zy zx ez ey ex : PtI)
    (hzz : ∀ i, zz i = 0#32) (hzy : ∀ i, zy i = 0#32) (hzx : ∀ i, zx i = 0#32) (ch : Fin 12) (n : Fin 2097152)
    (hz : 0 ≤ (zs (ix1 n)).toInt) (hy : 0 ≤ (ys (ix1 n)).toInt) (hx : 0 ≤ (xs (ix1 n)).toInt) :
    Host.gather gd3 (val_main_v0 (F := Ideal) x1)
        (concatenate S2097152x3 1
          [⟨S2097152x1, broadcastInDim S2097152x1 ![0] bcast_S2097152_S2097152x1_0 (select (cmpi .slt zs zz) (addi zs ez) zs)⟩,
           ⟨S2097152x1, broadcastInDim S2097152x1 ![0] bcast_S2097152_S2097152x1_0 (select (cmpi .slt ys zy) (addi ys ey) ys)⟩,
           ⟨S2097152x1, broadcastInDim S2097152x1 ![0] bcast_S2097152_S2097152x1_0 (select (cmpi .slt xs zx) (addi xs ex) xs)⟩]
          concatenates_S2097152x1_S2097152x1_S2097152x1_S2097152x3_d1) (ix2 ch n)
      = cell x1 ch (zs (ix1 n)) (ys (ix1 n)) (xs (ix1 n)) := by
  rw [gather_apply, grid4_apply]
  unfold cell
  refine congrArg x1 (funext fun a => Fin.ext ?_)
  match a with
  | ⟨0, _⟩ => rfl
  | ⟨1, _⟩ => rfl
  | ⟨2, _⟩ =>
    have e : concatenate S2097152x3 1
        [⟨S2097152x1, broadcastInDim S2097152x1 ![0] bcast_S2097152_S2097152x1_0 (select (cmpi .slt zs zz) (addi zs ez) zs)⟩,
         ⟨S2097152x1, broadcastInDim S2097152x1 ![0] bcast_S2097152_S2097152x1_0 (select (cmpi .slt ys zy) (addi ys ey) ys)⟩,
         ⟨S2097152x1, broadcastInDim S2097152x1 ![0] bcast_S2097152_S2097152x1_0 (select (cmpi .slt xs zx) (addi xs ex) xs)⟩]
        concatenates_S2097152x1_S2097152x1_S2097152x1_S2097152x3_d1 (ix2 n (0 : Fin 3)) = zs (ix1 n) := by
      rw [columns_apply]; exact column_apply zs zz ez hzz n hz
    exact congrArg (fun v : BitVec 32 => min v.toInt.toNat 159) e
  | ⟨3, _⟩ =>
    have e : concatenate S2097152x3 1
        [⟨S2097152x1, broadcastInDim S2097152x1 ![0] bcast_S2097152_S2097152x1_0 (select (cmpi .slt zs zz) (addi zs ez) zs)⟩,
         ⟨S2097152x1, broadcastInDim S2097152x1 ![0] bcast_S2097152_S2097152x1_0 (select (cmpi .slt ys zy) (addi ys ey) ys)⟩,
         ⟨S2097152x1, broadcastInDim S2097152x1 ![0] bcast_S2097152_S2097152x1_0 (select (cmpi .slt xs zx) (addi xs ex) xs)⟩]
        concatenates_S2097152x1_S2097152x1_S2097152x1_S2097152x3_d1 (ix2 n (1 : Fin 3)) = ys (ix1 n) := by
      rw [columns_apply]; exact column_apply ys zy ey hzy n hy
    exact congrArg (fun v : BitVec 32 => min v.toInt.toNat 159) e
  | ⟨4, _⟩ =>
    have e : concatenate S2097152x3 1
        [⟨S2097152x1, broadcastInDim S2097152x1 ![0] bcast_S2097152_S2097152x1_0 (select (cmpi .slt zs zz) (addi zs ez) zs)⟩,
         ⟨S2097152x1, broadcastInDim S2097152x1 ![0] bcast_S2097152_S2097152x1_0 (select (cmpi .slt ys zy) (addi ys ey) ys)⟩,
         ⟨S2097152x1, broadcastInDim S2097152x1 ![0] bcast_S2097152_S2097152x1_0 (select (cmpi .slt xs zx) (addi xs ex) xs)⟩]
        concatenates_S2097152x1_S2097152x1_S2097152x1_S2097152x3_d1 (ix2 n (2 : Fin 3)) = xs (ix1 n) := by
      rw [columns_apply]; exact column_apply xs zx ex hzx n hx
    exact congrArg (fun v : BitVec 32 => min v.toInt.toNat 159) e

/-- A per-point array spread over the twelve channels, read at `(ch, n)`. -/
theorem spread_apply (w : PtF) (ch : Fin 12) (n : Fin 2097152) :
    broadcastInDim S12x2097152 ![0, 1] bcast_S1x2097152_S12x2097152_0_1
        (broadcastInDim S1x2097152 ![1] bcast_S2097152_S1x2097152_1 w) (ix2 ch n) = w (ix1 n) := by
  rw [broadcastInDim_apply _ bcast_S1x2097152_S12x2097152_0_1 _ (ix2 ch n) (ix2 (0 : Fin 1) n) (fun a => match a with
    | ⟨0, _⟩ => by show 0 = if (1 : Nat) = 1 then 0 else ch.val; rw [if_pos rfl]
    | ⟨1, _⟩ => by show n.val = if (2097152 : Nat) = 1 then 0 else n.val; rw [if_neg (by decide)])]
  exact broadcastInDim_apply _ bcast_S2097152_S1x2097152_1 w (ix2 (0 : Fin 1) n) (ix1 n) (fun a => match a with
    | ⟨0, _⟩ => by show n.val = if (2097152 : Nat) = 1 then 0 else n.val; rw [if_neg (by decide)])

variable (x0 : Pts) (x1 : Grid) (x2 x3 : Bnd)

/-- Corner 0's term at `(ch, n)`: the grid's cell times the corner's weight. -/
theorem term0 (ch : Fin 12) (n : Fin 2097152) :
    val_main_v88 (F := Ideal) x0 x1 x2 x3 (ix2 ch n)
      = cell x1 ch (val_main_v48 (F := Ideal) x0 x2 x3 (ix1 n)) (val_main_v46 (F := Ideal) x0 x2 x3 (ix1 n)) (val_main_v44 (F := Ideal) x0 x2 x3 (ix1 n))
        * val_main_v85 (F := Ideal) x0 x2 x3 (ix1 n) := by
  have hg : val_main_v83 (F := Ideal) x0 x1 x2 x3 (ix2 ch n) = _ :=
    corner_apply x1 (val_main_v48 (F := Ideal) x0 x2 x3) (val_main_v46 (F := Ideal) x0 x2 x3) (val_main_v44 (F := Ideal) x0 x2 x3)
      (val_main_v64 (F := Ideal)) (val_main_v69 (F := Ideal)) (val_main_v74 (F := Ideal))
      (val_main_v66 (F := Ideal)) (val_main_v71 (F := Ideal)) (val_main_v76 (F := Ideal))
      (fun i => by rw [val_main_v64_apply]; rfl) (fun i => by rw [val_main_v69_apply]; rfl) (fun i => by rw [val_main_v74_apply]; rfl)
      ch n (z0_range x0 x2 x3 _).1 (y0_range x0 x2 x3 _).1 (x0_range x0 x2 x3 _).1
  have hw : val_main_v87 (F := Ideal) x0 x2 x3 (ix2 ch n) = val_main_v85 (F := Ideal) x0 x2 x3 (ix1 n) :=
    spread_apply (val_main_v85 (F := Ideal) x0 x2 x3) ch n
  rw [val_main_v88_apply, hg, hw]
  rfl

/-- Corner 1's term at `(ch, n)`: the grid's cell times the corner's weight. -/
theorem term1 (ch : Fin 12) (n : Fin 2097152) :
    val_main_v113 (F := Ideal) x0 x1 x2 x3 (ix2 ch n)
      = cell x1 ch (val_main_v48 (F := Ideal) x0 x2 x3 (ix1 n)) (val_main_v46 (F := Ideal) x0 x2 x3 (ix1 n)) (val_main_v51 (F := Ideal) x0 x2 x3 (ix1 n))
        * val_main_v110 (F := Ideal) x0 x2 x3 (ix1 n) := by
  have hg : val_main_v108 (F := Ideal) x0 x1 x2 x3 (ix2 ch n) = _ :=
    corner_apply x1 (val_main_v48 (F := Ideal) x0 x2 x3) (val_main_v46 (F := Ideal) x0 x2 x3) (val_main_v51 (F := Ideal) x0 x2 x3)
      (val_main_v89 (F := Ideal)) (val_main_v94 (F := Ideal)) (val_main_v99 (F := Ideal))
      (val_main_v91 (F := Ideal)) (val_main_v96 (F := Ideal)) (val_main_v101 (F := Ideal))
      (fun i => by rw [val_main_v89_apply]; rfl) (fun i => by rw [val_main_v94_apply]; rfl) (fun i => by rw [val_main_v99_apply]; rfl)
      ch n (z0_range x0 x2 x3 _).1 (y0_range x0 x2 x3 _).1 (x1_range x0 x2 x3 _).1
  have hw : val_main_v112 (F := Ideal) x0 x2 x3 (ix2 ch n) = val_main_v110 (F := Ideal) x0 x2 x3 (ix1 n) :=
    spread_apply (val_main_v110 (F := Ideal) x0 x2 x3) ch n
  rw [val_main_v113_apply, hg, hw]
  rfl

/-- Corner 2's term at `(ch, n)`: the grid's cell times the corner's weight. -/
theorem term2 (ch : Fin 12) (n : Fin 2097152) :
    val_main_v139 (F := Ideal) x0 x1 x2 x3 (ix2 ch n)
      = cell x1 ch (val_main_v48 (F := Ideal) x0 x2 x3 (ix1 n)) (val_main_v54 (F := Ideal) x0 x2 x3 (ix1 n)) (val_main_v44 (F := Ideal) x0 x2 x3 (ix1 n))
        * val_main_v136 (F := Ideal) x0 x2 x3 (ix1 n) := by
  have hg : val_main_v134 (F := Ideal) x0 x1 x2 x3 (ix2 ch n) = _ :=
    corner_apply x1 (val_main_v48 (F := Ideal) x0 x2 x3) (val_main_v54 (F := Ideal) x0 x2 x3) (val_main_v44 (F := Ideal) x0 x2 x3)
      (val_main_v115 (F := Ideal)) (val_main_v120 (F := Ideal)) (val_main_v125 (F := Ideal))
      (val_main_v117 (F := Ideal)) (val_main_v122 (F := Ideal)) (val_main_v127 (F := Ideal))
      (fun i => by rw [val_main_v115_apply]; rfl) (fun i => by rw [val_main_v120_apply]; rfl) (fun i => by rw [val_main_v125_apply]; rfl)
      ch n (z0_range x0 x2 x3 _).1 (y1_range x0 x2 x3 _).1 (x0_range x0 x2 x3 _).1
  have hw : val_main_v138 (F := Ideal) x0 x2 x3 (ix2 ch n) = val_main_v136 (F := Ideal) x0 x2 x3 (ix1 n) :=
    spread_apply (val_main_v136 (F := Ideal) x0 x2 x3) ch n
  rw [val_main_v139_apply, hg, hw]
  rfl

/-- Corner 3's term at `(ch, n)`: the grid's cell times the corner's weight. -/
theorem term3 (ch : Fin 12) (n : Fin 2097152) :
    val_main_v165 (F := Ideal) x0 x1 x2 x3 (ix2 ch n)
      = cell x1 ch (val_main_v48 (F := Ideal) x0 x2 x3 (ix1 n)) (val_main_v54 (F := Ideal) x0 x2 x3 (ix1 n)) (val_main_v51 (F := Ideal) x0 x2 x3 (ix1 n))
        * val_main_v162 (F := Ideal) x0 x2 x3 (ix1 n) := by
  have hg : val_main_v160 (F := Ideal) x0 x1 x2 x3 (ix2 ch n) = _ :=
    corner_apply x1 (val_main_v48 (F := Ideal) x0 x2 x3) (val_main_v54 (F := Ideal) x0 x2 x3) (val_main_v51 (F := Ideal) x0 x2 x3)
      (val_main_v141 (F := Ideal)) (val_main_v146 (F := Ideal)) (val_main_v151 (F := Ideal))
      (val_main_v143 (F := Ideal)) (val_main_v148 (F := Ideal)) (val_main_v153 (F := Ideal))
      (fun i => by rw [val_main_v141_apply]; rfl) (fun i => by rw [val_main_v146_apply]; rfl) (fun i => by rw [val_main_v151_apply]; rfl)
      ch n (z0_range x0 x2 x3 _).1 (y1_range x0 x2 x3 _).1 (x1_range x0 x2 x3 _).1
  have hw : val_main_v164 (F := Ideal) x0 x2 x3 (ix2 ch n) = val_main_v162 (F := Ideal) x0 x2 x3 (ix1 n) :=
    spread_apply (val_main_v162 (F := Ideal) x0 x2 x3) ch n
  rw [val_main_v165_apply, hg, hw]
  rfl

/-- Corner 4's term at `(ch, n)`: the grid's cell times the corner's weight. -/
theorem term4 (ch : Fin 12) (n : Fin 2097152) :
    val_main_v191 (F := Ideal) x0 x1 x2 x3 (ix2 ch n)
      = cell x1 ch (val_main_v57 (F := Ideal) x0 x2 x3 (ix1 n)) (val_main_v46 (F := Ideal) x0 x2 x3 (ix1 n)) (val_main_v44 (F := Ideal) x0 x2 x3 (ix1 n))
        * val_main_v188 (F := Ideal) x0 x2 x3 (ix1 n) := by
  have hg : val_main_v186 (F := Ideal) x0 x1 x2 x3 (ix2 ch n) = _ :=
    corner_apply x1 (val_main_v57 (F := Ideal) x0 x2 x3) (val_main_v46 (F := Ideal) x0 x2 x3) (val_main_v44 (F := Ideal) x0 x2 x3)
      (val_main_v167 (F := Ideal)) (val_main_v172 (F := Ideal)) (val_main_v177 (F := Ideal))
      (val_main_v169 (F := Ideal)) (val_main_v174 (F := Ideal)) (val_main_v179 (F := Ideal))
      (fun i => by rw [val_main_v167_apply]; rfl) (fun i => by rw [val_main_v172_apply]; rfl) (fun i => by rw [val_main_v177_apply]; rfl)
      ch n (z1_range x0 x2 x3 _).1 (y0_range x0 x2 x3 _).1 (x0_range x0 x2 x3 _).1
  have hw : val_main_v190 (F := Ideal) x0 x2 x3 (ix2 ch n) = val_main_v188 (F := Ideal) x0 x2 x3 (ix1 n) :=
    spread_apply (val_main_v188 (F := Ideal) x0 x2 x3) ch n
  rw [val_main_v191_apply, hg, hw]
  rfl

/-- Corner 5's term at `(ch, n)`: the grid's cell times the corner's weight. -/
theorem term5 (ch : Fin 12) (n : Fin 2097152) :
    val_main_v217 (F := Ideal) x0 x1 x2 x3 (ix2 ch n)
      = cell x1 ch (val_main_v57 (F := Ideal) x0 x2 x3 (ix1 n)) (val_main_v46 (F := Ideal) x0 x2 x3 (ix1 n)) (val_main_v51 (F := Ideal) x0 x2 x3 (ix1 n))
        * val_main_v214 (F := Ideal) x0 x2 x3 (ix1 n) := by
  have hg : val_main_v212 (F := Ideal) x0 x1 x2 x3 (ix2 ch n) = _ :=
    corner_apply x1 (val_main_v57 (F := Ideal) x0 x2 x3) (val_main_v46 (F := Ideal) x0 x2 x3) (val_main_v51 (F := Ideal) x0 x2 x3)
      (val_main_v193 (F := Ideal)) (val_main_v198 (F := Ideal)) (val_main_v203 (F := Ideal))
      (val_main_v195 (F := Ideal)) (val_main_v200 (F := Ideal)) (val_main_v205 (F := Ideal))
      (fun i => by rw [val_main_v193_apply]; rfl) (fun i => by rw [val_main_v198_apply]; rfl) (fun i => by rw [val_main_v203_apply]; rfl)
      ch n (z1_range x0 x2 x3 _).1 (y0_range x0 x2 x3 _).1 (x1_range x0 x2 x3 _).1
  have hw : val_main_v216 (F := Ideal) x0 x2 x3 (ix2 ch n) = val_main_v214 (F := Ideal) x0 x2 x3 (ix1 n) :=
    spread_apply (val_main_v214 (F := Ideal) x0 x2 x3) ch n
  rw [val_main_v217_apply, hg, hw]
  rfl

/-- Corner 6's term at `(ch, n)`: the grid's cell times the corner's weight. -/
theorem term6 (ch : Fin 12) (n : Fin 2097152) :
    val_main_v243 (F := Ideal) x0 x1 x2 x3 (ix2 ch n)
      = cell x1 ch (val_main_v57 (F := Ideal) x0 x2 x3 (ix1 n)) (val_main_v54 (F := Ideal) x0 x2 x3 (ix1 n)) (val_main_v44 (F := Ideal) x0 x2 x3 (ix1 n))
        * val_main_v240 (F := Ideal) x0 x2 x3 (ix1 n) := by
  have hg : val_main_v238 (F := Ideal) x0 x1 x2 x3 (ix2 ch n) = _ :=
    corner_apply x1 (val_main_v57 (F := Ideal) x0 x2 x3) (val_main_v54 (F := Ideal) x0 x2 x3) (val_main_v44 (F := Ideal) x0 x2 x3)
      (val_main_v219 (F := Ideal)) (val_main_v224 (F := Ideal)) (val_main_v229 (F := Ideal))
      (val_main_v221 (F := Ideal)) (val_main_v226 (F := Ideal)) (val_main_v231 (F := Ideal))
      (fun i => by rw [val_main_v219_apply]; rfl) (fun i => by rw [val_main_v224_apply]; rfl) (fun i => by rw [val_main_v229_apply]; rfl)
      ch n (z1_range x0 x2 x3 _).1 (y1_range x0 x2 x3 _).1 (x0_range x0 x2 x3 _).1
  have hw : val_main_v242 (F := Ideal) x0 x2 x3 (ix2 ch n) = val_main_v240 (F := Ideal) x0 x2 x3 (ix1 n) :=
    spread_apply (val_main_v240 (F := Ideal) x0 x2 x3) ch n
  rw [val_main_v243_apply, hg, hw]
  rfl

/-- Corner 7's term at `(ch, n)`: the grid's cell times the corner's weight. -/
theorem term7 (ch : Fin 12) (n : Fin 2097152) :
    val_main_v269 (F := Ideal) x0 x1 x2 x3 (ix2 ch n)
      = cell x1 ch (val_main_v57 (F := Ideal) x0 x2 x3 (ix1 n)) (val_main_v54 (F := Ideal) x0 x2 x3 (ix1 n)) (val_main_v51 (F := Ideal) x0 x2 x3 (ix1 n))
        * val_main_v266 (F := Ideal) x0 x2 x3 (ix1 n) := by
  have hg : val_main_v264 (F := Ideal) x0 x1 x2 x3 (ix2 ch n) = _ :=
    corner_apply x1 (val_main_v57 (F := Ideal) x0 x2 x3) (val_main_v54 (F := Ideal) x0 x2 x3) (val_main_v51 (F := Ideal) x0 x2 x3)
      (val_main_v245 (F := Ideal)) (val_main_v250 (F := Ideal)) (val_main_v255 (F := Ideal))
      (val_main_v247 (F := Ideal)) (val_main_v252 (F := Ideal)) (val_main_v257 (F := Ideal))
      (fun i => by rw [val_main_v245_apply]; rfl) (fun i => by rw [val_main_v250_apply]; rfl) (fun i => by rw [val_main_v255_apply]; rfl)
      ch n (z1_range x0 x2 x3 _).1 (y1_range x0 x2 x3 _).1 (x1_range x0 x2 x3 _).1
  have hw : val_main_v268 (F := Ideal) x0 x2 x3 (ix2 ch n) = val_main_v266 (F := Ideal) x0 x2 x3 (ix1 n) :=
    spread_apply (val_main_v266 (F := Ideal) x0 x2 x3) ch n
  rw [val_main_v269_apply, hg, hw]
  rfl

/-- Which coordinate array and which weight corner `k` takes. -/
theorem zsel_lo (k : Fin 8) (h : k.val < 4) : zsel x0 x2 x3 k = val_main_v48 (F := Ideal) x0 x2 x3 := if_pos h
theorem zsel_hi (k : Fin 8) (h : ¬ k.val < 4) : zsel x0 x2 x3 k = val_main_v57 (F := Ideal) x0 x2 x3 := if_neg h
theorem ysel_lo (k : Fin 8) (h : k.val / 2 % 2 = 0) : ysel x0 x2 x3 k = val_main_v46 (F := Ideal) x0 x2 x3 := if_pos h
theorem ysel_hi (k : Fin 8) (h : ¬ k.val / 2 % 2 = 0) : ysel x0 x2 x3 k = val_main_v54 (F := Ideal) x0 x2 x3 := if_neg h
theorem xsel_lo (k : Fin 8) (h : k.val % 2 = 0) : xsel x0 x2 x3 k = val_main_v44 (F := Ideal) x0 x2 x3 := if_pos h
theorem xsel_hi (k : Fin 8) (h : ¬ k.val % 2 = 0) : xsel x0 x2 x3 k = val_main_v51 (F := Ideal) x0 x2 x3 := if_neg h
theorem wt_0 : wt x0 x2 x3 0 = val_main_v85 (F := Ideal) x0 x2 x3 := rfl
theorem wt_1 : wt x0 x2 x3 1 = val_main_v110 (F := Ideal) x0 x2 x3 := rfl
theorem wt_2 : wt x0 x2 x3 2 = val_main_v136 (F := Ideal) x0 x2 x3 := rfl
theorem wt_3 : wt x0 x2 x3 3 = val_main_v162 (F := Ideal) x0 x2 x3 := rfl
theorem wt_4 : wt x0 x2 x3 4 = val_main_v188 (F := Ideal) x0 x2 x3 := rfl
theorem wt_5 : wt x0 x2 x3 5 = val_main_v214 (F := Ideal) x0 x2 x3 := rfl
theorem wt_6 : wt x0 x2 x3 6 = val_main_v240 (F := Ideal) x0 x2 x3 := rfl
theorem wt_7 : wt x0 x2 x3 7 = val_main_v266 (F := Ideal) x0 x2 x3 := rfl

/-- THE REFERENCE'S RESULT at `(n, ch)` is the specification's sum over the eight corners. -/
theorem result_apply (n : Fin 2097152) (ch : Fin 12) :
    val_main_v271 (F := Ideal) x0 x1 x2 x3 (ix2 n ch) = G x0 x1 x2 x3 n ch := by
  rw [val_main_v271_apply]
  have hi : idx_main_v271 (ix2 n ch) = (ix2 ch n : S12x2097152.Idx) := by
    funext a; refine Fin.ext ?_
    match a with
    | ⟨0, _⟩ => rfl
    | ⟨1, _⟩ => rfl
  rw [hi, val_main_v270_apply, val_main_v244_apply, val_main_v218_apply, val_main_v192_apply, val_main_v166_apply,
    val_main_v140_apply, val_main_v114_apply,
    term0, term1, term2, term3, term4, term5, term6, term7]
  have e0 : cell x1 ch (zsel x0 x2 x3 0 (ix1 n)) (ysel x0 x2 x3 0 (ix1 n)) (xsel x0 x2 x3 0 (ix1 n)) * wt x0 x2 x3 0 (ix1 n)
      = cell x1 ch (val_main_v48 (F := Ideal) x0 x2 x3 (ix1 n)) (val_main_v46 (F := Ideal) x0 x2 x3 (ix1 n)) (val_main_v44 (F := Ideal) x0 x2 x3 (ix1 n))
        * val_main_v85 (F := Ideal) x0 x2 x3 (ix1 n) := by
    rw [zsel_lo x0 x2 x3 0 (by decide), ysel_lo x0 x2 x3 0 (by decide), xsel_lo x0 x2 x3 0 (by decide), wt_0]
  have e1 : cell x1 ch (zsel x0 x2 x3 1 (ix1 n)) (ysel x0 x2 x3 1 (ix1 n)) (xsel x0 x2 x3 1 (ix1 n)) * wt x0 x2 x3 1 (ix1 n)
      = cell x1 ch (val_main_v48 (F := Ideal) x0 x2 x3 (ix1 n)) (val_main_v46 (F := Ideal) x0 x2 x3 (ix1 n)) (val_main_v51 (F := Ideal) x0 x2 x3 (ix1 n))
        * val_main_v110 (F := Ideal) x0 x2 x3 (ix1 n) := by
    rw [zsel_lo x0 x2 x3 1 (by decide), ysel_lo x0 x2 x3 1 (by decide), xsel_hi x0 x2 x3 1 (by decide), wt_1]
  have e2 : cell x1 ch (zsel x0 x2 x3 2 (ix1 n)) (ysel x0 x2 x3 2 (ix1 n)) (xsel x0 x2 x3 2 (ix1 n)) * wt x0 x2 x3 2 (ix1 n)
      = cell x1 ch (val_main_v48 (F := Ideal) x0 x2 x3 (ix1 n)) (val_main_v54 (F := Ideal) x0 x2 x3 (ix1 n)) (val_main_v44 (F := Ideal) x0 x2 x3 (ix1 n))
        * val_main_v136 (F := Ideal) x0 x2 x3 (ix1 n) := by
    rw [zsel_lo x0 x2 x3 2 (by decide), ysel_hi x0 x2 x3 2 (by decide), xsel_lo x0 x2 x3 2 (by decide), wt_2]
  have e3 : cell x1 ch (zsel x0 x2 x3 3 (ix1 n)) (ysel x0 x2 x3 3 (ix1 n)) (xsel x0 x2 x3 3 (ix1 n)) * wt x0 x2 x3 3 (ix1 n)
      = cell x1 ch (val_main_v48 (F := Ideal) x0 x2 x3 (ix1 n)) (val_main_v54 (F := Ideal) x0 x2 x3 (ix1 n)) (val_main_v51 (F := Ideal) x0 x2 x3 (ix1 n))
        * val_main_v162 (F := Ideal) x0 x2 x3 (ix1 n) := by
    rw [zsel_lo x0 x2 x3 3 (by decide), ysel_hi x0 x2 x3 3 (by decide), xsel_hi x0 x2 x3 3 (by decide), wt_3]
  have e4 : cell x1 ch (zsel x0 x2 x3 4 (ix1 n)) (ysel x0 x2 x3 4 (ix1 n)) (xsel x0 x2 x3 4 (ix1 n)) * wt x0 x2 x3 4 (ix1 n)
      = cell x1 ch (val_main_v57 (F := Ideal) x0 x2 x3 (ix1 n)) (val_main_v46 (F := Ideal) x0 x2 x3 (ix1 n)) (val_main_v44 (F := Ideal) x0 x2 x3 (ix1 n))
        * val_main_v188 (F := Ideal) x0 x2 x3 (ix1 n) := by
    rw [zsel_hi x0 x2 x3 4 (by decide), ysel_lo x0 x2 x3 4 (by decide), xsel_lo x0 x2 x3 4 (by decide), wt_4]
  have e5 : cell x1 ch (zsel x0 x2 x3 5 (ix1 n)) (ysel x0 x2 x3 5 (ix1 n)) (xsel x0 x2 x3 5 (ix1 n)) * wt x0 x2 x3 5 (ix1 n)
      = cell x1 ch (val_main_v57 (F := Ideal) x0 x2 x3 (ix1 n)) (val_main_v46 (F := Ideal) x0 x2 x3 (ix1 n)) (val_main_v51 (F := Ideal) x0 x2 x3 (ix1 n))
        * val_main_v214 (F := Ideal) x0 x2 x3 (ix1 n) := by
    rw [zsel_hi x0 x2 x3 5 (by decide), ysel_lo x0 x2 x3 5 (by decide), xsel_hi x0 x2 x3 5 (by decide), wt_5]
  have e6 : cell x1 ch (zsel x0 x2 x3 6 (ix1 n)) (ysel x0 x2 x3 6 (ix1 n)) (xsel x0 x2 x3 6 (ix1 n)) * wt x0 x2 x3 6 (ix1 n)
      = cell x1 ch (val_main_v57 (F := Ideal) x0 x2 x3 (ix1 n)) (val_main_v54 (F := Ideal) x0 x2 x3 (ix1 n)) (val_main_v44 (F := Ideal) x0 x2 x3 (ix1 n))
        * val_main_v240 (F := Ideal) x0 x2 x3 (ix1 n) := by
    rw [zsel_hi x0 x2 x3 6 (by decide), ysel_hi x0 x2 x3 6 (by decide), xsel_lo x0 x2 x3 6 (by decide), wt_6]
  have e7 : cell x1 ch (zsel x0 x2 x3 7 (ix1 n)) (ysel x0 x2 x3 7 (ix1 n)) (xsel x0 x2 x3 7 (ix1 n)) * wt x0 x2 x3 7 (ix1 n)
      = cell x1 ch (val_main_v57 (F := Ideal) x0 x2 x3 (ix1 n)) (val_main_v54 (F := Ideal) x0 x2 x3 (ix1 n)) (val_main_v51 (F := Ideal) x0 x2 x3 (ix1 n))
        * val_main_v266 (F := Ideal) x0 x2 x3 (ix1 n) := by
    rw [zsel_hi x0 x2 x3 7 (by decide), ysel_hi x0 x2 x3 7 (by decide), xsel_hi x0 x2 x3 7 (by decide), wt_7]
  unfold G
  rw [Fin.sum_univ_eight, e0, e1, e2, e3, e4, e5, e6, e7]
  rfl

end Cert.RefValue

end
-- ==== Proof.RefResult.lean ====
/-
  The reference's result, index by index, off its run.

  After the whole line the result buffer holds the transposition of the eight corners' sum; at `(n, ch)` that is the sum
  over the corners of the grid's cell at the corner's three coordinates (each in 0 … 159, so neither the wrap-around nor
  the gather's clamp changes it) times the corner's weight — the specification's `G`.
-/
import proofs.«163780_j49606872269475_2_alg».proof.Proof.RefPre
import proofs.«163780_j49606872269475_2_alg».proof.Proof.RefTail
import proofs.«163780_j49606872269475_2_alg».proof.Proof.RefValue
import Idealize.ShloMosaic.Lib.ValueIdx

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx

open Cert.Spec Cert.RefValue Cert.RefGather Cert.IntFacts

/-- The product of three per-axis factors, per point. -/
abbrev mul3 (a b c : FVec Ideal S2097152 .f32) : FVec Ideal S2097152 .f32 := mulf (mulf a b) c

/-- One corner's term at `(ch, n)`, for coordinate arrays that are not negative at `n`. -/
theorem term_apply (x1 : Grid) (zs ys xs : IVec S2097152 32) (w : FVec Ideal S2097152 .f32) (ch : Fin 12) (n : Fin 2097152)
    (hz : 0 ≤ (zs (ix1 n)).toInt) (hy : 0 ≤ (ys (ix1 n)).toInt) (hx : 0 ≤ (xs (ix1 n)).toInt) :
    term (Cert.ReferenceIdeal.Read.val_main_v0 (F := Ideal) x1) zs ys xs w (ix2 ch n)
      = cell x1 ch (zs (ix1 n)) (ys (ix1 n)) (xs (ix1 n)) * w (ix1 n) := by
  unfold term cols
  rw [mulf_apply, Cert.RefValue.corner_apply x1 zs ys xs zeroV zeroV zeroV e160V e160V e160V (fun _ => rfl) (fun _ => rfl) (fun _ => rfl)
    ch n hz hy hx, Cert.RefValue.spread_apply w ch n]

variable (m : (ℓ : Loc nD τ sig) → Buf (Elt Ideal) ℓ) (c : Dev nD)

/-- THE RESULT at `(n, ch)`. -/
theorem result_at (n : Fin 2097152) (ch : Fin 12) :
    (after (ops : List (HloOp τ sig (Elt Ideal))) (launchContents m c) (Proc.devRef .tc main_v271) : (⟨S2097152x12, .f32⟩ : BufTy).Contents (Elt Ideal)) (ix2 n ch)
      = G (m ((c.tc : Thread nD τ).loc main_arg0)) (m ((c.tc : Thread nD τ).loc main_arg1)) (m ((c.tc : Thread nD τ).loc main_arg2)) (m ((c.tc : Thread nD τ).loc main_arg3)) n ch := by
  rw [after_split]
  have h := congrFun (tail_read (pre m c)) (ix2 n ch)
  rw [pre_v0 m c, pre_v48 m c, pre_v57 m c, pre_v46 m c, pre_v54 m c, pre_v44 m c, pre_v51 m c,
    pre_v40 m c, pre_v41 m c, pre_v42 m c, pre_v59 m c, pre_v61 m c, pre_v63 m c] at h
  refine h.trans ?_
  rw [transpose_apply [1, 0] _ transposes_S12x2097152_S2097152x12_1_0 (ix2 n ch) (ix2 ch n) (fun b => match b with
    | ⟨0, _⟩ => rfl
    | ⟨1, _⟩ => rfl)]
  unfold total
  simp only [addf_apply]
  have t0 := term_apply (m ((c.tc : Thread nD τ).loc main_arg1)) (Cert.ReferenceIdeal.Read.val_main_v48 (F := Ideal) (m ((c.tc : Thread nD τ).loc main_arg0)) (m ((c.tc : Thread nD τ).loc main_arg2)) (m ((c.tc : Thread nD τ).loc main_arg3))) (Cert.ReferenceIdeal.Read.val_main_v46 (F := Ideal) (m ((c.tc : Thread nD τ).loc main_arg0)) (m ((c.tc : Thread nD τ).loc main_arg2)) (m ((c.tc : Thread nD τ).loc main_arg3))) (Cert.ReferenceIdeal.Read.val_main_v44 (F := Ideal) (m ((c.tc : Thread nD τ).loc main_arg0)) (m ((c.tc : Thread nD τ).loc main_arg2)) (m ((c.tc : Thread nD τ).loc main_arg3))) (mul3 (Cert.ReferenceIdeal.Read.val_main_v63 (F := Ideal) (m ((c.tc : Thread nD τ).loc main_arg0)) (m ((c.tc : Thread nD τ).loc main_arg2)) (m ((c.tc : Thread nD τ).loc main_arg3))) (Cert.ReferenceIdeal.Read.val_main_v61 (F := Ideal) (m ((c.tc : Thread nD τ).loc main_arg0)) (m ((c.tc : Thread nD τ).loc main_arg2)) (m ((c.tc : Thread nD τ).loc main_arg3))) (Cert.ReferenceIdeal.Read.val_main_v59 (F := Ideal) (m ((c.tc : Thread nD τ).loc main_arg0)) (m ((c.tc : Thread nD τ).loc main_arg2)) (m ((c.tc : Thread nD τ).loc main_arg3)))) ch n
    (z0_range (m ((c.tc : Thread nD τ).loc main_arg0)) (m ((c.tc : Thread nD τ).loc main_arg2)) (m ((c.tc : Thread nD τ).loc main_arg3)) _).1 (y0_range (m ((c.tc : Thread nD τ).loc main_arg0)) (m ((c.tc : Thread nD τ).loc main_arg2)) (m ((c.tc : Thread nD τ).loc main_arg3)) _).1 (x0_range (m ((c.tc : Thread nD τ).loc main_arg0)) (m ((c.tc : Thread nD τ).loc main_arg2)) (m ((c.tc : Thread nD τ).loc main_arg3)) _).1
  have w0 : (mul3 (Cert.ReferenceIdeal.Read.val_main_v63 (F := Ideal) (m ((c.tc : Thread nD τ).loc main_arg0)) (m ((c.tc : Thread nD τ).loc main_arg2)) (m ((c.tc : Thread nD τ).loc main_arg3))) (Cert.ReferenceIdeal.Read.val_main_v61 (F := Ideal) (m ((c.tc : Thread nD τ).loc main_arg0)) (m ((c.tc : Thread nD τ).loc main_arg2)) (m ((c.tc : Thread nD τ).loc main_arg3))) (Cert.ReferenceIdeal.Read.val_main_v59 (F := Ideal) (m ((c.tc : Thread nD τ).loc main_arg0)) (m ((c.tc : Thread nD τ).loc main_arg2)) (m ((c.tc : Thread nD τ).loc main_arg3)))) = (Cert.ReferenceIdeal.Read.val_main_v85 (F := Ideal) (m ((c.tc : Thread nD τ).loc main_arg0)) (m ((c.tc : Thread nD τ).loc main_arg2)) (m ((c.tc : Thread nD τ).loc main_arg3))) := rfl
  have t1 := term_apply (m ((c.tc : Thread nD τ).loc main_arg1)) (Cert.ReferenceIdeal.Read.val_main_v48 (F := Ideal) (m ((c.tc : Thread nD τ).loc main_arg0)) (m ((c.tc : Thread nD τ).loc main_arg2)) (m ((c.tc : Thread nD τ).loc main_arg3))) (Cert.ReferenceIdeal.Read.val_main_v46 (F := Ideal) (m ((c.tc : Thread nD τ).loc main_arg0)) (m ((c.tc : Thread nD τ).loc main_arg2)) (m ((c.tc : Thread nD τ).loc main_arg3))) (Cert.ReferenceIdeal.Read.val_main_v51 (F := Ideal) (m ((c.tc : Thread nD τ).loc main_arg0)) (m ((c.tc : Thread nD τ).loc main_arg2)) (m ((c.tc : Thread nD τ).loc main_arg3))) (mul3 (Cert.ReferenceIdeal.Read.val_main_v63 (F := Ideal) (m ((c.tc : Thread nD τ).loc main_arg0)) (m ((c.tc : Thread nD τ).loc main_arg2)) (m ((c.tc : Thread nD τ).loc main_arg3))) (Cert.ReferenceIdeal.Read.val_main_v61 (F := Ideal) (m ((c.tc : Thread nD τ).loc main_arg0)) (m ((c.tc : Thread nD τ).loc main_arg2)) (m ((c.tc : Thread nD τ).loc main_arg3))) (Cert.ReferenceIdeal.Read.val_main_v40 (F := Ideal) (m ((c.tc : Thread nD τ).loc main_arg0)) (m ((c.tc : Thread nD τ).loc main_arg2)) (m ((c.tc : Thread nD τ).loc main_arg3)))) ch n
    (z0_range (m ((c.tc : Thread nD τ).loc main_arg0)) (m ((c.tc : Thread nD τ).loc main_arg2)) (m ((c.tc : Thread nD τ).loc main_arg3)) _).1 (y0_range (m ((c.tc : Thread nD τ).loc main_arg0)) (m ((c.tc : Thread nD τ).loc main_arg2)) (m ((c.tc : Thread nD τ).loc main_arg3)) _).1 (x1_range (m ((c.tc : Thread nD τ).loc main_arg0)) (m ((c.tc : Thread nD τ).loc main_arg2)) (m ((c.tc : Thread nD τ).loc main_arg3)) _).1
  have w1 : (mul3 (Cert.ReferenceIdeal.Read.val_main_v63 (F := Ideal) (m ((c.tc : Thread nD τ).loc main_arg0)) (m ((c.tc : Thread nD τ).loc main_arg2)) (m ((c.tc : Thread nD τ).loc main_arg3))) (Cert.ReferenceIdeal.Read.val_main_v61 (F := Ideal) (m ((c.tc : Thread nD τ).loc main_arg0)) (m ((c.tc : Thread nD τ).loc main_arg2)) (m ((c.tc : Thread nD τ).loc main_arg3))) (Cert.ReferenceIdeal.Read.val_main_v40 (F := Ideal) (m ((c.tc : Thread nD τ).loc main_arg0)) (m ((c.tc : Thread nD τ).loc main_arg2)) (m ((c.tc : Thread nD τ).loc main_arg3)))) = (Cert.ReferenceIdeal.Read.val_main_v110 (F := Ideal) (m ((c.tc : Thread nD τ).loc main_arg0)) (m ((c.tc : Thread nD τ).loc main_arg2)) (m ((c.tc : Thread nD τ).loc main_arg3))) := rfl
  have t2 := term_apply (m ((c.tc : Thread nD τ).loc main_arg1)) (Cert.ReferenceIdeal.Read.val_main_v48 (F := Ideal) (m ((c.tc : Thread nD τ).loc main_arg0)) (m ((c.tc : Thread nD τ).loc main_arg2)) (m ((c.tc : Thread nD τ).loc main_arg3))) (Cert.ReferenceIdeal.Read.val_main_v54 (F := Ideal) (m ((c.tc : Thread nD τ).loc main_arg0)) (m ((c.tc : Thread nD τ).loc main_arg2)) (m ((c.tc : Thread nD τ).loc main_arg3))) (Cert.ReferenceIdeal.Read.val_main_v44 (F := Ideal) (m ((c.tc : Thread nD τ).loc main_arg0)) (m ((c.tc : Thread nD τ).loc main_arg2)) (m ((c.tc : Thread nD τ).loc main_arg3))) (mul3 (Cert.ReferenceIdeal.Read.val_main_v63 (F := Ideal) (m ((c.tc : Thread nD τ).loc main_arg0)) (m ((c.tc : Thread nD τ).loc main_arg2)) (m ((c.tc : Thread nD τ).loc main_arg3))) (Cert.ReferenceIdeal.Read.val_main_v41 (F := Ideal) (m ((c.tc : Thread nD τ).loc main_arg0)) (m ((c.tc : Thread nD τ).loc main_arg2)) (m ((c.tc : Thread nD τ).loc main_arg3))) (Cert.ReferenceIdeal.Read.val_main_v59 (F := Ideal) (m ((c.tc : Thread nD τ).loc main_arg0)) (m ((c.tc : Thread nD τ).loc main_arg2)) (m ((c.tc : Thread nD τ).loc main_arg3)))) ch n
    (z0_range (m ((c.tc : Thread nD τ).loc main_arg0)) (m ((c.tc : Thread nD τ).loc main_arg2)) (m ((c.tc : Thread nD τ).loc main_arg3)) _).1 (y1_range (m ((c.tc : Thread nD τ).loc main_arg0)) (m ((c.tc : Thread nD τ).loc main_arg2)) (m ((c.tc : Thread nD τ).loc main_arg3)) _).1 (x0_range (m ((c.tc : Thread nD τ).loc main_arg0)) (m ((c.tc : Thread nD τ).loc main_arg2)) (m ((c.tc : Thread nD τ).loc main_arg3)) _).1
  have w2 : (mul3 (Cert.ReferenceIdeal.Read.val_main_v63 (F := Ideal) (m ((c.tc : Thread nD τ).loc main_arg0)) (m ((c.tc : Thread nD τ).loc main_arg2)) (m ((c.tc : Thread nD τ).loc main_arg3))) (Cert.ReferenceIdeal.Read.val_main_v41 (F := Ideal) (m ((c.tc : Thread nD τ).loc main_arg0)) (m ((c.tc : Thread nD τ).loc main_arg2)) (m ((c.tc : Thread nD τ).loc main_arg3))) (Cert.ReferenceIdeal.Read.val_main_v59 (F := Ideal) (m ((c.tc : Thread nD τ).loc main_arg0)) (m ((c.tc : Thread nD τ).loc main_arg2)) (m ((c.tc : Thread nD τ).loc main_arg3)))) = (Cert.ReferenceIdeal.Read.val_main_v136 (F := Ideal) (m ((c.tc : Thread nD τ).loc main_arg0)) (m ((c.tc : Thread nD τ).loc main_arg2)) (m ((c.tc : Thread nD τ).loc main_arg3))) := rfl
  have t3 := term_apply (m ((c.tc : Thread nD τ).loc main_arg1)) (Cert.ReferenceIdeal.Read.val_main_v48 (F := Ideal) (m ((c.tc : Thread nD τ).loc main_arg0)) (m ((c.tc : Thread nD τ).loc main_arg2)) (m ((c.tc : Thread nD τ).loc main_arg3))) (Cert.ReferenceIdeal.Read.val_main_v54 (F := Ideal) (m ((c.tc : Thread nD τ).loc main_arg0)) (m ((c.tc : Thread nD τ).loc main_arg2)) (m ((c.tc : Thread nD τ).loc main_arg3))) (Cert.ReferenceIdeal.Read.val_main_v51 (F := Ideal) (m ((c.tc : Thread nD τ).loc main_arg0)) (m ((c.tc : Thread nD τ).loc main_arg2)) (m ((c.tc : Thread nD τ).loc main_arg3))) (mul3 (Cert.ReferenceIdeal.Read.val_main_v63 (F := Ideal) (m ((c.tc : Thread nD τ).loc main_arg0)) (m ((c.tc : Thread nD τ).loc main_arg2)) (m ((c.tc : Thread nD τ).loc main_arg3))) (Cert.ReferenceIdeal.Read.val_main_v41 (F := Ideal) (m ((c.tc : Thread nD τ).loc main_arg0)) (m ((c.tc : Thread nD τ).loc main_arg2)) (m ((c.tc : Thread nD τ).loc main_arg3))) (Cert.ReferenceIdeal.Read.val_main_v40 (F := Ideal) (m ((c.tc : Thread nD τ).loc main_arg0)) (m ((c.tc : Thread nD τ).loc main_arg2)) (m ((c.tc : Thread nD τ).loc main_arg3)))) ch n
    (z0_range (m ((c.tc : Thread nD τ).loc main_arg0)) (m ((c.tc : Thread nD τ).loc main_arg2)) (m ((c.tc : Thread nD τ).loc main_arg3)) _).1 (y1_range (m ((c.tc : Thread nD τ).loc main_arg0)) (m ((c.tc : Thread nD τ).loc main_arg2)) (m ((c.tc : Thread nD τ).loc main_arg3)) _).1 (x1_range (m ((c.tc : Thread nD τ).loc main_arg0)) (m ((c.tc : Thread nD τ).loc main_arg2)) (m ((c.tc : Thread nD τ).loc main_arg3)) _).1
  have w3 : (mul3 (Cert.ReferenceIdeal.Read.val_main_v63 (F := Ideal) (m ((c.tc : Thread nD τ).loc main_arg0)) (m ((c.tc : Thread nD τ).loc main_arg2)) (m ((c.tc : Thread nD τ).loc main_arg3))) (Cert.ReferenceIdeal.Read.val_main_v41 (F := Ideal) (m ((c.tc : Thread nD τ).loc main_arg0)) (m ((c.tc : Thread nD τ).loc main_arg2)) (m ((c.tc : Thread nD τ).loc main_arg3))) (Cert.ReferenceIdeal.Read.val_main_v40 (F := Ideal) (m ((c.tc : Thread nD τ).loc main_arg0)) (m ((c.tc : Thread nD τ).loc main_arg2)) (m ((c.tc : Thread nD τ).loc main_arg3)))) = (Cert.ReferenceIdeal.Read.val_main_v162 (F := Ideal) (m ((c.tc : Thread nD τ).loc main_arg0)) (m ((c.tc : Thread nD τ).loc main_arg2)) (m ((c.tc : Thread nD τ).loc main_arg3))) := rfl
  have t4 := term_apply (m ((c.tc : Thread nD τ).loc main_arg1)) (Cert.ReferenceIdeal.Read.val_main_v57 (F := Ideal) (m ((c.tc : Thread nD τ).loc main_arg0)) (m ((c.tc : Thread nD τ).loc main_arg2)) (m ((c.tc : Thread nD τ).loc main_arg3))) (Cert.ReferenceIdeal.Read.val_main_v46 (F := Ideal) (m ((c.tc : Thread nD τ).loc main_arg0)) (m ((c.tc : Thread nD τ).loc main_arg2)) (m ((c.tc : Thread nD τ).loc main_arg3))) (Cert.ReferenceIdeal.Read.val_main_v44 (F := Ideal) (m ((c.tc : Thread nD τ).loc main_arg0)) (m ((c.tc : Thread nD τ).loc main_arg2)) (m ((c.tc : Thread nD τ).loc main_arg3))) (mul3 (Cert.ReferenceIdeal.Read.val_main_v42 (F := Ideal) (m ((c.tc : Thread nD τ).loc main_arg0)) (m ((c.tc : Thread nD τ).loc main_arg2)) (m ((c.tc : Thread nD τ).loc main_arg3))) (Cert.ReferenceIdeal.Read.val_main_v61 (F := Ideal) (m ((c.tc : Thread nD τ).loc main_arg0)) (m ((c.tc : Thread nD τ).loc main_arg2)) (m ((c.tc : Thread nD τ).loc main_arg3))) (Cert.ReferenceIdeal.Read.val_main_v59 (F := Ideal) (m ((c.tc : Thread nD τ).loc main_arg0)) (m ((c.tc : Thread nD τ).loc main_arg2)) (m ((c.tc : Thread nD τ).loc main_arg3)))) ch n
    (z1_range (m ((c.tc : Thread nD τ).loc main_arg0)) (m ((c.tc : Thread nD τ).loc main_arg2)) (m ((c.tc : Thread nD τ).loc main_arg3)) _).1 (y0_range (m ((c.tc : Thread nD τ).loc main_arg0)) (m ((c.tc : Thread nD τ).loc main_arg2)) (m ((c.tc : Thread nD τ).loc main_arg3)) _).1 (x0_range (m ((c.tc : Thread nD τ).loc main_arg0)) (m ((c.tc : Thread nD τ).loc main_arg2)) (m ((c.tc : Thread nD τ).loc main_arg3)) _).1
  have w4 : (mul3 (Cert.ReferenceIdeal.Read.val_main_v42 (F := Ideal) (m ((c.tc : Thread nD τ).loc main_arg0)) (m ((c.tc : Thread nD τ).loc main_arg2)) (m ((c.tc : Thread nD τ).loc main_arg3))) (Cert.ReferenceIdeal.Read.val_main_v61 (F := Ideal) (m ((c.tc : Thread nD τ).loc main_arg0)) (m ((c.tc : Thread nD τ).loc main_arg2)) (m ((c.tc : Thread nD τ).loc main_arg3))) (Cert.ReferenceIdeal.Read.val_main_v59 (F := Ideal) (m ((c.tc : Thread nD τ).loc main_arg0)) (m ((c.tc : Thread nD τ).loc main_arg2)) (m ((c.tc : Thread nD τ).loc main_arg3)))) = (Cert.ReferenceIdeal.Read.val_main_v188 (F := Ideal) (m ((c.tc : Thread nD τ).loc main_arg0)) (m ((c.tc : Thread nD τ).loc main_arg2)) (m ((c.tc : Thread nD τ).loc main_arg3))) := rfl
  have t5 := term_apply (m ((c.tc : Thread nD τ).loc main_arg1)) (Cert.ReferenceIdeal.Read.val_main_v57 (F := Ideal) (m ((c.tc : Thread nD τ).loc main_arg0)) (m ((c.tc : Thread nD τ).loc main_arg2)) (m ((c.tc : Thread nD τ).loc main_arg3))) (Cert.ReferenceIdeal.Read.val_main_v46 (F := Ideal) (m ((c.tc : Thread nD τ).loc main_arg0)) (m ((c.tc : Thread nD τ).loc main_arg2)) (m ((c.tc : Thread nD τ).loc main_arg3))) (Cert.ReferenceIdeal.Read.val_main_v51 (F := Ideal) (m ((c.tc : Thread nD τ).loc main_arg0)) (m ((c.tc : Thread nD τ).loc main_arg2)) (m ((c.tc : Thread nD τ).loc main_arg3))) (mul3 (Cert.ReferenceIdeal.Read.val_main_v42 (F := Ideal) (m ((c.tc : Thread nD τ).loc main_arg0)) (m ((c.tc : Thread nD τ).loc main_arg2)) (m ((c.tc : Thread nD τ).loc main_arg3))) (Cert.ReferenceIdeal.Read.val_main_v61 (F := Ideal) (m ((c.tc : Thread nD τ).loc main_arg0)) (m ((c.tc : Thread nD τ).loc main_arg2)) (m ((c.tc : Thread nD τ).loc main_arg3))) (Cert.ReferenceIdeal.Read.val_main_v40 (F := Ideal) (m ((c.tc : Thread nD τ).loc main_arg0)) (m ((c.tc : Thread nD τ).loc main_arg2)) (m ((c.tc : Thread nD τ).loc main_arg3)))) ch n
    (z1_range (m ((c.tc : Thread nD τ).loc main_arg0)) (m ((c.tc : Thread nD τ).loc main_arg2)) (m ((c.tc : Thread nD τ).loc main_arg3)) _).1 (y0_range (m ((c.tc : Thread nD τ).loc main_arg0)) (m ((c.tc : Thread nD τ).loc main_arg2)) (m ((c.tc : Thread nD τ).loc main_arg3)) _).1 (x1_range (m ((c.tc : Thread nD τ).loc main_arg0)) (m ((c.tc : Thread nD τ).loc main_arg2)) (m ((c.tc : Thread nD τ).loc main_arg3)) _).1
  have w5 : (mul3 (Cert.ReferenceIdeal.Read.val_main_v42 (F := Ideal) (m ((c.tc : Thread nD τ).loc main_arg0)) (m ((c.tc : Thread nD τ).loc main_arg2)) (m ((c.tc : Thread nD τ).loc main_arg3))) (Cert.ReferenceIdeal.Read.val_main_v61 (F := Ideal) (m ((c.tc : Thread nD τ).loc main_arg0)) (m ((c.tc : Thread nD τ).loc main_arg2)) (m ((c.tc : Thread nD τ).loc main_arg3))) (Cert.ReferenceIdeal.Read.val_main_v40 (F := Ideal) (m ((c.tc : Thread nD τ).loc main_arg0)) (m ((c.tc : Thread nD τ).loc main_arg2)) (m ((c.tc : Thread nD τ).loc main_arg3)))) = (Cert.ReferenceIdeal.Read.val_main_v214 (F := Ideal) (m ((c.tc : Thread nD τ).loc main_arg0)) (m ((c.tc : Thread nD τ).loc main_arg2)) (m ((c.tc : Thread nD τ).loc main_arg3))) := rfl
  have t6 := term_apply (m ((c.tc : Thread nD τ).loc main_arg1)) (Cert.ReferenceIdeal.Read.val_main_v57 (F := Ideal) (m ((c.tc : Thread nD τ).loc main_arg0)) (m ((c.tc : Thread nD τ).loc main_arg2)) (m ((c.tc : Thread nD τ).loc main_arg3))) (Cert.ReferenceIdeal.Read.val_main_v54 (F := Ideal) (m ((c.tc : Thread nD τ).loc main_arg0)) (m ((c.tc : Thread nD τ).loc main_arg2)) (m ((c.tc : Thread nD τ).loc main_arg3))) (Cert.ReferenceIdeal.Read.val_main_v44 (F := Ideal) (m ((c.tc : Thread nD τ).loc main_arg0)) (m ((c.tc : Thread nD τ).loc main_arg2)) (m ((c.tc : Thread nD τ).loc main_arg3))) (mul3 (Cert.ReferenceIdeal.Read.val_main_v42 (F := Ideal) (m ((c.tc : Thread nD τ).loc main_arg0)) (m ((c.tc : Thread nD τ).loc main_arg2)) (m ((c.tc : Thread nD τ).loc main_arg3))) (Cert.ReferenceIdeal.Read.val_main_v41 (F := Ideal) (m ((c.tc : Thread nD τ).loc main_arg0)) (m ((c.tc : Thread nD τ).loc main_arg2)) (m ((c.tc : Thread nD τ).loc main_arg3))) (Cert.ReferenceIdeal.Read.val_main_v59 (F := Ideal) (m ((c.tc : Thread nD τ).loc main_arg0)) (m ((c.tc : Thread nD τ).loc main_arg2)) (m ((c.tc : Thread nD τ).loc main_arg3)))) ch n
    (z1_range (m ((c.tc : Thread nD τ).loc main_arg0)) (m ((c.tc : Thread nD τ).loc main_arg2)) (m ((c.tc : Thread nD τ).loc main_arg3)) _).1 (y1_range (m ((c.tc : Thread nD τ).loc main_arg0)) (m ((c.tc : Thread nD τ).loc main_arg2)) (m ((c.tc : Thread nD τ).loc main_arg3)) _).1 (x0_range (m ((c.tc : Thread nD τ).loc main_arg0)) (m ((c.tc : Thread nD τ).loc main_arg2)) (m ((c.tc : Thread nD τ).loc main_arg3)) _).1
  have w6 : (mul3 (Cert.ReferenceIdeal.Read.val_main_v42 (F := Ideal) (m ((c.tc : Thread nD τ).loc main_arg0)) (m ((c.tc : Thread nD τ).loc main_arg2)) (m ((c.tc : Thread nD τ).loc main_arg3))) (Cert.ReferenceIdeal.Read.val_main_v41 (F := Ideal) (m ((c.tc : Thread nD τ).loc main_arg0)) (m ((c.tc : Thread nD τ).loc main_arg2)) (m ((c.tc : Thread nD τ).loc main_arg3))) (Cert.ReferenceIdeal.Read.val_main_v59 (F := Ideal) (m ((c.tc : Thread nD τ).loc main_arg0)) (m ((c.tc : Thread nD τ).loc main_arg2)) (m ((c.tc : Thread nD τ).loc main_arg3)))) = (Cert.ReferenceIdeal.Read.val_main_v240 (F := Ideal) (m ((c.tc : Thread nD τ).loc main_arg0)) (m ((c.tc : Thread nD τ).loc main_arg2)) (m ((c.tc : Thread nD τ).loc main_arg3))) := rfl
  have t7 := term_apply (m ((c.tc : Thread nD τ).loc main_arg1)) (Cert.ReferenceIdeal.Read.val_main_v57 (F := Ideal) (m ((c.tc : Thread nD τ).loc main_arg0)) (m ((c.tc : Thread nD τ).loc main_arg2)) (m ((c.tc : Thread nD τ).loc main_arg3))) (Cert.ReferenceIdeal.Read.val_main_v54 (F := Ideal) (m ((c.tc : Thread nD τ).loc main_arg0)) (m ((c.tc : Thread nD τ).loc main_arg2)) (m ((c.tc : Thread nD τ).loc main_arg3))) (Cert.ReferenceIdeal.Read.val_main_v51 (F := Ideal) (m ((c.tc : Thread nD τ).loc main_arg0)) (m ((c.tc : Thread nD τ).loc main_arg2)) (m ((c.tc : Thread nD τ).loc main_arg3))) (mul3 (Cert.ReferenceIdeal.Read.val_main_v42 (F := Ideal) (m ((c.tc : Thread nD τ).loc main_arg0)) (m ((c.tc : Thread nD τ).loc main_arg2)) (m ((c.tc : Thread nD τ).loc main_arg3))) (Cert.ReferenceIdeal.Read.val_main_v41 (F := Ideal) (m ((c.tc : Thread nD τ).loc main_arg0)) (m ((c.tc : Thread nD τ).loc main_arg2)) (m ((c.tc : Thread nD τ).loc main_arg3))) (Cert.ReferenceIdeal.Read.val_main_v40 (F := Ideal) (m ((c.tc : Thread nD τ).loc main_arg0)) (m ((c.tc : Thread nD τ).loc main_arg2)) (m ((c.tc : Thread nD τ).loc main_arg3)))) ch n
    (z1_range (m ((c.tc : Thread nD τ).loc main_arg0)) (m ((c.tc : Thread nD τ).loc main_arg2)) (m ((c.tc : Thread nD τ).loc main_arg3)) _).1 (y1_range (m ((c.tc : Thread nD τ).loc main_arg0)) (m ((c.tc : Thread nD τ).loc main_arg2)) (m ((c.tc : Thread nD τ).loc main_arg3)) _).1 (x1_range (m ((c.tc : Thread nD τ).loc main_arg0)) (m ((c.tc : Thread nD τ).loc main_arg2)) (m ((c.tc : Thread nD τ).loc main_arg3)) _).1
  have w7 : (mul3 (Cert.ReferenceIdeal.Read.val_main_v42 (F := Ideal) (m ((c.tc : Thread nD τ).loc main_arg0)) (m ((c.tc : Thread nD τ).loc main_arg2)) (m ((c.tc : Thread nD τ).loc main_arg3))) (Cert.ReferenceIdeal.Read.val_main_v41 (F := Ideal) (m ((c.tc : Thread nD τ).loc main_arg0)) (m ((c.tc : Thread nD τ).loc main_arg2)) (m ((c.tc : Thread nD τ).loc main_arg3))) (Cert.ReferenceIdeal.Read.val_main_v40 (F := Ideal) (m ((c.tc : Thread nD τ).loc main_arg0)) (m ((c.tc : Thread nD τ).loc main_arg2)) (m ((c.tc : Thread nD τ).loc main_arg3)))) = (Cert.ReferenceIdeal.Read.val_main_v266 (F := Ideal) (m ((c.tc : Thread nD τ).loc main_arg0)) (m ((c.tc : Thread nD τ).loc main_arg2)) (m ((c.tc : Thread nD τ).loc main_arg3))) := rfl
  rw [t0, t1, t2, t3, t4, t5, t6, t7, w0, w1, w2, w3, w4, w5, w6, w7]
  have e0 : cell (m ((c.tc : Thread nD τ).loc main_arg1)) ch (zsel (m ((c.tc : Thread nD τ).loc main_arg0)) (m ((c.tc : Thread nD τ).loc main_arg2)) (m ((c.tc : Thread nD τ).loc main_arg3)) 0 (ix1 n)) (ysel (m ((c.tc : Thread nD τ).loc main_arg0)) (m ((c.tc : Thread nD τ).loc main_arg2)) (m ((c.tc : Thread nD τ).loc main_arg3)) 0 (ix1 n)) (xsel (m ((c.tc : Thread nD τ).loc main_arg0)) (m ((c.tc : Thread nD τ).loc main_arg2)) (m ((c.tc : Thread nD τ).loc main_arg3)) 0 (ix1 n)) * wt (m ((c.tc : Thread nD τ).loc main_arg0)) (m ((c.tc : Thread nD τ).loc main_arg2)) (m ((c.tc : Thread nD τ).loc main_arg3)) 0 (ix1 n)
      = cell (m ((c.tc : Thread nD τ).loc main_arg1)) ch ((Cert.ReferenceIdeal.Read.val_main_v48 (F := Ideal) (m ((c.tc : Thread nD τ).loc main_arg0)) (m ((c.tc : Thread nD τ).loc main_arg2)) (m ((c.tc : Thread nD τ).loc main_arg3))) (ix1 n)) ((Cert.ReferenceIdeal.Read.val_main_v46 (F := Ideal) (m ((c.tc : Thread nD τ).loc main_arg0)) (m ((c.tc : Thread nD τ).loc main_arg2)) (m ((c.tc : Thread nD τ).loc main_arg3))) (ix1 n)) ((Cert.ReferenceIdeal.Read.val_main_v44 (F := Ideal) (m ((c.tc : Thread nD τ).loc main_arg0)) (m ((c.tc : Thread nD τ).loc main_arg2)) (m ((c.tc : Thread nD τ).loc main_arg3))) (ix1 n)) * (Cert.ReferenceIdeal.Read.val_main_v85 (F := Ideal) (m ((c.tc : Thread nD τ).loc main_arg0)) (m ((c.tc : Thread nD τ).loc main_arg2)) (m ((c.tc : Thread nD τ).loc main_arg3))) (ix1 n) := by
    rw [zsel_lo _ _ _ 0 (by decide), ysel_lo _ _ _ 0 (by decide), xsel_lo _ _ _ 0 (by decide), wt_0]
  have e1 : cell (m ((c.tc : Thread nD τ).loc main_arg1)) ch (zsel (m ((c.tc : Thread nD τ).loc main_arg0)) (m ((c.tc : Thread nD τ).loc main_arg2)) (m ((c.tc : Thread nD τ).loc main_arg3)) 1 (ix1 n)) (ysel (m ((c.tc : Thread nD τ).loc main_arg0)) (m ((c.tc : Thread nD τ).loc main_arg2)) (m ((c.tc : Thread nD τ).loc main_arg3)) 1 (ix1 n)) (xsel (m ((c.tc : Thread nD τ).loc main_arg0)) (m ((c.tc : Thread nD τ).loc main_arg2)) (m ((c.tc : Thread nD τ).loc main_arg3)) 1 (ix1 n)) * wt (m ((c.tc : Thread nD τ).loc main_arg0)) (m ((c.tc : Thread nD τ).loc main_arg2)) (m ((c.tc : Thread nD τ).loc main_arg3)) 1 (ix1 n)
      = cell (m ((c.tc : Thread nD τ).loc main_arg1)) ch ((Cert.ReferenceIdeal.Read.val_main_v48 (F := Ideal) (m ((c.tc : Thread nD τ).loc main_arg0)) (m ((c.tc : Thread nD τ).loc main_arg2)) (m ((c.tc : Thread nD τ).loc main_arg3))) (ix1 n)) ((Cert.ReferenceIdeal.Read.val_main_v46 (F := Ideal) (m ((c.tc : Thread nD τ).loc main_arg0)) (m ((c.tc : Thread nD τ).loc main_arg2)) (m ((c.tc : Thread nD τ).loc main_arg3))) (ix1 n)) ((Cert.ReferenceIdeal.Read.val_main_v51 (F := Ideal) (m ((c.tc : Thread nD τ).loc main_arg0)) (m ((c.tc : Thread nD τ).loc main_arg2)) (m ((c.tc : Thread nD τ).loc main_arg3))) (ix1 n)) * (Cert.ReferenceIdeal.Read.val_main_v110 (F := Ideal) (m ((c.tc : Thread nD τ).loc main_arg0)) (m ((c.tc : Thread nD τ).loc main_arg2)) (m ((c.tc : Thread nD τ).loc main_arg3))) (ix1 n) := by
    rw [zsel_lo _ _ _ 1 (by decide), ysel_lo _ _ _ 1 (by decide), xsel_hi _ _ _ 1 (by decide), wt_1]
  have e2 : cell (m ((c.tc : Thread nD τ).loc main_arg1)) ch (zsel (m ((c.tc : Thread nD τ).loc main_arg0)) (m ((c.tc : Thread nD τ).loc main_arg2)) (m ((c.tc : Thread nD τ).loc main_arg3)) 2 (ix1 n)) (ysel (m ((c.tc : Thread nD τ).loc main_arg0)) (m ((c.tc : Thread nD τ).loc main_arg2)) (m ((c.tc : Thread nD τ).loc main_arg3)) 2 (ix1 n)) (xsel (m ((c.tc : Thread nD τ).loc main_arg0)) (m ((c.tc : Thread nD τ).loc main_arg2)) (m ((c.tc : Thread nD τ).loc main_arg3)) 2 (ix1 n)) * wt (m ((c.tc : Thread nD τ).loc main_arg0)) (m ((c.tc : Thread nD τ).loc main_arg2)) (m ((c.tc : Thread nD τ).loc main_arg3)) 2 (ix1 n)
      = cell (m ((c.tc : Thread nD τ).loc main_arg1)) ch ((Cert.ReferenceIdeal.Read.val_main_v48 (F := Ideal) (m ((c.tc : Thread nD τ).loc main_arg0)) (m ((c.tc : Thread nD τ).loc main_arg2)) (m ((c.tc : Thread nD τ).loc main_arg3))) (ix1 n)) ((Cert.ReferenceIdeal.Read.val_main_v54 (F := Ideal) (m ((c.tc : Thread nD τ).loc main_arg0)) (m ((c.tc : Thread nD τ).loc main_arg2)) (m ((c.tc : Thread nD τ).loc main_arg3))) (ix1 n)) ((Cert.ReferenceIdeal.Read.val_main_v44 (F := Ideal) (m ((c.tc : Thread nD τ).loc main_arg0)) (m ((c.tc : Thread nD τ).loc main_arg2)) (m ((c.tc : Thread nD τ).loc main_arg3))) (ix1 n)) * (Cert.ReferenceIdeal.Read.val_main_v136 (F := Ideal) (m ((c.tc : Thread nD τ).loc main_arg0)) (m ((c.tc : Thread nD τ).loc main_arg2)) (m ((c.tc : Thread nD τ).loc main_arg3))) (ix1 n) := by
    rw [zsel_lo _ _ _ 2 (by decide), ysel_hi _ _ _ 2 (by decide), xsel_lo _ _ _ 2 (by decide), wt_2]
  have e3 : cell (m ((c.tc : Thread nD τ).loc main_arg1)) ch (zsel (m ((c.tc : Thread nD τ).loc main_arg0)) (m ((c.tc : Thread nD τ).loc main_arg2)) (m ((c.tc : Thread nD τ).loc main_arg3)) 3 (ix1 n)) (ysel (m ((c.tc : Thread nD τ).loc main_arg0)) (m ((c.tc : Thread nD τ).loc main_arg2)) (m ((c.tc : Thread nD τ).loc main_arg3)) 3 (ix1 n)) (xsel (m ((c.tc : Thread nD τ).loc main_arg0)) (m ((c.tc : Thread nD τ).loc main_arg2)) (m ((c.tc : Thread nD τ).loc main_arg3)) 3 (ix1 n)) * wt (m ((c.tc : Thread nD τ).loc main_arg0)) (m ((c.tc : Thread nD τ).loc main_arg2)) (m ((c.tc : Thread nD τ).loc main_arg3)) 3 (ix1 n)
      = cell (m ((c.tc : Thread nD τ).loc main_arg1)) ch ((Cert.ReferenceIdeal.Read.val_main_v48 (F := Ideal) (m ((c.tc : Thread nD τ).loc main_arg0)) (m ((c.tc : Thread nD τ).loc main_arg2)) (m ((c.tc : Thread nD τ).loc main_arg3))) (ix1 n)) ((Cert.ReferenceIdeal.Read.val_main_v54 (F := Ideal) (m ((c.tc : Thread nD τ).loc main_arg0)) (m ((c.tc : Thread nD τ).loc main_arg2)) (m ((c.tc : Thread nD τ).loc main_arg3))) (ix1 n)) ((Cert.ReferenceIdeal.Read.val_main_v51 (F := Ideal) (m ((c.tc : Thread nD τ).loc main_arg0)) (m ((c.tc : Thread nD τ).loc main_arg2)) (m ((c.tc : Thread nD τ).loc main_arg3))) (ix1 n)) * (Cert.ReferenceIdeal.Read.val_main_v162 (F := Ideal) (m ((c.tc : Thread nD τ).loc main_arg0)) (m ((c.tc : Thread nD τ).loc main_arg2)) (m ((c.tc : Thread nD τ).loc main_arg3))) (ix1 n) := by
    rw [zsel_lo _ _ _ 3 (by decide), ysel_hi _ _ _ 3 (by decide), xsel_hi _ _ _ 3 (by decide), wt_3]
  have e4 : cell (m ((c.tc : Thread nD τ).loc main_arg1)) ch (zsel (m ((c.tc : Thread nD τ).loc main_arg0)) (m ((c.tc : Thread nD τ).loc main_arg2)) (m ((c.tc : Thread nD τ).loc main_arg3)) 4 (ix1 n)) (ysel (m ((c.tc : Thread nD τ).loc main_arg0)) (m ((c.tc : Thread nD τ).loc main_arg2)) (m ((c.tc : Thread nD τ).loc main_arg3)) 4 (ix1 n)) (xsel (m ((c.tc : Thread nD τ).loc main_arg0)) (m ((c.tc : Thread nD τ).loc main_arg2)) (m ((c.tc : Thread nD τ).loc main_arg3)) 4 (ix1 n)) * wt (m ((c.tc : Thread nD τ).loc main_arg0)) (m ((c.tc : Thread nD τ).loc main_arg2)) (m ((c.tc : Thread nD τ).loc main_arg3)) 4 (ix1 n)
      = cell (m ((c.tc : Thread nD τ).loc main_arg1)) ch ((Cert.ReferenceIdeal.Read.val_main_v57 (F := Ideal) (m ((c.tc : Thread nD τ).loc main_arg0)) (m ((c.tc : Thread nD τ).loc main_arg2)) (m ((c.tc : Thread nD τ).loc main_arg3))) (ix1 n)) ((Cert.ReferenceIdeal.Read.val_main_v46 (F := Ideal) (m ((c.tc : Thread nD τ).loc main_arg0)) (m ((c.tc : Thread nD τ).loc main_arg2)) (m ((c.tc : Thread nD τ).loc main_arg3))) (ix1 n)) ((Cert.ReferenceIdeal.Read.val_main_v44 (F := Ideal) (m ((c.tc : Thread nD τ).loc main_arg0)) (m ((c.tc : Thread nD τ).loc main_arg2)) (m ((c.tc : Thread nD τ).loc main_arg3))) (ix1 n)) * (Cert.ReferenceIdeal.Read.val_main_v188 (F := Ideal) (m ((c.tc : Thread nD τ).loc main_arg0)) (m ((c.tc : Thread nD τ).loc main_arg2)) (m ((c.tc : Thread nD τ).loc main_arg3))) (ix1 n) := by
    rw [zsel_hi _ _ _ 4 (by decide), ysel_lo _ _ _ 4 (by decide), xsel_lo _ _ _ 4 (by decide), wt_4]
  have e5 : cell (m ((c.tc : Thread nD τ).loc main_arg1)) ch (zsel (m ((c.tc : Thread nD τ).loc main_arg0)) (m ((c.tc : Thread nD τ).loc main_arg2)) (m ((c.tc : Thread nD τ).loc main_arg3)) 5 (ix1 n)) (ysel (m ((c.tc : Thread nD τ).loc main_arg0)) (m ((c.tc : Thread nD τ).loc main_arg2)) (m ((c.tc : Thread nD τ).loc main_arg3)) 5 (ix1 n)) (xsel (m ((c.tc : Thread nD τ).loc main_arg0)) (m ((c.tc : Thread nD τ).loc main_arg2)) (m ((c.tc : Thread nD τ).loc main_arg3)) 5 (ix1 n)) * wt (m ((c.tc : Thread nD τ).loc main_arg0)) (m ((c.tc : Thread nD τ).loc main_arg2)) (m ((c.tc : Thread nD τ).loc main_arg3)) 5 (ix1 n)
      = cell (m ((c.tc : Thread nD τ).loc main_arg1)) ch ((Cert.ReferenceIdeal.Read.val_main_v57 (F := Ideal) (m ((c.tc : Thread nD τ).loc main_arg0)) (m ((c.tc : Thread nD τ).loc main_arg2)) (m ((c.tc : Thread nD τ).loc main_arg3))) (ix1 n)) ((Cert.ReferenceIdeal.Read.val_main_v46 (F := Ideal) (m ((c.tc : Thread nD τ).loc main_arg0)) (m ((c.tc : Thread nD τ).loc main_arg2)) (m ((c.tc : Thread nD τ).loc main_arg3))) (ix1 n)) ((Cert.ReferenceIdeal.Read.val_main_v51 (F := Ideal) (m ((c.tc : Thread nD τ).loc main_arg0)) (m ((c.tc : Thread nD τ).loc main_arg2)) (m ((c.tc : Thread nD τ).loc main_arg3))) (ix1 n)) * (Cert.ReferenceIdeal.Read.val_main_v214 (F := Ideal) (m ((c.tc : Thread nD τ).loc main_arg0)) (m ((c.tc : Thread nD τ).loc main_arg2)) (m ((c.tc : Thread nD τ).loc main_arg3))) (ix1 n) := by
    rw [zsel_hi _ _ _ 5 (by decide), ysel_lo _ _ _ 5 (by decide), xsel_hi _ _ _ 5 (by decide), wt_5]
  have e6 : cell (m ((c.tc : Thread nD τ).loc main_arg1)) ch (zsel (m ((c.tc : Thread nD τ).loc main_arg0)) (m ((c.tc : Thread nD τ).loc main_arg2)) (m ((c.tc : Thread nD τ).loc main_arg3)) 6 (ix1 n)) (ysel (m ((c.tc : Thread nD τ).loc main_arg0)) (m ((c.tc : Thread nD τ).loc main_arg2)) (m ((c.tc : Thread nD τ).loc main_arg3)) 6 (ix1 n)) (xsel (m ((c.tc : Thread nD τ).loc main_arg0)) (m ((c.tc : Thread nD τ).loc main_arg2)) (m ((c.tc : Thread nD τ).loc main_arg3)) 6 (ix1 n)) * wt (m ((c.tc : Thread nD τ).loc main_arg0)) (m ((c.tc : Thread nD τ).loc main_arg2)) (m ((c.tc : Thread nD τ).loc main_arg3)) 6 (ix1 n)
      = cell (m ((c.tc : Thread nD τ).loc main_arg1)) ch ((Cert.ReferenceIdeal.Read.val_main_v57 (F := Ideal) (m ((c.tc : Thread nD τ).loc main_arg0)) (m ((c.tc : Thread nD τ).loc main_arg2)) (m ((c.tc : Thread nD τ).loc main_arg3))) (ix1 n)) ((Cert.ReferenceIdeal.Read.val_main_v54 (F := Ideal) (m ((c.tc : Thread nD τ).loc main_arg0)) (m ((c.tc : Thread nD τ).loc main_arg2)) (m ((c.tc : Thread nD τ).loc main_arg3))) (ix1 n)) ((Cert.ReferenceIdeal.Read.val_main_v44 (F := Ideal) (m ((c.tc : Thread nD τ).loc main_arg0)) (m ((c.tc : Thread nD τ).loc main_arg2)) (m ((c.tc : Thread nD τ).loc main_arg3))) (ix1 n)) * (Cert.ReferenceIdeal.Read.val_main_v240 (F := Ideal) (m ((c.tc : Thread nD τ).loc main_arg0)) (m ((c.tc : Thread nD τ).loc main_arg2)) (m ((c.tc : Thread nD τ).loc main_arg3))) (ix1 n) := by
    rw [zsel_hi _ _ _ 6 (by decide), ysel_hi _ _ _ 6 (by decide), xsel_lo _ _ _ 6 (by decide), wt_6]
  have e7 : cell (m ((c.tc : Thread nD τ).loc main_arg1)) ch (zsel (m ((c.tc : Thread nD τ).loc main_arg0)) (m ((c.tc : Thread nD τ).loc main_arg2)) (m ((c.tc : Thread nD τ).loc main_arg3)) 7 (ix1 n)) (ysel (m ((c.tc : Thread nD τ).loc main_arg0)) (m ((c.tc : Thread nD τ).loc main_arg2)) (m ((c.tc : Thread nD τ).loc main_arg3)) 7 (ix1 n)) (xsel (m ((c.tc : Thread nD τ).loc main_arg0)) (m ((c.tc : Thread nD τ).loc main_arg2)) (m ((c.tc : Thread nD τ).loc main_arg3)) 7 (ix1 n)) * wt (m ((c.tc : Thread nD τ).loc main_arg0)) (m ((c.tc : Thread nD τ).loc main_arg2)) (m ((c.tc : Thread nD τ).loc main_arg3)) 7 (ix1 n)
      = cell (m ((c.tc : Thread nD τ).loc main_arg1)) ch ((Cert.ReferenceIdeal.Read.val_main_v57 (F := Ideal) (m ((c.tc : Thread nD τ).loc main_arg0)) (m ((c.tc : Thread nD τ).loc main_arg2)) (m ((c.tc : Thread nD τ).loc main_arg3))) (ix1 n)) ((Cert.ReferenceIdeal.Read.val_main_v54 (F := Ideal) (m ((c.tc : Thread nD τ).loc main_arg0)) (m ((c.tc : Thread nD τ).loc main_arg2)) (m ((c.tc : Thread nD τ).loc main_arg3))) (ix1 n)) ((Cert.ReferenceIdeal.Read.val_main_v51 (F := Ideal) (m ((c.tc : Thread nD τ).loc main_arg0)) (m ((c.tc : Thread nD τ).loc main_arg2)) (m ((c.tc : Thread nD τ).loc main_arg3))) (ix1 n)) * (Cert.ReferenceIdeal.Read.val_main_v266 (F := Ideal) (m ((c.tc : Thread nD τ).loc main_arg0)) (m ((c.tc : Thread nD τ).loc main_arg2)) (m ((c.tc : Thread nD τ).loc main_arg3))) (ix1 n) := by
    rw [zsel_hi _ _ _ 7 (by decide), ysel_hi _ _ _ 7 (by decide), xsel_hi _ _ _ 7 (by decide), wt_7]
  unfold G
  rw [Fin.sum_univ_eight, e0, e1, e2, e3, e4, e5, e6, e7]

/-- The result buffer whole: the specification's sum at every `(n, ch)`. -/
theorem result_eq :
    (after (ops : List (HloOp τ sig (Elt Ideal))) (launchContents m c) (Proc.devRef .tc main_v271) : (⟨S2097152x12, .f32⟩ : BufTy).Contents (Elt Ideal))
      = fun i => G (m ((c.tc : Thread nD τ).loc main_arg0)) (m ((c.tc : Thread nD τ).loc main_arg1)) (m ((c.tc : Thread nD τ).loc main_arg2)) (m ((c.tc : Thread nD τ).loc main_arg3)) (i 0) (i 1) := by
  funext i
  obtain ⟨n, ch, rfl⟩ : ∃ (n : Fin 2097152) (ch : Fin 12), i = ix2 n ch := ⟨i 0, i 1, eq_ix2 i⟩
  exact result_at m c n ch

end Cert.ReferenceIdeal.HandRun

end
-- ==== Proof.RefArgs.lean ====
/-
  No operation of the reference's line writes an argument array: each ends as launched.
-/
import proofs.«163780_j49606872269475_2_alg».proof.Proof.RefRun
import Idealize.ShloMosaic.Lib.ValueIdx

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.ValueIdx

variable {F : FTy → Type} [FloatOps F]

set_option maxRecDepth 16384 in
set_option maxHeartbeats 40000000 in
theorem read_arg0 (m : (ℓ : Loc nD τ sig) → Buf (Elt F) ℓ) (c : Dev nD) :
    after (ops : List (HloOp τ sig (Elt F))) (launchContents m c) (Proc.devRef .tc main_arg0) = m ((c.tc : Thread nD τ).loc main_arg0) := by
  simp only [ops, ops0, ops1, ops2, ops3, ops4, ops5, List.cons_append, List.nil_append]
  after_results_simp

set_option maxRecDepth 16384 in
set_option maxHeartbeats 40000000 in
theorem read_arg1 (m : (ℓ : Loc nD τ sig) → Buf (Elt F) ℓ) (c : Dev nD) :
    after (ops : List (HloOp τ sig (Elt F))) (launchContents m c) (Proc.devRef .tc main_arg1) = m ((c.tc : Thread nD τ).loc main_arg1) := by
  simp only [ops, ops0, ops1, ops2, ops3, ops4, ops5, List.cons_append, List.nil_append]
  after_results_simp

set_option maxRecDepth 16384 in
set_option maxHeartbeats 40000000 in
theorem read_arg2 (m : (ℓ : Loc nD τ sig) → Buf (Elt F) ℓ) (c : Dev nD) :
    after (ops : List (HloOp τ sig (Elt F))) (launchContents m c) (Proc.devRef .tc main_arg2) = m ((c.tc : Thread nD τ).loc main_arg2) := by
  simp only [ops, ops0, ops1, ops2, ops3, ops4, ops5, List.cons_append, List.nil_append]
  after_results_simp

set_option maxRecDepth 16384 in
set_option maxHeartbeats 40000000 in
theorem read_arg3 (m : (ℓ : Loc nD τ sig) → Buf (Elt F) ℓ) (c : Dev nD) :
    after (ops : List (HloOp τ sig (Elt F))) (launchContents m c) (Proc.devRef .tc main_arg3) = m ((c.tc : Thread nD τ).loc main_arg3) := by
  simp only [ops, ops0, ops1, ops2, ops3, ops4, ops5, List.cons_append, List.nil_append]
  after_results_simp

end Cert.ReferenceIdeal.HandRun

end
-- ==== Proof.lean ====
/-
  Trilinear interpolation of a twelve-channel 160 × 160 × 160 grid at 2097152 sample points: the kernel program against
  its reference, as extended reals.

  Both programs locate every sample point in the grid, take the lower cell corner on each axis clipped into 0 … 159 and
  the next one clipped again, and weight the eight corners by the products of the per-axis fractional parts — by the
  same host operations in the same order. They differ in how the corner values are fetched and added up. The reference
  gathers the grid at three coordinate arrays, corner by corner, and adds the eight products value × weight one after the
  other. The kernel program flattens the grid's three spatial axes into one of 4096000 cells, forms per corner the flat
  index z · 25600 + y · 160 + x in 32-bit integers, gathers all eight corners at once (the bounds mask that goes with that
  gather is true everywhere, because every coordinate is in 0 … 159), stacks the eight weights, and lets its one region
  form, block of 16384 points by block, the sum over the eight corners of value × weight; a transposition then puts the
  sample points first. Since z, y, x are in 0 … 159 the flat index does not wrap and decodes row-major to (z, y, x), so
  both programs read the same grid cell for every corner, and the two sums of the same eight products are equal — addition
  of extended reals is commutative and associative, which is all the law that is needed: no input is assumed finite.

  The frames: the kernel program's by the pipeline library's run of one region between host operations (its body loads
  two blocks and stores the weighted sums over the whole output block); the reference's by its run with the result
  dropped. The ideal pass rewrote nothing, so the idealization claim is trivial.
-/
import proofs.«163780_j49606872269475_2_alg».proof.Defs
import proofs.«163780_j49606872269475_2_alg».proof.Proof.Gen.Kernel
import proofs.«163780_j49606872269475_2_alg».proof.Proof.Gen.KernelIdeal
import proofs.«163780_j49606872269475_2_alg».proof.Proof.Gen.ReferenceIdeal
import proofs.«163780_j49606872269475_2_alg».proof.Proof.Gen.Pre_finite_inputs
import proofs.«163780_j49606872269475_2_alg».proof.Proof.FrameRunBits
import proofs.«163780_j49606872269475_2_alg».proof.Proof.KernelRun
import proofs.«163780_j49606872269475_2_alg».proof.Proof.EntryValue
import proofs.«163780_j49606872269475_2_alg».proof.Proof.RefResult
import proofs.«163780_j49606872269475_2_alg».proof.Proof.RefArgs
import Idealize.ShloMosaic.Adequacy
import Idealize.ShloMosaic.Init

noncomputable section

namespace Cert.Proof

open Idealize.ShloMosaic Idealize.ShloMosaic.ValueIdx Idealize.SL.Sem

/-- The result both programs compute, as an array with the sample points first: the specification's sum at `(n, ch)`. -/
def common (x0 : Cert.Spec.Pts) (x1 : Cert.Spec.Grid) (x2 x3 : Cert.Spec.Bnd) : (⟨2, ![2097152, 12]⟩ : Shape).Idx → EReal :=
  fun i => Cert.Spec.G x0 x1 x2 x3 (i 0) (i 1)

theorem common_apply (x0 : Cert.Spec.Pts) (x1 : Cert.Spec.Grid) (x2 x3 : Cert.Spec.Bnd) (n : Fin 2097152) (ch : Fin 12) :
    common x0 x1 x2 x3 (ix2 n ch) = Cert.Spec.G x0 x1 x2 x3 n ch := rfl

/-- The kernel program's result: the region's sums over the eight corners of gathered value times stacked weight are
    the specification's, because the gathered array holds the grid's cells and the stacked array the weights. -/
theorem kernel_value (m : (ℓ : Loc Cert.KernelIdeal.nD Cert.KernelIdeal.τ Cert.KernelIdeal.sig) → Buf (Elt Ideal) ℓ)
    (c : Dev Cert.KernelIdeal.nD) :
    Cert.KernelIdeal.KVal.Kout (Cert.KernelIdeal.Fr.V m c Cert.KernelIdeal.main_v148) (Cert.KernelIdeal.Fr.V m c Cert.KernelIdeal.main_v147)
      = common (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  funext i
  obtain ⟨n, ch, rfl⟩ : ∃ (n : Fin 2097152) (ch : Fin 12), i = ix2 n ch := ⟨i 0, i 1, eq_ix2 i⟩
  rw [Cert.KernelIdeal.KVal.Kout_apply, common_apply]
  unfold Cert.Spec.G
  refine Finset.sum_congr rfl (fun k _ => ?_)
  rw [Cert.KernelIdeal.HVal.entry_g m c ch k n, Cert.KernelIdeal.HVal.entry_w m c k n]

/-- The reference's run: every weakly fair execution of its @main terminates with the result at the specification's
    array of the launch contents and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v271)
          = common (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) :=
  (θ_run Cert.ReferenceIdeal.defs _ _).mono (fun _ h c =>
      ⟨(h c Cert.ReferenceIdeal.main_v271).trans (Cert.ReferenceIdeal.HandRun.result_eq m c),
        (h c Cert.ReferenceIdeal.main_arg0).trans (Cert.ReferenceIdeal.HandRun.read_arg0 m c),
        (h c Cert.ReferenceIdeal.main_arg1).trans (Cert.ReferenceIdeal.HandRun.read_arg1 m c),
        (h c Cert.ReferenceIdeal.main_arg2).trans (Cert.ReferenceIdeal.HandRun.read_arg2 m c),
        (h c Cert.ReferenceIdeal.main_arg3).trans (Cert.ReferenceIdeal.HandRun.read_arg3 m c)⟩)
    (Cert.ReferenceIdeal.HandRun.run_all (F := Ideal) m ρ)

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (ref_run m ρ)

/-- The ideal pass rewrote no operation. -/
theorem preserves : Cert.preserves_Kernel_KernelIdeal := trivial

/-- From memories that agree on the four arguments both programs end with the specification's array. -/
theorem algebraic : Cert.algebraic_KernelIdeal_ReferenceIdeal := by
  intro m ρ m' ρ' _ hagree
  refine ⟨fun c => common (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (kernel_value m c), (h c).2⟩)
      (Cert.KernelIdeal.KVal.kernel_run m ρ)
  · refine (θ_run Cert.ReferenceIdeal.defs _ _).mono (fun r h c => ⟨(h c).1.trans ?_, (h c).2⟩) (ref_run m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
